-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v671) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x8 : Shape := ⟨3, ![128, 8192, 8]⟩
abbrev S128x8192x256 : Shape := ⟨3, ![128, 8192, 256]⟩
abbrev S24 : Shape := ⟨1, ![24]⟩
abbrev S2 : Shape := ⟨1, ![2]⟩
abbrev S_ : Shape := ⟨0, ![]⟩

class Facts : Prop where
  bcast_S_S128x8192x8 : S_.BroadcastsInDim S128x8192x8 (![] : Fin 0 → Fin S128x8192x8.rank)
  reducesTo_S128x8192x8_S_d0_1_2 : S128x8192x8.ReducesTo [0, 1, 2] S_
  h_S_ : 0 < S_.numel
  bcast_S_S128x8192x256 : S_.BroadcastsInDim S128x8192x256 (![] : Fin 0 → Fin S128x8192x256.rank)
  reducesTo_S128x8192x256_S_d0_1_2 : S128x8192x256.ReducesTo [0, 1, 2] S_
  bcast_S_S24 : S_.BroadcastsInDim S24 (![] : Fin 0 → Fin S24.rank)
  reducesTo_S24_S_d0 : S24.ReducesTo [0] S_
  bcast_S_S2 : S_.BroadcastsInDim S2 (![] : Fin 0 → Fin S2.rank)
  reducesTo_S2_S_d0 : S2.ReducesTo [0] S_

variable [Facts]

def fn_part1 {F : FTy → Type} [FloatOps F] (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  main_v18

def fn {F : FTy → Type} [FloatOps F] (main_arg0 : FVec F S128x8192x8 .f32) (main_arg1 : FVec F S128x8192x256 .f32) (main_arg2 : FVec F S24 .f32) (main_arg3 : FVec F S2 .f32) : IVec S_ 1 :=
  let main_v0 : FVec F S128x8192x8 .f32 := Host.absf main_arg0
  let main_cst : FVec F S_ .f32 := constant S_ .f32 0x7F800000#32
  let main_v1 : FVec F S128x8192x8 .f32 := broadcastInDim S128x8192x8 ![] bcast_S_S128x8192x8 main_cst
  let main_v2 : IVec S128x8192x8 1 := cmpf .olt main_v0 main_v1
  let main_c : IVec S_ 1 := constantI S_ 1 1#1
  let main_v3 : IVec S_ 1 := (fun x v => Host.reduce IntOp.andi x v reducesTo_S128x8192x8_S_d0_1_2 h_S_) main_v2 main_c
  let main_v4 : FVec F S128x8192x256 .f32 := Host.absf main_arg1
  let main_cst_0 : FVec F S_ .f32 := constant S_ .f32 0x7F800000#32
  let main_v5 : FVec F S128x8192x256 .f32 := broadcastInDim S128x8192x256 ![] bcast_S_S128x8192x256 main_cst_0
  let main_v6 : IVec S128x8192x256 1 := cmpf .olt main_v4 main_v5
  let main_c_1 : IVec S_ 1 := constantI S_ 1 1#1
  let main_v7 : IVec S_ 1 := (fun x v => Host.reduce IntOp.andi x v reducesTo_S128x8192x256_S_d0_1_2 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_v13 main_v16
-- ==== Kernel.lean ====
abbrev S128x8192x8 : Shape := ⟨3, ![128, 8192, 8]⟩
abbrev S128x8192x256 : Shape := ⟨3, ![128, 8192, 256]⟩
abbrev S24 : Shape := ⟨1, ![24]⟩
abbrev S2 : Shape := ⟨1, ![2]⟩
abbrev S128x8192x1 : Shape := ⟨3, ![128, 8192, 1]⟩
abbrev S128x8192 : Shape := ⟨2, ![128, 8192]⟩
abbrev S1x24 : Shape := ⟨2, ![1, 24]⟩
abbrev S1x2 : Shape := ⟨2, ![1, 2]⟩
abbrev S128x1 : Shape := ⟨2, ![128, 1]⟩
abbrev S64x8192 : Shape := ⟨2, ![64, 8192]⟩
abbrev S64x1 : Shape := ⟨2, ![64, 1]⟩
abbrev S64 : Shape := ⟨1, ![64]⟩
abbrev S64x8191 : Shape := ⟨2, ![64, 8191]⟩
abbrev S64x8190 : Shape := ⟨2, ![64, 8190]⟩
abbrev S64x8189 : Shape := ⟨2, ![64, 8189]⟩
abbrev S64x8188 : Shape := ⟨2, ![64, 8188]⟩
abbrev S64x8187 : Shape := ⟨2, ![64, 8187]⟩
abbrev S64x8186 : Shape := ⟨2, ![64, 8186]⟩
abbrev S64x8185 : Shape := ⟨2, ![64, 8185]⟩
abbrev S64x8184 : Shape := ⟨2, ![64, 8184]⟩
abbrev S64x8183 : Shape := ⟨2, ![64, 8183]⟩
abbrev S64x8182 : Shape := ⟨2, ![64, 8182]⟩
abbrev S64x8181 : Shape := ⟨2, ![64, 8181]⟩
abbrev S64x8180 : Shape := ⟨2, ![64, 8180]⟩
abbrev S64x8179 : Shape := ⟨2, ![64, 8179]⟩
abbrev S64x8178 : Shape := ⟨2, ![64, 8178]⟩
abbrev S64x8177 : Shape := ⟨2, ![64, 8177]⟩
abbrev S64x8176 : Shape := ⟨2, ![64, 8176]⟩
abbrev S64x8175 : Shape := ⟨2, ![64, 8175]⟩
abbrev S64x8174 : Shape := ⟨2, ![64, 8174]⟩
abbrev S64x8173 : Shape := ⟨2, ![64, 8173]⟩
abbrev S64x8172 : Shape := ⟨2, ![64, 8172]⟩
abbrev S64x8171 : Shape := ⟨2, ![64, 8171]⟩
abbrev S64x8170 : Shape := ⟨2, ![64, 8170]⟩
abbrev S64x8169 : Shape := ⟨2, ![64, 8169]⟩
abbrev S64x8168 : Shape := ⟨2, ![64, 8168]⟩
abbrev S64x24 : Shape := ⟨2, ![64, 24]⟩
abbrev S1 : Shape := ⟨1, ![1]⟩
abbrev S1x1 : Shape := ⟨2, ![1, 1]⟩
abbrev S_ : Shape := ⟨0, ![]⟩

abbrev nBuf : Space → Nat
  | .hbm => 13
  | .vmem => 6
  | .smem => 0
  | _ => 0

abbrev bufTy : (tb : Table) → Fin (tcTables nBuf tb) → BufTy
  | .hbm, ⟨0, _⟩ => ⟨S128x8192x8, .f32⟩
  | .hbm, ⟨1, _⟩ => ⟨S128x8192x256, .f32⟩
  | .hbm, ⟨2, _⟩ => ⟨S24, .f32⟩
  | .hbm, ⟨3, _⟩ => ⟨S2, .f32⟩
  | .hbm, ⟨4, _⟩ => ⟨S128x8192x1, .f32⟩
  | .hbm, ⟨5, _⟩ => ⟨S128x8192, .f32⟩
  | .hbm, ⟨6, _⟩ => ⟨S1x24, .f32⟩
  | .hbm, ⟨7, _⟩ => ⟨S1x2, .f32⟩
  | .hbm, ⟨8, _⟩ => ⟨S128x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S1x24, .f32⟩
  | .local _ .vmem, ⟨3, _⟩ => ⟨S1x2, .f32⟩
  | .local _ .vmem, ⟨4, _⟩ => ⟨S64x1, .f32⟩
  | .local _ .vmem, ⟨5, _⟩ => ⟨S64x1, .f32⟩
  | _, _ => ⟨S128x8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S128x8192x8_S128x8192x1_0_0_0 : S128x8192x8.Slices ![0, 0, 0] S128x8192x1
  shapeCasts_S128x8192x1_S128x8192 : S128x8192x1.ShapeCasts S128x8192
  shapeCasts_S24_S1x24 : S24.ShapeCasts S1x24
  shapeCasts_S2_S1x2 : S2.ShapeCasts S1x2
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  reduces_S64x8192_S64 : S64x8192.Reduces [1] S64
  shapeCasts_S64_S64x1 : S64.ShapeCasts S64x1
  broadcasts_S64x1_S64x8192 : S64x1.Broadcasts S64x8192
  slices_S64x8192_o0_0_S64x8191 : S64x8192.Slices ![0, 0] S64x8191
  slices_S64x8192_o0_1_S64x8191 : S64x8192.Slices ![0, 1] S64x8191
  reduces_S64x8191_S64 : S64x8191.Reduces [1] S64
  broadcasts_S64x1_S64x8191 : S64x1.Broadcasts S64x8191
  slices_S64x8192_o0_0_S64x8190 : S64x8192.Slices ![0, 0] S64x8190
  slices_S64x8192_o0_2_S64x8190 : S64x8192.Slices ![0, 2] S64x8190
  reduces_S64x8190_S64 : S64x8190.Reduces [1] S64
  broadcasts_S64x1_S64x8190 : S64x1.Broadcasts S64x8190
  slices_S64x8192_o0_0_S64x8189 : S64x8192.Slices ![0, 0] S64x8189
  slices_S64x8192_o0_3_S64x8189 : S64x8192.Slices ![0, 3] S64x8189
  reduces_S64x8189_S64 : S64x8189.Reduces [1] S64
  broadcasts_S64x1_S64x8189 : S64x1.Broadcasts S64x8189
  slices_S64x8192_o0_0_S64x8188 : S64x8192.Slices ![0, 0] S64x8188
  slices_S64x8192_o0_4_S64x8188 : S64x8192.Slices ![0, 4] S64x8188
  reduces_S64x8188_S64 : S64x8188.Reduces [1] S64
  broadcasts_S64x1_S64x8188 : S64x1.Broadcasts S64x8188
  slices_S64x8192_o0_0_S64x8187 : S64x8192.Slices ![0, 0] S64x8187
  slices_S64x8192_o0_5_S64x8187 : S64x8192.Slices ![0, 5] S64x8187
  reduces_S64x8187_S64 : S64x8187.Reduces [1] S64
  broadcasts_S64x1_S64x8187 : S64x1.Broadcasts S64x8187
  slices_S64x8192_o0_0_S64x8186 : S64x8192.Slices ![0, 0] S64x8186
  slices_S64x8192_o0_6_S64x8186 : S64x8192.Slices ![0, 6] S64x8186
  reduces_S64x8186_S64 : S64x8186.Reduces [1] S64
  broadcasts_S64x1_S64x8186 : S64x1.Broadcasts S64x8186
  slices_S64x8192_o0_0_S64x8185 : S64x8192.Slices ![0, 0] S64x8185
  slices_S64x8192_o0_7_S64x8185 : S64x8192.Slices ![0, 7] S64x8185
  reduces_S64x8185_S64 : S64x8185.Reduces [1] S64
  broadcasts_S64x1_S64x8185 : S64x1.Broadcasts S64x8185
  slices_S64x8192_o0_0_S64x8184 : S64x8192.Slices ![0, 0] S64x8184
  slices_S64x8192_o0_8_S64x8184 : S64x8192.Slices ![0, 8] S64x8184
  reduces_S64x8184_S64 : S64x8184.Reduces [1] S64
  broadcasts_S64x1_S64x8184 : S64x1.Broadcasts S64x8184
  slices_S64x8192_o0_0_S64x8183 : S64x8192.Slices ![0, 0] S64x8183
  slices_S64x8192_o0_9_S64x8183 : S64x8192.Slices ![0, 9] S64x8183
  reduces_S64x8183_S64 : S64x8183.Reduces [1] S64
  broadcasts_S64x1_S64x8183 : S64x1.Broadcasts S64x8183
  slices_S64x8192_o0_0_S64x8182 : S64x8192.Slices ![0, 0] S64x8182
  slices_S64x8192_o0_10_S64x8182 : S64x8192.Slices ![0, 10] S64x8182
  reduces_S64x8182_S64 : S64x8182.Reduces [1] S64
  broadcasts_S64x1_S64x8182 : S64x1.Broadcasts S64x8182
  slices_S64x8192_o0_0_S64x8181 : S64x8192.Slices ![0, 0] S64x8181
  slices_S64x8192_o0_11_S64x8181 : S64x8192.Slices ![0, 11] S64x8181
  reduces_S64x8181_S64 : S64x8181.Reduces [1] S64
  broadcasts_S64x1_S64x8181 : S64x1.Broadcasts S64x8181
  slices_S64x8192_o0_0_S64x8180 : S64x8192.Slices ![0, 0] S64x8180
  slices_S64x8192_o0_12_S64x8180 : S64x8192.Slices ![0, 12] S64x8180
  reduces_S64x8180_S64 : S64x8180.Reduces [1] S64
  broadcasts_S64x1_S64x8180 : S64x1.Broadcasts S64x8180
  slices_S64x8192_o0_0_S64x8179 : S64x8192.Slices ![0, 0] S64x8179
  slices_S64x8192_o0_13_S64x8179 : S64x8192.Slices ![0, 13] S64x8179
  reduces_S64x8179_S64 : S64x8179.Reduces [1] S64
  broadcasts_S64x1_S64x8179 : S64x1.Broadcasts S64x8179
  slices_S64x8192_o0_0_S64x8178 : S64x8192.Slices ![0, 0] S64x8178
  slices_S64x8192_o0_14_S64x8178 : S64x8192.Slices ![0, 14] S64x8178
  reduces_S64x8178_S64 : S64x8178.Reduces [1] S64
  broadcasts_S64x1_S64x8178 : S64x1.Broadcasts S64x8178
  slices_S64x8192_o0_0_S64x8177 : S64x8192.Slices ![0, 0] S64x8177
  slices_S64x8192_o0_15_S64x8177 : S64x8192.Slices ![0, 15] S64x8177
  reduces_S64x8177_S64 : S64x8177.Reduces [1] S64
  broadcasts_S64x1_S64x8177 : S64x1.Broadcasts S64x8177
  slices_S64x8192_o0_0_S64x8176 : S64x8192.Slices ![0, 0] S64x8176
  slices_S64x8192_o0_16_S64x8176 : S64x8192.Slices ![0, 16] S64x8176
  reduces_S64x8176_S64 : S64x8176.Reduces [1] S64
  broadcasts_S64x1_S64x8176 : S64x1.Broadcasts S64x8176
  slices_S64x8192_o0_0_S64x8175 : S64x8192.Slices ![0, 0] S64x8175
  slices_S64x8192_o0_17_S64x8175 : S64x8192.Slices ![0, 17] S64x8175
  reduces_S64x8175_S64 : S64x8175.Reduces [1] S64
  broadcasts_S64x1_S64x8175 : S64x1.Broadcasts S64x8175
  slices_S64x8192_o0_0_S64x8174 : S64x8192.Slices ![0, 0] S64x8174
  slices_S64x8192_o0_18_S64x8174 : S64x8192.Slices ![0, 18] S64x8174
  reduces_S64x8174_S64 : S64x8174.Reduces [1] S64
  broadcasts_S64x1_S64x8174 : S64x1.Broadcasts S64x8174
  slices_S64x8192_o0_0_S64x8173 : S64x8192.Slices ![0, 0] S64x8173
  slices_S64x8192_o0_19_S64x8173 : S64x8192.Slices ![0, 19] S64x8173
  reduces_S64x8173_S64 : S64x8173.Reduces [1] S64
  broadcasts_S64x1_S64x8173 : S64x1.Broadcasts S64x8173
  slices_S64x8192_o0_0_S64x8172 : S64x8192.Slices ![0, 0] S64x8172
  slices_S64x8192_o0_20_S64x8172 : S64x8192.Slices ![0, 20] S64x8172
  reduces_S64x8172_S64 : S64x8172.Reduces [1] S64
  broadcasts_S64x1_S64x8172 : S64x1.Broadcasts S64x8172
  slices_S64x8192_o0_0_S64x8171 : S64x8192.Slices ![0, 0] S64x8171
  slices_S64x8192_o0_21_S64x8171 : S64x8192.Slices ![0, 21] S64x8171
  reduces_S64x8171_S64 : S64x8171.Reduces [1] S64
  broadcasts_S64x1_S64x8171 : S64x1.Broadcasts S64x8171
  slices_S64x8192_o0_0_S64x8170 : S64x8192.Slices ![0, 0] S64x8170
  slices_S64x8192_o0_22_S64x8170 : S64x8192.Slices ![0, 22] S64x8170
  reduces_S64x8170_S64 : S64x8170.Reduces [1] S64
  broadcasts_S64x1_S64x8170 : S64x1.Broadcasts S64x8170
  slices_S64x8192_o0_0_S64x8169 : S64x8192.Slices ![0, 0] S64x8169
  slices_S64x8192_o0_23_S64x8169 : S64x8192.Slices ![0, 23] S64x8169
  reduces_S64x8169_S64 : S64x8169.Reduces [1] S64
  broadcasts_S64x1_S64x8169 : S64x1.Broadcasts S64x8169
  slices_S64x8192_o0_0_S64x8168 : S64x8192.Slices ![0, 0] S64x8168
  slices_S64x8192_o0_24_S64x8168 : S64x8192.Slices ![0, 24] S64x8168
  reduces_S64x8168_S64 : S64x8168.Reduces [1] S64
  broadcasts_S64x1_S64x8168 : S64x1.Broadcasts S64x8168
  concatenates_S64x1_S64x1_S64x1_S64x1_S64x1_S64x1_S64x1_S64x1_S64x1_S64x1_S64x1_S64x1_S64x1_S64x1_S64x1_S64x1_S64x1_S64x1_S64x1_S64x1_S64x1_S64x1_S64x1_S64x1_S64x24_d1 : Shape.Concatenates [S64x1, S64x1, S64x1, S64x1, S64x1, S64x1, S64x1, S64x1, S64x1, S64x1, S64x1, S64x1, S64x1, S64x1, S64x1, S64x1, S64x1, S64x1, S64x1, S64x1, S64x1, S64x1, S64x1, S64x1] S64x24 1
  inb_S1x24_S1x24_0_0 : ∀ a, (![0, 0] : Fin 2 → Nat) a + S1x24.size a ≤ S1x24.size a
  h_S1x24 : 0 < S1x24.numel
  shapeCasts_S1x24_S24 : S1x24.ShapeCasts S24
  reduces_S1x24_S1 : S1x24.Reduces [1] S1
  shapeCasts_S1_S1x1 : S1.ShapeCasts S1x1
  inpos_S1x1_p0_0 : ∀ a, (![0, 0] : Fin 2 → Nat) a < S1x1.size a
  broadcasts_S1x24_S64x24 : S1x24.Broadcasts S64x24
  reduces_S64x24_S64 : S64x24.Reduces [1] S64
  inb_S1x2_S1x2_0_0 : ∀ a, (![0, 0] : Fin 2 → Nat) a + S1x2.size a ≤ S1x2.size a
  h_S1x2 : 0 < S1x2.numel
  shapeCasts_S1x2_S2 : S1x2.ShapeCasts S2
  slices_S64x24_o0_11_S64x1 : S64x24.Slices ![0, 11] S64x1
  shapeCasts_S64x1_S64 : S64x1.ShapeCasts S64
  slices_S2_o0_S1 : S2.Slices ![0] S1
  inpos_S1_p0 : ∀ a, (![0] : Fin 1 → Nat) a < S1.size a
  slices_S64x24_o0_23_S64x1 : S64x24.Slices ![0, 23] S64x1
  slices_S2_o1_S1 : S2.Slices ![1] S1
  inb_S64x1_S64x1_0_0 : ∀ a, (![0, 0] : Fin 2 → Nat) a + S64x1.size a ≤ S64x1.size a
  h_S64x1 : 0 < S64x1.numel
  reducesTo_S128x1_S_d0_1 : S128x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S128x8192.size a
  hwx0_0 : ∀ i : grid0.Coords, EltTy.bits .f32 = 32 ∨ (Rect.block (s := S128x8192) S64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x24.size a ≤ S1x24.size a
  hwx0_1 : ∀ i : grid0.Coords, EltTy.bits .f32 = 32 ∨ (Rect.block (s := S1x24) S1x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S128x1.size a
  hwx0_3 : ∀ i : grid0.Coords, EltTy.bits .f32 = 32 ∨ (Rect.block (s := S128x1) S64x1.size (cc0_transform_3 i) (hinb0_3 i)).WholeWords (EltTy.packing .f32)

variable [Facts₀]

abbrev win0_0 : Pipeline.Window sig grid0 :=
  Pipeline.Window.ofSpec (Memref.whole main_v1) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x8192x8 : Shape := ⟨3, ![128, 8192, 8]⟩
abbrev S128x8192x256 : Shape := ⟨3, ![128, 8192, 256]⟩
abbrev S24 : Shape := ⟨1, ![24]⟩
abbrev S2 : Shape := ⟨1, ![2]⟩
abbrev S128x8192x1 : Shape := ⟨3, ![128, 8192, 1]⟩
abbrev S128x8192 : Shape := ⟨2, ![128, 8192]⟩
abbrev S_ : Shape := ⟨0, ![]⟩
abbrev S128 : Shape := ⟨1, ![128]⟩
abbrev S128x1 : Shape := ⟨2, ![128, 1]⟩
abbrev S128x8191 : Shape := ⟨2, ![128, 8191]⟩
abbrev S128x8190 : Shape := ⟨2, ![128, 8190]⟩
abbrev S128x8189 : Shape := ⟨2, ![128, 8189]⟩
abbrev S128x8188 : Shape := ⟨2, ![128, 8188]⟩
abbrev S128x8187 : Shape := ⟨2, ![128, 8187]⟩
abbrev S128x8186 : Shape := ⟨2, ![128, 8186]⟩
abbrev S128x8185 : Shape := ⟨2, ![128, 8185]⟩
abbrev S128x8184 : Shape := ⟨2, ![128, 8184]⟩
abbrev S128x8183 : Shape := ⟨2, ![128, 8183]⟩
abbrev S128x8182 : Shape := ⟨2, ![128, 8182]⟩
abbrev S128x8181 : Shape := ⟨2, ![128, 8181]⟩
abbrev S128x8180 : Shape := ⟨2, ![128, 8180]⟩
abbrev S128x8179 : Shape := ⟨2, ![128, 8179]⟩
abbrev S128x8178 : Shape := ⟨2, ![128, 8178]⟩
abbrev S128x8177 : Shape := ⟨2, ![128, 8177]⟩
abbrev S128x8176 : Shape := ⟨2, ![128, 8176]⟩
abbrev S128x8175 : Shape := ⟨2, ![128, 8175]⟩
abbrev S128x8174 : Shape := ⟨2, ![128, 8174]⟩
abbrev S128x8173 : Shape := ⟨2, ![128, 8173]⟩
abbrev S128x8172 : Shape := ⟨2, ![128, 8172]⟩
abbrev S128x8171 : Shape := ⟨2, ![128, 8171]⟩
abbrev S128x8170 : Shape := ⟨2, ![128, 8170]⟩
abbrev S128x8169 : Shape := ⟨2, ![128, 8169]⟩
abbrev S128x8168 : Shape := ⟨2, ![128, 8168]⟩
abbrev S128x16 : Shape := ⟨2, ![128, 16]⟩
abbrev S128x8 : Shape := ⟨2, ![128, 8]⟩
abbrev S128x24 : Shape := ⟨2, ![128, 24]⟩
abbrev S1 : Shape := ⟨1, ![1]⟩
abbrev S1x24 : Shape := ⟨2, ![1, 24]⟩

abbrev nBuf : Space → Nat
  | .hbm => 1046
  | .vmem => 0
  | .smem => 0
  | _ => 0

abbrev hbmTy0_0 (i : Nat) : BufTy := match i % 128 with
  | 0 => ⟨S128x8192x8, .f32⟩
  | 1 => ⟨S128x8192x256, .f32⟩
  | 2 => ⟨S24, .f32⟩
  | 3 => ⟨S2, .f32⟩
  | 4 => ⟨S128x8192x1, .f32⟩
  | 5 => ⟨S128x8192, .f32⟩
  | 6 => ⟨S_, .f32⟩
  | 7 => ⟨S128, .f32⟩
  | 8 => ⟨S128x1, .f32⟩
  | 9 => ⟨S_, .f32⟩
  | 10 => ⟨S128x1, .f32⟩
  | 11 => ⟨S128x1, .f32⟩
  | 12 => ⟨S_, .i32⟩
  | 13 => ⟨S_, .f32⟩
  | 14 => ⟨S128, .f32⟩
  | 15 => ⟨S128x1, .f32⟩
  | 16 => ⟨S_, .f32⟩
  | 17 => ⟨S128x1, .f32⟩
  | 18 => ⟨S128x1, .f32⟩
  | 19 => ⟨S128x8192, .f32⟩
  | 20 => ⟨S128x8192, .f32⟩
  | 21 => ⟨S128x8192, .f32⟩
  | 22 => ⟨S_, .f32⟩
  | 23 => ⟨S_, .f32⟩
  | 24 => ⟨S_, .f32⟩
  | 25 => ⟨S_, .f32⟩
  | 26 => ⟨S128, .f32⟩
  | 27 => ⟨S128x1, .f32⟩
  | 28 => ⟨S128x1, .f32⟩
  | 29 => ⟨S128x1, .f32⟩
  | 30 => ⟨S_, .f32⟩
  | 31 => ⟨S_, .i1⟩
  | 32 => ⟨S_, .f32⟩
  | 33 => ⟨S_, .f32⟩
  | 34 => ⟨S128x1, .f32⟩
  | 35 => ⟨S128x1, .f32⟩
  | 36 => ⟨S128x1, .f32⟩
  | 37 => ⟨S128x8192, .f32⟩
  | 38 => ⟨S128x8192, .f32⟩
  | 39 => ⟨S_, .f32⟩
  | 40 => ⟨S128x1, .f32⟩
  | 41 => ⟨S128x1, .f32⟩
  | 42 => ⟨S128x8192, .f32⟩
  | 43 => ⟨S128x8192, .f32⟩
  | 44 => ⟨S128x8191, .f32⟩
  | 45 => ⟨S128x8191, .f32⟩
  | 46 => ⟨S_, .f32⟩
  | 47 => ⟨S128, .f32⟩
  | 48 => ⟨S128x1, .f32⟩
  | 49 => ⟨S_, .f32⟩
  | 50 => ⟨S128x1, .f32⟩
  | 51 => ⟨S128x1, .f32⟩
  | 52 => ⟨S128x8191, .f32⟩
  | 53 => ⟨S128x8191, .f32⟩
  | 54 => ⟨S_, .f32⟩
  | 55 => ⟨S128, .f32⟩
  | 56 => ⟨S128x1, .f32⟩
  | 57 => ⟨S_, .f32⟩
  | 58 => ⟨S128x1, .f32⟩
  | 59 => ⟨S128x1, .f32⟩
  | 60 => ⟨S128x8191, .f32⟩
  | 61 => ⟨S128x8191, .f32⟩
  | 62 => ⟨S128x8191, .f32⟩
  | 63 => ⟨S_, .f32⟩
  | 64 => ⟨S128, .f32⟩
  | 65 => ⟨S128x8191, .f32⟩
  | 66 => ⟨S_, .f32⟩
  | 67 => ⟨S128, .f32⟩
  | 68 => ⟨S128, .f32⟩
  | 69 => ⟨S128x8191, .f32⟩
  | 70 => ⟨S_, .f32⟩
  | 71 => ⟨S128, .f32⟩
  | 72 => ⟨S128, .f32⟩
  | 73 => ⟨S128, .f32⟩
  | 74 => ⟨S128, .f32⟩
  | 75 => ⟨S_, .f32⟩
  | 76 => ⟨S_, .f32⟩
  | 77 => ⟨S_, .f32⟩
  | 78 => ⟨S128, .f32⟩
  | 79 => ⟨S128, .f32⟩
  | 80 => ⟨S_, .f32⟩
  | 81 => ⟨S128, .f32⟩
  | 82 => ⟨S128, .f32⟩
  | 83 => ⟨S128x8190, .f32⟩
  | 84 => ⟨S128x8190, .f32⟩
  | 85 => ⟨S_, .f32⟩
  | 86 => ⟨S128, .f32⟩
  | 87 => ⟨S128x1, .f32⟩
  | 88 => ⟨S_, .f32⟩
  | 89 => ⟨S128x1, .f32⟩
  | 90 => ⟨S128x1, .f32⟩
  | 91 => ⟨S128x8190, .f32⟩
  | 92 => ⟨S128x8190, .f32⟩
  | 93 => ⟨S_, .f32⟩
  | 94 => ⟨S128, .f32⟩
  | 95 => ⟨S128x1, .f32⟩
  | 96 => ⟨S_, .f32⟩
  | 97 => ⟨S128x1, .f32⟩
  | 98 => ⟨S128x1, .f32⟩
  | 99 => ⟨S128x8190, .f32⟩
  | 100 => ⟨S128x8190, .f32⟩
  | 101 => ⟨S128x8190, .f32⟩
  | 102 => ⟨S_, .f32⟩
  | 103 => ⟨S128, .f32⟩
  | 104 => ⟨S128x8190, .f32⟩
  | 105 => ⟨S_, .f32⟩
  | 106 => ⟨S128, .f32⟩
  | 107 => ⟨S128, .f32⟩
  | 108 => ⟨S128x8190, .f32⟩
  | 109 => ⟨S_, .f32⟩
  | 110 => ⟨S128, .f32⟩
  | 111 => ⟨S128, .f32⟩
  | 112 => ⟨S128, .f32⟩
  | 113 => ⟨S128, .f32⟩
  | 114 => ⟨S_, .f32⟩
  | 115 => ⟨S_, .f32⟩
  | 116 => ⟨S_, .f32⟩
  | 117 => ⟨S128, .f32⟩
  | 118 => ⟨S128, .f32⟩
  | 119 => ⟨S_, .f32⟩
  | 120 => ⟨S128, .f32⟩
  | 121 => ⟨S128, .f32⟩
  | 122 => ⟨S128x8189, .f32⟩
  | 123 => ⟨S128x8189, .f32⟩
  | 124 => ⟨S_, .f32⟩
  | 125 => ⟨S128, .f32⟩
  | 126 => ⟨S128x1, .f32⟩
  | 127 => ⟨S_, .f32⟩
  | _ => ⟨S128x8192x8, .f32⟩

abbrev hbmTy0_1 (i : Nat) : BufTy := match i % 128 with
  | 0 => ⟨S128x1, .f32⟩
  | 1 => ⟨S128x1, .f32⟩
  | 2 => ⟨S128x8189, .f32⟩
  | 3 => ⟨S128x8189, .f32⟩
  | 4 => ⟨S_, .f32⟩
  | 5 => ⟨S128, .f32⟩
  | 6 => ⟨S128x1, .f32⟩
  | 7 => ⟨S_, .f32⟩
  | 8 => ⟨S128x1, .f32⟩
  | 9 => ⟨S128x1, .f32⟩
  | 10 => ⟨S128x8189, .f32⟩
  | 11 => ⟨S128x8189, .f32⟩
  | 12 => ⟨S128x8189, .f32⟩
  | 13 => ⟨S_, .f32⟩
  | 14 => ⟨S128, .f32⟩
  | 15 => ⟨S128x8189, .f32⟩
  | 16 => ⟨S_, .f32⟩
  | 17 => ⟨S128, .f32⟩
  | 18 => ⟨S128, .f32⟩
  | 19 => ⟨S128x8189, .f32⟩
  | 20 => ⟨S_, .f32⟩
  | 21 => ⟨S128, .f32⟩
  | 22 => ⟨S128, .f32⟩
  | 23 => ⟨S128, .f32⟩
  | 24 => ⟨S128, .f32⟩
  | 25 => ⟨S_, .f32⟩
  | 26 => ⟨S_, .f32⟩
  | 27 => ⟨S_, .f32⟩
  | 28 => ⟨S128, .f32⟩
  | 29 => ⟨S128, .f32⟩
  | 30 => ⟨S_, .f32⟩
  | 31 => ⟨S128, .f32⟩
  | 32 => ⟨S128, .f32⟩
  | 33 => ⟨S128x8188, .f32⟩
  | 34 => ⟨S128x8188, .f32⟩
  | 35 => ⟨S_, .f32⟩
  | 36 => ⟨S128, .f32⟩
  | 37 => ⟨S128x1, .f32⟩
  | 38 => ⟨S_, .f32⟩
  | 39 => ⟨S128x1, .f32⟩
  | 40 => ⟨S128x1, .f32⟩
  | 41 => ⟨S128x8188, .f32⟩
  | 42 => ⟨S128x8188, .f32⟩
  | 43 => ⟨S_, .f32⟩
  | 44 => ⟨S128, .f32⟩
  | 45 => ⟨S128x1, .f32⟩
  | 46 => ⟨S_, .f32⟩
  | 47 => ⟨S128x1, .f32⟩
  | 48 => ⟨S128x1, .f32⟩
  | 49 => ⟨S128x8188, .f32⟩
  | 50 => ⟨S128x8188, .f32⟩
  | 51 => ⟨S128x8188, .f32⟩
  | 52 => ⟨S_, .f32⟩
  | 53 => ⟨S128, .f32⟩
  | 54 => ⟨S128x8188, .f32⟩
  | 55 => ⟨S_, .f32⟩
  | 56 => ⟨S128, .f32⟩
  | 57 => ⟨S128, .f32⟩
  | 58 => ⟨S128x8188, .f32⟩
  | 59 => ⟨S_, .f32⟩
  | 60 => ⟨S128, .f32⟩
  | 61 => ⟨S128, .f32⟩
  | 62 => ⟨S128, .f32⟩
  | 63 => ⟨S128, .f32⟩
  | 64 => ⟨S_, .f32⟩
  | 65 => ⟨S_, .f32⟩
  | 66 => ⟨S_, .f32⟩
  | 67 => ⟨S128, .f32⟩
  | 68 => ⟨S128, .f32⟩
  | 69 => ⟨S_, .f32⟩
  | 70 => ⟨S128, .f32⟩
  | 71 => ⟨S128, .f32⟩
  | 72 => ⟨S128x8187, .f32⟩
  | 73 => ⟨S128x8187, .f32⟩
  | 74 => ⟨S_, .f32⟩
  | 75 => ⟨S128, .f32⟩
  | 76 => ⟨S128x1, .f32⟩
  | 77 => ⟨S_, .f32⟩
  | 78 => ⟨S128x1, .f32⟩
  | 79 => ⟨S128x1, .f32⟩
  | 80 => ⟨S128x8187, .f32⟩
  | 81 => ⟨S128x8187, .f32⟩
  | 82 => ⟨S_, .f32⟩
  | 83 => ⟨S128, .f32⟩
  | 84 => ⟨S128x1, .f32⟩
  | 85 => ⟨S_, .f32⟩
  | 86 => ⟨S128x1, .f32⟩
  | 87 => ⟨S128x1, .f32⟩
  | 88 => ⟨S128x8187, .f32⟩
  | 89 => ⟨S128x8187, .f32⟩
  | 90 => ⟨S128x8187, .f32⟩
  | 91 => ⟨S_, .f32⟩
  | 92 => ⟨S128, .f32⟩
  | 93 => ⟨S128x8187, .f32⟩
  | 94 => ⟨S_, .f32⟩
  | 95 => ⟨S128, .f32⟩
  | 96 => ⟨S128, .f32⟩
  | 97 => ⟨S128x8187, .f32⟩
  | 98 => ⟨S_, .f32⟩
  | 99 => ⟨S128, .f32⟩
  | 100 => ⟨S128, .f32⟩
  | 101 => ⟨S128, .f32⟩
  | 102 => ⟨S128, .f32⟩
  | 103 => ⟨S_, .f32⟩
  | 104 => ⟨S_, .f32⟩
  | 105 => ⟨S_, .f32⟩
  | 106 => ⟨S128, .f32⟩
  | 107 => ⟨S128, .f32⟩
  | 108 => ⟨S_, .f32⟩
  | 109 => ⟨S128, .f32⟩
  | 110 => ⟨S128, .f32⟩
  | 111 => ⟨S128x8186, .f32⟩
  | 112 => ⟨S128x8186, .f32⟩
  | 113 => ⟨S_, .f32⟩
  | 114 => ⟨S128, .f32⟩
  | 115 => ⟨S128x1, .f32⟩
  | 116 => ⟨S_, .f32⟩
  | 117 => ⟨S128x1, .f32⟩
  | 118 => ⟨S128x1, .f32⟩
  | 119 => ⟨S128x8186, .f32⟩
  | 120 => ⟨S128x8186, .f32⟩
  | 121 => ⟨S_, .f32⟩
  | 122 => ⟨S128, .f32⟩
  | 123 => ⟨S128x1, .f32⟩
  | 124 => ⟨S_, .f32⟩
  | 125 => ⟨S128x1, .f32⟩
  | 126 => ⟨S128x1, .f32⟩
  | 127 => ⟨S128x8186, .f32⟩
  | _ => ⟨S128x8192x8, .f32⟩

abbrev hbmTy0_2 (i : Nat) : BufTy := match i % 128 with
  | 0 => ⟨S128x8186, .f32⟩
  | 1 => ⟨S128x8186, .f32⟩
  | 2 => ⟨S_, .f32⟩
  | 3 => ⟨S128, .f32⟩
  | 4 => ⟨S128x8186, .f32⟩
  | 5 => ⟨S_, .f32⟩
  | 6 => ⟨S128, .f32⟩
  | 7 => ⟨S128, .f32⟩
  | 8 => ⟨S128x8186, .f32⟩
  | 9 => ⟨S_, .f32⟩
  | 10 => ⟨S128, .f32⟩
  | 11 => ⟨S128, .f32⟩
  | 12 => ⟨S128, .f32⟩
  | 13 => ⟨S128, .f32⟩
  | 14 => ⟨S_, .f32⟩
  | 15 => ⟨S_, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S128x8185, .f32⟩
  | 23 => ⟨S128x8185, .f32⟩
  | 24 => ⟨S_, .f32⟩
  | 25 => ⟨S128, .f32⟩
  | 26 => ⟨S128x1, .f32⟩
  | 27 => ⟨S_, .f32⟩
  | 28 => ⟨S128x1, .f32⟩
  | 29 => ⟨S128x1, .f32⟩
  | 30 => ⟨S128x8185, .f32⟩
  | 31 => ⟨S128x8185, .f32⟩
  | 32 => ⟨S_, .f32⟩
  | 33 => ⟨S128, .f32⟩
  | 34 => ⟨S128x1, .f32⟩
  | 35 => ⟨S_, .f32⟩
  | 36 => ⟨S128x1, .f32⟩
  | 37 => ⟨S128x1, .f32⟩
  | 38 => ⟨S128x8185, .f32⟩
  | 39 => ⟨S128x8185, .f32⟩
  | 40 => ⟨S128x8185, .f32⟩
  | 41 => ⟨S_, .f32⟩
  | 42 => ⟨S128, .f32⟩
  | 43 => ⟨S128x8185, .f32⟩
  | 44 => ⟨S_, .f32⟩
  | 45 => ⟨S128, .f32⟩
  | 46 => ⟨S128, .f32⟩
  | 47 => ⟨S128x8185, .f32⟩
  | 48 => ⟨S_, .f32⟩
  | 49 => ⟨S128, .f32⟩
  | 50 => ⟨S128, .f32⟩
  | 51 => ⟨S128, .f32⟩
  | 52 => ⟨S128, .f32⟩
  | 53 => ⟨S_, .f32⟩
  | 54 => ⟨S_, .f32⟩
  | 55 => ⟨S_, .f32⟩
  | 56 => ⟨S128, .f32⟩
  | 57 => ⟨S128, .f32⟩
  | 58 => ⟨S_, .f32⟩
  | 59 => ⟨S128, .f32⟩
  | 60 => ⟨S128, .f32⟩
  | 61 => ⟨S128x8184, .f32⟩
  | 62 => ⟨S128x8184, .f32⟩
  | 63 => ⟨S_, .f32⟩
  | 64 => ⟨S128, .f32⟩
  | 65 => ⟨S128x1, .f32⟩
  | 66 => ⟨S_, .f32⟩
  | 67 => ⟨S128x1, .f32⟩
  | 68 => ⟨S128x1, .f32⟩
  | 69 => ⟨S128x8184, .f32⟩
  | 70 => ⟨S128x8184, .f32⟩
  | 71 => ⟨S_, .f32⟩
  | 72 => ⟨S128, .f32⟩
  | 73 => ⟨S128x1, .f32⟩
  | 74 => ⟨S_, .f32⟩
  | 75 => ⟨S128x1, .f32⟩
  | 76 => ⟨S128x1, .f32⟩
  | 77 => ⟨S128x8184, .f32⟩
  | 78 => ⟨S128x8184, .f32⟩
  | 79 => ⟨S128x8184, .f32⟩
  | 80 => ⟨S_, .f32⟩
  | 81 => ⟨S128, .f32⟩
  | 82 => ⟨S128x8184, .f32⟩
  | 83 => ⟨S_, .f32⟩
  | 84 => ⟨S128, .f32⟩
  | 85 => ⟨S128, .f32⟩
  | 86 => ⟨S128x8184, .f32⟩
  | 87 => ⟨S_, .f32⟩
  | 88 => ⟨S128, .f32⟩
  | 89 => ⟨S128, .f32⟩
  | 90 => ⟨S128, .f32⟩
  | 91 => ⟨S128, .f32⟩
  | 92 => ⟨S_, .f32⟩
  | 93 => ⟨S_, .f32⟩
  | 94 => ⟨S_, .f32⟩
  | 95 => ⟨S128, .f32⟩
  | 96 => ⟨S128, .f32⟩
  | 97 => ⟨S_, .f32⟩
  | 98 => ⟨S128, .f32⟩
  | 99 => ⟨S128, .f32⟩
  | 100 => ⟨S128x8183, .f32⟩
  | 101 => ⟨S128x8183, .f32⟩
  | 102 => ⟨S_, .f32⟩
  | 103 => ⟨S128, .f32⟩
  | 104 => ⟨S128x1, .f32⟩
  | 105 => ⟨S_, .f32⟩
  | 106 => ⟨S128x1, .f32⟩
  | 107 => ⟨S128x1, .f32⟩
  | 108 => ⟨S128x8183, .f32⟩
  | 109 => ⟨S128x8183, .f32⟩
  | 110 => ⟨S_, .f32⟩
  | 111 => ⟨S128, .f32⟩
  | 112 => ⟨S128x1, .f32⟩
  | 113 => ⟨S_, .f32⟩
  | 114 => ⟨S128x1, .f32⟩
  | 115 => ⟨S128x1, .f32⟩
  | 116 => ⟨S128x8183, .f32⟩
  | 117 => ⟨S128x8183, .f32⟩
  | 118 => ⟨S128x8183, .f32⟩
  | 119 => ⟨S_, .f32⟩
  | 120 => ⟨S128, .f32⟩
  | 121 => ⟨S128x8183, .f32⟩
  | 122 => ⟨S_, .f32⟩
  | 123 => ⟨S128, .f32⟩
  | 124 => ⟨S128, .f32⟩
  | 125 => ⟨S128x8183, .f32⟩
  | 126 => ⟨S_, .f32⟩
  | 127 => ⟨S128, .f32⟩
  | _ => ⟨S128x8192x8, .f32⟩

abbrev hbmTy0_3 (i : Nat) : BufTy := match i % 128 with
  | 0 => ⟨S128, .f32⟩
  | 1 => ⟨S128, .f32⟩
  | 2 => ⟨S128, .f32⟩
  | 3 => ⟨S_, .f32⟩
  | 4 => ⟨S_, .f32⟩
  | 5 => ⟨S_, .f32⟩
  | 6 => ⟨S128, .f32⟩
  | 7 => ⟨S128, .f32⟩
  | 8 => ⟨S_, .f32⟩
  | 9 => ⟨S128, .f32⟩
  | 10 => ⟨S128, .f32⟩
  | 11 => ⟨S128x8182, .f32⟩
  | 12 => ⟨S128x8182, .f32⟩
  | 13 => ⟨S_, .f32⟩
  | 14 => ⟨S128, .f32⟩
  | 15 => ⟨S128x1, .f32⟩
  | 16 => ⟨S_, .f32⟩
  | 17 => ⟨S128x1, .f32⟩
  | 18 => ⟨S128x1, .f32⟩
  | 19 => ⟨S128x8182, .f32⟩
  | 20 => ⟨S128x8182, .f32⟩
  | 21 => ⟨S_, .f32⟩
  | 22 => ⟨S128, .f32⟩
  | 23 => ⟨S128x1, .f32⟩
  | 24 => ⟨S_, .f32⟩
  | 25 => ⟨S128x1, .f32⟩
  | 26 => ⟨S128x1, .f32⟩
  | 27 => ⟨S128x8182, .f32⟩
  | 28 => ⟨S128x8182, .f32⟩
  | 29 => ⟨S128x8182, .f32⟩
  | 30 => ⟨S_, .f32⟩
  | 31 => ⟨S128, .f32⟩
  | 32 => ⟨S128x8182, .f32⟩
  | 33 => ⟨S_, .f32⟩
  | 34 => ⟨S128, .f32⟩
  | 35 => ⟨S128, .f32⟩
  | 36 => ⟨S128x8182, .f32⟩
  | 37 => ⟨S_, .f32⟩
  | 38 => ⟨S128, .f32⟩
  | 39 => ⟨S128, .f32⟩
  | 40 => ⟨S128, .f32⟩
  | 41 => ⟨S128, .f32⟩
  | 42 => ⟨S_, .f32⟩
  | 43 => ⟨S_, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S128x8181, .f32⟩
  | 51 => ⟨S128x8181, .f32⟩
  | 52 => ⟨S_, .f32⟩
  | 53 => ⟨S128, .f32⟩
  | 54 => ⟨S128x1, .f32⟩
  | 55 => ⟨S_, .f32⟩
  | 56 => ⟨S128x1, .f32⟩
  | 57 => ⟨S128x1, .f32⟩
  | 58 => ⟨S128x8181, .f32⟩
  | 59 => ⟨S128x8181, .f32⟩
  | 60 => ⟨S_, .f32⟩
  | 61 => ⟨S128, .f32⟩
  | 62 => ⟨S128x1, .f32⟩
  | 63 => ⟨S_, .f32⟩
  | 64 => ⟨S128x1, .f32⟩
  | 65 => ⟨S128x1, .f32⟩
  | 66 => ⟨S128x8181, .f32⟩
  | 67 => ⟨S128x8181, .f32⟩
  | 68 => ⟨S128x8181, .f32⟩
  | 69 => ⟨S_, .f32⟩
  | 70 => ⟨S128, .f32⟩
  | 71 => ⟨S128x8181, .f32⟩
  | 72 => ⟨S_, .f32⟩
  | 73 => ⟨S128, .f32⟩
  | 74 => ⟨S128, .f32⟩
  | 75 => ⟨S128x8181, .f32⟩
  | 76 => ⟨S_, .f32⟩
  | 77 => ⟨S128, .f32⟩
  | 78 => ⟨S128, .f32⟩
  | 79 => ⟨S128, .f32⟩
  | 80 => ⟨S128, .f32⟩
  | 81 => ⟨S_, .f32⟩
  | 82 => ⟨S_, .f32⟩
  | 83 => ⟨S_, .f32⟩
  | 84 => ⟨S128, .f32⟩
  | 85 => ⟨S128, .f32⟩
  | 86 => ⟨S_, .f32⟩
  | 87 => ⟨S128, .f32⟩
  | 88 => ⟨S128, .f32⟩
  | 89 => ⟨S128x8180, .f32⟩
  | 90 => ⟨S128x8180, .f32⟩
  | 91 => ⟨S_, .f32⟩
  | 92 => ⟨S128, .f32⟩
  | 93 => ⟨S128x1, .f32⟩
  | 94 => ⟨S_, .f32⟩
  | 95 => ⟨S128x1, .f32⟩
  | 96 => ⟨S128x1, .f32⟩
  | 97 => ⟨S128x8180, .f32⟩
  | 98 => ⟨S128x8180, .f32⟩
  | 99 => ⟨S_, .f32⟩
  | 100 => ⟨S128, .f32⟩
  | 101 => ⟨S128x1, .f32⟩
  | 102 => ⟨S_, .f32⟩
  | 103 => ⟨S128x1, .f32⟩
  | 104 => ⟨S128x1, .f32⟩
  | 105 => ⟨S128x8180, .f32⟩
  | 106 => ⟨S128x8180, .f32⟩
  | 107 => ⟨S128x8180, .f32⟩
  | 108 => ⟨S_, .f32⟩
  | 109 => ⟨S128, .f32⟩
  | 110 => ⟨S128x8180, .f32⟩
  | 111 => ⟨S_, .f32⟩
  | 112 => ⟨S128, .f32⟩
  | 113 => ⟨S128, .f32⟩
  | 114 => ⟨S128x8180, .f32⟩
  | 115 => ⟨S_, .f32⟩
  | 116 => ⟨S128, .f32⟩
  | 117 => ⟨S128, .f32⟩
  | 118 => ⟨S128, .f32⟩
  | 119 => ⟨S128, .f32⟩
  | 120 => ⟨S_, .f32⟩
  | 121 => ⟨S_, .f32⟩
  | 122 => ⟨S_, .f32⟩
  | 123 => ⟨S128, .f32⟩
  | 124 => ⟨S128, .f32⟩
  | 125 => ⟨S_, .f32⟩
  | 126 => ⟨S128, .f32⟩
  | 127 => ⟨S128, .f32⟩
  | _ => ⟨S128x8192x8, .f32⟩

abbrev hbmTy0_4 (i : Nat) : BufTy := match i % 128 with
  | 0 => ⟨S128x8179, .f32⟩
  | 1 => ⟨S128x8179, .f32⟩
  | 2 => ⟨S_, .f32⟩
  | 3 => ⟨S128, .f32⟩
  | 4 => ⟨S128x1, .f32⟩
  | 5 => ⟨S_, .f32⟩
  | 6 => ⟨S128x1, .f32⟩
  | 7 => ⟨S128x1, .f32⟩
  | 8 => ⟨S128x8179, .f32⟩
  | 9 => ⟨S128x8179, .f32⟩
  | 10 => ⟨S_, .f32⟩
  | 11 => ⟨S128, .f32⟩
  | 12 => ⟨S128x1, .f32⟩
  | 13 => ⟨S_, .f32⟩
  | 14 => ⟨S128x1, .f32⟩
  | 15 => ⟨S128x1, .f32⟩
  | 16 => ⟨S128x8179, .f32⟩
  | 17 => ⟨S128x8179, .f32⟩
  | 18 => ⟨S128x8179, .f32⟩
  | 19 => ⟨S_, .f32⟩
  | 20 => ⟨S128, .f32⟩
  | 21 => ⟨S128x8179, .f32⟩
  | 22 => ⟨S_, .f32⟩
  | 23 => ⟨S128, .f32⟩
  | 24 => ⟨S128, .f32⟩
  | 25 => ⟨S128x8179, .f32⟩
  | 26 => ⟨S_, .f32⟩
  | 27 => ⟨S128, .f32⟩
  | 28 => ⟨S128, .f32⟩
  | 29 => ⟨S128, .f32⟩
  | 30 => ⟨S128, .f32⟩
  | 31 => ⟨S_, .f32⟩
  | 32 => ⟨S_, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S128x8178, .f32⟩
  | 40 => ⟨S128x8178, .f32⟩
  | 41 => ⟨S_, .f32⟩
  | 42 => ⟨S128, .f32⟩
  | 43 => ⟨S128x1, .f32⟩
  | 44 => ⟨S_, .f32⟩
  | 45 => ⟨S128x1, .f32⟩
  | 46 => ⟨S128x1, .f32⟩
  | 47 => ⟨S128x8178, .f32⟩
  | 48 => ⟨S128x8178, .f32⟩
  | 49 => ⟨S_, .f32⟩
  | 50 => ⟨S128, .f32⟩
  | 51 => ⟨S128x1, .f32⟩
  | 52 => ⟨S_, .f32⟩
  | 53 => ⟨S128x1, .f32⟩
  | 54 => ⟨S128x1, .f32⟩
  | 55 => ⟨S128x8178, .f32⟩
  | 56 => ⟨S128x8178, .f32⟩
  | 57 => ⟨S128x8178, .f32⟩
  | 58 => ⟨S_, .f32⟩
  | 59 => ⟨S128, .f32⟩
  | 60 => ⟨S128x8178, .f32⟩
  | 61 => ⟨S_, .f32⟩
  | 62 => ⟨S128, .f32⟩
  | 63 => ⟨S128, .f32⟩
  | 64 => ⟨S128x8178, .f32⟩
  | 65 => ⟨S_, .f32⟩
  | 66 => ⟨S128, .f32⟩
  | 67 => ⟨S128, .f32⟩
  | 68 => ⟨S128, .f32⟩
  | 69 => ⟨S128, .f32⟩
  | 70 => ⟨S_, .f32⟩
  | 71 => ⟨S_, .f32⟩
  | 72 => ⟨S_, .f32⟩
  | 73 => ⟨S128, .f32⟩
  | 74 => ⟨S128, .f32⟩
  | 75 => ⟨S_, .f32⟩
  | 76 => ⟨S128, .f32⟩
  | 77 => ⟨S128, .f32⟩
  | 78 => ⟨S128x8177, .f32⟩
  | 79 => ⟨S128x8177, .f32⟩
  | 80 => ⟨S_, .f32⟩
  | 81 => ⟨S128, .f32⟩
  | 82 => ⟨S128x1, .f32⟩
  | 83 => ⟨S_, .f32⟩
  | 84 => ⟨S128x1, .f32⟩
  | 85 => ⟨S128x1, .f32⟩
  | 86 => ⟨S128x8177, .f32⟩
  | 87 => ⟨S128x8177, .f32⟩
  | 88 => ⟨S_, .f32⟩
  | 89 => ⟨S128, .f32⟩
  | 90 => ⟨S128x1, .f32⟩
  | 91 => ⟨S_, .f32⟩
  | 92 => ⟨S128x1, .f32⟩
  | 93 => ⟨S128x1, .f32⟩
  | 94 => ⟨S128x8177, .f32⟩
  | 95 => ⟨S128x8177, .f32⟩
  | 96 => ⟨S128x8177, .f32⟩
  | 97 => ⟨S_, .f32⟩
  | 98 => ⟨S128, .f32⟩
  | 99 => ⟨S128x8177, .f32⟩
  | 100 => ⟨S_, .f32⟩
  | 101 => ⟨S128, .f32⟩
  | 102 => ⟨S128, .f32⟩
  | 103 => ⟨S128x8177, .f32⟩
  | 104 => ⟨S_, .f32⟩
  | 105 => ⟨S128, .f32⟩
  | 106 => ⟨S128, .f32⟩
  | 107 => ⟨S128, .f32⟩
  | 108 => ⟨S128, .f32⟩
  | 109 => ⟨S_, .f32⟩
  | 110 => ⟨S_, .f32⟩
  | 111 => ⟨S_, .f32⟩
  | 112 => ⟨S128, .f32⟩
  | 113 => ⟨S128, .f32⟩
  | 114 => ⟨S_, .f32⟩
  | 115 => ⟨S128, .f32⟩
  | 116 => ⟨S128, .f32⟩
  | 117 => ⟨S128x8176, .f32⟩
  | 118 => ⟨S128x8176, .f32⟩
  | 119 => ⟨S_, .f32⟩
  | 120 => ⟨S128, .f32⟩
  | 121 => ⟨S128x1, .f32⟩
  | 122 => ⟨S_, .f32⟩
  | 123 => ⟨S128x1, .f32⟩
  | 124 => ⟨S128x1, .f32⟩
  | 125 => ⟨S128x8176, .f32⟩
  | 126 => ⟨S128x8176, .f32⟩
  | 127 => ⟨S_, .f32⟩
  | _ => ⟨S128x8192x8, .f32⟩

abbrev hbmTy0_5 (i : Nat) : BufTy := match i % 128 with
  | 0 => ⟨S128, .f32⟩
  | 1 => ⟨S128x1, .f32⟩
  | 2 => ⟨S_, .f32⟩
  | 3 => ⟨S128x1, .f32⟩
  | 4 => ⟨S128x1, .f32⟩
  | 5 => ⟨S128x8176, .f32⟩
  | 6 => ⟨S128x8176, .f32⟩
  | 7 => ⟨S128x8176, .f32⟩
  | 8 => ⟨S_, .f32⟩
  | 9 => ⟨S128, .f32⟩
  | 10 => ⟨S128x8176, .f32⟩
  | 11 => ⟨S_, .f32⟩
  | 12 => ⟨S128, .f32⟩
  | 13 => ⟨S128, .f32⟩
  | 14 => ⟨S128x8176, .f32⟩
  | 15 => ⟨S_, .f32⟩
  | 16 => ⟨S128, .f32⟩
  | 17 => ⟨S128, .f32⟩
  | 18 => ⟨S128, .f32⟩
  | 19 => ⟨S128, .f32⟩
  | 20 => ⟨S_, .f32⟩
  | 21 => ⟨S_, .f32⟩
  | 22 => ⟨S_, .f32⟩
  | 23 => ⟨S128, .f32⟩
  | 24 => ⟨S128, .f32⟩
  | 25 => ⟨S_, .f32⟩
  | 26 => ⟨S128, .f32⟩
  | 27 => ⟨S128, .f32⟩
  | 28 => ⟨S128x8175, .f32⟩
  | 29 => ⟨S128x8175, .f32⟩
  | 30 => ⟨S_, .f32⟩
  | 31 => ⟨S128, .f32⟩
  | 32 => ⟨S128x1, .f32⟩
  | 33 => ⟨S_, .f32⟩
  | 34 => ⟨S128x1, .f32⟩
  | 35 => ⟨S128x1, .f32⟩
  | 36 => ⟨S128x8175, .f32⟩
  | 37 => ⟨S128x8175, .f32⟩
  | 38 => ⟨S_, .f32⟩
  | 39 => ⟨S128, .f32⟩
  | 40 => ⟨S128x1, .f32⟩
  | 41 => ⟨S_, .f32⟩
  | 42 => ⟨S128x1, .f32⟩
  | 43 => ⟨S128x1, .f32⟩
  | 44 => ⟨S128x8175, .f32⟩
  | 45 => ⟨S128x8175, .f32⟩
  | 46 => ⟨S128x8175, .f32⟩
  | 47 => ⟨S_, .f32⟩
  | 48 => ⟨S128, .f32⟩
  | 49 => ⟨S128x8175, .f32⟩
  | 50 => ⟨S_, .f32⟩
  | 51 => ⟨S128, .f32⟩
  | 52 => ⟨S128, .f32⟩
  | 53 => ⟨S128x8175, .f32⟩
  | 54 => ⟨S_, .f32⟩
  | 55 => ⟨S128, .f32⟩
  | 56 => ⟨S128, .f32⟩
  | 57 => ⟨S128, .f32⟩
  | 58 => ⟨S128, .f32⟩
  | 59 => ⟨S_, .f32⟩
  | 60 => ⟨S_, .f32⟩
  | 61 => ⟨S_, .f32⟩
  | 62 => ⟨S128, .f32⟩
  | 63 => ⟨S128, .f32⟩
  | 64 => ⟨S_, .f32⟩
  | 65 => ⟨S128, .f32⟩
  | 66 => ⟨S128, .f32⟩
  | 67 => ⟨S128x8174, .f32⟩
  | 68 => ⟨S128x8174, .f32⟩
  | 69 => ⟨S_, .f32⟩
  | 70 => ⟨S128, .f32⟩
  | 71 => ⟨S128x1, .f32⟩
  | 72 => ⟨S_, .f32⟩
  | 73 => ⟨S128x1, .f32⟩
  | 74 => ⟨S128x1, .f32⟩
  | 75 => ⟨S128x8174, .f32⟩
  | 76 => ⟨S128x8174, .f32⟩
  | 77 => ⟨S_, .f32⟩
  | 78 => ⟨S128, .f32⟩
  | 79 => ⟨S128x1, .f32⟩
  | 80 => ⟨S_, .f32⟩
  | 81 => ⟨S128x1, .f32⟩
  | 82 => ⟨S128x1, .f32⟩
  | 83 => ⟨S128x8174, .f32⟩
  | 84 => ⟨S128x8174, .f32⟩
  | 85 => ⟨S128x8174, .f32⟩
  | 86 => ⟨S_, .f32⟩
  | 87 => ⟨S128, .f32⟩
  | 88 => ⟨S128x8174, .f32⟩
  | 89 => ⟨S_, .f32⟩
  | 90 => ⟨S128, .f32⟩
  | 91 => ⟨S128, .f32⟩
  | 92 => ⟨S128x8174, .f32⟩
  | 93 => ⟨S_, .f32⟩
  | 94 => ⟨S128, .f32⟩
  | 95 => ⟨S128, .f32⟩
  | 96 => ⟨S128, .f32⟩
  | 97 => ⟨S128, .f32⟩
  | 98 => ⟨S_, .f32⟩
  | 99 => ⟨S_, .f32⟩
  | 100 => ⟨S_, .f32⟩
  | 101 => ⟨S128, .f32⟩
  | 102 => ⟨S128, .f32⟩
  | 103 => ⟨S_, .f32⟩
  | 104 => ⟨S128, .f32⟩
  | 105 => ⟨S128, .f32⟩
  | 106 => ⟨S128x8173, .f32⟩
  | 107 => ⟨S128x8173, .f32⟩
  | 108 => ⟨S_, .f32⟩
  | 109 => ⟨S128, .f32⟩
  | 110 => ⟨S128x1, .f32⟩
  | 111 => ⟨S_, .f32⟩
  | 112 => ⟨S128x1, .f32⟩
  | 113 => ⟨S128x1, .f32⟩
  | 114 => ⟨S128x8173, .f32⟩
  | 115 => ⟨S128x8173, .f32⟩
  | 116 => ⟨S_, .f32⟩
  | 117 => ⟨S128, .f32⟩
  | 118 => ⟨S128x1, .f32⟩
  | 119 => ⟨S_, .f32⟩
  | 120 => ⟨S128x1, .f32⟩
  | 121 => ⟨S128x1, .f32⟩
  | 122 => ⟨S128x8173, .f32⟩
  | 123 => ⟨S128x8173, .f32⟩
  | 124 => ⟨S128x8173, .f32⟩
  | 125 => ⟨S_, .f32⟩
  | 126 => ⟨S128, .f32⟩
  | 127 => ⟨S128x8173, .f32⟩
  | _ => ⟨S128x8192x8, .f32⟩

abbrev hbmTy0_6 (i : Nat) : BufTy := match i % 128 with
  | 0 => ⟨S_, .f32⟩
  | 1 => ⟨S128, .f32⟩
  | 2 => ⟨S128, .f32⟩
  | 3 => ⟨S128x8173, .f32⟩
  | 4 => ⟨S_, .f32⟩
  | 5 => ⟨S128, .f32⟩
  | 6 => ⟨S128, .f32⟩
  | 7 => ⟨S128, .f32⟩
  | 8 => ⟨S128, .f32⟩
  | 9 => ⟨S_, .f32⟩
  | 10 => ⟨S_, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S128x8172, .f32⟩
  | 18 => ⟨S128x8172, .f32⟩
  | 19 => ⟨S_, .f32⟩
  | 20 => ⟨S128, .f32⟩
  | 21 => ⟨S128x1, .f32⟩
  | 22 => ⟨S_, .f32⟩
  | 23 => ⟨S128x1, .f32⟩
  | 24 => ⟨S128x1, .f32⟩
  | 25 => ⟨S128x8172, .f32⟩
  | 26 => ⟨S128x8172, .f32⟩
  | 27 => ⟨S_, .f32⟩
  | 28 => ⟨S128, .f32⟩
  | 29 => ⟨S128x1, .f32⟩
  | 30 => ⟨S_, .f32⟩
  | 31 => ⟨S128x1, .f32⟩
  | 32 => ⟨S128x1, .f32⟩
  | 33 => ⟨S128x8172, .f32⟩
  | 34 => ⟨S128x8172, .f32⟩
  | 35 => ⟨S128x8172, .f32⟩
  | 36 => ⟨S_, .f32⟩
  | 37 => ⟨S128, .f32⟩
  | 38 => ⟨S128x8172, .f32⟩
  | 39 => ⟨S_, .f32⟩
  | 40 => ⟨S128, .f32⟩
  | 41 => ⟨S128, .f32⟩
  | 42 => ⟨S128x8172, .f32⟩
  | 43 => ⟨S_, .f32⟩
  | 44 => ⟨S128, .f32⟩
  | 45 => ⟨S128, .f32⟩
  | 46 => ⟨S128, .f32⟩
  | 47 => ⟨S128, .f32⟩
  | 48 => ⟨S_, .f32⟩
  | 49 => ⟨S_, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S128x8171, .f32⟩
  | 57 => ⟨S128x8171, .f32⟩
  | 58 => ⟨S_, .f32⟩
  | 59 => ⟨S128, .f32⟩
  | 60 => ⟨S128x1, .f32⟩
  | 61 => ⟨S_, .f32⟩
  | 62 => ⟨S128x1, .f32⟩
  | 63 => ⟨S128x1, .f32⟩
  | 64 => ⟨S128x8171, .f32⟩
  | 65 => ⟨S128x8171, .f32⟩
  | 66 => ⟨S_, .f32⟩
  | 67 => ⟨S128, .f32⟩
  | 68 => ⟨S128x1, .f32⟩
  | 69 => ⟨S_, .f32⟩
  | 70 => ⟨S128x1, .f32⟩
  | 71 => ⟨S128x1, .f32⟩
  | 72 => ⟨S128x8171, .f32⟩
  | 73 => ⟨S128x8171, .f32⟩
  | 74 => ⟨S128x8171, .f32⟩
  | 75 => ⟨S_, .f32⟩
  | 76 => ⟨S128, .f32⟩
  | 77 => ⟨S128x8171, .f32⟩
  | 78 => ⟨S_, .f32⟩
  | 79 => ⟨S128, .f32⟩
  | 80 => ⟨S128, .f32⟩
  | 81 => ⟨S128x8171, .f32⟩
  | 82 => ⟨S_, .f32⟩
  | 83 => ⟨S128, .f32⟩
  | 84 => ⟨S128, .f32⟩
  | 85 => ⟨S128, .f32⟩
  | 86 => ⟨S128, .f32⟩
  | 87 => ⟨S_, .f32⟩
  | 88 => ⟨S_, .f32⟩
  | 89 => ⟨S_, .f32⟩
  | 90 => ⟨S128, .f32⟩
  | 91 => ⟨S128, .f32⟩
  | 92 => ⟨S_, .f32⟩
  | 93 => ⟨S128, .f32⟩
  | 94 => ⟨S128, .f32⟩
  | 95 => ⟨S128x8170, .f32⟩
  | 96 => ⟨S128x8170, .f32⟩
  | 97 => ⟨S_, .f32⟩
  | 98 => ⟨S128, .f32⟩
  | 99 => ⟨S128x1, .f32⟩
  | 100 => ⟨S_, .f32⟩
  | 101 => ⟨S128x1, .f32⟩
  | 102 => ⟨S128x1, .f32⟩
  | 103 => ⟨S128x8170, .f32⟩
  | 104 => ⟨S128x8170, .f32⟩
  | 105 => ⟨S_, .f32⟩
  | 106 => ⟨S128, .f32⟩
  | 107 => ⟨S128x1, .f32⟩
  | 108 => ⟨S_, .f32⟩
  | 109 => ⟨S128x1, .f32⟩
  | 110 => ⟨S128x1, .f32⟩
  | 111 => ⟨S128x8170, .f32⟩
  | 112 => ⟨S128x8170, .f32⟩
  | 113 => ⟨S128x8170, .f32⟩
  | 114 => ⟨S_, .f32⟩
  | 115 => ⟨S128, .f32⟩
  | 116 => ⟨S128x8170, .f32⟩
  | 117 => ⟨S_, .f32⟩
  | 118 => ⟨S128, .f32⟩
  | 119 => ⟨S128, .f32⟩
  | 120 => ⟨S128x8170, .f32⟩
  | 121 => ⟨S_, .f32⟩
  | 122 => ⟨S128, .f32⟩
  | 123 => ⟨S128, .f32⟩
  | 124 => ⟨S128, .f32⟩
  | 125 => ⟨S128, .f32⟩
  | 126 => ⟨S_, .f32⟩
  | 127 => ⟨S_, .f32⟩
  | _ => ⟨S128x8192x8, .f32⟩

abbrev hbmTy0_7 (i : Nat) : BufTy := match i % 128 with
  | 0 => ⟨S_, .f32⟩
  | 1 => ⟨S128, .f32⟩
  | 2 => ⟨S128, .f32⟩
  | 3 => ⟨S_, .f32⟩
  | 4 => ⟨S128, .f32⟩
  | 5 => ⟨S128, .f32⟩
  | 6 => ⟨S128x8169, .f32⟩
  | 7 => ⟨S128x8169, .f32⟩
  | 8 => ⟨S_, .f32⟩
  | 9 => ⟨S128, .f32⟩
  | 10 => ⟨S128x1, .f32⟩
  | 11 => ⟨S_, .f32⟩
  | 12 => ⟨S128x1, .f32⟩
  | 13 => ⟨S128x1, .f32⟩
  | 14 => ⟨S128x8169, .f32⟩
  | 15 => ⟨S128x8169, .f32⟩
  | 16 => ⟨S_, .f32⟩
  | 17 => ⟨S128, .f32⟩
  | 18 => ⟨S128x1, .f32⟩
  | 19 => ⟨S_, .f32⟩
  | 20 => ⟨S128x1, .f32⟩
  | 21 => ⟨S128x1, .f32⟩
  | 22 => ⟨S128x8169, .f32⟩
  | 23 => ⟨S128x8169, .f32⟩
  | 24 => ⟨S128x8169, .f32⟩
  | 25 => ⟨S_, .f32⟩
  | 26 => ⟨S128, .f32⟩
  | 27 => ⟨S128x8169, .f32⟩
  | 28 => ⟨S_, .f32⟩
  | 29 => ⟨S128, .f32⟩
  | 30 => ⟨S128, .f32⟩
  | 31 => ⟨S128x8169, .f32⟩
  | 32 => ⟨S_, .f32⟩
  | 33 => ⟨S128, .f32⟩
  | 34 => ⟨S128, .f32⟩
  | 35 => ⟨S128, .f32⟩
  | 36 => ⟨S128, .f32⟩
  | 37 => ⟨S_, .f32⟩
  | 38 => ⟨S_, .f32⟩
  | 39 => ⟨S_, .f32⟩
  | 40 => ⟨S128, .f32⟩
  | 41 => ⟨S128, .f32⟩
  | 42 => ⟨S_, .f32⟩
  | 43 => ⟨S128, .f32⟩
  | 44 => ⟨S128, .f32⟩
  | 45 => ⟨S128x8168, .f32⟩
  | 46 => ⟨S128x8168, .f32⟩
  | 47 => ⟨S_, .f32⟩
  | 48 => ⟨S128, .f32⟩
  | 49 => ⟨S128x1, .f32⟩
  | 50 => ⟨S_, .f32⟩
  | 51 => ⟨S128x1, .f32⟩
  | 52 => ⟨S128x1, .f32⟩
  | 53 => ⟨S128x8168, .f32⟩
  | 54 => ⟨S128x8168, .f32⟩
  | 55 => ⟨S_, .f32⟩
  | 56 => ⟨S128, .f32⟩
  | 57 => ⟨S128x1, .f32⟩
  | 58 => ⟨S_, .f32⟩
  | 59 => ⟨S128x1, .f32⟩
  | 60 => ⟨S128x1, .f32⟩
  | 61 => ⟨S128x8168, .f32⟩
  | 62 => ⟨S128x8168, .f32⟩
  | 63 => ⟨S128x8168, .f32⟩
  | 64 => ⟨S_, .f32⟩
  | 65 => ⟨S128, .f32⟩
  | 66 => ⟨S128x8168, .f32⟩
  | 67 => ⟨S_, .f32⟩
  | 68 => ⟨S128, .f32⟩
  | 69 => ⟨S128, .f32⟩
  | 70 => ⟨S128x8168, .f32⟩
  | 71 => ⟨S_, .f32⟩
  | 72 => ⟨S128, .f32⟩
  | 73 => ⟨S128, .f32⟩
  | 74 => ⟨S128, .f32⟩
  | 75 => ⟨S128, .f32⟩
  | 76 => ⟨S_, .f32⟩
  | 77 => ⟨S_, .f32⟩
  | 78 => ⟨S_, .f32⟩
  | 79 => ⟨S128, .f32⟩
  | 80 => ⟨S128, .f32⟩
  | 81 => ⟨S_, .f32⟩
  | 82 => ⟨S128, .f32⟩
  | 83 => ⟨S128, .f32⟩
  | 84 => ⟨S128x1, .f32⟩
  | 85 => ⟨S128x1, .f32⟩
  | 86 => ⟨S128x1, .f32⟩
  | 87 => ⟨S128x1, .f32⟩
  | 88 => ⟨S128x1, .f32⟩
  | 89 => ⟨S128x1, .f32⟩
  | 90 => ⟨S128x1, .f32⟩
  | 91 => ⟨S128x1, .f32⟩
  | 92 => ⟨S128x1, .f32⟩
  | 93 => ⟨S128x1, .f32⟩
  | 94 => ⟨S128x1, .f32⟩
  | 95 => ⟨S128x1, .f32⟩
  | 96 => ⟨S128x1, .f32⟩
  | 97 => ⟨S128x1, .f32⟩
  | 98 => ⟨S128x1, .f32⟩
  | 99 => ⟨S128x1, .f32⟩
  | 100 => ⟨S128x1, .f32⟩
  | 101 => ⟨S128x1, .f32⟩
  | 102 => ⟨S128x1, .f32⟩
  | 103 => ⟨S128x1, .f32⟩
  | 104 => ⟨S128x1, .f32⟩
  | 105 => ⟨S128x1, .f32⟩
  | 106 => ⟨S128x1, .f32⟩
  | 107 => ⟨S128x1, .f32⟩
  | 108 => ⟨S128x16, .f32⟩
  | 109 => ⟨S128x8, .f32⟩
  | 110 => ⟨S128x24, .f32⟩
  | 111 => ⟨S_, .f32⟩
  | 112 => ⟨S_, .f32⟩
  | 113 => ⟨S_, .f32⟩
  | 114 => ⟨S_, .f32⟩
  | 115 => ⟨S1, .f32⟩
  | 116 => ⟨S24, .f32⟩
  | 117 => ⟨S24, .f32⟩
  | 118 => ⟨S24, .f32⟩
  | 119 => ⟨S_, .f32⟩
  | 120 => ⟨S_, .f32⟩
  | 121 => ⟨S1, .f32⟩
  | 122 => ⟨S24, .f32⟩
  | 123 => ⟨S24, .f32⟩
  | 124 => ⟨S1x24, .f32⟩
  | 125 => ⟨S128x24, .f32⟩
  | 126 => ⟨S128x24, .f32⟩
  | 127 => ⟨S_, .f32⟩
  | _ => ⟨S128x8192x8, .f32⟩

abbrev hbmTy0_8 (i : Nat) : BufTy := match i % 128 with
  | 0 => ⟨S128, .f32⟩
  | 1 => ⟨S_, .f32⟩
  | 2 => ⟨S128, .f32⟩
  | 3 => ⟨S128x1, .f32⟩
  | 4 => ⟨S128, .f32⟩
  | 5 => ⟨S1, .f32⟩
  | 6 => ⟨S_, .f32⟩
  | 7 => ⟨S128, .f32⟩
  | 8 => ⟨S128, .f32⟩
  | 9 => ⟨S128, .f32⟩
  | 10 => ⟨S128x1, .f32⟩
  | 11 => ⟨S128, .f32⟩
  | 12 => ⟨S1, .f32⟩
  | 13 => ⟨S_, .f32⟩
  | 14 => ⟨S128, .f32⟩
  | 15 => ⟨S128, .f32⟩
  | 16 => ⟨S128, .f32⟩
  | 17 => ⟨S128, .f32⟩
  | 18 => ⟨S_, .f32⟩
  | 19 => ⟨S_, .f32⟩
  | 20 => ⟨S_, .f32⟩
  | 21 => ⟨S_, .f32⟩
  | _ => ⟨S128x8192x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S128x8192x8, .f32⟩

abbrev bufTy : (tb : Table) → Fin (tcTables nBuf tb) → BufTy
  | .hbm, ⟨i, _⟩ => hbmTy i
  | _, _ => ⟨S128x8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_cst_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_cst_1 : Ref sig .tc := ⟨.hbm, 23, rfl⟩
abbrev main_call0_call0_v8 : Ref sig .tc := ⟨.hbm, 24, rfl⟩
abbrev main_call0_call0_cst_2 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_cst_3 : Ref sig .tc := ⟨.hbm, 30, rfl⟩
abbrev main_call0_call0_v13 : Ref sig .tc := ⟨.hbm, 31, rfl⟩
abbrev main_call0_call0_cst_4 : Ref sig .tc := ⟨.hbm, 32, rfl⟩
abbrev main_call0_call0_call0_v0 : Ref sig .tc := ⟨.hbm, 33, rfl⟩
abbrev main_call0_call0_call0_v1 : Ref sig .tc := ⟨.hbm, 34, rfl⟩
abbrev main_call0_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_cst_5 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_cst_7 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_8 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_9 : Ref sig .tc := ⟨.hbm, 75, rfl⟩
abbrev main_cst_10 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_11 : Ref sig .tc := ⟨.hbm, 85, rfl⟩
abbrev main_v40 : Ref sig .tc := ⟨.hbm, 86, rfl⟩
abbrev main_v41 : Ref sig .tc := ⟨.hbm, 87, rfl⟩
abbrev main_cst_12 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_13 : Ref sig .tc := ⟨.hbm, 93, rfl⟩
abbrev main_v46 : Ref sig .tc := ⟨.hbm, 94, rfl⟩
abbrev main_v47 : Ref sig .tc := ⟨.hbm, 95, rfl⟩
abbrev main_cst_14 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_15 : Ref sig .tc := ⟨.hbm, 102, rfl⟩
abbrev main_v53 : Ref sig .tc := ⟨.hbm, 103, rfl⟩
abbrev main_v54 : Ref sig .tc := ⟨.hbm, 104, rfl⟩
abbrev main_cst_16 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_17 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_18 : Ref sig .tc := ⟨.hbm, 114, rfl⟩
abbrev main_cst_19 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_cst_20 : Ref sig .tc := ⟨.hbm, 124, rfl⟩
abbrev main_v65 : Ref sig .tc := ⟨.hbm, 125, rfl⟩
abbrev main_v66 : Ref sig .tc := ⟨.hbm, 126, rfl⟩
abbrev main_cst_21 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_cst_22 : Ref sig .tc := ⟨.hbm, 132, rfl⟩
abbrev main_v71 : Ref sig .tc := ⟨.hbm, 133, rfl⟩
abbrev main_v72 : Ref sig .tc := ⟨.hbm, 134, rfl⟩
abbrev main_cst_23 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_cst_24 : Ref sig .tc := ⟨.hbm, 141, rfl⟩
abbrev main_v78 : Ref sig .tc := ⟨.hbm, 142, rfl⟩
abbrev main_v79 : Ref sig .tc := ⟨.hbm, 143, rfl⟩
abbrev main_cst_25 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_cst_26 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_cst_27 : Ref sig .tc := ⟨.hbm, 153, rfl⟩
abbrev main_cst_28 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_cst_29 : Ref sig .tc := ⟨.hbm, 163, rfl⟩
abbrev main_v90 : Ref sig .tc := ⟨.hbm, 164, rfl⟩
abbrev main_v91 : Ref sig .tc := ⟨.hbm, 165, rfl⟩
abbrev main_cst_30 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_cst_31 : Ref sig .tc := ⟨.hbm, 171, rfl⟩
abbrev main_v96 : Ref sig .tc := ⟨.hbm, 172, rfl⟩
abbrev main_v97 : Ref sig .tc := ⟨.hbm, 173, rfl⟩
abbrev main_cst_32 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_cst_33 : Ref sig .tc := ⟨.hbm, 180, rfl⟩
abbrev main_v103 : Ref sig .tc := ⟨.hbm, 181, rfl⟩
abbrev main_v104 : Ref sig .tc := ⟨.hbm, 182, rfl⟩
abbrev main_cst_34 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_cst_35 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_cst_36 : Ref sig .tc := ⟨.hbm, 192, rfl⟩
abbrev main_cst_37 : Ref sig .tc := ⟨.hbm, 193, rfl⟩
abbrev main_call4_v0 : Ref sig .tc := ⟨.hbm, 194, rfl⟩
abbrev main_call4_v1 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_38 : Ref sig .tc := ⟨.hbm, 202, rfl⟩
abbrev main_v115 : Ref sig .tc := ⟨.hbm, 203, rfl⟩
abbrev main_v116 : Ref sig .tc := ⟨.hbm, 204, rfl⟩
abbrev main_cst_39 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_cst_40 : Ref sig .tc := ⟨.hbm, 210, rfl⟩
abbrev main_v121 : Ref sig .tc := ⟨.hbm, 211, rfl⟩
abbrev main_v122 : Ref sig .tc := ⟨.hbm, 212, rfl⟩
abbrev main_cst_41 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_cst_42 : Ref sig .tc := ⟨.hbm, 219, rfl⟩
abbrev main_v128 : Ref sig .tc := ⟨.hbm, 220, rfl⟩
abbrev main_v129 : Ref sig .tc := ⟨.hbm, 221, rfl⟩
abbrev main_cst_43 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_cst_44 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_cst_45 : Ref sig .tc := ⟨.hbm, 231, rfl⟩
abbrev main_cst_46 : Ref sig .tc := ⟨.hbm, 232, rfl⟩
abbrev main_call5_v0 : Ref sig .tc := ⟨.hbm, 233, rfl⟩
abbrev main_call5_v1 : Ref sig .tc := ⟨.hbm, 234, rfl⟩
abbrev main_call5_v2 : Ref sig .tc := ⟨.hbm, 235, rfl⟩
abbrev main_call5_v3 : Ref sig .tc := ⟨.hbm, 236, rfl⟩
abbrev main_call5_v4 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_cst_47 : Ref sig .tc := ⟨.hbm, 241, rfl⟩
abbrev main_v140 : Ref sig .tc := ⟨.hbm, 242, rfl⟩
abbrev main_v141 : Ref sig .tc := ⟨.hbm, 243, rfl⟩
abbrev main_cst_48 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_cst_49 : Ref sig .tc := ⟨.hbm, 249, rfl⟩
abbrev main_v146 : Ref sig .tc := ⟨.hbm, 250, rfl⟩
abbrev main_v147 : Ref sig .tc := ⟨.hbm, 251, rfl⟩
abbrev main_cst_50 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_cst_51 : Ref sig .tc := ⟨.hbm, 258, rfl⟩
abbrev main_v153 : Ref sig .tc := ⟨.hbm, 259, rfl⟩
abbrev main_v154 : Ref sig .tc := ⟨.hbm, 260, rfl⟩
abbrev main_cst_52 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_cst_53 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_cst_54 : Ref sig .tc := ⟨.hbm, 270, rfl⟩
abbrev main_cst_55 : Ref sig .tc := ⟨.hbm, 271, rfl⟩
abbrev main_call6_v0 : Ref sig .tc := ⟨.hbm, 272, rfl⟩
abbrev main_call6_v1 : Ref sig .tc := ⟨.hbm, 273, rfl⟩
abbrev main_call6_v2 : Ref sig .tc := ⟨.hbm, 274, rfl⟩
abbrev main_call6_v3 : Ref sig .tc := ⟨.hbm, 275, rfl⟩
abbrev main_call6_v4 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_cst_56 : Ref sig .tc := ⟨.hbm, 280, rfl⟩
abbrev main_v165 : Ref sig .tc := ⟨.hbm, 281, rfl⟩
abbrev main_v166 : Ref sig .tc := ⟨.hbm, 282, rfl⟩
abbrev main_cst_57 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_cst_58 : Ref sig .tc := ⟨.hbm, 288, rfl⟩
abbrev main_v171 : Ref sig .tc := ⟨.hbm, 289, rfl⟩
abbrev main_v172 : Ref sig .tc := ⟨.hbm, 290, rfl⟩
abbrev main_cst_59 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_cst_60 : Ref sig .tc := ⟨.hbm, 297, rfl⟩
abbrev main_v178 : Ref sig .tc := ⟨.hbm, 298, rfl⟩
abbrev main_v179 : Ref sig .tc := ⟨.hbm, 299, rfl⟩
abbrev main_cst_61 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_cst_62 : Ref sig .tc := ⟨.hbm, 304, rfl⟩
abbrev main_v183 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_63 : Ref sig .tc := ⟨.hbm, 309, rfl⟩
abbrev main_cst_64 : Ref sig .tc := ⟨.hbm, 310, rfl⟩
abbrev main_call7_v0 : Ref sig .tc := ⟨.hbm, 311, rfl⟩
abbrev main_call7_v1 : Ref sig .tc := ⟨.hbm, 312, rfl⟩
abbrev main_call7_v2 : Ref sig .tc := ⟨.hbm, 313, rfl⟩
abbrev main_call7_v3 : Ref sig .tc := ⟨.hbm, 314, rfl⟩
abbrev main_call7_v4 : Ref sig .tc := ⟨.hbm, 315, rfl⟩
abbrev main_v187 : Ref sig .tc := ⟨.hbm, 316, rfl⟩
abbrev main_v188 : Ref sig .tc := ⟨.hbm, 317, rfl⟩
abbrev main_v189 : Ref sig .tc := ⟨.hbm, 318, rfl⟩
abbrev main_cst_65 : Ref sig .tc := ⟨.hbm, 319, rfl⟩
abbrev main_v190 : Ref sig .tc := ⟨.hbm, 320, rfl⟩
abbrev main_v191 : Ref sig .tc := ⟨.hbm, 321, rfl⟩
abbrev main_cst_66 : Ref sig .tc := ⟨.hbm, 322, rfl⟩
abbrev main_v192 : Ref sig .tc := ⟨.hbm, 323, rfl⟩
abbrev main_v193 : Ref sig .tc := ⟨.hbm, 324, rfl⟩
abbrev main_v194 : Ref sig .tc := ⟨.hbm, 325, rfl⟩
abbrev main_v195 : Ref sig .tc := ⟨.hbm, 326, rfl⟩
abbrev main_cst_67 : Ref sig .tc := ⟨.hbm, 327, rfl⟩
abbrev main_v196 : Ref sig .tc := ⟨.hbm, 328, rfl⟩
abbrev main_v197 : Ref sig .tc := ⟨.hbm, 329, rfl⟩
abbrev main_cst_68 : Ref sig .tc := ⟨.hbm, 330, rfl⟩
abbrev main_v198 : Ref sig .tc := ⟨.hbm, 331, rfl⟩
abbrev main_v199 : Ref sig .tc := ⟨.hbm, 332, rfl⟩
abbrev main_v200 : Ref sig .tc := ⟨.hbm, 333, rfl⟩
abbrev main_v201 : Ref sig .tc := ⟨.hbm, 334, rfl⟩
abbrev main_v202 : Ref sig .tc := ⟨.hbm, 335, rfl⟩
abbrev main_cst_69 : Ref sig .tc := ⟨.hbm, 336, rfl⟩
abbrev main_v203 : Ref sig .tc := ⟨.hbm, 337, rfl⟩
abbrev main_v204 : Ref sig .tc := ⟨.hbm, 338, rfl⟩
abbrev main_cst_70 : Ref sig .tc := ⟨.hbm, 339, rfl⟩
abbrev main_v205 : Ref sig .tc := ⟨.hbm, 340, rfl⟩
abbrev main_v206 : Ref sig .tc := ⟨.hbm, 341, rfl⟩
abbrev main_v207 : Ref sig .tc := ⟨.hbm, 342, rfl⟩
abbrev main_cst_71 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_v211 : Ref sig .tc := ⟨.hbm, 347, rfl⟩
abbrev main_cst_72 : Ref sig .tc := ⟨.hbm, 348, rfl⟩
abbrev main_cst_73 : Ref sig .tc := ⟨.hbm, 349, rfl⟩
abbrev main_call8_v0 : Ref sig .tc := ⟨.hbm, 350, rfl⟩
abbrev main_call8_v1 : Ref sig .tc := ⟨.hbm, 351, rfl⟩
abbrev main_call8_v2 : Ref sig .tc := ⟨.hbm, 352, rfl⟩
abbrev main_call8_v3 : Ref sig .tc := ⟨.hbm, 353, rfl⟩
abbrev main_call8_v4 : Ref sig .tc := ⟨.hbm, 354, rfl⟩
abbrev main_v212 : Ref sig .tc := ⟨.hbm, 355, rfl⟩
abbrev main_v213 : Ref sig .tc := ⟨.hbm, 356, rfl⟩
abbrev main_v214 : Ref sig .tc := ⟨.hbm, 357, rfl⟩
abbrev main_cst_74 : Ref sig .tc := ⟨.hbm, 358, rfl⟩
abbrev main_v215 : Ref sig .tc := ⟨.hbm, 359, rfl⟩
abbrev main_v216 : Ref sig .tc := ⟨.hbm, 360, rfl⟩
abbrev main_cst_75 : Ref sig .tc := ⟨.hbm, 361, rfl⟩
abbrev main_v217 : Ref sig .tc := ⟨.hbm, 362, rfl⟩
abbrev main_v218 : Ref sig .tc := ⟨.hbm, 363, rfl⟩
abbrev main_v219 : Ref sig .tc := ⟨.hbm, 364, rfl⟩
abbrev main_v220 : Ref sig .tc := ⟨.hbm, 365, rfl⟩
abbrev main_cst_76 : Ref sig .tc := ⟨.hbm, 366, rfl⟩
abbrev main_v221 : Ref sig .tc := ⟨.hbm, 367, rfl⟩
abbrev main_v222 : Ref sig .tc := ⟨.hbm, 368, rfl⟩
abbrev main_cst_77 : Ref sig .tc := ⟨.hbm, 369, rfl⟩
abbrev main_v223 : Ref sig .tc := ⟨.hbm, 370, rfl⟩
abbrev main_v224 : Ref sig .tc := ⟨.hbm, 371, rfl⟩
abbrev main_v225 : Ref sig .tc := ⟨.hbm, 372, rfl⟩
abbrev main_v226 : Ref sig .tc := ⟨.hbm, 373, rfl⟩
abbrev main_v227 : Ref sig .tc := ⟨.hbm, 374, rfl⟩
abbrev main_cst_78 : Ref sig .tc := ⟨.hbm, 375, rfl⟩
abbrev main_v228 : Ref sig .tc := ⟨.hbm, 376, rfl⟩
abbrev main_v229 : Ref sig .tc := ⟨.hbm, 377, rfl⟩
abbrev main_cst_79 : Ref sig .tc := ⟨.hbm, 378, rfl⟩
abbrev main_v230 : Ref sig .tc := ⟨.hbm, 379, rfl⟩
abbrev main_v231 : Ref sig .tc := ⟨.hbm, 380, rfl⟩
abbrev main_v232 : Ref sig .tc := ⟨.hbm, 381, rfl⟩
abbrev main_cst_80 : Ref sig .tc := ⟨.hbm, 382, rfl⟩
abbrev main_v233 : Ref sig .tc := ⟨.hbm, 383, rfl⟩
abbrev main_v234 : Ref sig .tc := ⟨.hbm, 384, rfl⟩
abbrev main_v235 : Ref sig .tc := ⟨.hbm, 385, rfl⟩
abbrev main_v236 : Ref sig .tc := ⟨.hbm, 386, rfl⟩
abbrev main_cst_81 : Ref sig .tc := ⟨.hbm, 387, rfl⟩
abbrev main_cst_82 : Ref sig .tc := ⟨.hbm, 388, rfl⟩
abbrev main_call9_v0 : Ref sig .tc := ⟨.hbm, 389, rfl⟩
abbrev main_call9_v1 : Ref sig .tc := ⟨.hbm, 390, rfl⟩
abbrev main_call9_v2 : Ref sig .tc := ⟨.hbm, 391, rfl⟩
abbrev main_call9_v3 : Ref sig .tc := ⟨.hbm, 392, rfl⟩
abbrev main_call9_v4 : Ref sig .tc := ⟨.hbm, 393, rfl⟩
abbrev main_v237 : Ref sig .tc := ⟨.hbm, 394, rfl⟩
abbrev main_v238 : Ref sig .tc := ⟨.hbm, 395, rfl⟩
abbrev main_v239 : Ref sig .tc := ⟨.hbm, 396, rfl⟩
abbrev main_cst_83 : Ref sig .tc := ⟨.hbm, 397, rfl⟩
abbrev main_v240 : Ref sig .tc := ⟨.hbm, 398, rfl⟩
abbrev main_v241 : Ref sig .tc := ⟨.hbm, 399, rfl⟩
abbrev main_cst_84 : Ref sig .tc := ⟨.hbm, 400, rfl⟩
abbrev main_v242 : Ref sig .tc := ⟨.hbm, 401, rfl⟩
abbrev main_v243 : Ref sig .tc := ⟨.hbm, 402, rfl⟩
abbrev main_v244 : Ref sig .tc := ⟨.hbm, 403, rfl⟩
abbrev main_v245 : Ref sig .tc := ⟨.hbm, 404, rfl⟩
abbrev main_cst_85 : Ref sig .tc := ⟨.hbm, 405, rfl⟩
abbrev main_v246 : Ref sig .tc := ⟨.hbm, 406, rfl⟩
abbrev main_v247 : Ref sig .tc := ⟨.hbm, 407, rfl⟩
abbrev main_cst_86 : Ref sig .tc := ⟨.hbm, 408, rfl⟩
abbrev main_v248 : Ref sig .tc := ⟨.hbm, 409, rfl⟩
abbrev main_v249 : Ref sig .tc := ⟨.hbm, 410, rfl⟩
abbrev main_v250 : Ref sig .tc := ⟨.hbm, 411, rfl⟩
abbrev main_v251 : Ref sig .tc := ⟨.hbm, 412, rfl⟩
abbrev main_v252 : Ref sig .tc := ⟨.hbm, 413, rfl⟩
abbrev main_cst_87 : Ref sig .tc := ⟨.hbm, 414, rfl⟩
abbrev main_v253 : Ref sig .tc := ⟨.hbm, 415, rfl⟩
abbrev main_v254 : Ref sig .tc := ⟨.hbm, 416, rfl⟩
abbrev main_cst_88 : Ref sig .tc := ⟨.hbm, 417, rfl⟩
abbrev main_v255 : Ref sig .tc := ⟨.hbm, 418, rfl⟩
abbrev main_v256 : Ref sig .tc := ⟨.hbm, 419, rfl⟩
abbrev main_v257 : Ref sig .tc := ⟨.hbm, 420, rfl⟩
abbrev main_cst_89 : Ref sig .tc := ⟨.hbm, 421, rfl⟩
abbrev main_v258 : Ref sig .tc := ⟨.hbm, 422, rfl⟩
abbrev main_v259 : Ref sig .tc := ⟨.hbm, 423, rfl⟩
abbrev main_v260 : Ref sig .tc := ⟨.hbm, 424, rfl⟩
abbrev main_v261 : Ref sig .tc := ⟨.hbm, 425, rfl⟩
abbrev main_cst_90 : Ref sig .tc := ⟨.hbm, 426, rfl⟩
abbrev main_cst_91 : Ref sig .tc := ⟨.hbm, 427, rfl⟩
abbrev main_call10_v0 : Ref sig .tc := ⟨.hbm, 428, rfl⟩
abbrev main_call10_v1 : Ref sig .tc := ⟨.hbm, 429, rfl⟩
abbrev main_call10_v2 : Ref sig .tc := ⟨.hbm, 430, rfl⟩
abbrev main_call10_v3 : Ref sig .tc := ⟨.hbm, 431, rfl⟩
abbrev main_call10_v4 : Ref sig .tc := ⟨.hbm, 432, rfl⟩
abbrev main_v262 : Ref sig .tc := ⟨.hbm, 433, rfl⟩
abbrev main_v263 : Ref sig .tc := ⟨.hbm, 434, rfl⟩
abbrev main_v264 : Ref sig .tc := ⟨.hbm, 435, rfl⟩
abbrev main_cst_92 : Ref sig .tc := ⟨.hbm, 436, rfl⟩
abbrev main_v265 : Ref sig .tc := ⟨.hbm, 437, rfl⟩
abbrev main_v266 : Ref sig .tc := ⟨.hbm, 438, rfl⟩
abbrev main_cst_93 : Ref sig .tc := ⟨.hbm, 439, rfl⟩
abbrev main_v267 : Ref sig .tc := ⟨.hbm, 440, rfl⟩
abbrev main_v268 : Ref sig .tc := ⟨.hbm, 441, rfl⟩
abbrev main_v269 : Ref sig .tc := ⟨.hbm, 442, rfl⟩
abbrev main_v270 : Ref sig .tc := ⟨.hbm, 443, rfl⟩
abbrev main_cst_94 : Ref sig .tc := ⟨.hbm, 444, rfl⟩
abbrev main_v271 : Ref sig .tc := ⟨.hbm, 445, rfl⟩
abbrev main_v272 : Ref sig .tc := ⟨.hbm, 446, rfl⟩
abbrev main_cst_95 : Ref sig .tc := ⟨.hbm, 447, rfl⟩
abbrev main_v273 : Ref sig .tc := ⟨.hbm, 448, rfl⟩
abbrev main_v274 : Ref sig .tc := ⟨.hbm, 449, rfl⟩
abbrev main_v275 : Ref sig .tc := ⟨.hbm, 450, rfl⟩
abbrev main_v276 : Ref sig .tc := ⟨.hbm, 451, rfl⟩
abbrev main_v277 : Ref sig .tc := ⟨.hbm, 452, rfl⟩
abbrev main_cst_96 : Ref sig .tc := ⟨.hbm, 453, rfl⟩
abbrev main_v278 : Ref sig .tc := ⟨.hbm, 454, rfl⟩
abbrev main_v279 : Ref sig .tc := ⟨.hbm, 455, rfl⟩
abbrev main_cst_97 : Ref sig .tc := ⟨.hbm, 456, rfl⟩
abbrev main_v280 : Ref sig .tc := ⟨.hbm, 457, rfl⟩
abbrev main_v281 : Ref sig .tc := ⟨.hbm, 458, rfl⟩
abbrev main_v282 : Ref sig .tc := ⟨.hbm, 459, rfl⟩
abbrev main_cst_98 : Ref sig .tc := ⟨.hbm, 460, rfl⟩
abbrev main_v283 : Ref sig .tc := ⟨.hbm, 461, rfl⟩
abbrev main_v284 : Ref sig .tc := ⟨.hbm, 462, rfl⟩
abbrev main_v285 : Ref sig .tc := ⟨.hbm, 463, rfl⟩
abbrev main_v286 : Ref sig .tc := ⟨.hbm, 464, rfl⟩
abbrev main_cst_99 : Ref sig .tc := ⟨.hbm, 465, rfl⟩
abbrev main_cst_100 : Ref sig .tc := ⟨.hbm, 466, rfl⟩
abbrev main_call11_v0 : Ref sig .tc := ⟨.hbm, 467, rfl⟩
abbrev main_call11_v1 : Ref sig .tc := ⟨.hbm, 468, rfl⟩
abbrev main_call11_v2 : Ref sig .tc := ⟨.hbm, 469, rfl⟩
abbrev main_call11_v3 : Ref sig .tc := ⟨.hbm, 470, rfl⟩
abbrev main_call11_v4 : Ref sig .tc := ⟨.hbm, 471, rfl⟩
abbrev main_v287 : Ref sig .tc := ⟨.hbm, 472, rfl⟩
abbrev main_v288 : Ref sig .tc := ⟨.hbm, 473, rfl⟩
abbrev main_v289 : Ref sig .tc := ⟨.hbm, 474, rfl⟩
abbrev main_cst_101 : Ref sig .tc := ⟨.hbm, 475, rfl⟩
abbrev main_v290 : Ref sig .tc := ⟨.hbm, 476, rfl⟩
abbrev main_v291 : Ref sig .tc := ⟨.hbm, 477, rfl⟩
abbrev main_cst_102 : Ref sig .tc := ⟨.hbm, 478, rfl⟩
abbrev main_v292 : Ref sig .tc := ⟨.hbm, 479, rfl⟩
abbrev main_v293 : Ref sig .tc := ⟨.hbm, 480, rfl⟩
abbrev main_v294 : Ref sig .tc := ⟨.hbm, 481, rfl⟩
abbrev main_v295 : Ref sig .tc := ⟨.hbm, 482, rfl⟩
abbrev main_cst_103 : Ref sig .tc := ⟨.hbm, 483, rfl⟩
abbrev main_v296 : Ref sig .tc := ⟨.hbm, 484, rfl⟩
abbrev main_v297 : Ref sig .tc := ⟨.hbm, 485, rfl⟩
abbrev main_cst_104 : Ref sig .tc := ⟨.hbm, 486, rfl⟩
abbrev main_v298 : Ref sig .tc := ⟨.hbm, 487, rfl⟩
abbrev main_v299 : Ref sig .tc := ⟨.hbm, 488, rfl⟩
abbrev main_v300 : Ref sig .tc := ⟨.hbm, 489, rfl⟩
abbrev main_v301 : Ref sig .tc := ⟨.hbm, 490, rfl⟩
abbrev main_v302 : Ref sig .tc := ⟨.hbm, 491, rfl⟩
abbrev main_cst_105 : Ref sig .tc := ⟨.hbm, 492, rfl⟩
abbrev main_v303 : Ref sig .tc := ⟨.hbm, 493, rfl⟩
abbrev main_v304 : Ref sig .tc := ⟨.hbm, 494, rfl⟩
abbrev main_cst_106 : Ref sig .tc := ⟨.hbm, 495, rfl⟩
abbrev main_v305 : Ref sig .tc := ⟨.hbm, 496, rfl⟩
abbrev main_v306 : Ref sig .tc := ⟨.hbm, 497, rfl⟩
abbrev main_v307 : Ref sig .tc := ⟨.hbm, 498, rfl⟩
abbrev main_cst_107 : Ref sig .tc := ⟨.hbm, 499, rfl⟩
abbrev main_v308 : Ref sig .tc := ⟨.hbm, 500, rfl⟩
abbrev main_v309 : Ref sig .tc := ⟨.hbm, 501, rfl⟩
abbrev main_v310 : Ref sig .tc := ⟨.hbm, 502, rfl⟩
abbrev main_v311 : Ref sig .tc := ⟨.hbm, 503, rfl⟩
abbrev main_cst_108 : Ref sig .tc := ⟨.hbm, 504, rfl⟩
abbrev main_cst_109 : Ref sig .tc := ⟨.hbm, 505, rfl⟩
abbrev main_call12_v0 : Ref sig .tc := ⟨.hbm, 506, rfl⟩
abbrev main_call12_v1 : Ref sig .tc := ⟨.hbm, 507, rfl⟩
abbrev main_call12_v2 : Ref sig .tc := ⟨.hbm, 508, rfl⟩
abbrev main_call12_v3 : Ref sig .tc := ⟨.hbm, 509, rfl⟩
abbrev main_call12_v4 : Ref sig .tc := ⟨.hbm, 510, rfl⟩
abbrev main_v312 : Ref sig .tc := ⟨.hbm, 511, rfl⟩
abbrev main_v313 : Ref sig .tc := ⟨.hbm, 512, rfl⟩
abbrev main_v314 : Ref sig .tc := ⟨.hbm, 513, rfl⟩
abbrev main_cst_110 : Ref sig .tc := ⟨.hbm, 514, rfl⟩
abbrev main_v315 : Ref sig .tc := ⟨.hbm, 515, rfl⟩
abbrev main_v316 : Ref sig .tc := ⟨.hbm, 516, rfl⟩
abbrev main_cst_111 : Ref sig .tc := ⟨.hbm, 517, rfl⟩
abbrev main_v317 : Ref sig .tc := ⟨.hbm, 518, rfl⟩
abbrev main_v318 : Ref sig .tc := ⟨.hbm, 519, rfl⟩
abbrev main_v319 : Ref sig .tc := ⟨.hbm, 520, rfl⟩
abbrev main_v320 : Ref sig .tc := ⟨.hbm, 521, rfl⟩
abbrev main_cst_112 : Ref sig .tc := ⟨.hbm, 522, rfl⟩
abbrev main_v321 : Ref sig .tc := ⟨.hbm, 523, rfl⟩
abbrev main_v322 : Ref sig .tc := ⟨.hbm, 524, rfl⟩
abbrev main_cst_113 : Ref sig .tc := ⟨.hbm, 525, rfl⟩
abbrev main_v323 : Ref sig .tc := ⟨.hbm, 526, rfl⟩
abbrev main_v324 : Ref sig .tc := ⟨.hbm, 527, rfl⟩
abbrev main_v325 : Ref sig .tc := ⟨.hbm, 528, rfl⟩
abbrev main_v326 : Ref sig .tc := ⟨.hbm, 529, rfl⟩
abbrev main_v327 : Ref sig .tc := ⟨.hbm, 530, rfl⟩
abbrev main_cst_114 : Ref sig .tc := ⟨.hbm, 531, rfl⟩
abbrev main_v328 : Ref sig .tc := ⟨.hbm, 532, rfl⟩
abbrev main_v329 : Ref sig .tc := ⟨.hbm, 533, rfl⟩
abbrev main_cst_115 : Ref sig .tc := ⟨.hbm, 534, rfl⟩
abbrev main_v330 : Ref sig .tc := ⟨.hbm, 535, rfl⟩
abbrev main_v331 : Ref sig .tc := ⟨.hbm, 536, rfl⟩
abbrev main_v332 : Ref sig .tc := ⟨.hbm, 537, rfl⟩
abbrev main_cst_116 : Ref sig .tc := ⟨.hbm, 538, rfl⟩
abbrev main_v333 : Ref sig .tc := ⟨.hbm, 539, rfl⟩
abbrev main_v334 : Ref sig .tc := ⟨.hbm, 540, rfl⟩
abbrev main_v335 : Ref sig .tc := ⟨.hbm, 541, rfl⟩
abbrev main_v336 : Ref sig .tc := ⟨.hbm, 542, rfl⟩
abbrev main_cst_117 : Ref sig .tc := ⟨.hbm, 543, rfl⟩
abbrev main_cst_118 : Ref sig .tc := ⟨.hbm, 544, rfl⟩
abbrev main_call13_v0 : Ref sig .tc := ⟨.hbm, 545, rfl⟩
abbrev main_call13_v1 : Ref sig .tc := ⟨.hbm, 546, rfl⟩
abbrev main_call13_v2 : Ref sig .tc := ⟨.hbm, 547, rfl⟩
abbrev main_call13_v3 : Ref sig .tc := ⟨.hbm, 548, rfl⟩
abbrev main_call13_v4 : Ref sig .tc := ⟨.hbm, 549, rfl⟩
abbrev main_v337 : Ref sig .tc := ⟨.hbm, 550, rfl⟩
abbrev main_v338 : Ref sig .tc := ⟨.hbm, 551, rfl⟩
abbrev main_v339 : Ref sig .tc := ⟨.hbm, 552, rfl⟩
abbrev main_cst_119 : Ref sig .tc := ⟨.hbm, 553, rfl⟩
abbrev main_v340 : Ref sig .tc := ⟨.hbm, 554, rfl⟩
abbrev main_v341 : Ref sig .tc := ⟨.hbm, 555, rfl⟩
abbrev main_cst_120 : Ref sig .tc := ⟨.hbm, 556, rfl⟩
abbrev main_v342 : Ref sig .tc := ⟨.hbm, 557, rfl⟩
abbrev main_v343 : Ref sig .tc := ⟨.hbm, 558, rfl⟩
abbrev main_v344 : Ref sig .tc := ⟨.hbm, 559, rfl⟩
abbrev main_v345 : Ref sig .tc := ⟨.hbm, 560, rfl⟩
abbrev main_cst_121 : Ref sig .tc := ⟨.hbm, 561, rfl⟩
abbrev main_v346 : Ref sig .tc := ⟨.hbm, 562, rfl⟩
abbrev main_v347 : Ref sig .tc := ⟨.hbm, 563, rfl⟩
abbrev main_cst_122 : Ref sig .tc := ⟨.hbm, 564, rfl⟩
abbrev main_v348 : Ref sig .tc := ⟨.hbm, 565, rfl⟩
abbrev main_v349 : Ref sig .tc := ⟨.hbm, 566, rfl⟩
abbrev main_v350 : Ref sig .tc := ⟨.hbm, 567, rfl⟩
abbrev main_v351 : Ref sig .tc := ⟨.hbm, 568, rfl⟩
abbrev main_v352 : Ref sig .tc := ⟨.hbm, 569, rfl⟩
abbrev main_cst_123 : Ref sig .tc := ⟨.hbm, 570, rfl⟩
abbrev main_v353 : Ref sig .tc := ⟨.hbm, 571, rfl⟩
abbrev main_v354 : Ref sig .tc := ⟨.hbm, 572, rfl⟩
abbrev main_cst_124 : Ref sig .tc := ⟨.hbm, 573, rfl⟩
abbrev main_v355 : Ref sig .tc := ⟨.hbm, 574, rfl⟩
abbrev main_v356 : Ref sig .tc := ⟨.hbm, 575, rfl⟩
abbrev main_v357 : Ref sig .tc := ⟨.hbm, 576, rfl⟩
abbrev main_cst_125 : Ref sig .tc := ⟨.hbm, 577, rfl⟩
abbrev main_v358 : Ref sig .tc := ⟨.hbm, 578, rfl⟩
abbrev main_v359 : Ref sig .tc := ⟨.hbm, 579, rfl⟩
abbrev main_v360 : Ref sig .tc := ⟨.hbm, 580, rfl⟩
abbrev main_v361 : Ref sig .tc := ⟨.hbm, 581, rfl⟩
abbrev main_cst_126 : Ref sig .tc := ⟨.hbm, 582, rfl⟩
abbrev main_cst_127 : Ref sig .tc := ⟨.hbm, 583, rfl⟩
abbrev main_call14_v0 : Ref sig .tc := ⟨.hbm, 584, rfl⟩
abbrev main_call14_v1 : Ref sig .tc := ⟨.hbm, 585, rfl⟩
abbrev main_call14_v2 : Ref sig .tc := ⟨.hbm, 586, rfl⟩
abbrev main_call14_v3 : Ref sig .tc := ⟨.hbm, 587, rfl⟩
abbrev main_call14_v4 : Ref sig .tc := ⟨.hbm, 588, rfl⟩
abbrev main_v362 : Ref sig .tc := ⟨.hbm, 589, rfl⟩
abbrev main_v363 : Ref sig .tc := ⟨.hbm, 590, rfl⟩
abbrev main_v364 : Ref sig .tc := ⟨.hbm, 591, rfl⟩
abbrev main_cst_128 : Ref sig .tc := ⟨.hbm, 592, rfl⟩
abbrev main_v365 : Ref sig .tc := ⟨.hbm, 593, rfl⟩
abbrev main_v366 : Ref sig .tc := ⟨.hbm, 594, rfl⟩
abbrev main_cst_129 : Ref sig .tc := ⟨.hbm, 595, rfl⟩
abbrev main_v367 : Ref sig .tc := ⟨.hbm, 596, rfl⟩
abbrev main_v368 : Ref sig .tc := ⟨.hbm, 597, rfl⟩
abbrev main_v369 : Ref sig .tc := ⟨.hbm, 598, rfl⟩
abbrev main_v370 : Ref sig .tc := ⟨.hbm, 599, rfl⟩
abbrev main_cst_130 : Ref sig .tc := ⟨.hbm, 600, rfl⟩
abbrev main_v371 : Ref sig .tc := ⟨.hbm, 601, rfl⟩
abbrev main_v372 : Ref sig .tc := ⟨.hbm, 602, rfl⟩
abbrev main_cst_131 : Ref sig .tc := ⟨.hbm, 603, rfl⟩
abbrev main_v373 : Ref sig .tc := ⟨.hbm, 604, rfl⟩
abbrev main_v374 : Ref sig .tc := ⟨.hbm, 605, rfl⟩
abbrev main_v375 : Ref sig .tc := ⟨.hbm, 606, rfl⟩
abbrev main_v376 : Ref sig .tc := ⟨.hbm, 607, rfl⟩
abbrev main_v377 : Ref sig .tc := ⟨.hbm, 608, rfl⟩
abbrev main_cst_132 : Ref sig .tc := ⟨.hbm, 609, rfl⟩
abbrev main_v378 : Ref sig .tc := ⟨.hbm, 610, rfl⟩
abbrev main_v379 : Ref sig .tc := ⟨.hbm, 611, rfl⟩
abbrev main_cst_133 : Ref sig .tc := ⟨.hbm, 612, rfl⟩
abbrev main_v380 : Ref sig .tc := ⟨.hbm, 613, rfl⟩
abbrev main_v381 : Ref sig .tc := ⟨.hbm, 614, rfl⟩
abbrev main_v382 : Ref sig .tc := ⟨.hbm, 615, rfl⟩
abbrev main_cst_134 : Ref sig .tc := ⟨.hbm, 616, rfl⟩
abbrev main_v383 : Ref sig .tc := ⟨.hbm, 617, rfl⟩
abbrev main_v384 : Ref sig .tc := ⟨.hbm, 618, rfl⟩
abbrev main_v385 : Ref sig .tc := ⟨.hbm, 619, rfl⟩
abbrev main_v386 : Ref sig .tc := ⟨.hbm, 620, rfl⟩
abbrev main_cst_135 : Ref sig .tc := ⟨.hbm, 621, rfl⟩
abbrev main_cst_136 : Ref sig .tc := ⟨.hbm, 622, rfl⟩
abbrev main_call15_v0 : Ref sig .tc := ⟨.hbm, 623, rfl⟩
abbrev main_call15_v1 : Ref sig .tc := ⟨.hbm, 624, rfl⟩
abbrev main_call15_v2 : Ref sig .tc := ⟨.hbm, 625, rfl⟩
abbrev main_call15_v3 : Ref sig .tc := ⟨.hbm, 626, rfl⟩
abbrev main_call15_v4 : Ref sig .tc := ⟨.hbm, 627, rfl⟩
abbrev main_v387 : Ref sig .tc := ⟨.hbm, 628, rfl⟩
abbrev main_v388 : Ref sig .tc := ⟨.hbm, 629, rfl⟩
abbrev main_v389 : Ref sig .tc := ⟨.hbm, 630, rfl⟩
abbrev main_cst_137 : Ref sig .tc := ⟨.hbm, 631, rfl⟩
abbrev main_v390 : Ref sig .tc := ⟨.hbm, 632, rfl⟩
abbrev main_v391 : Ref sig .tc := ⟨.hbm, 633, rfl⟩
abbrev main_cst_138 : Ref sig .tc := ⟨.hbm, 634, rfl⟩
abbrev main_v392 : Ref sig .tc := ⟨.hbm, 635, rfl⟩
abbrev main_v393 : Ref sig .tc := ⟨.hbm, 636, rfl⟩
abbrev main_v394 : Ref sig .tc := ⟨.hbm, 637, rfl⟩
abbrev main_v395 : Ref sig .tc := ⟨.hbm, 638, rfl⟩
abbrev main_cst_139 : Ref sig .tc := ⟨.hbm, 639, rfl⟩
abbrev main_v396 : Ref sig .tc := ⟨.hbm, 640, rfl⟩
abbrev main_v397 : Ref sig .tc := ⟨.hbm, 641, rfl⟩
abbrev main_cst_140 : Ref sig .tc := ⟨.hbm, 642, rfl⟩
abbrev main_v398 : Ref sig .tc := ⟨.hbm, 643, rfl⟩
abbrev main_v399 : Ref sig .tc := ⟨.hbm, 644, rfl⟩
abbrev main_v400 : Ref sig .tc := ⟨.hbm, 645, rfl⟩
abbrev main_v401 : Ref sig .tc := ⟨.hbm, 646, rfl⟩
abbrev main_v402 : Ref sig .tc := ⟨.hbm, 647, rfl⟩
abbrev main_cst_141 : Ref sig .tc := ⟨.hbm, 648, rfl⟩
abbrev main_v403 : Ref sig .tc := ⟨.hbm, 649, rfl⟩
abbrev main_v404 : Ref sig .tc := ⟨.hbm, 650, rfl⟩
abbrev main_cst_142 : Ref sig .tc := ⟨.hbm, 651, rfl⟩
abbrev main_v405 : Ref sig .tc := ⟨.hbm, 652, rfl⟩
abbrev main_v406 : Ref sig .tc := ⟨.hbm, 653, rfl⟩
abbrev main_v407 : Ref sig .tc := ⟨.hbm, 654, rfl⟩
abbrev main_cst_143 : Ref sig .tc := ⟨.hbm, 655, rfl⟩
abbrev main_v408 : Ref sig .tc := ⟨.hbm, 656, rfl⟩
abbrev main_v409 : Ref sig .tc := ⟨.hbm, 657, rfl⟩
abbrev main_v410 : Ref sig .tc := ⟨.hbm, 658, rfl⟩
abbrev main_v411 : Ref sig .tc := ⟨.hbm, 659, rfl⟩
abbrev main_cst_144 : Ref sig .tc := ⟨.hbm, 660, rfl⟩
abbrev main_cst_145 : Ref sig .tc := ⟨.hbm, 661, rfl⟩
abbrev main_call16_v0 : Ref sig .tc := ⟨.hbm, 662, rfl⟩
abbrev main_call16_v1 : Ref sig .tc := ⟨.hbm, 663, rfl⟩
abbrev main_call16_v2 : Ref sig .tc := ⟨.hbm, 664, rfl⟩
abbrev main_call16_v3 : Ref sig .tc := ⟨.hbm, 665, rfl⟩
abbrev main_call16_v4 : Ref sig .tc := ⟨.hbm, 666, rfl⟩
abbrev main_v412 : Ref sig .tc := ⟨.hbm, 667, rfl⟩
abbrev main_v413 : Ref sig .tc := ⟨.hbm, 668, rfl⟩
abbrev main_v414 : Ref sig .tc := ⟨.hbm, 669, rfl⟩
abbrev main_cst_146 : Ref sig .tc := ⟨.hbm, 670, rfl⟩
abbrev main_v415 : Ref sig .tc := ⟨.hbm, 671, rfl⟩
abbrev main_v416 : Ref sig .tc := ⟨.hbm, 672, rfl⟩
abbrev main_cst_147 : Ref sig .tc := ⟨.hbm, 673, rfl⟩
abbrev main_v417 : Ref sig .tc := ⟨.hbm, 674, rfl⟩
abbrev main_v418 : Ref sig .tc := ⟨.hbm, 675, rfl⟩
abbrev main_v419 : Ref sig .tc := ⟨.hbm, 676, rfl⟩
abbrev main_v420 : Ref sig .tc := ⟨.hbm, 677, rfl⟩
abbrev main_cst_148 : Ref sig .tc := ⟨.hbm, 678, rfl⟩
abbrev main_v421 : Ref sig .tc := ⟨.hbm, 679, rfl⟩
abbrev main_v422 : Ref sig .tc := ⟨.hbm, 680, rfl⟩
abbrev main_cst_149 : Ref sig .tc := ⟨.hbm, 681, rfl⟩
abbrev main_v423 : Ref sig .tc := ⟨.hbm, 682, rfl⟩
abbrev main_v424 : Ref sig .tc := ⟨.hbm, 683, rfl⟩
abbrev main_v425 : Ref sig .tc := ⟨.hbm, 684, rfl⟩
abbrev main_v426 : Ref sig .tc := ⟨.hbm, 685, rfl⟩
abbrev main_v427 : Ref sig .tc := ⟨.hbm, 686, rfl⟩
abbrev main_cst_150 : Ref sig .tc := ⟨.hbm, 687, rfl⟩
abbrev main_v428 : Ref sig .tc := ⟨.hbm, 688, rfl⟩
abbrev main_v429 : Ref sig .tc := ⟨.hbm, 689, rfl⟩
abbrev main_cst_151 : Ref sig .tc := ⟨.hbm, 690, rfl⟩
abbrev main_v430 : Ref sig .tc := ⟨.hbm, 691, rfl⟩
abbrev main_v431 : Ref sig .tc := ⟨.hbm, 692, rfl⟩
abbrev main_v432 : Ref sig .tc := ⟨.hbm, 693, rfl⟩
abbrev main_cst_152 : Ref sig .tc := ⟨.hbm, 694, rfl⟩
abbrev main_v433 : Ref sig .tc := ⟨.hbm, 695, rfl⟩
abbrev main_v434 : Ref sig .tc := ⟨.hbm, 696, rfl⟩
abbrev main_v435 : Ref sig .tc := ⟨.hbm, 697, rfl⟩
abbrev main_v436 : Ref sig .tc := ⟨.hbm, 698, rfl⟩
abbrev main_cst_153 : Ref sig .tc := ⟨.hbm, 699, rfl⟩
abbrev main_cst_154 : Ref sig .tc := ⟨.hbm, 700, rfl⟩
abbrev main_call17_v0 : Ref sig .tc := ⟨.hbm, 701, rfl⟩
abbrev main_call17_v1 : Ref sig .tc := ⟨.hbm, 702, rfl⟩
abbrev main_call17_v2 : Ref sig .tc := ⟨.hbm, 703, rfl⟩
abbrev main_call17_v3 : Ref sig .tc := ⟨.hbm, 704, rfl⟩
abbrev main_call17_v4 : Ref sig .tc := ⟨.hbm, 705, rfl⟩
abbrev main_v437 : Ref sig .tc := ⟨.hbm, 706, rfl⟩
abbrev main_v438 : Ref sig .tc := ⟨.hbm, 707, rfl⟩
abbrev main_v439 : Ref sig .tc := ⟨.hbm, 708, rfl⟩
abbrev main_cst_155 : Ref sig .tc := ⟨.hbm, 709, rfl⟩
abbrev main_v440 : Ref sig .tc := ⟨.hbm, 710, rfl⟩
abbrev main_v441 : Ref sig .tc := ⟨.hbm, 711, rfl⟩
abbrev main_cst_156 : Ref sig .tc := ⟨.hbm, 712, rfl⟩
abbrev main_v442 : Ref sig .tc := ⟨.hbm, 713, rfl⟩
abbrev main_v443 : Ref sig .tc := ⟨.hbm, 714, rfl⟩
abbrev main_v444 : Ref sig .tc := ⟨.hbm, 715, rfl⟩
abbrev main_v445 : Ref sig .tc := ⟨.hbm, 716, rfl⟩
abbrev main_cst_157 : Ref sig .tc := ⟨.hbm, 717, rfl⟩
abbrev main_v446 : Ref sig .tc := ⟨.hbm, 718, rfl⟩
abbrev main_v447 : Ref sig .tc := ⟨.hbm, 719, rfl⟩
abbrev main_cst_158 : Ref sig .tc := ⟨.hbm, 720, rfl⟩
abbrev main_v448 : Ref sig .tc := ⟨.hbm, 721, rfl⟩
abbrev main_v449 : Ref sig .tc := ⟨.hbm, 722, rfl⟩
abbrev main_v450 : Ref sig .tc := ⟨.hbm, 723, rfl⟩
abbrev main_v451 : Ref sig .tc := ⟨.hbm, 724, rfl⟩
abbrev main_v452 : Ref sig .tc := ⟨.hbm, 725, rfl⟩
abbrev main_cst_159 : Ref sig .tc := ⟨.hbm, 726, rfl⟩
abbrev main_v453 : Ref sig .tc := ⟨.hbm, 727, rfl⟩
abbrev main_v454 : Ref sig .tc := ⟨.hbm, 728, rfl⟩
abbrev main_cst_160 : Ref sig .tc := ⟨.hbm, 729, rfl⟩
abbrev main_v455 : Ref sig .tc := ⟨.hbm, 730, rfl⟩
abbrev main_v456 : Ref sig .tc := ⟨.hbm, 731, rfl⟩
abbrev main_v457 : Ref sig .tc := ⟨.hbm, 732, rfl⟩
abbrev main_cst_161 : Ref sig .tc := ⟨.hbm, 733, rfl⟩
abbrev main_v458 : Ref sig .tc := ⟨.hbm, 734, rfl⟩
abbrev main_v459 : Ref sig .tc := ⟨.hbm, 735, rfl⟩
abbrev main_v460 : Ref sig .tc := ⟨.hbm, 736, rfl⟩
abbrev main_v461 : Ref sig .tc := ⟨.hbm, 737, rfl⟩
abbrev main_cst_162 : Ref sig .tc := ⟨.hbm, 738, rfl⟩
abbrev main_cst_163 : Ref sig .tc := ⟨.hbm, 739, rfl⟩
abbrev main_call18_v0 : Ref sig .tc := ⟨.hbm, 740, rfl⟩
abbrev main_call18_v1 : Ref sig .tc := ⟨.hbm, 741, rfl⟩
abbrev main_call18_v2 : Ref sig .tc := ⟨.hbm, 742, rfl⟩
abbrev main_call18_v3 : Ref sig .tc := ⟨.hbm, 743, rfl⟩
abbrev main_call18_v4 : Ref sig .tc := ⟨.hbm, 744, rfl⟩
abbrev main_v462 : Ref sig .tc := ⟨.hbm, 745, rfl⟩
abbrev main_v463 : Ref sig .tc := ⟨.hbm, 746, rfl⟩
abbrev main_v464 : Ref sig .tc := ⟨.hbm, 747, rfl⟩
abbrev main_cst_164 : Ref sig .tc := ⟨.hbm, 748, rfl⟩
abbrev main_v465 : Ref sig .tc := ⟨.hbm, 749, rfl⟩
abbrev main_v466 : Ref sig .tc := ⟨.hbm, 750, rfl⟩
abbrev main_cst_165 : Ref sig .tc := ⟨.hbm, 751, rfl⟩
abbrev main_v467 : Ref sig .tc := ⟨.hbm, 752, rfl⟩
abbrev main_v468 : Ref sig .tc := ⟨.hbm, 753, rfl⟩
abbrev main_v469 : Ref sig .tc := ⟨.hbm, 754, rfl⟩
abbrev main_v470 : Ref sig .tc := ⟨.hbm, 755, rfl⟩
abbrev main_cst_166 : Ref sig .tc := ⟨.hbm, 756, rfl⟩
abbrev main_v471 : Ref sig .tc := ⟨.hbm, 757, rfl⟩
abbrev main_v472 : Ref sig .tc := ⟨.hbm, 758, rfl⟩
abbrev main_cst_167 : Ref sig .tc := ⟨.hbm, 759, rfl⟩
abbrev main_v473 : Ref sig .tc := ⟨.hbm, 760, rfl⟩
abbrev main_v474 : Ref sig .tc := ⟨.hbm, 761, rfl⟩
abbrev main_v475 : Ref sig .tc := ⟨.hbm, 762, rfl⟩
abbrev main_v476 : Ref sig .tc := ⟨.hbm, 763, rfl⟩
abbrev main_v477 : Ref sig .tc := ⟨.hbm, 764, rfl⟩
abbrev main_cst_168 : Ref sig .tc := ⟨.hbm, 765, rfl⟩
abbrev main_v478 : Ref sig .tc := ⟨.hbm, 766, rfl⟩
abbrev main_v479 : Ref sig .tc := ⟨.hbm, 767, rfl⟩
abbrev main_cst_169 : Ref sig .tc := ⟨.hbm, 768, rfl⟩
abbrev main_v480 : Ref sig .tc := ⟨.hbm, 769, rfl⟩
abbrev main_v481 : Ref sig .tc := ⟨.hbm, 770, rfl⟩
abbrev main_v482 : Ref sig .tc := ⟨.hbm, 771, rfl⟩
abbrev main_cst_170 : Ref sig .tc := ⟨.hbm, 772, rfl⟩
abbrev main_v483 : Ref sig .tc := ⟨.hbm, 773, rfl⟩
abbrev main_v484 : Ref sig .tc := ⟨.hbm, 774, rfl⟩
abbrev main_v485 : Ref sig .tc := ⟨.hbm, 775, rfl⟩
abbrev main_v486 : Ref sig .tc := ⟨.hbm, 776, rfl⟩
abbrev main_cst_171 : Ref sig .tc := ⟨.hbm, 777, rfl⟩
abbrev main_cst_172 : Ref sig .tc := ⟨.hbm, 778, rfl⟩
abbrev main_call19_v0 : Ref sig .tc := ⟨.hbm, 779, rfl⟩
abbrev main_call19_v1 : Ref sig .tc := ⟨.hbm, 780, rfl⟩
abbrev main_call19_v2 : Ref sig .tc := ⟨.hbm, 781, rfl⟩
abbrev main_call19_v3 : Ref sig .tc := ⟨.hbm, 782, rfl⟩
abbrev main_call19_v4 : Ref sig .tc := ⟨.hbm, 783, rfl⟩
abbrev main_v487 : Ref sig .tc := ⟨.hbm, 784, rfl⟩
abbrev main_v488 : Ref sig .tc := ⟨.hbm, 785, rfl⟩
abbrev main_v489 : Ref sig .tc := ⟨.hbm, 786, rfl⟩
abbrev main_cst_173 : Ref sig .tc := ⟨.hbm, 787, rfl⟩
abbrev main_v490 : Ref sig .tc := ⟨.hbm, 788, rfl⟩
abbrev main_v491 : Ref sig .tc := ⟨.hbm, 789, rfl⟩
abbrev main_cst_174 : Ref sig .tc := ⟨.hbm, 790, rfl⟩
abbrev main_v492 : Ref sig .tc := ⟨.hbm, 791, rfl⟩
abbrev main_v493 : Ref sig .tc := ⟨.hbm, 792, rfl⟩
abbrev main_v494 : Ref sig .tc := ⟨.hbm, 793, rfl⟩
abbrev main_v495 : Ref sig .tc := ⟨.hbm, 794, rfl⟩
abbrev main_cst_175 : Ref sig .tc := ⟨.hbm, 795, rfl⟩
abbrev main_v496 : Ref sig .tc := ⟨.hbm, 796, rfl⟩
abbrev main_v497 : Ref sig .tc := ⟨.hbm, 797, rfl⟩
abbrev main_cst_176 : Ref sig .tc := ⟨.hbm, 798, rfl⟩
abbrev main_v498 : Ref sig .tc := ⟨.hbm, 799, rfl⟩
abbrev main_v499 : Ref sig .tc := ⟨.hbm, 800, rfl⟩
abbrev main_v500 : Ref sig .tc := ⟨.hbm, 801, rfl⟩
abbrev main_v501 : Ref sig .tc := ⟨.hbm, 802, rfl⟩
abbrev main_v502 : Ref sig .tc := ⟨.hbm, 803, rfl⟩
abbrev main_cst_177 : Ref sig .tc := ⟨.hbm, 804, rfl⟩
abbrev main_v503 : Ref sig .tc := ⟨.hbm, 805, rfl⟩
abbrev main_v504 : Ref sig .tc := ⟨.hbm, 806, rfl⟩
abbrev main_cst_178 : Ref sig .tc := ⟨.hbm, 807, rfl⟩
abbrev main_v505 : Ref sig .tc := ⟨.hbm, 808, rfl⟩
abbrev main_v506 : Ref sig .tc := ⟨.hbm, 809, rfl⟩
abbrev main_v507 : Ref sig .tc := ⟨.hbm, 810, rfl⟩
abbrev main_cst_179 : Ref sig .tc := ⟨.hbm, 811, rfl⟩
abbrev main_v508 : Ref sig .tc := ⟨.hbm, 812, rfl⟩
abbrev main_v509 : Ref sig .tc := ⟨.hbm, 813, rfl⟩
abbrev main_v510 : Ref sig .tc := ⟨.hbm, 814, rfl⟩
abbrev main_v511 : Ref sig .tc := ⟨.hbm, 815, rfl⟩
abbrev main_cst_180 : Ref sig .tc := ⟨.hbm, 816, rfl⟩
abbrev main_cst_181 : Ref sig .tc := ⟨.hbm, 817, rfl⟩
abbrev main_call20_v0 : Ref sig .tc := ⟨.hbm, 818, rfl⟩
abbrev main_call20_v1 : Ref sig .tc := ⟨.hbm, 819, rfl⟩
abbrev main_call20_v2 : Ref sig .tc := ⟨.hbm, 820, rfl⟩
abbrev main_call20_v3 : Ref sig .tc := ⟨.hbm, 821, rfl⟩
abbrev main_call20_v4 : Ref sig .tc := ⟨.hbm, 822, rfl⟩
abbrev main_v512 : Ref sig .tc := ⟨.hbm, 823, rfl⟩
abbrev main_v513 : Ref sig .tc := ⟨.hbm, 824, rfl⟩
abbrev main_v514 : Ref sig .tc := ⟨.hbm, 825, rfl⟩
abbrev main_cst_182 : Ref sig .tc := ⟨.hbm, 826, rfl⟩
abbrev main_v515 : Ref sig .tc := ⟨.hbm, 827, rfl⟩
abbrev main_v516 : Ref sig .tc := ⟨.hbm, 828, rfl⟩
abbrev main_cst_183 : Ref sig .tc := ⟨.hbm, 829, rfl⟩
abbrev main_v517 : Ref sig .tc := ⟨.hbm, 830, rfl⟩
abbrev main_v518 : Ref sig .tc := ⟨.hbm, 831, rfl⟩
abbrev main_v519 : Ref sig .tc := ⟨.hbm, 832, rfl⟩
abbrev main_v520 : Ref sig .tc := ⟨.hbm, 833, rfl⟩
abbrev main_cst_184 : Ref sig .tc := ⟨.hbm, 834, rfl⟩
abbrev main_v521 : Ref sig .tc := ⟨.hbm, 835, rfl⟩
abbrev main_v522 : Ref sig .tc := ⟨.hbm, 836, rfl⟩
abbrev main_cst_185 : Ref sig .tc := ⟨.hbm, 837, rfl⟩
abbrev main_v523 : Ref sig .tc := ⟨.hbm, 838, rfl⟩
abbrev main_v524 : Ref sig .tc := ⟨.hbm, 839, rfl⟩
abbrev main_v525 : Ref sig .tc := ⟨.hbm, 840, rfl⟩
abbrev main_v526 : Ref sig .tc := ⟨.hbm, 841, rfl⟩
abbrev main_v527 : Ref sig .tc := ⟨.hbm, 842, rfl⟩
abbrev main_cst_186 : Ref sig .tc := ⟨.hbm, 843, rfl⟩
abbrev main_v528 : Ref sig .tc := ⟨.hbm, 844, rfl⟩
abbrev main_v529 : Ref sig .tc := ⟨.hbm, 845, rfl⟩
abbrev main_cst_187 : Ref sig .tc := ⟨.hbm, 846, rfl⟩
abbrev main_v530 : Ref sig .tc := ⟨.hbm, 847, rfl⟩
abbrev main_v531 : Ref sig .tc := ⟨.hbm, 848, rfl⟩
abbrev main_v532 : Ref sig .tc := ⟨.hbm, 849, rfl⟩
abbrev main_cst_188 : Ref sig .tc := ⟨.hbm, 850, rfl⟩
abbrev main_v533 : Ref sig .tc := ⟨.hbm, 851, rfl⟩
abbrev main_v534 : Ref sig .tc := ⟨.hbm, 852, rfl⟩
abbrev main_v535 : Ref sig .tc := ⟨.hbm, 853, rfl⟩
abbrev main_v536 : Ref sig .tc := ⟨.hbm, 854, rfl⟩
abbrev main_cst_189 : Ref sig .tc := ⟨.hbm, 855, rfl⟩
abbrev main_cst_190 : Ref sig .tc := ⟨.hbm, 856, rfl⟩
abbrev main_call21_v0 : Ref sig .tc := ⟨.hbm, 857, rfl⟩
abbrev main_call21_v1 : Ref sig .tc := ⟨.hbm, 858, rfl⟩
abbrev main_call21_v2 : Ref sig .tc := ⟨.hbm, 859, rfl⟩
abbrev main_call21_v3 : Ref sig .tc := ⟨.hbm, 860, rfl⟩
abbrev main_call21_v4 : Ref sig .tc := ⟨.hbm, 861, rfl⟩
abbrev main_v537 : Ref sig .tc := ⟨.hbm, 862, rfl⟩
abbrev main_v538 : Ref sig .tc := ⟨.hbm, 863, rfl⟩
abbrev main_v539 : Ref sig .tc := ⟨.hbm, 864, rfl⟩
abbrev main_cst_191 : Ref sig .tc := ⟨.hbm, 865, rfl⟩
abbrev main_v540 : Ref sig .tc := ⟨.hbm, 866, rfl⟩
abbrev main_v541 : Ref sig .tc := ⟨.hbm, 867, rfl⟩
abbrev main_cst_192 : Ref sig .tc := ⟨.hbm, 868, rfl⟩
abbrev main_v542 : Ref sig .tc := ⟨.hbm, 869, rfl⟩
abbrev main_v543 : Ref sig .tc := ⟨.hbm, 870, rfl⟩
abbrev main_v544 : Ref sig .tc := ⟨.hbm, 871, rfl⟩
abbrev main_v545 : Ref sig .tc := ⟨.hbm, 872, rfl⟩
abbrev main_cst_193 : Ref sig .tc := ⟨.hbm, 873, rfl⟩
abbrev main_v546 : Ref sig .tc := ⟨.hbm, 874, rfl⟩
abbrev main_v547 : Ref sig .tc := ⟨.hbm, 875, rfl⟩
abbrev main_cst_194 : Ref sig .tc := ⟨.hbm, 876, rfl⟩
abbrev main_v548 : Ref sig .tc := ⟨.hbm, 877, rfl⟩
abbrev main_v549 : Ref sig .tc := ⟨.hbm, 878, rfl⟩
abbrev main_v550 : Ref sig .tc := ⟨.hbm, 879, rfl⟩
abbrev main_v551 : Ref sig .tc := ⟨.hbm, 880, rfl⟩
abbrev main_v552 : Ref sig .tc := ⟨.hbm, 881, rfl⟩
abbrev main_cst_195 : Ref sig .tc := ⟨.hbm, 882, rfl⟩
abbrev main_v553 : Ref sig .tc := ⟨.hbm, 883, rfl⟩
abbrev main_v554 : Ref sig .tc := ⟨.hbm, 884, rfl⟩
abbrev main_cst_196 : Ref sig .tc := ⟨.hbm, 885, rfl⟩
abbrev main_v555 : Ref sig .tc := ⟨.hbm, 886, rfl⟩
abbrev main_v556 : Ref sig .tc := ⟨.hbm, 887, rfl⟩
abbrev main_v557 : Ref sig .tc := ⟨.hbm, 888, rfl⟩
abbrev main_cst_197 : Ref sig .tc := ⟨.hbm, 889, rfl⟩
abbrev main_v558 : Ref sig .tc := ⟨.hbm, 890, rfl⟩
abbrev main_v559 : Ref sig .tc := ⟨.hbm, 891, rfl⟩
abbrev main_v560 : Ref sig .tc := ⟨.hbm, 892, rfl⟩
abbrev main_v561 : Ref sig .tc := ⟨.hbm, 893, rfl⟩
abbrev main_cst_198 : Ref sig .tc := ⟨.hbm, 894, rfl⟩
abbrev main_cst_199 : Ref sig .tc := ⟨.hbm, 895, rfl⟩
abbrev main_call22_v0 : Ref sig .tc := ⟨.hbm, 896, rfl⟩
abbrev main_call22_v1 : Ref sig .tc := ⟨.hbm, 897, rfl⟩
abbrev main_call22_v2 : Ref sig .tc := ⟨.hbm, 898, rfl⟩
abbrev main_call22_v3 : Ref sig .tc := ⟨.hbm, 899, rfl⟩
abbrev main_call22_v4 : Ref sig .tc := ⟨.hbm, 900, rfl⟩
abbrev main_v562 : Ref sig .tc := ⟨.hbm, 901, rfl⟩
abbrev main_v563 : Ref sig .tc := ⟨.hbm, 902, rfl⟩
abbrev main_v564 : Ref sig .tc := ⟨.hbm, 903, rfl⟩
abbrev main_cst_200 : Ref sig .tc := ⟨.hbm, 904, rfl⟩
abbrev main_v565 : Ref sig .tc := ⟨.hbm, 905, rfl⟩
abbrev main_v566 : Ref sig .tc := ⟨.hbm, 906, rfl⟩
abbrev main_cst_201 : Ref sig .tc := ⟨.hbm, 907, rfl⟩
abbrev main_v567 : Ref sig .tc := ⟨.hbm, 908, rfl⟩
abbrev main_v568 : Ref sig .tc := ⟨.hbm, 909, rfl⟩
abbrev main_v569 : Ref sig .tc := ⟨.hbm, 910, rfl⟩
abbrev main_v570 : Ref sig .tc := ⟨.hbm, 911, rfl⟩
abbrev main_cst_202 : Ref sig .tc := ⟨.hbm, 912, rfl⟩
abbrev main_v571 : Ref sig .tc := ⟨.hbm, 913, rfl⟩
abbrev main_v572 : Ref sig .tc := ⟨.hbm, 914, rfl⟩
abbrev main_cst_203 : Ref sig .tc := ⟨.hbm, 915, rfl⟩
abbrev main_v573 : Ref sig .tc := ⟨.hbm, 916, rfl⟩
abbrev main_v574 : Ref sig .tc := ⟨.hbm, 917, rfl⟩
abbrev main_v575 : Ref sig .tc := ⟨.hbm, 918, rfl⟩
abbrev main_v576 : Ref sig .tc := ⟨.hbm, 919, rfl⟩
abbrev main_v577 : Ref sig .tc := ⟨.hbm, 920, rfl⟩
abbrev main_cst_204 : Ref sig .tc := ⟨.hbm, 921, rfl⟩
abbrev main_v578 : Ref sig .tc := ⟨.hbm, 922, rfl⟩
abbrev main_v579 : Ref sig .tc := ⟨.hbm, 923, rfl⟩
abbrev main_cst_205 : Ref sig .tc := ⟨.hbm, 924, rfl⟩
abbrev main_v580 : Ref sig .tc := ⟨.hbm, 925, rfl⟩
abbrev main_v581 : Ref sig .tc := ⟨.hbm, 926, rfl⟩
abbrev main_v582 : Ref sig .tc := ⟨.hbm, 927, rfl⟩
abbrev main_cst_206 : Ref sig .tc := ⟨.hbm, 928, rfl⟩
abbrev main_v583 : Ref sig .tc := ⟨.hbm, 929, rfl⟩
abbrev main_v584 : Ref sig .tc := ⟨.hbm, 930, rfl⟩
abbrev main_v585 : Ref sig .tc := ⟨.hbm, 931, rfl⟩
abbrev main_v586 : Ref sig .tc := ⟨.hbm, 932, rfl⟩
abbrev main_cst_207 : Ref sig .tc := ⟨.hbm, 933, rfl⟩
abbrev main_cst_208 : Ref sig .tc := ⟨.hbm, 934, rfl⟩
abbrev main_call23_v0 : Ref sig .tc := ⟨.hbm, 935, rfl⟩
abbrev main_call23_v1 : Ref sig .tc := ⟨.hbm, 936, rfl⟩
abbrev main_call23_v2 : Ref sig .tc := ⟨.hbm, 937, rfl⟩
abbrev main_call23_v3 : Ref sig .tc := ⟨.hbm, 938, rfl⟩
abbrev main_call23_v4 : Ref sig .tc := ⟨.hbm, 939, rfl⟩
abbrev main_v587 : Ref sig .tc := ⟨.hbm, 940, rfl⟩
abbrev main_v588 : Ref sig .tc := ⟨.hbm, 941, rfl⟩
abbrev main_v589 : Ref sig .tc := ⟨.hbm, 942, rfl⟩
abbrev main_cst_209 : Ref sig .tc := ⟨.hbm, 943, rfl⟩
abbrev main_v590 : Ref sig .tc := ⟨.hbm, 944, rfl⟩
abbrev main_v591 : Ref sig .tc := ⟨.hbm, 945, rfl⟩
abbrev main_cst_210 : Ref sig .tc := ⟨.hbm, 946, rfl⟩
abbrev main_v592 : Ref sig .tc := ⟨.hbm, 947, rfl⟩
abbrev main_v593 : Ref sig .tc := ⟨.hbm, 948, rfl⟩
abbrev main_v594 : Ref sig .tc := ⟨.hbm, 949, rfl⟩
abbrev main_v595 : Ref sig .tc := ⟨.hbm, 950, rfl⟩
abbrev main_cst_211 : Ref sig .tc := ⟨.hbm, 951, rfl⟩
abbrev main_v596 : Ref sig .tc := ⟨.hbm, 952, rfl⟩
abbrev main_v597 : Ref sig .tc := ⟨.hbm, 953, rfl⟩
abbrev main_cst_212 : Ref sig .tc := ⟨.hbm, 954, rfl⟩
abbrev main_v598 : Ref sig .tc := ⟨.hbm, 955, rfl⟩
abbrev main_v599 : Ref sig .tc := ⟨.hbm, 956, rfl⟩
abbrev main_v600 : Ref sig .tc := ⟨.hbm, 957, rfl⟩
abbrev main_v601 : Ref sig .tc := ⟨.hbm, 958, rfl⟩
abbrev main_v602 : Ref sig .tc := ⟨.hbm, 959, rfl⟩
abbrev main_cst_213 : Ref sig .tc := ⟨.hbm, 960, rfl⟩
abbrev main_v603 : Ref sig .tc := ⟨.hbm, 961, rfl⟩
abbrev main_v604 : Ref sig .tc := ⟨.hbm, 962, rfl⟩
abbrev main_cst_214 : Ref sig .tc := ⟨.hbm, 963, rfl⟩
abbrev main_v605 : Ref sig .tc := ⟨.hbm, 964, rfl⟩
abbrev main_v606 : Ref sig .tc := ⟨.hbm, 965, rfl⟩
abbrev main_v607 : Ref sig .tc := ⟨.hbm, 966, rfl⟩
abbrev main_cst_215 : Ref sig .tc := ⟨.hbm, 967, rfl⟩
abbrev main_v608 : Ref sig .tc := ⟨.hbm, 968, rfl⟩
abbrev main_v609 : Ref sig .tc := ⟨.hbm, 969, rfl⟩
abbrev main_v610 : Ref sig .tc := ⟨.hbm, 970, rfl⟩
abbrev main_v611 : Ref sig .tc := ⟨.hbm, 971, rfl⟩
abbrev main_cst_216 : Ref sig .tc := ⟨.hbm, 972, rfl⟩
abbrev main_cst_217 : Ref sig .tc := ⟨.hbm, 973, rfl⟩
abbrev main_call24_v0 : Ref sig .tc := ⟨.hbm, 974, rfl⟩
abbrev main_call24_v1 : Ref sig .tc := ⟨.hbm, 975, rfl⟩
abbrev main_call24_v2 : Ref sig .tc := ⟨.hbm, 976, rfl⟩
abbrev main_call24_v3 : Ref sig .tc := ⟨.hbm, 977, rfl⟩
abbrev main_call24_v4 : Ref sig .tc := ⟨.hbm, 978, rfl⟩
abbrev main_v612 : Ref sig .tc := ⟨.hbm, 979, rfl⟩
abbrev main_v613 : Ref sig .tc := ⟨.hbm, 980, rfl⟩
abbrev main_v614 : Ref sig .tc := ⟨.hbm, 981, rfl⟩
abbrev main_v615 : Ref sig .tc := ⟨.hbm, 982, rfl⟩
abbrev main_v616 : Ref sig .tc := ⟨.hbm, 983, rfl⟩
abbrev main_v617 : Ref sig .tc := ⟨.hbm, 984, rfl⟩
abbrev main_v618 : Ref sig .tc := ⟨.hbm, 985, rfl⟩
abbrev main_v619 : Ref sig .tc := ⟨.hbm, 986, rfl⟩
abbrev main_v620 : Ref sig .tc := ⟨.hbm, 987, rfl⟩
abbrev main_v621 : Ref sig .tc := ⟨.hbm, 988, rfl⟩
abbrev main_v622 : Ref sig .tc := ⟨.hbm, 989, rfl⟩
abbrev main_v623 : Ref sig .tc := ⟨.hbm, 990, rfl⟩
abbrev main_v624 : Ref sig .tc := ⟨.hbm, 991, rfl⟩
abbrev main_v625 : Ref sig .tc := ⟨.hbm, 992, rfl⟩
abbrev main_v626 : Ref sig .tc := ⟨.hbm, 993, rfl⟩
abbrev main_v627 : Ref sig .tc := ⟨.hbm, 994, rfl⟩
abbrev main_v628 : Ref sig .tc := ⟨.hbm, 995, rfl⟩
abbrev main_v629 : Ref sig .tc := ⟨.hbm, 996, rfl⟩
abbrev main_v630 : Ref sig .tc := ⟨.hbm, 997, rfl⟩
abbrev main_v631 : Ref sig .tc := ⟨.hbm, 998, rfl⟩
abbrev main_v632 : Ref sig .tc := ⟨.hbm, 999, rfl⟩
abbrev main_v633 : Ref sig .tc := ⟨.hbm, 1000, rfl⟩
abbrev main_v634 : Ref sig .tc := ⟨.hbm, 1001, rfl⟩
abbrev main_v635 : Ref sig .tc := ⟨.hbm, 1002, rfl⟩
abbrev main_v636 : Ref sig .tc := ⟨.hbm, 1003, rfl⟩
abbrev main_v637 : Ref sig .tc := ⟨.hbm, 1004, rfl⟩
abbrev main_v638 : Ref sig .tc := ⟨.hbm, 1005, rfl⟩
abbrev main_v639 : Ref sig .tc := ⟨.hbm, 1006, rfl⟩
abbrev main_cst_218 : Ref sig .tc := ⟨.hbm, 1007, rfl⟩
abbrev main_v640 : Ref sig .tc := ⟨.hbm, 1008, rfl⟩
abbrev main_cst_219 : Ref sig .tc := ⟨.hbm, 1009, rfl⟩
abbrev main_v641 : Ref sig .tc := ⟨.hbm, 1010, rfl⟩
abbrev main_v642 : Ref sig .tc := ⟨.hbm, 1011, rfl⟩
abbrev main_v643 : Ref sig .tc := ⟨.hbm, 1012, rfl⟩
abbrev main_v644 : Ref sig .tc := ⟨.hbm, 1013, rfl⟩
abbrev main_v645 : Ref sig .tc := ⟨.hbm, 1014, rfl⟩
abbrev main_cst_220 : Ref sig .tc := ⟨.hbm, 1015, rfl⟩
abbrev main_v646 : Ref sig .tc := ⟨.hbm, 1016, rfl⟩
abbrev main_v647 : Ref sig .tc := ⟨.hbm, 1017, rfl⟩
abbrev main_v648 : Ref sig .tc := ⟨.hbm, 1018, rfl⟩
abbrev main_v649 : Ref sig .tc := ⟨.hbm, 1019, rfl⟩
abbrev main_v650 : Ref sig .tc := ⟨.hbm, 1020, rfl⟩
abbrev main_v651 : Ref sig .tc := ⟨.hbm, 1021, rfl⟩
abbrev main_v652 : Ref sig .tc := ⟨.hbm, 1022, rfl⟩
abbrev main_cst_221 : Ref sig .tc := ⟨.hbm, 1023, rfl⟩
abbrev main_v653 : Ref sig .tc := ⟨.hbm, 1024, rfl⟩
abbrev main_cst_222 : Ref sig .tc := ⟨.hbm, 1025, rfl⟩
abbrev main_v654 : Ref sig .tc := ⟨.hbm, 1026, rfl⟩
abbrev main_v655 : Ref sig .tc := ⟨.hbm, 1027, rfl⟩
abbrev main_v656 : Ref sig .tc := ⟨.hbm, 1028, rfl⟩
abbrev main_v657 : Ref sig .tc := ⟨.hbm, 1029, rfl⟩
abbrev main_v658 : Ref sig .tc := ⟨.hbm, 1030, rfl⟩
abbrev main_v659 : Ref sig .tc := ⟨.hbm, 1031, rfl⟩
abbrev main_v660 : Ref sig .tc := ⟨.hbm, 1032, rfl⟩
abbrev main_v661 : Ref sig .tc := ⟨.hbm, 1033, rfl⟩
abbrev main_v662 : Ref sig .tc := ⟨.hbm, 1034, rfl⟩
abbrev main_v663 : Ref sig .tc := ⟨.hbm, 1035, rfl⟩
abbrev main_v664 : Ref sig .tc := ⟨.hbm, 1036, rfl⟩
abbrev main_v665 : Ref sig .tc := ⟨.hbm, 1037, rfl⟩
abbrev main_v666 : Ref sig .tc := ⟨.hbm, 1038, rfl⟩
abbrev main_v667 : Ref sig .tc := ⟨.hbm, 1039, rfl⟩
abbrev main_v668 : Ref sig .tc := ⟨.hbm, 1040, rfl⟩
abbrev main_v669 : Ref sig .tc := ⟨.hbm, 1041, rfl⟩
abbrev main_cst_223 : Ref sig .tc := ⟨.hbm, 1042, rfl⟩
abbrev main_v670 : Ref sig .tc := ⟨.hbm, 1043, rfl⟩
abbrev main_cst_224 : Ref sig .tc := ⟨.hbm, 1044, rfl⟩
abbrev main_v671 : Ref sig .tc := ⟨.hbm, 1045, rfl⟩

abbrev nD : Nat := 1
abbrev τ : Topo := Topo.v7x

variable {F : FTy → Type} [FloatOps F]

class Facts₀ : Prop where
  slices_S128x8192x8_S128x8192x1_0_0_0 : S128x8192x8.Slices ![0, 0, 0] S128x8192x1
  shapeCasts_S128x8192x1_S128x8192 : S128x8192x1.ShapeCasts S128x8192
  reducesTo_S128x8192_S128_d1 : S128x8192.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x8192_0_1 : S128x1.BroadcastsInDim S128x8192 (![0, 1] : Fin 2 → Fin S128x8192.rank)
  slices_S128x8192_S128x8191_0_0 : S128x8192.Slices ![0, 0] S128x8191
  slices_S128x8192_S128x8191_0_1 : S128x8192.Slices ![0, 1] S128x8191
  reducesTo_S128x8191_S128_d1 : S128x8191.ReducesTo [1] S128
  bcast_S128x1_S128x8191_0_1 : S128x1.BroadcastsInDim S128x8191 (![0, 1] : Fin 2 → Fin S128x8191.rank)
  bcast_S_S128 : S_.BroadcastsInDim S128 (![] : Fin 0 → Fin S128.rank)
  slices_S128x8192_S128x8190_0_0 : S128x8192.Slices ![0, 0] S128x8190
  slices_S128x8192_S128x8190_0_2 : S128x8192.Slices ![0, 2] S128x8190
  reducesTo_S128x8190_S128_d1 : S128x8190.ReducesTo [1] S128
  bcast_S128x1_S128x8190_0_1 : S128x1.BroadcastsInDim S128x8190 (![0, 1] : Fin 2 → Fin S128x8190.rank)
  slices_S128x8192_S128x8189_0_0 : S128x8192.Slices ![0, 0] S128x8189
  slices_S128x8192_S128x8189_0_3 : S128x8192.Slices ![0, 3] S128x8189
  reducesTo_S128x8189_S128_d1 : S128x8189.ReducesTo [1] S128
  bcast_S128x1_S128x8189_0_1 : S128x1.BroadcastsInDim S128x8189 (![0, 1] : Fin 2 → Fin S128x8189.rank)
  slices_S128x8192_S128x8188_0_0 : S128x8192.Slices ![0, 0] S128x8188
  slices_S128x8192_S128x8188_0_4 : S128x8192.Slices ![0, 4] S128x8188
  reducesTo_S128x8188_S128_d1 : S128x8188.ReducesTo [1] S128
  bcast_S128x1_S128x8188_0_1 : S128x1.BroadcastsInDim S128x8188 (![0, 1] : Fin 2 → Fin S128x8188.rank)
  slices_S128x8192_S128x8187_0_0 : S128x8192.Slices ![0, 0] S128x8187
  slices_S128x8192_S128x8187_0_5 : S128x8192.Slices ![0, 5] S128x8187
  reducesTo_S128x8187_S128_d1 : S128x8187.ReducesTo [1] S128
  bcast_S128x1_S128x8187_0_1 : S128x1.BroadcastsInDim S128x8187 (![0, 1] : Fin 2 → Fin S128x8187.rank)
  slices_S128x8192_S128x8186_0_0 : S128x8192.Slices ![0, 0] S128x8186
  slices_S128x8192_S128x8186_0_6 : S128x8192.Slices ![0, 6] S128x8186
  reducesTo_S128x8186_S128_d1 : S128x8186.ReducesTo [1] S128
  bcast_S128x1_S128x8186_0_1 : S128x1.BroadcastsInDim S128x8186 (![0, 1] : Fin 2 → Fin S128x8186.rank)
  slices_S128x8192_S128x8185_0_0 : S128x8192.Slices ![0, 0] S128x8185
  slices_S128x8192_S128x8185_0_7 : S128x8192.Slices ![0, 7] S128x8185
  reducesTo_S128x8185_S128_d1 : S128x8185.ReducesTo [1] S128
  bcast_S128x1_S128x8185_0_1 : S128x1.BroadcastsInDim S128x8185 (![0, 1] : Fin 2 → Fin S128x8185.rank)
  slices_S128x8192_S128x8184_0_0 : S128x8192.Slices ![0, 0] S128x8184
  slices_S128x8192_S128x8184_0_8 : S128x8192.Slices ![0, 8] S128x8184
  reducesTo_S128x8184_S128_d1 : S128x8184.ReducesTo [1] S128
  bcast_S128x1_S128x8184_0_1 : S128x1.BroadcastsInDim S128x8184 (![0, 1] : Fin 2 → Fin S128x8184.rank)
  slices_S128x8192_S128x8183_0_0 : S128x8192.Slices ![0, 0] S128x8183
  slices_S128x8192_S128x8183_0_9 : S128x8192.Slices ![0, 9] S128x8183
  reducesTo_S128x8183_S128_d1 : S128x8183.ReducesTo [1] S128
  bcast_S128x1_S128x8183_0_1 : S128x1.BroadcastsInDim S128x8183 (![0, 1] : Fin 2 → Fin S128x8183.rank)
  slices_S128x8192_S128x8182_0_0 : S128x8192.Slices ![0, 0] S128x8182
  slices_S128x8192_S128x8182_0_10 : S128x8192.Slices ![0, 10] S128x8182
  reducesTo_S128x8182_S128_d1 : S128x8182.ReducesTo [1] S128
  bcast_S128x1_S128x8182_0_1 : S128x1.BroadcastsInDim S128x8182 (![0, 1] : Fin 2 → Fin S128x8182.rank)
  slices_S128x8192_S128x8181_0_0 : S128x8192.Slices ![0, 0] S128x8181
  slices_S128x8192_S128x8181_0_11 : S128x8192.Slices ![0, 11] S128x8181
  reducesTo_S128x8181_S128_d1 : S128x8181.ReducesTo [1] S128
  bcast_S128x1_S128x8181_0_1 : S128x1.BroadcastsInDim S128x8181 (![0, 1] : Fin 2 → Fin S128x8181.rank)
  slices_S128x8192_S128x8180_0_0 : S128x8192.Slices ![0, 0] S128x8180
  slices_S128x8192_S128x8180_0_12 : S128x8192.Slices ![0, 12] S128x8180
  reducesTo_S128x8180_S128_d1 : S128x8180.ReducesTo [1] S128
  bcast_S128x1_S128x8180_0_1 : S128x1.BroadcastsInDim S128x8180 (![0, 1] : Fin 2 → Fin S128x8180.rank)
  slices_S128x8192_S128x8179_0_0 : S128x8192.Slices ![0, 0] S128x8179
  slices_S128x8192_S128x8179_0_13 : S128x8192.Slices ![0, 13] S128x8179
  reducesTo_S128x8179_S128_d1 : S128x8179.ReducesTo [1] S128
  bcast_S128x1_S128x8179_0_1 : S128x1.BroadcastsInDim S128x8179 (![0, 1] : Fin 2 → Fin S128x8179.rank)
  slices_S128x8192_S128x8178_0_0 : S128x8192.Slices ![0, 0] S128x8178
  slices_S128x8192_S128x8178_0_14 : S128x8192.Slices ![0, 14] S128x8178
  reducesTo_S128x8178_S128_d1 : S128x8178.ReducesTo [1] S128
  bcast_S128x1_S128x8178_0_1 : S128x1.BroadcastsInDim S128x8178 (![0, 1] : Fin 2 → Fin S128x8178.rank)
  slices_S128x8192_S128x8177_0_0 : S128x8192.Slices ![0, 0] S128x8177
  slices_S128x8192_S128x8177_0_15 : S128x8192.Slices ![0, 15] S128x8177
  reducesTo_S128x8177_S128_d1 : S128x8177.ReducesTo [1] S128
  bcast_S128x1_S128x8177_0_1 : S128x1.BroadcastsInDim S128x8177 (![0, 1] : Fin 2 → Fin S128x8177.rank)
  slices_S128x8192_S128x8176_0_0 : S128x8192.Slices ![0, 0] S128x8176
  slices_S128x8192_S128x8176_0_16 : S128x8192.Slices ![0, 16] S128x8176
  reducesTo_S128x8176_S128_d1 : S128x8176.ReducesTo [1] S128
  bcast_S128x1_S128x8176_0_1 : S128x1.BroadcastsInDim S128x8176 (![0, 1] : Fin 2 → Fin S128x8176.rank)
  slices_S128x8192_S128x8175_0_0 : S128x8192.Slices ![0, 0] S128x8175
  slices_S128x8192_S128x8175_0_17 : S128x8192.Slices ![0, 17] S128x8175
  reducesTo_S128x8175_S128_d1 : S128x8175.ReducesTo [1] S128
  bcast_S128x1_S128x8175_0_1 : S128x1.BroadcastsInDim S128x8175 (![0, 1] : Fin 2 → Fin S128x8175.rank)
  slices_S128x8192_S128x8174_0_0 : S128x8192.Slices ![0, 0] S128x8174
  slices_S128x8192_S128x8174_0_18 : S128x8192.Slices ![0, 18] S128x8174
  reducesTo_S128x8174_S128_d1 : S128x8174.ReducesTo [1] S128
  bcast_S128x1_S128x8174_0_1 : S128x1.BroadcastsInDim S128x8174 (![0, 1] : Fin 2 → Fin S128x8174.rank)
  slices_S128x8192_S128x8173_0_0 : S128x8192.Slices ![0, 0] S128x8173
  slices_S128x8192_S128x8173_0_19 : S128x8192.Slices ![0, 19] S128x8173
  reducesTo_S128x8173_S128_d1 : S128x8173.ReducesTo [1] S128
  bcast_S128x1_S128x8173_0_1 : S128x1.BroadcastsInDim S128x8173 (![0, 1] : Fin 2 → Fin S128x8173.rank)
  slices_S128x8192_S128x8172_0_0 : S128x8192.Slices ![0, 0] S128x8172
  slices_S128x8192_S128x8172_0_20 : S128x8192.Slices ![0, 20] S128x8172
  reducesTo_S128x8172_S128_d1 : S128x8172.ReducesTo [1] S128
  bcast_S128x1_S128x8172_0_1 : S128x1.BroadcastsInDim S128x8172 (![0, 1] : Fin 2 → Fin S128x8172.rank)
  slices_S128x8192_S128x8171_0_0 : S128x8192.Slices ![0, 0] S128x8171
  slices_S128x8192_S128x8171_0_21 : S128x8192.Slices ![0, 21] S128x8171
  reducesTo_S128x8171_S128_d1 : S128x8171.ReducesTo [1] S128
  bcast_S128x1_S128x8171_0_1 : S128x1.BroadcastsInDim S128x8171 (![0, 1] : Fin 2 → Fin S128x8171.rank)
  slices_S128x8192_S128x8170_0_0 : S128x8192.Slices ![0, 0] S128x8170
  slices_S128x8192_S128x8170_0_22 : S128x8192.Slices ![0, 22] S128x8170
  reducesTo_S128x8170_S128_d1 : S128x8170.ReducesTo [1] S128
  bcast_S128x1_S128x8170_0_1 : S128x1.BroadcastsInDim S128x8170 (![0, 1] : Fin 2 → Fin S128x8170.rank)
  slices_S128x8192_S128x8169_0_0 : S128x8192.Slices ![0, 0] S128x8169
  slices_S128x8192_S128x8169_0_23 : S128x8192.Slices ![0, 23] S128x8169
  reducesTo_S128x8169_S128_d1 : S128x8169.ReducesTo [1] S128
  bcast_S128x1_S128x8169_0_1 : S128x1.BroadcastsInDim S128x8169 (![0, 1] : Fin 2 → Fin S128x8169.rank)
  slices_S128x8192_S128x8168_0_0 : S128x8192.Slices ![0, 0] S128x8168
  slices_S128x8192_S128x8168_0_24 : S128x8192.Slices ![0, 24] S128x8168
  reducesTo_S128x8168_S128_d1 : S128x8168.ReducesTo [1] S128
  bcast_S128x1_S128x8168_0_1 : S128x1.BroadcastsInDim S128x8168 (![0, 1] : Fin 2 → Fin S128x8168.rank)
  concatenates_S128x1_S128x1_S128x1_S128x1_S128x1_S128x1_S128x1_S128x1_S128x1_S128x1_S128x1_S128x1_S128x1_S128x1_S128x1_S128x1_S128x16_d1 : Shape.Concatenates [S128x1, S128x1, S128x1, S128x1, S128x1, S128x1, S128x1, S128x1, S128x1, S128x1, S128x1, S128x1, S128x1, S128x1, S128x1, S128x1] S128x16 1
  concatenates_S128x1_S128x1_S128x1_S128x1_S128x1_S128x1_S128x1_S128x1_S128x8_d1 : Shape.Concatenates [S128x1, S128x1, S128x1, S128x1, S128x1, S128x1, S128x1, S128x1] S128x8 1
  concatenates_S128x16_S128x8_S128x24_d1 : Shape.Concatenates [S128x16, S128x8] S128x24 1
  reducesTo_S24_S_d0 : S24.ReducesTo [0] S_
  bcast_S_S1 : S_.BroadcastsInDim S1 (![] : Fin 0 → Fin S1.rank)
  bcast_S1_S24_0 : S1.BroadcastsInDim S24 (![0] : Fin 1 → Fin S24.rank)
  bcast_S24_S1x24_1 : S24.BroadcastsInDim S1x24 (![1] : Fin 1 → Fin S1x24.rank)
  bcast_S1x24_S128x24_0_1 : S1x24.BroadcastsInDim S128x24 (![0, 1] : Fin 2 → Fin S128x24.rank)
  reducesTo_S128x24_S128_d1 : S128x24.ReducesTo [1] S128
  slices_S128x24_S128x1_0_11 : S128x24.Slices ![0, 11] S128x1
  shapeCasts_S128x1_S128 : S128x1.ShapeCasts S128
  slices_S2_S1_0 : S2.Slices ![0] S1
  shapeCasts_S1_S_ : S1.ShapeCasts S_
  slices_S128x24_S128x1_0_23 : S128x24.Slices ![0, 23] S128x1
  slices_S2_S1_1 : S2.Slices ![1] S1
  reducesTo_S128_S_d0 : S128.ReducesTo [0] S_

variable [Facts₀]

class Facts : Prop extends Facts₀ where

variable [Facts]
-- ==== Proof.LibRowOps.lean ====
/-
  Rows of a matrix read at an index, for any number of rows `R` and any width `W`.

  A sum along the rows of an `[R, W]` array — the vector unit's lane reduction with a zero accumulator, or the
  host's reduce from an initial value — is, at row `r`, the sum over `k : Fin W` of the entries `(r, k)`
  (the host's: the initial value plus that sum). A vector `[R]` broadcast to a column `[R, 1]` reads its entry
  `r`, and a column `[R, 1]` broadcast along its unit axis to `[R, W]` reads its entry `(r, 0)`. All are stated at
  indices built from literal coordinates, so they rewrite a payload whatever the width.
-/
import Idealize.ShloMosaic.PureOps.Ideal.Laws
import Idealize.ShloMosaic.Lib.Pipeline.Value
import Idealize.ShloMosaic.Lib.ValueIdx
import Idealize.ShloMosaic.Lib.IdealHost

namespace Cert.RowOps

open Idealize.ShloMosaic Idealize.ShloMosaic.ValueIdx
open scoped BigOperators

variable {R W : ℕ} {α : Type}

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- A lane sum with the zero accumulator, at row `r`: the sum of the row's entries. -/
theorem rowSumK (src : FVec Ideal ⟨2, ![R, W]⟩ .f32) (h : (⟨2, ![R, W]⟩ : Shape).Reduces [1] ⟨1, ![R]⟩)
    (hφ : FKind.Formats .f32) (hacc : (0x00000000#32 : BitVec 32) = 0x00000000#32) (r : Fin R) :
    multiReduction .add [1] ⟨1, ![R]⟩ src 0x00000000#32 h hφ hacc (ix1 r) = ∑ k : Fin W, src (ix2 r k) := by
  refine (Ideal.multiReduction_add_single src _ h hφ hacc (ix1 r)).trans ?_
  exact Finset.sum_congr rfl fun k _ => congrArg src (lift_row h r k)

/-- The host's sum along the rows from an initial value, at row `r`: that value plus the sum of the row's entries. -/
theorem rowSumH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduceAdd x init h hu (ix1 r) = init (Shape.Idx.first hu) + ∑ k : Fin W, x (ix2 r k) := by
  have h' : (⟨2, ![R, W]⟩ : Shape).Reduces [1] ⟨1, ![R]⟩ := h.elim fun e hb => ⟨e, Nat.one_pos, hb⟩
  refine (hostReduceAdd_apply x init h hu (ix1 r)).trans ?_
  refine (Ideal.hostReduceAdd_single h h' x _ (ix1 r)).trans ?_
  exact congrArg _ (Finset.sum_congr rfl fun k _ => congrArg x (lift_row h' r k))

/-- A vector `[R]` broadcast to a column `[R, 1]` reads, at `(r, u)`, its entry `r`. -/
theorem bcastCol (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- A column `[R, 1]` broadcast to `[R, W]` reads, at `(r, k)`, its entry `(r, 0)`. -/
theorem bcastRows (v : (⟨2, ![R, 1]⟩ : Shape).Idx → α)
    (h : (⟨2, ![R, 1]⟩ : Shape).BroadcastsInDim ⟨2, ![R, W]⟩ (![0, 1] : Fin 2 → Fin 2)) (r : Fin R) (k : Fin W) :
    broadcastInDim ⟨2, ![R, W]⟩ (![0, 1] : Fin 2 → Fin 2) h v (ix2 r k) = v (ix2 r (0 : Fin 1)) := by
  refine broadcastInDim_apply _ h v (ix2 r k) (ix2 r (0 : Fin 1)) fun a => ?_
  match a with
  | ⟨0, _⟩ =>
    show r.val = if R = 1 then 0 else r.val
    split
    · have := r.isLt; omega
    · rfl
  | ⟨1, _⟩ => rfl

end Cert.RowOps
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.Spec.lean ====
/-
  The mathematics both programs compute, on the extended reals.

  A row `z` of 8192 numbers is normalised: its mean `μ = (Σ z) / n` is subtracted and the result divided by
  `√((Σ (z - μ)²) / (n - 1)) + ε`. For a lag `l` the clipped Pearson correlation of the normalised row's first
  `8192 - l` entries with its last `8192 - l` entries is taken: with `x`, `y` the two stretches, `x̄`, `ȳ` their means,
  `Σ (x - x̄)(y - ȳ) / (√Σ (x - x̄)² · √Σ (y - ȳ)²)` clipped to `[lo, hi]`. The 24 correlations are weighted by the
  softmax of a weight vector and summed, two of them are added once more with seasonal weights, and the result is
  averaged over the rows. Counts and bounds enter as extended reals given by the caller (the float literals' values),
  so that nothing here depends on which number a bit pattern denotes.
-/
import Idealize.ShloMosaic.PureOps.Ideal
import Mathlib

namespace Cert.Autocorr

open Idealize.ShloMosaic
open scoped BigOperators

/-- The mean of `n` numbers, the count given as the extended real `c`. -/
noncomputable def meanE {n : ℕ} (c : EReal) (f : Fin n → EReal) : EReal := Ideal.div (∑ k, f k) c

/-- The Pearson correlation of two stretches of `n` numbers, clipped to `[lo, hi]`; `c` stands for `n`. -/
noncomputable def pearson {n : ℕ} (c lo hi : EReal) (x y : Fin n → EReal) : EReal :=
  min hi (max lo (Ideal.div (∑ k, (x k - meanE c x) * (y k - meanE c y))
    (Ideal.sqrt (∑ k, (x k - meanE c x) * (x k - meanE c x)) * Ideal.sqrt (∑ k, (y k - meanE c y) * (y k - meanE c y)))))

/-- A row normalised: centred at its mean and divided by its unbiased standard deviation plus `ε`;
    `cn` stands for the length, `cm` for the length less one. -/
noncomputable def normRow {n : ℕ} (cn cm ε : EReal) (z : Fin n → EReal) : Fin n → EReal := fun j =>
  Ideal.div (z j - meanE cn z)
    (Ideal.sqrt (Ideal.div (∑ k, (z k - meanE cn z) * (z k - meanE cn z)) cm) + ε)

/-- The correlation at one lag: the first `W` entries of a row of 8192 against the `W` entries from `off` on. -/
noncomputable def lagRow (W off : ℕ) (hW : off + W ≤ 8192) (c lo hi : EReal) (z : Fin 8192 → EReal) : EReal :=
  pearson c lo hi (fun k : Fin W => z ⟨0 + k.val, by have := k.isLt; omega⟩)
    (fun k : Fin W => z ⟨off + k.val, by have := k.isLt; omega⟩)

/-- The softmax of 24 weights, the maximum taken from `b` (minus infinity in both programs). -/
noncomputable def softmax24 (b : EReal) (w : Fin 24 → EReal) : Fin 24 → EReal := fun l =>
  Ideal.div (Ideal.exp (w l - Finset.univ.fold max b w)) (∑ k, Ideal.exp (w k - Finset.univ.fold max b w))

/-- One row's score: the correlations weighted by `p` and summed, plus the two seasonal terms. -/
noncomputable def score (A p : Fin 24 → EReal) (s0 s1 : EReal) : EReal :=
  (∑ l, A l * p l) + (0 + A 11 * s0 + A 23 * s1)

end Cert.Autocorr
-- ==== Proof.KernelLag.lean ====
/-
  One lag of the kernel body, for any width.

  The body computes, for each lag, the clipped Pearson correlation of two column stretches of the normalised
  block. Every lag is the same sequence of vector operations at its own width `W` and offset; `corrK` is that
  sequence once, over two `[64, W]` arrays, and `lagK` applies it to the two stretches cut from a `[64, 8192]` block.
  At the ideal instance row `r` of the result is the correlation `Autocorr.pearson` of row `r` of the two arrays:
  a lane sum is the sum over the row, the mean's column broadcast back over the row is the row's own mean.
-/
import proofs.«130460_j34522947125965_1_alg».proof.KernelIdeal
import proofs.«130460_j34522947125965_1_alg».proof.Proof.LibRowOps
import proofs.«130460_j34522947125965_1_alg».proof.Proof.LibColumns
import proofs.«130460_j34522947125965_1_alg».proof.Proof.Spec
import Idealize.ShloMosaic.Lib.ValueLayout

noncomputable section

namespace Cert.KernelIdeal.Forms

open Cert.KernelIdeal Cert.KernelIdeal.Facts₀ Idealize.ShloMosaic Idealize.ShloMosaic.ValueIdx Cert.Autocorr
open scoped BigOperators

variable {F : FTy → Type} [FloatOps F] [Cert.KernelIdeal.Facts]

/-- A block of 64 rows at width `W`. -/
abbrev KW (W : ℕ) : Shape := ⟨2, ![64, W]⟩

/-- A `[64, W]` array centred row by row: each entry less its row's mean (the row sum over the count `cb`). -/
def ctrK (W : ℕ) (cb : BitVec 32) (hr : (KW W).Reduces [1] S64) (hb : S64x1.Broadcasts (KW W))
    (v18 : FVec F (KW W) .f32) : FVec F (KW W) .f32 :=
  have v20 : FVec F S64 .f32 := multiReduction .add [1] S64 v18 0x00000000#32 hr (.inl rfl) rfl
  have v21 : FVec F S64x1 .f32 := shapeCast S64x1 v20 shapeCasts_S64_S64x1
  have cst_6 : F .f32 := Scalar.ofBits .f32 cb
  have v22 : FVec F S64x1 .f32 := broadcast S64x1 cst_6
  have v23 : FVec F S64x1 .f32 := divf v21 v22
  have v24 : FVec F (KW W) .f32 := broadcastTo (KW W) v23 hb
  subf v18 v24

/-- One lag's operations over the two stretches `v18`, `v19`: the centred stretches, the three row sums of products,
    the quotient by the product of the two roots, clipped to `[lo, hi]`. -/
def corrK (W : ℕ) (cb lo hi : BitVec 32) (hr : (KW W).Reduces [1] S64) (hb : S64x1.Broadcasts (KW W))
    (v18 v19 : FVec F (KW W) .f32) : FVec F S64 .f32 :=
  have v25 : FVec F (KW W) .f32 := ctrK W cb hr hb v18
  have v31 : FVec F (KW W) .f32 := ctrK W cb hr hb v19
  have v32 : FVec F (KW W) .f32 := mulf v25 v31
  have v33 : FVec F S64 .f32 := multiReduction .add [1] S64 v32 0x00000000#32 hr (.inl rfl) rfl
  have v34 : FVec F (KW W) .f32 := mulf v25 v25
  have v35 : FVec F S64 .f32 := multiReduction .add [1] S64 v34 0x00000000#32 hr (.inl rfl) rfl
  have v36 : FVec F S64 .f32 := sqrt v35
  have v37 : FVec F (KW W) .f32 := mulf v31 v31
  have v38 : FVec F S64 .f32 := multiReduction .add [1] S64 v37 0x00000000#32 hr (.inl rfl) rfl
  have v39 : FVec F S64 .f32 := sqrt v38
  have v40 : FVec F S64 .f32 := mulf v36 v39
  have v41 : FVec F S64 .f32 := divf v33 v40
  have cst_12 : F .f32 := Scalar.ofBits .f32 lo
  have v42 : FVec F S64 .f32 := broadcast S64 cst_12
  have v43 : FVec F S64 .f32 := maximumf v42 v41
  have cst_13 : F .f32 := Scalar.ofBits .f32 hi
  have v44 : FVec F S64 .f32 := broadcast S64 cst_13
  have v45 : FVec F S64 .f32 := minimumf v44 v43
  v45

/-- One lag of the body: `corrK` of the block's first `W` columns and its `W` columns from `off` on. -/
def lagK (W off : ℕ) (cb : BitVec 32) (hs0 : S64x8192.Slices ![0, 0] (KW W)) (hs1 : S64x8192.Slices ![0, off] (KW W))
    (hr : (KW W).Reduces [1] S64) (hb : S64x1.Broadcasts (KW W)) (s : FVec F S64x8192 .f32) : FVec F S64 .f32 :=
  corrK W cb 0xBF800000#32 0x3F800000#32 hr hb
    (extractStridedSlice (KW W) ![0, 0] s hs0) (extractStridedSlice (KW W) ![0, off] s hs1)

/-- A centred array reads, at `(p, k)`, the entry less the mean of row `p`: the mean's column, broadcast back over
    the row, reads that row's mean anywhere in the row. -/
theorem ctrK_apply (W : ℕ) (cb : BitVec 32) (hr : (KW W).Reduces [1] S64) (hb : S64x1.Broadcasts (KW W))
    (z : FVec Ideal (KW W) .f32) (p : Fin 64) (k : Fin W) :
    ctrK (F := Ideal) W cb hr hb z (ix2 p k)
      = z (ix2 p k) - meanE (Ideal.ofBits .f32 cb) (fun k : Fin W => z (ix2 p k)) := by
  unfold ctrK
  refine congrArg (z (ix2 p k) - ·) ?_
  refine (Cert.Columns.broadcastTo_a1_ab_apply _ hb p k).trans ?_
  show Ideal.div _ (Ideal.ofBits .f32 cb) = Ideal.div (∑ k : Fin W, z (ix2 p k)) (Ideal.ofBits .f32 cb)
  refine congrArg (Ideal.div · (Ideal.ofBits .f32 cb)) ?_
  refine (Cert.Columns.shapeCast_a_a1_apply _ shapeCasts_S64_S64x1 p 0).trans ?_
  exact Cert.RowOps.rowSumK z hr _ _ p

/-- A lane sum of a product of two centred arrays, at row `r`. -/
theorem sumProdK (W : ℕ) (cb : BitVec 32) (hr : (KW W).Reduces [1] S64) (hb : S64x1.Broadcasts (KW W))
    (x y : FVec Ideal (KW W) .f32) (r : Fin 64) :
    multiReduction .add [1] S64 (mulf (ctrK (F := Ideal) W cb hr hb x) (ctrK (F := Ideal) W cb hr hb y)) 0x00000000#32 hr
        (.inl rfl) rfl (ix1 r)
      = ∑ k : Fin W, (x (ix2 r k) - meanE (Ideal.ofBits .f32 cb) (fun k : Fin W => x (ix2 r k)))
          * (y (ix2 r k) - meanE (Ideal.ofBits .f32 cb) (fun k : Fin W => y (ix2 r k))) := by
  refine (Cert.RowOps.rowSumK _ hr _ _ r).trans ?_
  refine Finset.sum_congr rfl fun k _ => ?_
  exact congr (congrArg HMul.hMul (ctrK_apply W cb hr hb x r k)) (ctrK_apply W cb hr hb y r k)

/-- Row `r` of one lag's result is the clipped correlation of row `r` of the two stretches. -/
theorem corrK_apply (W : ℕ) (cb lo hi : BitVec 32) (hr : (KW W).Reduces [1] S64) (hb : S64x1.Broadcasts (KW W))
    (x y : FVec Ideal (KW W) .f32) (r : Fin 64) :
    corrK (F := Ideal) W cb lo hi hr hb x y (ix1 r)
      = pearson (Ideal.ofBits .f32 cb) (Ideal.ofBits .f32 lo) (Ideal.ofBits .f32 hi)
          (fun k : Fin W => x (ix2 r k)) (fun k : Fin W => y (ix2 r k)) := by
  unfold corrK pearson
  exact congrArg (fun t => min (Ideal.ofBits .f32 hi) (max (Ideal.ofBits .f32 lo) t))
    (congr (congrArg Ideal.div (sumProdK W cb hr hb x y r))
      (congr (congrArg HMul.hMul (congrArg Ideal.sqrt (sumProdK W cb hr hb x x r)))
        (congrArg Ideal.sqrt (sumProdK W cb hr hb y y r))))

/-- Row `r` of a lag of the body is `Autocorr.lagRow` of row `r` of the block. -/
theorem lagK_apply (W off : ℕ) (hW : off + W ≤ 8192) (cb : BitVec 32) (hs0 : S64x8192.Slices ![0, 0] (KW W))
    (hs1 : S64x8192.Slices ![0, off] (KW W)) (hr : (KW W).Reduces [1] S64) (hb : S64x1.Broadcasts (KW W))
    (s : FVec Ideal S64x8192 .f32) (r : Fin 64) :
    lagK (F := Ideal) W off cb hs0 hs1 hr hb s (ix1 r)
      = lagRow W off hW (Ideal.ofBits .f32 cb) (Ideal.ofBits .f32 0xBF800000#32) (Ideal.ofBits .f32 0x3F800000#32)
          (fun j : Fin 8192 => s (ix2 r j)) := by
  unfold lagK lagRow
  rw [corrK_apply]
  congr 1 <;> funext k
  · exact slice2_axis1_eq 0 s hs0 r k
  · exact slice2_axis1_eq off s hs1 r k

end Cert.KernelIdeal.Forms

end
-- ==== Proof.SpecRow.lean ====
/-
  One row's score as a function of the row.

  Lag `l` (1 … 24) correlates the normalised row's first `8192 - l` entries with its `8192 - l` entries from `l` on, the
  count being the value of the float literal `8192 - l`; the bounds are the values of the literals `-1` and `1`. The
  row is normalised with the literals `8192`, `8191` and `ε`, and the softmax's maximum starts from the literal `-∞`.
  Literals stay bit patterns read by `Ideal.ofBits`: both programs hold the same words.
-/
import proofs.«130460_j34522947125965_1_alg».proof.Proof.Spec

noncomputable section

namespace Cert.Autocorr

open Idealize.ShloMosaic

/-- The 24 correlations of a normalised row `zn`: lag `l` is entry `l - 1`. -/
def lagRows (zn : Fin 8192 → EReal) : Fin 24 → EReal :=
  ![
    lagRow 8191 1 (by norm_num) (Ideal.ofBits .f32 0x45FFF800#32) (Ideal.ofBits .f32 0xBF800000#32) (Ideal.ofBits .f32 0x3F800000#32) zn,
    lagRow 8190 2 (by norm_num) (Ideal.ofBits .f32 0x45FFF000#32) (Ideal.ofBits .f32 0xBF800000#32) (Ideal.ofBits .f32 0x3F800000#32) zn,
    lagRow 8189 3 (by norm_num) (Ideal.ofBits .f32 0x45FFE800#32) (Ideal.ofBits .f32 0xBF800000#32) (Ideal.ofBits .f32 0x3F800000#32) zn,
    lagRow 8188 4 (by norm_num) (Ideal.ofBits .f32 0x45FFE000#32) (Ideal.ofBits .f32 0xBF800000#32) (Ideal.ofBits .f32 0x3F800000#32) zn,
    lagRow 8187 5 (by norm_num) (Ideal.ofBits .f32 0x45FFD800#32) (Ideal.ofBits .f32 0xBF800000#32) (Ideal.ofBits .f32 0x3F800000#32) zn,
    lagRow 8186 6 (by norm_num) (Ideal.ofBits .f32 0x45FFD000#32) (Ideal.ofBits .f32 0xBF800000#32) (Ideal.ofBits .f32 0x3F800000#32) zn,
    lagRow 8185 7 (by norm_num) (Ideal.ofBits .f32 0x45FFC800#32) (Ideal.ofBits .f32 0xBF800000#32) (Ideal.ofBits .f32 0x3F800000#32) zn,
    lagRow 8184 8 (by norm_num) (Ideal.ofBits .f32 0x45FFC000#32) (Ideal.ofBits .f32 0xBF800000#32) (Ideal.ofBits .f32 0x3F800000#32) zn,
    lagRow 8183 9 (by norm_num) (Ideal.ofBits .f32 0x45FFB800#32) (Ideal.ofBits .f32 0xBF800000#32) (Ideal.ofBits .f32 0x3F800000#32) zn,
    lagRow 8182 10 (by norm_num) (Ideal.ofBits .f32 0x45FFB000#32) (Ideal.ofBits .f32 0xBF800000#32) (Ideal.ofBits .f32 0x3F800000#32) zn,
    lagRow 8181 11 (by norm_num) (Ideal.ofBits .f32 0x45FFA800#32) (Ideal.ofBits .f32 0xBF800000#32) (Ideal.ofBits .f32 0x3F800000#32) zn,
    lagRow 8180 12 (by norm_num) (Ideal.ofBits .f32 0x45FFA000#32) (Ideal.ofBits .f32 0xBF800000#32) (Ideal.ofBits .f32 0x3F800000#32) zn,
    lagRow 8179 13 (by norm_num) (Ideal.ofBits .f32 0x45FF9800#32) (Ideal.ofBits .f32 0xBF800000#32) (Ideal.ofBits .f32 0x3F800000#32) zn,
    lagRow 8178 14 (by norm_num) (Ideal.ofBits .f32 0x45FF9000#32) (Ideal.ofBits .f32 0xBF800000#32) (Ideal.ofBits .f32 0x3F800000#32) zn,
    lagRow 8177 15 (by norm_num) (Ideal.ofBits .f32 0x45FF8800#32) (Ideal.ofBits .f32 0xBF800000#32) (Ideal.ofBits .f32 0x3F800000#32) zn,
    lagRow 8176 16 (by norm_num) (Ideal.ofBits .f32 0x45FF8000#32) (Ideal.ofBits .f32 0xBF800000#32) (Ideal.ofBits .f32 0x3F800000#32) zn,
    lagRow 8175 17 (by norm_num) (Ideal.ofBits .f32 0x45FF7800#32) (Ideal.ofBits .f32 0xBF800000#32) (Ideal.ofBits .f32 0x3F800000#32) zn,
    lagRow 8174 18 (by norm_num) (Ideal.ofBits .f32 0x45FF7000#32) (Ideal.ofBits .f32 0xBF800000#32) (Ideal.ofBits .f32 0x3F800000#32) zn,
    lagRow 8173 19 (by norm_num) (Ideal.ofBits .f32 0x45FF6800#32) (Ideal.ofBits .f32 0xBF800000#32) (Ideal.ofBits .f32 0x3F800000#32) zn,
    lagRow 8172 20 (by norm_num) (Ideal.ofBits .f32 0x45FF6000#32) (Ideal.ofBits .f32 0xBF800000#32) (Ideal.ofBits .f32 0x3F800000#32) zn,
    lagRow 8171 21 (by norm_num) (Ideal.ofBits .f32 0x45FF5800#32) (Ideal.ofBits .f32 0xBF800000#32) (Ideal.ofBits .f32 0x3F800000#32) zn,
    lagRow 8170 22 (by norm_num) (Ideal.ofBits .f32 0x45FF5000#32) (Ideal.ofBits .f32 0xBF800000#32) (Ideal.ofBits .f32 0x3F800000#32) zn,
    lagRow 8169 23 (by norm_num) (Ideal.ofBits .f32 0x45FF4800#32) (Ideal.ofBits .f32 0xBF800000#32) (Ideal.ofBits .f32 0x3F800000#32) zn,
    lagRow 8168 24 (by norm_num) (Ideal.ofBits .f32 0x45FF4000#32) (Ideal.ofBits .f32 0xBF800000#32) (Ideal.ofBits .f32 0x3F800000#32) zn ]

/-- A row's score: the 24 correlations of the normalised row, weighted by the softmax of `w`, plus the seasonal terms. -/
def rowScore (z : Fin 8192 → EReal) (w : Fin 24 → EReal) (s0 s1 : EReal) : EReal :=
  score (lagRows (normRow (Ideal.ofBits .f32 0x46000000#32) (Ideal.ofBits .f32 0x45FFF800#32) (Ideal.ofBits .f32 0x322BCC77#32) z))
    (softmax24 (Ideal.ofBits .f32 0xFF800000#32) w) s0 s1

end Cert.Autocorr

end
-- ==== Proof.KernelFold.lean ====
/-
  The body's 24 lags are instances of one sequence of operations.

  Lag `l` (1 … 24) works on the block's first `8192 - l` columns and on its `8192 - l` columns from `l` on, and divides
  its row sums by the float `8192 - l`. Each payload the body's skeleton names for a lag is `lagK` at that width,
  offset and literal, by unfolding; the 24 results, cast to columns and laid side by side, are `catK`.
-/
import proofs.«130460_j34522947125965_1_alg».proof.Proof.KernelLag
import proofs.«130460_j34522947125965_1_alg».proof.Proof.Gen.KernelIdeal.Skeleton
import proofs.«130460_j34522947125965_1_alg».proof.Proof.SpecRow

noncomputable section

namespace Cert.KernelIdeal.Forms

open Cert.KernelIdeal Cert.KernelIdeal.Gen Idealize.ShloMosaic Idealize.ShloMosaic.ValueIdx Cert.Autocorr

variable {F : FTy → Type} [FloatOps F]

/-- The 24 lags of a normalised block `S`: lag `l` is entry `l - 1`. -/
def lagsK (S : FVec F S64x8192 .f32) : Fin 24 → FVec F S64 .f32 :=
  ![
    lagK 8191 1 0x45FFF800#32 slices_S64x8192_o0_0_S64x8191 slices_S64x8192_o0_1_S64x8191 reduces_S64x8191_S64 broadcasts_S64x1_S64x8191 S,
    lagK 8190 2 0x45FFF000#32 slices_S64x8192_o0_0_S64x8190 slices_S64x8192_o0_2_S64x8190 reduces_S64x8190_S64 broadcasts_S64x1_S64x8190 S,
    lagK 8189 3 0x45FFE800#32 slices_S64x8192_o0_0_S64x8189 slices_S64x8192_o0_3_S64x8189 reduces_S64x8189_S64 broadcasts_S64x1_S64x8189 S,
    lagK 8188 4 0x45FFE000#32 slices_S64x8192_o0_0_S64x8188 slices_S64x8192_o0_4_S64x8188 reduces_S64x8188_S64 broadcasts_S64x1_S64x8188 S,
    lagK 8187 5 0x45FFD800#32 slices_S64x8192_o0_0_S64x8187 slices_S64x8192_o0_5_S64x8187 reduces_S64x8187_S64 broadcasts_S64x1_S64x8187 S,
    lagK 8186 6 0x45FFD000#32 slices_S64x8192_o0_0_S64x8186 slices_S64x8192_o0_6_S64x8186 reduces_S64x8186_S64 broadcasts_S64x1_S64x8186 S,
    lagK 8185 7 0x45FFC800#32 slices_S64x8192_o0_0_S64x8185 slices_S64x8192_o0_7_S64x8185 reduces_S64x8185_S64 broadcasts_S64x1_S64x8185 S,
    lagK 8184 8 0x45FFC000#32 slices_S64x8192_o0_0_S64x8184 slices_S64x8192_o0_8_S64x8184 reduces_S64x8184_S64 broadcasts_S64x1_S64x8184 S,
    lagK 8183 9 0x45FFB800#32 slices_S64x8192_o0_0_S64x8183 slices_S64x8192_o0_9_S64x8183 reduces_S64x8183_S64 broadcasts_S64x1_S64x8183 S,
    lagK 8182 10 0x45FFB000#32 slices_S64x8192_o0_0_S64x8182 slices_S64x8192_o0_10_S64x8182 reduces_S64x8182_S64 broadcasts_S64x1_S64x8182 S,
    lagK 8181 11 0x45FFA800#32 slices_S64x8192_o0_0_S64x8181 slices_S64x8192_o0_11_S64x8181 reduces_S64x8181_S64 broadcasts_S64x1_S64x8181 S,
    lagK 8180 12 0x45FFA000#32 slices_S64x8192_o0_0_S64x8180 slices_S64x8192_o0_12_S64x8180 reduces_S64x8180_S64 broadcasts_S64x1_S64x8180 S,
    lagK 8179 13 0x45FF9800#32 slices_S64x8192_o0_0_S64x8179 slices_S64x8192_o0_13_S64x8179 reduces_S64x8179_S64 broadcasts_S64x1_S64x8179 S,
    lagK 8178 14 0x45FF9000#32 slices_S64x8192_o0_0_S64x8178 slices_S64x8192_o0_14_S64x8178 reduces_S64x8178_S64 broadcasts_S64x1_S64x8178 S,
    lagK 8177 15 0x45FF8800#32 slices_S64x8192_o0_0_S64x8177 slices_S64x8192_o0_15_S64x8177 reduces_S64x8177_S64 broadcasts_S64x1_S64x8177 S,
    lagK 8176 16 0x45FF8000#32 slices_S64x8192_o0_0_S64x8176 slices_S64x8192_o0_16_S64x8176 reduces_S64x8176_S64 broadcasts_S64x1_S64x8176 S,
    lagK 8175 17 0x45FF7800#32 slices_S64x8192_o0_0_S64x8175 slices_S64x8192_o0_17_S64x8175 reduces_S64x8175_S64 broadcasts_S64x1_S64x8175 S,
    lagK 8174 18 0x45FF7000#32 slices_S64x8192_o0_0_S64x8174 slices_S64x8192_o0_18_S64x8174 reduces_S64x8174_S64 broadcasts_S64x1_S64x8174 S,
    lagK 8173 19 0x45FF6800#32 slices_S64x8192_o0_0_S64x8173 slices_S64x8192_o0_19_S64x8173 reduces_S64x8173_S64 broadcasts_S64x1_S64x8173 S,
    lagK 8172 20 0x45FF6000#32 slices_S64x8192_o0_0_S64x8172 slices_S64x8192_o0_20_S64x8172 reduces_S64x8172_S64 broadcasts_S64x1_S64x8172 S,
    lagK 8171 21 0x45FF5800#32 slices_S64x8192_o0_0_S64x8171 slices_S64x8192_o0_21_S64x8171 reduces_S64x8171_S64 broadcasts_S64x1_S64x8171 S,
    lagK 8170 22 0x45FF5000#32 slices_S64x8192_o0_0_S64x8170 slices_S64x8192_o0_22_S64x8170 reduces_S64x8170_S64 broadcasts_S64x1_S64x8170 S,
    lagK 8169 23 0x45FF4800#32 slices_S64x8192_o0_0_S64x8169 slices_S64x8192_o0_23_S64x8169 reduces_S64x8169_S64 broadcasts_S64x1_S64x8169 S,
    lagK 8168 24 0x45FF4000#32 slices_S64x8192_o0_0_S64x8168 slices_S64x8192_o0_24_S64x8168 reduces_S64x8168_S64 broadcasts_S64x1_S64x8168 S ]

/-- 24 vectors of 64 entries as the columns of a `[64, 24]` array. -/
def catK (c : Fin 24 → FVec F S64 .f32) : FVec F S64x24 .f32 :=
  concatenate S64x24 1 [⟨S64x1, shapeCast S64x1 (c 0) shapeCasts_S64_S64x1⟩, ⟨S64x1, shapeCast S64x1 (c 1) shapeCasts_S64_S64x1⟩, ⟨S64x1, shapeCast S64x1 (c 2) shapeCasts_S64_S64x1⟩, ⟨S64x1, shapeCast S64x1 (c 3) shapeCasts_S64_S64x1⟩, ⟨S64x1, shapeCast S64x1 (c 4) shapeCasts_S64_S64x1⟩, ⟨S64x1, shapeCast S64x1 (c 5) shapeCasts_S64_S64x1⟩, ⟨S64x1, shapeCast S64x1 (c 6) shapeCasts_S64_S64x1⟩, ⟨S64x1, shapeCast S64x1 (c 7) shapeCasts_S64_S64x1⟩, ⟨S64x1, shapeCast S64x1 (c 8) shapeCasts_S64_S64x1⟩, ⟨S64x1, shapeCast S64x1 (c 9) shapeCasts_S64_S64x1⟩, ⟨S64x1, shapeCast S64x1 (c 10) shapeCasts_S64_S64x1⟩, ⟨S64x1, shapeCast S64x1 (c 11) shapeCasts_S64_S64x1⟩, ⟨S64x1, shapeCast S64x1 (c 12) shapeCasts_S64_S64x1⟩, ⟨S64x1, shapeCast S64x1 (c 13) shapeCasts_S64_S64x1⟩, ⟨S64x1, shapeCast S64x1 (c 14) shapeCasts_S64_S64x1⟩, ⟨S64x1, shapeCast S64x1 (c 15) shapeCasts_S64_S64x1⟩, ⟨S64x1, shapeCast S64x1 (c 16) shapeCasts_S64_S64x1⟩, ⟨S64x1, shapeCast S64x1 (c 17) shapeCasts_S64_S64x1⟩, ⟨S64x1, shapeCast S64x1 (c 18) shapeCasts_S64_S64x1⟩, ⟨S64x1, shapeCast S64x1 (c 19) shapeCasts_S64_S64x1⟩, ⟨S64x1, shapeCast S64x1 (c 20) shapeCasts_S64_S64x1⟩, ⟨S64x1, shapeCast S64x1 (c 21) shapeCasts_S64_S64x1⟩, ⟨S64x1, shapeCast S64x1 (c 22) shapeCasts_S64_S64x1⟩, ⟨S64x1, shapeCast S64x1 (c 23) shapeCasts_S64_S64x1⟩]
    concatenates_S64x1_S64x1_S64x1_S64x1_S64x1_S64x1_S64x1_S64x1_S64x1_S64x1_S64x1_S64x1_S64x1_S64x1_S64x1_S64x1_S64x1_S64x1_S64x1_S64x1_S64x1_S64x1_S64x1_S64x1_S64x24_d1

theorem fold1 (v0 : Vec F S64x8192 .f32) : k0_pay5 (k0_pay3 v0) (Scalar.ofBits .f32 0x3F800000#32) (k0_pay4 (F := F)) = lagsK (k0_pay2 v0) 0 := rfl
theorem fold2 (S : FVec F S64x8192 .f32) : k0_pay6 S = lagsK S 1 := rfl
theorem fold3 (S : FVec F S64x8192 .f32) : k0_pay10 (k0_pay7 S) (k0_pay8 S) (k0_pay9 S) = lagsK S 2 := rfl
theorem fold4 (S : FVec F S64x8192 .f32) : k0_pay11 S = lagsK S 3 := rfl
theorem fold5 (S : FVec F S64x8192 .f32) : k0_pay15 (k0_pay12 S) (k0_pay13 S) (k0_pay14 S) (Scalar.ofBits .f32 0x45FFD800#32) = lagsK S 4 := rfl
theorem fold6 (S : FVec F S64x8192 .f32) : k0_pay21 (k0_pay18 S) (k0_pay19 S) (k0_pay20 S) = lagsK S 5 := rfl
theorem fold7 (S : FVec F S64x8192 .f32) : k0_pay22 S = lagsK S 6 := rfl
theorem fold8 (S : FVec F S64x8192 .f32) : k0_pay27 (k0_pay23 S) (k0_pay24 S) (k0_pay25 S) (k0_pay26 (F := F)) = lagsK S 7 := rfl
theorem fold9 (S : FVec F S64x8192 .f32) : k0_pay28 S = lagsK S 8 := rfl
theorem fold10 (S : FVec F S64x8192 .f32) : k0_pay30 S (k0_pay29 S) = lagsK S 9 := rfl
theorem fold11 (S : FVec F S64x8192 .f32) : k0_pay35 (k0_pay32 S) (k0_pay33 S) (k0_pay34 S) = lagsK S 10 := rfl
theorem fold12 (S : FVec F S64x8192 .f32) : k0_pay36 S = lagsK S 11 := rfl
theorem fold13 (S : FVec F S64x8192 .f32) : k0_pay39 (k0_pay37 S) (k0_pay38 S) = lagsK S 12 := rfl
theorem fold14 (S : FVec F S64x8192 .f32) : k0_pay41 (k0_pay40 S) (Scalar.ofBits .f32 0xBF800000#32) (Scalar.ofBits .f32 0x3F800000#32) = lagsK S 13 := rfl
theorem fold15 (S : FVec F S64x8192 .f32) : k0_pay42 S = lagsK S 14 := rfl
theorem fold16 (S : FVec F S64x8192 .f32) : k0_pay46 (k0_pay43 S) (k0_pay44 S) (k0_pay45 S) = lagsK S 15 := rfl
theorem fold17 (S : FVec F S64x8192 .f32) : k0_pay47 S = lagsK S 16 := rfl
theorem fold18 (S : FVec F S64x8192 .f32) : k0_pay51 (k0_pay48 S) (k0_pay49 S) (k0_pay50 S) = lagsK S 17 := rfl
theorem fold19 (S : FVec F S64x8192 .f32) : k0_pay57 (k0_pay54 S) (k0_pay55 S) (k0_pay56 S) = lagsK S 18 := rfl
theorem fold20 (S : FVec F S64x8192 .f32) : k0_pay58 S = lagsK S 19 := rfl
theorem fold21 (S : FVec F S64x8192 .f32) : k0_pay62 (k0_pay59 S) (k0_pay60 S) (k0_pay61 S) (Scalar.ofBits .f32 0x45FF5800#32) = lagsK S 20 := rfl
theorem fold22 (S : FVec F S64x8192 .f32) : k0_pay63 S = lagsK S 21 := rfl
theorem fold23 (S : FVec F S64x8192 .f32) : k0_pay64 S = lagsK S 22 := rfl

/-- The last lag is finished, and the 24 results laid side by side, in one payload. -/
theorem fold24 (c : Fin 24 → FVec F S64 .f32) (S : FVec F S64x8192 .f32) (h : c 23 = lagsK S 23) :
    k0_pay69 (c 0) (c 1) (c 2) (c 3) (c 4) (c 5) (c 6) (c 7) (c 8) (c 9) (c 10) (c 11) (c 12) (c 13) (c 14) (c 15) (c 16) (c 17) (c 18) (c 19) (c 20) (c 21) (c 22) (k0_pay66 S) (k0_pay67 S) (k0_pay68 S) = catK c := by
  unfold catK; rw [h]; rfl

/-! At the ideal instance each lag, at row `r`, is that lag's correlation of row `r` of the block (`lagK_apply` at the lag's width, offset and literal). -/
theorem lagsK_apply0 (S : FVec Ideal S64x8192 .f32) (r : Fin 64) :
    lagsK S 0 (ix1 r) = lagRows (fun j : Fin 8192 => S (ix2 r j)) 0 :=
  lagK_apply 8191 1 (by norm_num) 0x45FFF800#32 slices_S64x8192_o0_0_S64x8191 slices_S64x8192_o0_1_S64x8191 reduces_S64x8191_S64 broadcasts_S64x1_S64x8191 S r
theorem lagsK_apply1 (S : FVec Ideal S64x8192 .f32) (r : Fin 64) :
    lagsK S 1 (ix1 r) = lagRows (fun j : Fin 8192 => S (ix2 r j)) 1 :=
  lagK_apply 8190 2 (by norm_num) 0x45FFF000#32 slices_S64x8192_o0_0_S64x8190 slices_S64x8192_o0_2_S64x8190 reduces_S64x8190_S64 broadcasts_S64x1_S64x8190 S r
theorem lagsK_apply2 (S : FVec Ideal S64x8192 .f32) (r : Fin 64) :
    lagsK S 2 (ix1 r) = lagRows (fun j : Fin 8192 => S (ix2 r j)) 2 :=
  lagK_apply 8189 3 (by norm_num) 0x45FFE800#32 slices_S64x8192_o0_0_S64x8189 slices_S64x8192_o0_3_S64x8189 reduces_S64x8189_S64 broadcasts_S64x1_S64x8189 S r
theorem lagsK_apply3 (S : FVec Ideal S64x8192 .f32) (r : Fin 64) :
    lagsK S 3 (ix1 r) = lagRows (fun j : Fin 8192 => S (ix2 r j)) 3 :=
  lagK_apply 8188 4 (by norm_num) 0x45FFE000#32 slices_S64x8192_o0_0_S64x8188 slices_S64x8192_o0_4_S64x8188 reduces_S64x8188_S64 broadcasts_S64x1_S64x8188 S r
theorem lagsK_apply4 (S : FVec Ideal S64x8192 .f32) (r : Fin 64) :
    lagsK S 4 (ix1 r) = lagRows (fun j : Fin 8192 => S (ix2 r j)) 4 :=
  lagK_apply 8187 5 (by norm_num) 0x45FFD800#32 slices_S64x8192_o0_0_S64x8187 slices_S64x8192_o0_5_S64x8187 reduces_S64x8187_S64 broadcasts_S64x1_S64x8187 S r
theorem lagsK_apply5 (S : FVec Ideal S64x8192 .f32) (r : Fin 64) :
    lagsK S 5 (ix1 r) = lagRows (fun j : Fin 8192 => S (ix2 r j)) 5 :=
  lagK_apply 8186 6 (by norm_num) 0x45FFD000#32 slices_S64x8192_o0_0_S64x8186 slices_S64x8192_o0_6_S64x8186 reduces_S64x8186_S64 broadcasts_S64x1_S64x8186 S r
theorem lagsK_apply6 (S : FVec Ideal S64x8192 .f32) (r : Fin 64) :
    lagsK S 6 (ix1 r) = lagRows (fun j : Fin 8192 => S (ix2 r j)) 6 :=
  lagK_apply 8185 7 (by norm_num) 0x45FFC800#32 slices_S64x8192_o0_0_S64x8185 slices_S64x8192_o0_7_S64x8185 reduces_S64x8185_S64 broadcasts_S64x1_S64x8185 S r
theorem lagsK_apply7 (S : FVec Ideal S64x8192 .f32) (r : Fin 64) :
    lagsK S 7 (ix1 r) = lagRows (fun j : Fin 8192 => S (ix2 r j)) 7 :=
  lagK_apply 8184 8 (by norm_num) 0x45FFC000#32 slices_S64x8192_o0_0_S64x8184 slices_S64x8192_o0_8_S64x8184 reduces_S64x8184_S64 broadcasts_S64x1_S64x8184 S r
theorem lagsK_apply8 (S : FVec Ideal S64x8192 .f32) (r : Fin 64) :
    lagsK S 8 (ix1 r) = lagRows (fun j : Fin 8192 => S (ix2 r j)) 8 :=
  lagK_apply 8183 9 (by norm_num) 0x45FFB800#32 slices_S64x8192_o0_0_S64x8183 slices_S64x8192_o0_9_S64x8183 reduces_S64x8183_S64 broadcasts_S64x1_S64x8183 S r
theorem lagsK_apply9 (S : FVec Ideal S64x8192 .f32) (r : Fin 64) :
    lagsK S 9 (ix1 r) = lagRows (fun j : Fin 8192 => S (ix2 r j)) 9 :=
  lagK_apply 8182 10 (by norm_num) 0x45FFB000#32 slices_S64x8192_o0_0_S64x8182 slices_S64x8192_o0_10_S64x8182 reduces_S64x8182_S64 broadcasts_S64x1_S64x8182 S r
theorem lagsK_apply10 (S : FVec Ideal S64x8192 .f32) (r : Fin 64) :
    lagsK S 10 (ix1 r) = lagRows (fun j : Fin 8192 => S (ix2 r j)) 10 :=
  lagK_apply 8181 11 (by norm_num) 0x45FFA800#32 slices_S64x8192_o0_0_S64x8181 slices_S64x8192_o0_11_S64x8181 reduces_S64x8181_S64 broadcasts_S64x1_S64x8181 S r
theorem lagsK_apply11 (S : FVec Ideal S64x8192 .f32) (r : Fin 64) :
    lagsK S 11 (ix1 r) = lagRows (fun j : Fin 8192 => S (ix2 r j)) 11 :=
  lagK_apply 8180 12 (by norm_num) 0x45FFA000#32 slices_S64x8192_o0_0_S64x8180 slices_S64x8192_o0_12_S64x8180 reduces_S64x8180_S64 broadcasts_S64x1_S64x8180 S r
theorem lagsK_apply12 (S : FVec Ideal S64x8192 .f32) (r : Fin 64) :
    lagsK S 12 (ix1 r) = lagRows (fun j : Fin 8192 => S (ix2 r j)) 12 :=
  lagK_apply 8179 13 (by norm_num) 0x45FF9800#32 slices_S64x8192_o0_0_S64x8179 slices_S64x8192_o0_13_S64x8179 reduces_S64x8179_S64 broadcasts_S64x1_S64x8179 S r
theorem lagsK_apply13 (S : FVec Ideal S64x8192 .f32) (r : Fin 64) :
    lagsK S 13 (ix1 r) = lagRows (fun j : Fin 8192 => S (ix2 r j)) 13 :=
  lagK_apply 8178 14 (by norm_num) 0x45FF9000#32 slices_S64x8192_o0_0_S64x8178 slices_S64x8192_o0_14_S64x8178 reduces_S64x8178_S64 broadcasts_S64x1_S64x8178 S r
theorem lagsK_apply14 (S : FVec Ideal S64x8192 .f32) (r : Fin 64) :
    lagsK S 14 (ix1 r) = lagRows (fun j : Fin 8192 => S (ix2 r j)) 14 :=
  lagK_apply 8177 15 (by norm_num) 0x45FF8800#32 slices_S64x8192_o0_0_S64x8177 slices_S64x8192_o0_15_S64x8177 reduces_S64x8177_S64 broadcasts_S64x1_S64x8177 S r
theorem lagsK_apply15 (S : FVec Ideal S64x8192 .f32) (r : Fin 64) :
    lagsK S 15 (ix1 r) = lagRows (fun j : Fin 8192 => S (ix2 r j)) 15 :=
  lagK_apply 8176 16 (by norm_num) 0x45FF8000#32 slices_S64x8192_o0_0_S64x8176 slices_S64x8192_o0_16_S64x8176 reduces_S64x8176_S64 broadcasts_S64x1_S64x8176 S r
theorem lagsK_apply16 (S : FVec Ideal S64x8192 .f32) (r : Fin 64) :
    lagsK S 16 (ix1 r) = lagRows (fun j : Fin 8192 => S (ix2 r j)) 16 :=
  lagK_apply 8175 17 (by norm_num) 0x45FF7800#32 slices_S64x8192_o0_0_S64x8175 slices_S64x8192_o0_17_S64x8175 reduces_S64x8175_S64 broadcasts_S64x1_S64x8175 S r
theorem lagsK_apply17 (S : FVec Ideal S64x8192 .f32) (r : Fin 64) :
    lagsK S 17 (ix1 r) = lagRows (fun j : Fin 8192 => S (ix2 r j)) 17 :=
  lagK_apply 8174 18 (by norm_num) 0x45FF7000#32 slices_S64x8192_o0_0_S64x8174 slices_S64x8192_o0_18_S64x8174 reduces_S64x8174_S64 broadcasts_S64x1_S64x8174 S r
theorem lagsK_apply18 (S : FVec Ideal S64x8192 .f32) (r : Fin 64) :
    lagsK S 18 (ix1 r) = lagRows (fun j : Fin 8192 => S (ix2 r j)) 18 :=
  lagK_apply 8173 19 (by norm_num) 0x45FF6800#32 slices_S64x8192_o0_0_S64x8173 slices_S64x8192_o0_19_S64x8173 reduces_S64x8173_S64 broadcasts_S64x1_S64x8173 S r
theorem lagsK_apply19 (S : FVec Ideal S64x8192 .f32) (r : Fin 64) :
    lagsK S 19 (ix1 r) = lagRows (fun j : Fin 8192 => S (ix2 r j)) 19 :=
  lagK_apply 8172 20 (by norm_num) 0x45FF6000#32 slices_S64x8192_o0_0_S64x8172 slices_S64x8192_o0_20_S64x8172 reduces_S64x8172_S64 broadcasts_S64x1_S64x8172 S r
theorem lagsK_apply20 (S : FVec Ideal S64x8192 .f32) (r : Fin 64) :
    lagsK S 20 (ix1 r) = lagRows (fun j : Fin 8192 => S (ix2 r j)) 20 :=
  lagK_apply 8171 21 (by norm_num) 0x45FF5800#32 slices_S64x8192_o0_0_S64x8171 slices_S64x8192_o0_21_S64x8171 reduces_S64x8171_S64 broadcasts_S64x1_S64x8171 S r
theorem lagsK_apply21 (S : FVec Ideal S64x8192 .f32) (r : Fin 64) :
    lagsK S 21 (ix1 r) = lagRows (fun j : Fin 8192 => S (ix2 r j)) 21 :=
  lagK_apply 8170 22 (by norm_num) 0x45FF5000#32 slices_S64x8192_o0_0_S64x8170 slices_S64x8192_o0_22_S64x8170 reduces_S64x8170_S64 broadcasts_S64x1_S64x8170 S r
theorem lagsK_apply22 (S : FVec Ideal S64x8192 .f32) (r : Fin 64) :
    lagsK S 22 (ix1 r) = lagRows (fun j : Fin 8192 => S (ix2 r j)) 22 :=
  lagK_apply 8169 23 (by norm_num) 0x45FF4800#32 slices_S64x8192_o0_0_S64x8169 slices_S64x8192_o0_23_S64x8169 reduces_S64x8169_S64 broadcasts_S64x1_S64x8169 S r
theorem lagsK_apply23 (S : FVec Ideal S64x8192 .f32) (r : Fin 64) :
    lagsK S 23 (ix1 r) = lagRows (fun j : Fin 8192 => S (ix2 r j)) 23 :=
  lagK_apply 8168 24 (by norm_num) 0x45FF4000#32 slices_S64x8192_o0_0_S64x8168 slices_S64x8192_o0_24_S64x8168 reduces_S64x8168_S64 broadcasts_S64x1_S64x8168 S r

/-- The 24 lags of a block, at row `r`, are the 24 correlations of that row. -/
theorem lagsK_apply (S : FVec Ideal S64x8192 .f32) (r : Fin 64) (l : Fin 24) :
    lagsK S l (ix1 r) = lagRows (fun j : Fin 8192 => S (ix2 r j)) l := by
  fin_cases l
  · exact lagsK_apply0 S r
  · exact lagsK_apply1 S r
  · exact lagsK_apply2 S r
  · exact lagsK_apply3 S r
  · exact lagsK_apply4 S r
  · exact lagsK_apply5 S r
  · exact lagsK_apply6 S r
  · exact lagsK_apply7 S r
  · exact lagsK_apply8 S r
  · exact lagsK_apply9 S r
  · exact lagsK_apply10 S r
  · exact lagsK_apply11 S r
  · exact lagsK_apply12 S r
  · exact lagsK_apply13 S r
  · exact lagsK_apply14 S r
  · exact lagsK_apply15 S r
  · exact lagsK_apply16 S r
  · exact lagsK_apply17 S r
  · exact lagsK_apply18 S r
  · exact lagsK_apply19 S r
  · exact lagsK_apply20 S r
  · exact lagsK_apply21 S r
  · exact lagsK_apply22 S r
  · exact lagsK_apply23 S r

end Cert.KernelIdeal.Forms

end
-- ==== Proof.KernelNorm.lean ====
/-
  The body's normalisation read at an entry.

  The body first normalises its block row by row: the entries less their row's mean, divided by the square root of
  the centred squares' row sum over the float `8191`, plus the literal `ε`. The centring is the lags' own centring
  at the full width, so the centred squares' row sum is a lane sum of a product of two centred arrays. At the ideal
  instance entry `(r, j)` is `Autocorr.normRow` of row `r` at `j`.
-/
import proofs.«130460_j34522947125965_1_alg».proof.Proof.KernelLag
import proofs.«130460_j34522947125965_1_alg».proof.Proof.Gen.KernelIdeal.Skeleton

noncomputable section

namespace Cert.KernelIdeal.Forms

open Cert.KernelIdeal Cert.KernelIdeal.Gen Idealize.ShloMosaic Idealize.ShloMosaic.ValueIdx Cert.Autocorr
open scoped BigOperators

variable {F : FTy → Type} [FloatOps F]

/-- The normalisation's operations over the block `v1`. -/
def normK (v1 : FVec F S64x8192 .f32) : FVec F S64x8192 .f32 :=
  have v7 : FVec F S64x8192 .f32 := ctrK 8192 0x46000000#32 reduces_S64x8192_S64 broadcasts_S64x1_S64x8192 v1
  have v8 : FVec F S64x8192 .f32 := mulf v7 v7
  have v9 : FVec F S64 .f32 := multiReduction .add [1] S64 v8 0x00000000#32 reduces_S64x8192_S64 (.inl rfl) rfl
  have v10 : FVec F S64x1 .f32 := shapeCast S64x1 v9 shapeCasts_S64_S64x1
  have cst_3 : F .f32 := Scalar.ofBits .f32 0x45FFF800#32
  have v11 : FVec F S64x1 .f32 := broadcast S64x1 cst_3
  have v12 : FVec F S64x1 .f32 := divf v10 v11
  have v13 : FVec F S64x1 .f32 := sqrt v12
  have cst_4 : F .f32 := Scalar.ofBits .f32 0x322BCC77#32
  have v14 : FVec F S64x1 .f32 := broadcast S64x1 cst_4
  have v15 : FVec F S64x1 .f32 := addf v13 v14
  have v16 : FVec F S64x8192 .f32 := broadcastTo S64x8192 v15 broadcasts_S64x1_S64x8192
  divf v7 v16

/-- The skeleton's normalisation payload is `normK` of the block (cast to its own shape). -/
theorem pay2_eq (v0 : Vec F S64x8192 .f32) :
    k0_pay2 v0 = normK (shapeCast S64x8192 v0 shapeCasts_S64x8192_S64x8192) := rfl

/-- Entry `(r, j)` of the normalised block is `normRow` of row `r` at `j`. -/
theorem normK_apply (v1 : FVec Ideal S64x8192 .f32) (r : Fin 64) (j : Fin 8192) :
    normK (F := Ideal) v1 (ix2 r j)
      = normRow (Ideal.ofBits .f32 0x46000000#32) (Ideal.ofBits .f32 0x45FFF800#32) (Ideal.ofBits .f32 0x322BCC77#32)
          (fun k : Fin 8192 => v1 (ix2 r k)) j := by
  unfold normK normRow
  refine congr (congrArg Ideal.div (ctrK_apply 8192 _ _ _ v1 r j)) ?_
  refine (Cert.Columns.broadcastTo_a1_ab_apply _ broadcasts_S64x1_S64x8192 r j).trans ?_
  show Ideal.sqrt (Ideal.div (shapeCast S64x1 _ shapeCasts_S64_S64x1 (ix2 r (0 : Fin 1))) (Ideal.ofBits .f32 0x45FFF800#32))
      + Ideal.ofBits .f32 0x322BCC77#32 = _
  refine congrArg (fun t => Ideal.sqrt (Ideal.div t (Ideal.ofBits .f32 0x45FFF800#32)) + Ideal.ofBits .f32 0x322BCC77#32) ?_
  refine (Cert.Columns.shapeCast_a_a1_apply _ shapeCasts_S64_S64x1 r 0).trans ?_
  exact sumProdK 8192 _ _ _ v1 v1 r

/-- The same for the skeleton's payload. -/
theorem pay2_apply (v0 : Vec Ideal S64x8192 .f32) (r : Fin 64) (j : Fin 8192) :
    k0_pay2 (F := Ideal) v0 (ix2 r j)
      = normRow (Ideal.ofBits .f32 0x46000000#32) (Ideal.ofBits .f32 0x45FFF800#32) (Ideal.ofBits .f32 0x322BCC77#32)
          (fun k : Fin 8192 => v0 (ix2 r k)) j := by
  rw [pay2_eq, shapeCast_self]
  exact normK_apply v0 r j

end Cert.KernelIdeal.Forms

end
-- ==== Proof.KernelRunArrays.lean ====
/- The kernel program's window arrays when its region is entered, read at an index, and each window's block at a
   grid point as a function of the argument arrays. -/
import proofs.«130460_j34522947125965_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

/-- Rows `64 t … 64 t + 63` of the first feature plane of the sequence array, as a `[64, 8192]` block. -/
def blk0 (a0 : FVec Ideal S128x8192x8 .f32) (t : Fin 2) : Vec Ideal S64x8192 .f32 := fun y =>
  a0 (ix3 (⟨64 * t.val + (y 0).val, by have := t.isLt; have h : (y 0).val < 64 := (y 0).isLt; omega⟩ : Fin 128)
    (⟨(y 1).val, (y 1).isLt⟩ : Fin 8192) (0 : Fin 8))

/-- The 24 lag weights as a `[1, 24]` row. -/
def row24 (a2 : FVec Ideal S24 .f32) : Vec Ideal S1x24 .f32 := fun y => a2 (ix1 (⟨(y 1).val, (y 1).isLt⟩ : Fin 24))

/-- The 2 seasonal weights as a `[1, 2]` row. -/
def row2 (a3 : FVec Ideal S2 .f32) : Vec Ideal S1x2 .f32 := fun y => a3 (ix1 (⟨(y 1).val, (y 1).isLt⟩ : Fin 2))

variable (m : (ℓ : Loc nD τ sig) → Buf (Elt Ideal) ℓ)

/-- The first window's array when the region is entered: the slice of the sequence array to its first feature, reshaped to two axes. -/
theorem V_v1 (c : Dev nD) : (V m c main_v1 : S128x8192.Idx → Elt Ideal .f32) =
    shapeCast S128x8192 (extractStridedSlice S128x8192x1 ![0, 0, 0] (m ((c : Thread nD τ).loc main_arg0) : S128x8192x8.Idx → Elt Ideal .f32) slices_S128x8192x8_S128x8192x1_0_0_0) shapeCasts_S128x8192x1_S128x8192 := by
  show StableHlo.after hostOps0 (fun b => m (c, b)) (Proc.devRef .tc main_v1) = _
  after_results
  rfl

theorem V_v2 (c : Dev nD) : (V m c main_v2 : S1x24.Idx → Elt Ideal .f32) =
    shapeCast S1x24 (m ((c : Thread nD τ).loc main_arg2) : S24.Idx → Elt Ideal .f32) shapeCasts_S24_S1x24 := by
  show StableHlo.after hostOps0 (fun b => m (c, b)) (Proc.devRef .tc main_v2) = _
  after_results
  rfl

theorem V_v3 (c : Dev nD) : (V m c main_v3 : S1x2.Idx → Elt Ideal .f32) =
    shapeCast S1x2 (m ((c : Thread nD τ).loc main_arg3) : S2.Idx → Elt Ideal .f32) shapeCasts_S2_S1x2 := by
  show StableHlo.after hostOps0 (fun b => m (c, b)) (Proc.devRef .tc main_v3) = _
  after_results
  rfl

/-- The sliced and reshaped sequence array at `(r, j)` is the sequence array at `(r, j, 0)`. -/
theorem v1_apply (a0 : S128x8192x8.Idx → Elt Ideal .f32) (i : S128x8192.Idx) (k : S128x8192x8.Idx)
    (h0 : (k 0).val = (i 0).val) (h1 : (k 1).val = (i 1).val) (h2 : (k 2).val = 0) :
    shapeCast S128x8192 (extractStridedSlice S128x8192x1 ![0, 0, 0] a0 slices_S128x8192x8_S128x8192x1_0_0_0) shapeCasts_S128x8192x1_S128x8192 i = a0 k := by
  have hi0 : (i 0).val < 128 := (i 0).isLt
  have hi1 : (i 1).val < 8192 := (i 1).isLt
  rw [shapeCast_apply _ _ i (ix3 (⟨(i 0).val, hi0⟩ : Fin 128) (⟨(i 1).val, hi1⟩ : Fin 8192) (0 : Fin 1)) (by
    rw [Shape.rowMajor_val_three, Shape.rowMajor_val_two]
    show ((i 0).val * 8192 + (i 1).val) * 1 + 0 = (i 0).val * 8192 + (i 1).val
    omega)]
  refine extractStridedSlice_apply _ _ _ _ k ?_
  intro a
  match a with
  | ⟨0, _⟩ => show (k 0).val = 0 + (i 0).val; omega
  | ⟨1, _⟩ => show (k 1).val = 0 + (i 1).val; omega
  | ⟨2, _⟩ => show (k 2).val = 0 + 0; omega

theorem v2_apply (a2 : S24.Idx → Elt Ideal .f32) (i : S1x24.Idx) (k : S24.Idx) (h : (k 0).val = (i 1).val) :
    shapeCast S1x24 a2 shapeCasts_S24_S1x24 i = a2 k := by
  have hi0 : (i 0).val < 1 := (i 0).isLt
  refine shapeCast_apply _ _ i k ?_
  rw [Shape.rowMajor_val_one, Shape.rowMajor_val_two]
  show (k 0).val = (i 0).val * 24 + (i 1).val
  omega

theorem v3_apply (a3 : S2.Idx → Elt Ideal .f32) (i : S1x2.Idx) (k : S2.Idx) (h : (k 0).val = (i 1).val) :
    shapeCast S1x2 a3 shapeCasts_S2_S1x2 i = a3 k := by
  have hi0 : (i 0).val < 1 := (i 0).isLt
  refine shapeCast_apply _ _ i k ?_
  rw [Shape.rowMajor_val_one, Shape.rowMajor_val_two]
  show (k 0).val = (i 0).val * 2 + (i 1).val
  omega

/-! ## The windows' blocks at a grid point -/

/-- The printed index maps over the two grid points: the sequence and output windows move one row block per point, the two weight rows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first window's block at point `t` is rows `64 t … 64 t + 63` of the sequence array's first feature plane. -/
theorem iblk0_eq (c : Dev nD) (t : Fin cfg0.N) (tt : Fin 2) (htt : tt.val = t.val) :
    (iblk m c 0 t : Vec Ideal S64x8192 .f32) = blk0 (m ((c : Thread nD τ).loc main_arg0)) tt := by
  obtain ⟨e0, e1, -⟩ := idx_facts t
  funext y
  unfold iblk
  rw [View.read_apply]
  show V m c main_v1 _ = _
  rw [V_v1]
  unfold blk0
  refine v1_apply _ _ _ ?_ ?_ rfl
  · show 64 * tt.val + (y 0).val = win0_0.index t 0 * 64 + 1 * (y 0).val
    rw [e0, htt]; omega
  · show (y 1).val = win0_0.index t 1 * 8192 + 1 * (y 1).val
    rw [e1]; omega

/-- The second window's block at every point is the row of the 24 lag weights. -/
theorem iblk1_eq (c : Dev nD) (t : Fin cfg0.N) :
    (iblk m c 1 t : Vec Ideal S1x24 .f32) = row24 (m ((c : Thread nD τ).loc main_arg2)) := by
  obtain ⟨-, -, e0, e1, -⟩ := idx_facts t
  funext y
  unfold iblk
  rw [View.read_apply]
  show V m c main_v2 _ = _
  rw [V_v2]
  unfold row24
  refine v2_apply _ _ _ ?_
  show (y 1).val = win0_1.index t 1 * 24 + 1 * (y 1).val
  rw [e1]; omega

/-- The third window's block at every point is the row of the 2 seasonal weights. -/
theorem iblk2_eq (c : Dev nD) (t : Fin cfg0.N) :
    (iblk m c 2 t : Vec Ideal S1x2 .f32) = row2 (m ((c : Thread nD τ).loc main_arg3)) := by
  obtain ⟨-, -, -, -, e0, e1, -⟩ := idx_facts t
  funext y
  unfold iblk
  rw [View.read_apply]
  show V m c main_v3 _ = _
  rw [V_v3]
  unfold row2
  refine v3_apply _ _ _ ?_
  show (y 1).val = win0_2.index t 1 * 2 + 1 * (y 1).val
  rw [e1]; omega

end Cert.KernelIdeal.HandValue

end
-- ==== Proof.KernelRunBlocks.lean ====
/- The kernel program's output array after its region, as one function of the argument arrays: what each grid
   point writes back is a block of that function, and the blocks tile the array. -/
import proofs.«130460_j34522947125965_1_alg».proof.Proof.KernelRunArrays
import Idealize.ShloMosaic.Lib.Pipeline.Value
import Idealize.ShloMosaic.Lib.ValueIdx

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

/-- The output array after the region: row `i` is row `i % 64` of what the body stores at point `i / 64`. -/
def perRowK (a0 : FVec Ideal S128x8192x8 .f32) (a2 : FVec Ideal S24 .f32) (a3 : FVec Ideal S2 .f32) : FVec Ideal S128x1 .f32 := fun i =>
  Gen.out0_3 (F := Ideal) (blk0 a0 ⟨(i 0).val / 64, by have h : (i 0).val < 128 := (i 0).isLt; omega⟩) (row24 a2) (row2 a3)
    (ix2 (⟨(i 0).val % 64, Nat.mod_lt _ (by decide)⟩ : Fin 64) (0 : Fin 1))

/-- Row `64 t + r` of that array is row `r` of the body's result on block `t`. -/
theorem perRowK_at (a0 : FVec Ideal S128x8192x8 .f32) (a2 : FVec Ideal S24 .f32) (a3 : FVec Ideal S2 .f32) (tt : Fin 2)
    (j : S64x1.Idx) (i : S128x1.Idx) (h0 : (i 0).val = tt.val * 64 + (j 0).val) :
    perRowK a0 a2 a3 i = Gen.out0_3 (F := Ideal) (blk0 a0 tt) (row24 a2) (row2 a3) j := by
  have hj0 : (j 0).val < 64 := (j 0).isLt
  have hj1 : (j 1).val < 1 := (j 1).isLt
  have e1 : (⟨(i 0).val / 64, by have h : (i 0).val < 128 := (i 0).isLt; omega⟩ : Fin 2) = tt :=
    Fin.ext (by show (i 0).val / 64 = tt.val; omega)
  have e2 : ix2 (⟨(i 0).val % 64, Nat.mod_lt _ (by decide)⟩ : Fin 64) (0 : Fin 1) = j := by
    funext a
    match a with
    | ⟨0, _⟩ => exact Fin.ext (by show (i 0).val % 64 = (j 0).val; omega)
    | ⟨1, _⟩ => exact Fin.ext (by show 0 = (j 1).val; omega)
  unfold perRowK
  rw [e1, e2]

variable (m : (ℓ : Loc nD τ sig) → Buf (Elt Ideal) ℓ)

/-- What point `t` writes back to the output array is block `t` of `perRowK` of the argument arrays. -/
theorem flushed_eq (c : Dev nD) (t : Fin cfg0.N) :
    (dats m 0 c).flushed 3 t = ((cfg0.win 3).blk t).view.read (Elt Ideal)
      (perRowK (m ((c : Thread nD τ).loc main_arg0)) (m ((c : Thread nD τ).loc main_arg2)) (m ((c : Thread nD τ).loc main_arg3))) := by
  show (cfg0.win 3).cut (grid0.coords t) ((dats m 0 c).after 3 t) = _
  rw [after0_3]
  have ht : t.val < 2 := by have h := t.isLt; have hN : cfg0.N = 2 := N_0; omega
  obtain ⟨-, -, -, -, -, -, e0, e1⟩ := idx_facts t
  rw [iblk0_eq m c t ⟨t.val, ht⟩ rfl, iblk1_eq m c t, iblk2_eq m c t]
  funext j
  show out0_3 (F := Ideal) _ _ _ j = perRowK _ _ _ (((cfg0.win 3).blk t).view.emb j)
  refine (perRowK_at _ _ _ ⟨t.val, ht⟩ j _ ?_).symm
  show win0_3.index t (0 : Fin 2) * 64 + 1 * (j 0).val = t.val * 64 + (j 0).val
  rw [e0]; omega

/-- An index of the output array is in point `t`'s block iff each coordinate is in the block's range on its axis. -/
theorem mem_blk (t : Fin cfg0.N) (i : S128x1.Idx) :
    i ∈ ((cfg0.win 3).blk t).view.set ↔ ∀ a : Fin 2, win0_3.index t a * S64x1.size a ≤ (i a).val ∧ (i a).val < win0_3.index t a * S64x1.size a + S64x1.size a := by
  show i ∈ ((View.whole main_v4).slice (win0_3.rect t)).set ↔ _
  rw [View.set_slice_whole, Rect.mem_set_unit]
  exact Iff.rfl

/-- Every row of the output array is in the block of the point `row / 64`. -/
theorem cover (i : S128x1.Idx) : ∃ t : Fin cfg0.N, (cfg0.win 3).flush t = true ∧ i ∈ ((cfg0.win 3).blk t).view.set := by
  have hi0 : (i 0).val < 128 := (i 0).isLt
  have hi1 : (i 1).val < 1 := (i 1).isLt
  have hN : cfg0.N = 2 := N_0
  obtain ⟨t, ht⟩ : ∃ t : Fin cfg0.N, t.val = (i 0).val / 64 := ⟨⟨(i 0).val / 64, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 64 ≤ (i 0).val ∧ (i 0).val < win0_3.index t (0 : Fin 2) * 64 + 64
    rw [e0, ht]; omega
  | ⟨1, _⟩ =>
    show win0_3.index t (1 : Fin 2) * 1 ≤ (i 1).val ∧ (i 1).val < win0_3.index t (1 : Fin 2) * 1 + 1
    rw [e1]; omega

/-- The output array after the region is `perRowK` of the argument arrays: the two row blocks tile it. -/
theorem final (c : Dev nD) : (dats m 0 c).arrAt 3 cfg0.N =
    perRowK (m ((c : Thread nD τ).loc main_arg0)) (m ((c : Thread nD τ).loc main_arg2)) (m ((c : Thread nD τ).loc main_arg3)) :=
  (dats m 0 c).arrAt_eq_of_cover 3 _ (fun t _ => flushed_eq m c t) cover

end Cert.KernelIdeal.HandValue

end
-- ==== Proof.KernelRun.lean ====
/- The kernel program's run read as a value: after the region the output array is `perRowK` of the argument arrays,
   the host operations that follow reduce it to `meanK` of that array, and the argument arrays end as launched. -/
import proofs.«130460_j34522947125965_1_alg».proof.Proof.KernelRunBlocks
import Idealize.ShloMosaic.Lib.StableHlo.Run
import Idealize.ShloMosaic.Lib.Pipeline.Value
import Idealize.ShloMosaic.Lib.ValueIdx

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

/-- The three host operations after the region composed: the sum of the array over both axes from zero, divided by 128. -/
def meanK (X : FVec Ideal S128x1 .f32) : FVec Ideal S_ .f32 :=
  Host.divf (F := Ideal) (Host.reduceAdd (F := Ideal) X (constant (F := Ideal) S_ .f32 0x00000000#32) reducesTo_S128x1_S_d0_1 h_S_)
    (constant (F := Ideal) S_ .f32 0x43000000#32)

variable (m : (ℓ : Loc nD τ sig) → Buf (Elt Ideal) ℓ) (ρ : Dev nD → PrngReg)

/-- The result buffer after the host operations that follow the region: `meanK` of the region's output array. -/
theorem tail_eq (c : Dev nD) :
    Pipeline.afterTail₀ cfgs (dats m) 0 (V0 m) [hostOps1] c main_v6 =
      meanK (perRowK (m ((c : Thread nD τ).loc main_arg0)) (m ((c : Thread nD τ).loc main_arg2)) (m ((c : Thread nD τ).loc main_arg3))) := by
  unfold Pipeline.afterTail₀
  show StableHlo.after hostOps1 _ (Proc.devRef .tc main_v6) = _
  after_results
  exact congrArg meanK ((Pipeline.withArrays_arr spec0 launch0.win.arr_inj c _ _ 3).trans (final m c))

/-- The kernel program's run, read: the result is `meanK` of `perRowK` of the argument arrays, which end unchanged. -/
theorem run :
    θ_run (defs (F := Ideal)) (onTc (τ := τ) (main (F := Ideal))) ⟨m, fun _ => 0, ρ⟩ fun r => ∀ c : Dev nD,
      r.2.mem ((c.tc : Thread nD τ).loc main_v6) = meanK (perRowK (m ((c.tc : Thread nD τ).loc main_arg0)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

/-! ## The blocks at explicit coordinates -/

theorem blk0_apply (a0 : FVec Ideal S128x8192x8 .f32) (t : Fin 2) (r : Fin 64) (j : Fin 8192) :
    blk0 a0 t (ix2 r j) = a0 (ix3 (⟨64 * t.val + r.val, by have := t.isLt; have := r.isLt; omega⟩ : Fin 128) j (0 : Fin 8)) := rfl

theorem row24_apply (a2 : FVec Ideal S24 .f32) (z : Fin 1) (l : Fin 24) : row24 a2 (ix2 z l) = a2 (ix1 l) := rfl

theorem row2_apply (a3 : FVec Ideal S2 .f32) (z : Fin 1) (s : Fin 2) : row2 a3 (ix2 z s) = a3 (ix1 s) := rfl

/-- Row `i` of `perRowK`, with the point and the row inside its block named. -/
theorem perRowK_apply (a0 : FVec Ideal S128x8192x8 .f32) (a2 : FVec Ideal S24 .f32) (a3 : FVec Ideal S2 .f32) (t : Fin 2) (r : Fin 64) :
    perRowK a0 a2 a3 (ix2 (⟨64 * t.val + r.val, by have := t.isLt; have := r.isLt; omega⟩ : Fin 128) (0 : Fin 1))
      = Gen.out0_3 (F := Ideal) (blk0 a0 t) (row24 a2) (row2 a3) (ix2 r (0 : Fin 1)) :=
  perRowK_at a0 a2 a3 t (ix2 r (0 : Fin 1)) _ (by show 64 * t.val + r.val = t.val * 64 + r.val; omega)

end Cert.KernelIdeal.HandValue

end
-- ==== Proof.KernelTail.lean ====
/- The kernel's last stages read at an index on the extended reals: the softmax of the weight row, one row's score,
   and the mean over the rows that the host operations after the region take. -/
import proofs.«130460_j34522947125965_1_alg».proof.Proof.Spec
import proofs.«130460_j34522947125965_1_alg».proof.Proof.LibRowOps
import proofs.«130460_j34522947125965_1_alg».proof.Proof.KernelRun
import proofs.«130460_j34522947125965_1_alg».proof.Proof.Gen.KernelIdeal.Skeleton
import Idealize.ShloMosaic.Lib.ValueLayout
import Idealize.ShloMosaic.Lib.ValueIdx
import Idealize.ShloMosaic.Lib.IdealHost
import Idealize.ShloMosaic.PureOps.Ideal.Laws

noncomputable section

namespace Cert.KernelIdeal.Forms

open Cert.KernelIdeal Cert.KernelIdeal.Gen Cert.Autocorr Idealize.ShloMosaic Idealize.ShloMosaic.ValueIdx
open scoped BigOperators

/-- A lane maximum from minus infinity, at row `r`: the fold of `max` over the row's entries. -/
theorem rowMaxK {R W : ℕ} (src : FVec Ideal ⟨2, ![R, W]⟩ .f32) (h : (⟨2, ![R, W]⟩ : Shape).Reduces [1] ⟨1, ![R]⟩)
    (hφ : FKind.Formats .f32) (hacc : (0xFF800000#32 : BitVec 32) = 0xFF800000#32) (r : Fin R) :
    multiReduction .maximumf [1] ⟨1, ![R]⟩ src 0xFF800000#32 h hφ hacc (ix1 r)
      = Finset.univ.fold max (Ideal.ofBits .f32 0xFF800000#32) (fun k : Fin W => src (ix2 r k)) := by
  refine (Ideal.multiReduction_maximumf_single src _ h hφ hacc (ix1 r)).trans ?_
  exact congrArg (fun f => Finset.univ.fold max (Ideal.ofBits .f32 0xFF800000#32) f) (funext fun k => congrArg src (Cert.RowOps.lift_row h r k))

/-- The one entry of a `[1]` vector, cast to `[1, 1]` and extracted. -/
theorem scalar11 {α : Type} (v : (⟨1, ![1]⟩ : Shape).Idx → α) (h : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ v h) hp = v (ix1 (0 : Fin 1)) := by
  unfold extractAt
  have e : (fun a => (⟨(![0, 0] : Fin 2 → Nat) a, hp a⟩ : Fin ((⟨2, ![1, 1]⟩ : Shape).size a))) = ix2 (0 : Fin 1) (0 : Fin 1) := by
    funext a
    match a with
    | ⟨0, _⟩ => rfl
    | ⟨1, _⟩ => rfl
  rw [e]
  exact shapeCast_a_1a_apply v h 0 0

/-- The kernel's weights: the softmax of the `[1, 24]` weight row, the same in each of the 64 rows. -/
theorem pay70_apply (v715 : Vec Ideal S1x24 .f32) (r : Fin 64) (l : Fin 24) :
    Gen.k0_pay70 (F := Ideal) v715 (ix2 r l)
      = softmax24 (Ideal.ofBits .f32 0xFF800000#32) (fun k : Fin 24 => v715 (ix2 (0 : Fin 1) k)) l := by
  let v716 : FVec Ideal S24 .f32 := shapeCast S24 v715 shapeCasts_S1x24_S24
  let v717 : FVec Ideal S1x24 .f32 := shapeCast S1x24 v716 shapeCasts_S24_S1x24
  let v718 : FVec Ideal S1 .f32 := multiReduction .maximumf [1] S1 v717 0xFF800000#32 reduces_S1x24_S1 (.inl rfl) rfl
  let v720 : Ideal .f32 := extractAt ![0, 0] (shapeCast S1x1 v718 shapeCasts_S1_S1x1) inpos_S1x1_p0_0
  let v723 : FVec Ideal S24 .f32 := exp (subf v716 (broadcast S24 v720))
  let v724 : FVec Ideal S1x24 .f32 := shapeCast S1x24 v723 shapeCasts_S24_S1x24
  let v725 : FVec Ideal S1 .f32 := multiReduction .add [1] S1 v724 0x00000000#32 reduces_S1x24_S1 (.inl rfl) rfl
  let v727 : Ideal .f32 := extractAt ![0, 0] (shapeCast S1x1 v725 shapeCasts_S1_S1x1) inpos_S1x1_p0_0
  let v729 : FVec Ideal S24 .f32 := divf v723 (broadcast S24 v727)
  let v730 : FVec Ideal S1x24 .f32 := shapeCast S1x24 v729 shapeCasts_S24_S1x24
  have h716 : ∀ k : Fin 24, v716 (ix1 k) = v715 (ix2 (0 : Fin 1) k) := fun k => shapeCast_1a_a_apply v715 _ k
  have h717 : ∀ k : Fin 24, v717 (ix2 (0 : Fin 1) k) = v715 (ix2 (0 : Fin 1) k) := fun k =>
    (shapeCast_a_1a_apply v716 _ 0 k).trans (h716 k)
  have h720 : v720 = Finset.univ.fold max (Ideal.ofBits .f32 0xFF800000#32) (fun k : Fin 24 => v715 (ix2 (0 : Fin 1) k)) := by
    refine (scalar11 v718 _ _).trans ?_
    refine (rowMaxK v717 _ _ _ (0 : Fin 1)).trans ?_
    exact congrArg (fun f => Finset.univ.fold max (Ideal.ofBits .f32 0xFF800000#32) f) (funext h717)
  have h723 : ∀ k : Fin 24, v723 (ix1 k) = Ideal.exp (v715 (ix2 (0 : Fin 1) k)
      - Finset.univ.fold max (Ideal.ofBits .f32 0xFF800000#32) (fun k : Fin 24 => v715 (ix2 (0 : Fin 1) k))) := fun k => by
    show Ideal.exp (v716 (ix1 k) - v720) = _
    rw [h716 k, h720]
  have h727 : v727 = ∑ k : Fin 24, Ideal.exp (v715 (ix2 (0 : Fin 1) k)
      - Finset.univ.fold max (Ideal.ofBits .f32 0xFF800000#32) (fun k : Fin 24 => v715 (ix2 (0 : Fin 1) k))) := by
    refine (scalar11 v725 _ _).trans ?_
    refine (Cert.RowOps.rowSumK v724 _ _ _ (0 : Fin 1)).trans ?_
    exact Finset.sum_congr rfl fun k _ => (shapeCast_a_1a_apply v723 _ 0 k).trans (h723 k)
  show broadcastTo S64x24 v730 broadcasts_S1x24_S64x24 (ix2 r l) = _
  refine (broadcastTo_1b_ab_apply v730 _ r l).trans ?_
  refine (shapeCast_a_1a_apply v729 _ 0 l).trans ?_
  show Ideal.div (v723 (ix1 l)) v727 = _
  rw [h723 l, h727]
  rfl

/-- A `[a]` vector cast to a column `[a, 1]` reads, at `(i, u)`, its entry `i`. -/
theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` cast to a vector `[a]` reads, at `i`, its entry `(i, 0)`. -/
theorem shapeCast_a1_a_apply {a : ℕ} {α : Type} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- One entry of a `[2]` vector cut out as a `[1]` vector and extracted. -/
theorem scalarOf2 {α : Type} (v : (⟨1, ![2]⟩ : Shape).Idx → α) (o : Nat) (e : Fin 2) (he : e.val = o)
    (h : (⟨1, ![2]⟩ : Shape).Slices ![o] ⟨1, ![1]⟩) (hp : ∀ a, (![0] : Fin 1 → Nat) a < (⟨1, ![1]⟩ : Shape).size a) :
    extractAt ![0] (extractStridedSlice ⟨1, ![1]⟩ ![o] v h) hp = v (ix1 e) := by
  unfold extractAt
  refine extractStridedSlice_apply _ _ _ _ (ix1 e) ?_
  intro a
  match a with
  | ⟨0, _⟩ => show e.val = o + 0; omega

/-- One row's score in the kernel: the weighted sum of the 24 correlations plus the two seasonal terms. -/
theorem pay1_apply (A P : FVec Ideal S64x24 .f32) (v734 : Vec Ideal S1x2 .f32) (r : Fin 64) :
    Gen.k0_pay1 (F := Ideal) A P v734 (ix2 r (0 : Fin 1))
      = score (fun l : Fin 24 => A (ix2 r l)) (fun l : Fin 24 => P (ix2 r l))
          (v734 (ix2 (0 : Fin 1) (0 : Fin 2))) (v734 (ix2 (0 : Fin 1) (1 : Fin 2))) := by
  let v733 : FVec Ideal S64 .f32 := multiReduction .add [1] S64 (mulf A P) 0x00000000#32 reduces_S64x24_S64 (.inl rfl) rfl
  let v735 : FVec Ideal S2 .f32 := shapeCast S2 v734 shapeCasts_S1x2_S2
  let v738 : FVec Ideal S64 .f32 := shapeCast S64 (extractStridedSlice S64x1 ![0, 11] A slices_S64x24_o0_11_S64x1) shapeCasts_S64x1_S64
  let v740 : Ideal .f32 := extractAt ![0] (extractStridedSlice S1 ![0] v735 slices_S2_o0_S1) inpos_S1_p0
  let v745 : FVec Ideal S64 .f32 := shapeCast S64 (extractStridedSlice S64x1 ![0, 23] A slices_S64x24_o0_23_S64x1) shapeCasts_S64x1_S64
  let v747 : Ideal .f32 := extractAt ![0] (extractStridedSlice S1 ![1] v735 slices_S2_o1_S1) inpos_S1_p0
  let v751 : FVec Ideal S64 .f32 := addf v733 (addf (addf (broadcast S64 (Scalar.ofBits .f32 0x00000000#32)) (mulf v738 (broadcast S64 v740))) (mulf v745 (broadcast S64 v747)))
  have h733 : v733 (ix1 r) = ∑ l : Fin 24, A (ix2 r l) * P (ix2 r l) := Cert.RowOps.rowSumK (mulf A P) _ _ _ r
  have h738 : v738 (ix1 r) = A (ix2 r (11 : Fin 24)) :=
    (shapeCast_a1_a_apply _ _ r).trans (slice2_axis1_apply 11 A _ r (0 : Fin 1) (11 : Fin 24) rfl)
  have h745 : v745 (ix1 r) = A (ix2 r (23 : Fin 24)) :=
    (shapeCast_a1_a_apply _ _ r).trans (slice2_axis1_apply 23 A _ r (0 : Fin 1) (23 : Fin 24) rfl)
  have h740 : v740 = v734 (ix2 (0 : Fin 1) (0 : Fin 2)) :=
    (scalarOf2 v735 0 (0 : Fin 2) rfl _ _).trans (shapeCast_1a_a_apply v734 _ (0 : Fin 2))
  have h747 : v747 = v734 (ix2 (0 : Fin 1) (1 : Fin 2)) :=
    (scalarOf2 v735 1 (1 : Fin 2) rfl _ _).trans (shapeCast_1a_a_apply v734 _ (1 : Fin 2))
  show shapeCast S64x1 v751 shapeCasts_S64_S64x1 (ix2 r (0 : Fin 1)) = _
  refine (shapeCast_a_a1_apply v751 _ r 0).trans ?_
  show v733 (ix1 r) + ((Ideal.ofBits .f32 0x00000000#32 + v738 (ix1 r) * v740) + v745 (ix1 r) * v747) = _
  rw [h733, h738, h745, h740, h747, Ideal.ofBits_zero_f32]
  rfl

/-- The host operations after the region: the sum of the 128 rows divided by the literal 128. -/
theorem meanK_eq (X : FVec Ideal S128x1 .f32) :
    Cert.KernelIdeal.HandValue.meanK X
      = fun _ => Ideal.div (∑ r : Fin 128, X (ix2 r (0 : Fin 1))) (Ideal.ofBits .f32 0x43000000#32) := by
  funext j
  unfold Cert.KernelIdeal.HandValue.meanK
  refine (hostDivf_apply _ _ j).trans ?_
  refine congrArg (fun s => Ideal.div s (Ideal.ofBits .f32 0x43000000#32)) ?_
  refine (hostReduceAdd_apply X _ _ _ j).trans ?_
  refine (Ideal.hostReduceAdd_total _ (fun b => b.elim0) X _ j).trans ?_
  show Ideal.ofBits .f32 0x00000000#32 + ∑ i : S128x1.Idx, X i = _
  rw [Ideal.ofBits_zero_f32, zero_add, sum_idx2]
  exact Finset.sum_congr rfl fun a _ => Fin.sum_univ_one _

end Cert.KernelIdeal.Forms

end
-- ==== Proof.KernelBody.lean ====
/-
  What the kernel body stores, read at a row.

  The body's one store holds, at row `r` of its `[64, 1]` block, the score of row `r` of the sequence block:
  the block is normalised row by row, the 24 lags' correlations are laid side by side as the columns of a
  `[64, 24]` array, multiplied by the softmax of the weight row broadcast over the rows and summed along each row,
  and the two seasonal columns are added. Every piece is a function of the row alone, so row `r` of the result is
  `Autocorr.rowScore` of row `r` of the block, the weight row and the two seasonal weights.
-/
import proofs.«130460_j34522947125965_1_alg».proof.Proof.KernelFold
import proofs.«130460_j34522947125965_1_alg».proof.Proof.KernelNorm
import proofs.«130460_j34522947125965_1_alg».proof.Proof.KernelTail
import proofs.«130460_j34522947125965_1_alg».proof.Proof.SpecRow
import proofs.«130460_j34522947125965_1_alg».proof.Proof.Gen.KernelIdeal.Frame

noncomputable section

namespace Cert.KernelIdeal.Forms

open Cert.KernelIdeal Cert.KernelIdeal.Gen Idealize.ShloMosaic Idealize.ShloMosaic.ValueIdx Cert.Autocorr
open scoped BigOperators

/-- The whole-buffer rectangle starts at the origin. -/
theorem hz : (![0, 0] : Fin 2 → Nat) = fun _ => 0 := funext fun a => by fin_cases a <;> rfl

/-- What the body leaves in its output block: the final payload of the 24 lags of the normalised block (as columns),
    the softmax row broadcast over the rows, and the seasonal weights. -/
theorem out0_3_eq (x0 : Vec Ideal S64x8192 .f32) (x1 : Vec Ideal S1x24 .f32) (x2 : Vec Ideal S1x2 .f32) :
    out0_3 (F := Ideal) x0 x1 x2 = k0_pay1 (catK (lagsK (k0_pay2 x0))) (k0_pay70 x1) x2 := by
  unfold out0_3
  rw [View.canon_unit_zero hz]
  simp only [View.ld_unit_zero (S := S64x8192) hz, View.ld_unit_zero (S := S1x24) hz, View.ld_unit_zero (S := S1x2) hz]
  rw [fold1, fold2, fold3, fold4, fold5, fold6, fold7, fold8, fold9, fold10, fold11, fold12, fold13, fold14, fold15,
    fold16, fold17, fold18, fold19, fold20, fold21, fold22, fold23]
  rw [fold24 (lagsK (k0_pay2 x0)) (k0_pay2 x0) rfl]

/-- 24 vectors laid side by side read, at `(r, l)`, vector `l` at `r`. -/
theorem catK_apply (c : Fin 24 → FVec Ideal S64 .f32) (r : Fin 64) (l : Fin 24) : catK c (ix2 r l) = c l (ix1 r) := by
  have e : catK c = concatenate S64x24 1
      (List.ofFn fun n : Fin 24 => (⟨S64x1, shapeCast S64x1 (c n) shapeCasts_S64_S64x1⟩ : (s : Shape) × (s.Idx → Ideal .f32)))
      concatenates_S64x1_S64x1_S64x1_S64x1_S64x1_S64x1_S64x1_S64x1_S64x1_S64x1_S64x1_S64x1_S64x1_S64x1_S64x1_S64x1_S64x1_S64x1_S64x1_S64x1_S64x1_S64x1_S64x1_S64x1_S64x24_d1 := rfl
  rw [e]
  refine (concatenate_ofFn_unit_apply (t := S64x24) (1 : Fin 2) (fun n : Fin 24 => shapeCast S64x1 (c n) shapeCasts_S64_S64x1) _ rfl rfl
    (ix2 r l) l rfl (ix2 r (0 : Fin 1)) ?_).trans ?_
  · intro b hb
    match b with
    | ⟨0, _⟩ => rfl
    | ⟨1, _⟩ => exact absurd rfl hb
  · exact Cert.Columns.shapeCast_a_a1_apply _ _ r 0

/-- Row `r` of what the body stores is the score of row `r` of its block. -/
theorem out0_3_apply (x0 : Vec Ideal S64x8192 .f32) (x1 : Vec Ideal S1x24 .f32) (x2 : Vec Ideal S1x2 .f32) (r : Fin 64) :
    out0_3 (F := Ideal) x0 x1 x2 (ix2 r (0 : Fin 1))
      = rowScore (fun j : Fin 8192 => x0 (ix2 r j)) (fun l : Fin 24 => x1 (ix2 (0 : Fin 1) l))
          (x2 (ix2 (0 : Fin 1) (0 : Fin 2))) (x2 (ix2 (0 : Fin 1) (1 : Fin 2))) := by
  rw [out0_3_eq, pay1_apply]
  unfold rowScore
  have hA : (fun l : Fin 24 => catK (lagsK (k0_pay2 (F := Ideal) x0)) (ix2 r l))
      = lagRows (normRow (Ideal.ofBits .f32 0x46000000#32) (Ideal.ofBits .f32 0x45FFF800#32)
          (Ideal.ofBits .f32 0x322BCC77#32) (fun j : Fin 8192 => x0 (ix2 r j))) := by
    funext l
    rw [catK_apply, lagsK_apply]
    exact congrArg (fun zn => lagRows zn l) (funext fun j => pay2_apply x0 r j)
  have hP : (fun l : Fin 24 => k0_pay70 (F := Ideal) x1 (ix2 r l))
      = softmax24 (Ideal.ofBits .f32 0xFF800000#32) (fun k : Fin 24 => x1 (ix2 (0 : Fin 1) k)) :=
    funext fun l => pay70_apply x1 r l
  rw [hA, hP]

end Cert.KernelIdeal.Forms

end
-- ==== Proof.HostForms.lean ====
/- The reference program's host operations read back as closed terms of its arguments.

   `seqnH` is the row-normalised series (each of the 128 rows of the first channel minus its mean,
   divided by its unbiased standard deviation plus the literal 1e-8); `lagH W off cb` is one lag's clipped
   Pearson correlation of the first `W` columns with the `W` columns starting at `off` (`cb` the bit pattern
   of the float literal `W`); `tailH` turns the 24 lag results into the scalar result (the softmax-weighted
   row sum plus the two seasonal terms, averaged over the rows).  Every definition lists the program's
   operations in the program's order, with the program's operand order. -/
import proofs.«130460_j34522947125965_1_alg».proof.ReferenceIdeal

noncomputable section

namespace Cert.ReferenceIdeal.HostForms

open Idealize.ShloMosaic Cert.ReferenceIdeal Cert.ReferenceIdeal.Facts₀

variable {F : FTy → Type} [FloatOps F] [Cert.ReferenceIdeal.Facts]

/-- The 128 rows of width `W`. -/
abbrev RW (W : ℕ) : Shape := ⟨2, ![128, W]⟩

/-- The row-normalised series as a function of the first argument's contents. -/
def seqnH (a0 : FVec F S128x8192x8 .f32) : FVec F S128x8192 .f32 :=
  -- the first channel, as 128 rows of 8192
  let v0 : FVec F S128x8192x1 .f32 := extractStridedSlice S128x8192x1 ![0, 0, 0] a0 slices_S128x8192x8_S128x8192x1_0_0_0
  let v1 : FVec F S128x8192 .f32 := shapeCast S128x8192 v0 shapeCasts_S128x8192x1_S128x8192
  -- the row mean
  let v2 : FVec F S128 .f32 := Host.reduceAdd v1 (constant S_ .f32 0x00000000#32) reducesTo_S128x8192_S128_d1 h_S_
  let v3 : FVec F S128x1 .f32 := broadcastInDim S128x1 ![0] bcast_S128_S128x1_0 v2
  let v4 : FVec F S128x1 .f32 := broadcastInDim S128x1 ![] bcast_S_S128x1 (constant S_ .f32 0x46000000#32)
  let v5 : FVec F S128x1 .f32 := Host.divf v3 v4
  -- the unbiased variance: the mean again, the centred squares' row sum over 8192 - 1 (not a number unless
  -- that count is positive), and its square root
  let w0 : FVec F S128 .f32 := Host.reduceAdd v1 (constant S_ .f32 0x00000000#32) reducesTo_S128x8192_S128_d1 h_S_
  let w1 : FVec F S128x1 .f32 := broadcastInDim S128x1 ![0] bcast_S128_S128x1_0 w0
  let w2 : FVec F S128x1 .f32 := broadcastInDim S128x1 ![] bcast_S_S128x1 (constant S_ .f32 0x46000000#32)
  let w3 : FVec F S128x1 .f32 := Host.divf w1 w2
  let w4 : FVec F S128x8192 .f32 := broadcastInDim S128x8192 ![0, 1] bcast_S128x1_S128x8192_0_1 w3
  let w5 : FVec F S128x8192 .f32 := subf v1 w4
  let w6 : FVec F S128x8192 .f32 := mulf w5 w5
  let w7 : FVec F S_ .f32 := sitofp .f32 (constantI S_ 32 1#32)
  let w8 : FVec F S_ .f32 := subf (constant S_ .f32 0x46000000#32) w7
  let w9 : FVec F S128 .f32 := Host.reduceAdd w6 (constant S_ .f32 0x00000000#32) reducesTo_S128x8192_S128_d1 h_S_
  let w10 : FVec F S128x1 .f32 := broadcastInDim S128x1 ![0] bcast_S128_S128x1_0 w9
  let w11 : FVec F S128x1 .f32 := broadcastInDim S128x1 ![] bcast_S_S128x1 w8
  let w12 : FVec F S128x1 .f32 := Host.divf w10 w11
  let w13 : IVec S_ 1 := cmpf .ogt w8 (constant S_ .f32 0x00000000#32)
  let x0 : FVec F S_ .f32 := id (constant S_ .f32 0x7FC00000#32)
  let x1 : FVec F S128x1 .f32 := broadcastInDim S128x1 ![] bcast_S_S128x1 x0
  let x2 : FVec F S128x1 .f32 := select (broadcastInDim S128x1 ![] bcast_S_S128x1 w13) w12 x1
  let v6 : FVec F S128x1 .f32 := Host.sqrt x2
  -- centre, add the literal to the deviation, divide
  let v7 : FVec F S128x8192 .f32 := broadcastInDim S128x8192 ![0, 1] bcast_S128x1_S128x8192_0_1 v5
  let v8 : FVec F S128x8192 .f32 := subf v1 v7
  let v9 : FVec F S128x1 .f32 := broadcastInDim S128x1 ![] bcast_S_S128x1 (constant S_ .f32 0x322BCC77#32)
  let v10 : FVec F S128x1 .f32 := addf v6 v9
  let v11 : FVec F S128x8192 .f32 := broadcastInDim S128x8192 ![0, 1] bcast_S128x1_S128x8192_0_1 v10
  Host.divf v8 v11

/-- One lag: the clipped correlation, row by row, of the `W` columns at offset 0 with the `W` columns at
    offset `off`; `cb` is the bit pattern of the float literal the row sums are divided by. -/
def lagH (W off : ℕ) (cb : BitVec 32)
    (hs0 : S128x8192.Slices ![0, 0] (RW W)) (hs1 : S128x8192.Slices ![0, off] (RW W))
    (hr : (RW W).ReducesTo [1] S128)
    (hb : S128x1.BroadcastsInDim (RW W) (![0, 1] : Fin 2 → Fin (RW W).rank))
    (s : FVec F S128x8192 .f32) : FVec F S128 .f32 :=
  let x : FVec F (RW W) .f32 := extractStridedSlice (RW W) ![0, 0] s hs0
  let y : FVec F (RW W) .f32 := extractStridedSlice (RW W) ![0, off] s hs1
  -- the two row means and the centred copies
  let mx : FVec F S128x1 .f32 :=
    Host.divf (broadcastInDim S128x1 ![0] bcast_S128_S128x1_0 (Host.reduceAdd x (constant S_ .f32 0x00000000#32) hr h_S_))
      (broadcastInDim S128x1 ![] bcast_S_S128x1 (constant S_ .f32 cb))
  let xm : FVec F (RW W) .f32 := subf x (broadcastInDim (RW W) ![0, 1] hb mx)
  let my : FVec F S128x1 .f32 :=
    Host.divf (broadcastInDim S128x1 ![0] bcast_S128_S128x1_0 (Host.reduceAdd y (constant S_ .f32 0x00000000#32) hr h_S_))
      (broadcastInDim S128x1 ![] bcast_S_S128x1 (constant S_ .f32 cb))
  let ym : FVec F (RW W) .f32 := subf y (broadcastInDim (RW W) ![0, 1] hb my)
  -- the three row sums of products, the two roots, the quotient
  let num : FVec F S128 .f32 := Host.reduceAdd (mulf xm ym) (constant S_ .f32 0x00000000#32) hr h_S_
  let sx : FVec F S128 .f32 := Host.sqrt (Host.reduceAdd (mulf xm xm) (constant S_ .f32 0x00000000#32) hr h_S_)
  let sy : FVec F S128 .f32 := Host.sqrt (Host.reduceAdd (mulf ym ym) (constant S_ .f32 0x00000000#32) hr h_S_)
  let q : FVec F S128 .f32 := Host.divf num (mulf sx sy)
  -- clipped to [-1, 1]
  let lo : FVec F S128 .f32 := maximumf (broadcastInDim S128 ![] bcast_S_S128 (id (constant S_ .f32 0xBF800000#32))) q
  minimumf (broadcastInDim S128 ![] bcast_S_S128 (id (constant S_ .f32 0x3F800000#32))) lo

/-- The 24 lags of the normalised series `s`: lag `l` (1 … 24) is entry `l - 1`. -/
def lags (s : FVec F S128x8192 .f32) : Fin 24 → FVec F S128 .f32 :=
  ![
    lagH 8191 1 0x45FFF800#32 slices_S128x8192_S128x8191_0_0 slices_S128x8192_S128x8191_0_1 reducesTo_S128x8191_S128_d1 bcast_S128x1_S128x8191_0_1 s,
    lagH 8190 2 0x45FFF000#32 slices_S128x8192_S128x8190_0_0 slices_S128x8192_S128x8190_0_2 reducesTo_S128x8190_S128_d1 bcast_S128x1_S128x8190_0_1 s,
    lagH 8189 3 0x45FFE800#32 slices_S128x8192_S128x8189_0_0 slices_S128x8192_S128x8189_0_3 reducesTo_S128x8189_S128_d1 bcast_S128x1_S128x8189_0_1 s,
    lagH 8188 4 0x45FFE000#32 slices_S128x8192_S128x8188_0_0 slices_S128x8192_S128x8188_0_4 reducesTo_S128x8188_S128_d1 bcast_S128x1_S128x8188_0_1 s,
    lagH 8187 5 0x45FFD800#32 slices_S128x8192_S128x8187_0_0 slices_S128x8192_S128x8187_0_5 reducesTo_S128x8187_S128_d1 bcast_S128x1_S128x8187_0_1 s,
    lagH 8186 6 0x45FFD000#32 slices_S128x8192_S128x8186_0_0 slices_S128x8192_S128x8186_0_6 reducesTo_S128x8186_S128_d1 bcast_S128x1_S128x8186_0_1 s,
    lagH 8185 7 0x45FFC800#32 slices_S128x8192_S128x8185_0_0 slices_S128x8192_S128x8185_0_7 reducesTo_S128x8185_S128_d1 bcast_S128x1_S128x8185_0_1 s,
    lagH 8184 8 0x45FFC000#32 slices_S128x8192_S128x8184_0_0 slices_S128x8192_S128x8184_0_8 reducesTo_S128x8184_S128_d1 bcast_S128x1_S128x8184_0_1 s,
    lagH 8183 9 0x45FFB800#32 slices_S128x8192_S128x8183_0_0 slices_S128x8192_S128x8183_0_9 reducesTo_S128x8183_S128_d1 bcast_S128x1_S128x8183_0_1 s,
    lagH 8182 10 0x45FFB000#32 slices_S128x8192_S128x8182_0_0 slices_S128x8192_S128x8182_0_10 reducesTo_S128x8182_S128_d1 bcast_S128x1_S128x8182_0_1 s,
    lagH 8181 11 0x45FFA800#32 slices_S128x8192_S128x8181_0_0 slices_S128x8192_S128x8181_0_11 reducesTo_S128x8181_S128_d1 bcast_S128x1_S128x8181_0_1 s,
    lagH 8180 12 0x45FFA000#32 slices_S128x8192_S128x8180_0_0 slices_S128x8192_S128x8180_0_12 reducesTo_S128x8180_S128_d1 bcast_S128x1_S128x8180_0_1 s,
    lagH 8179 13 0x45FF9800#32 slices_S128x8192_S128x8179_0_0 slices_S128x8192_S128x8179_0_13 reducesTo_S128x8179_S128_d1 bcast_S128x1_S128x8179_0_1 s,
    lagH 8178 14 0x45FF9000#32 slices_S128x8192_S128x8178_0_0 slices_S128x8192_S128x8178_0_14 reducesTo_S128x8178_S128_d1 bcast_S128x1_S128x8178_0_1 s,
    lagH 8177 15 0x45FF8800#32 slices_S128x8192_S128x8177_0_0 slices_S128x8192_S128x8177_0_15 reducesTo_S128x8177_S128_d1 bcast_S128x1_S128x8177_0_1 s,
    lagH 8176 16 0x45FF8000#32 slices_S128x8192_S128x8176_0_0 slices_S128x8192_S128x8176_0_16 reducesTo_S128x8176_S128_d1 bcast_S128x1_S128x8176_0_1 s,
    lagH 8175 17 0x45FF7800#32 slices_S128x8192_S128x8175_0_0 slices_S128x8192_S128x8175_0_17 reducesTo_S128x8175_S128_d1 bcast_S128x1_S128x8175_0_1 s,
    lagH 8174 18 0x45FF7000#32 slices_S128x8192_S128x8174_0_0 slices_S128x8192_S128x8174_0_18 reducesTo_S128x8174_S128_d1 bcast_S128x1_S128x8174_0_1 s,
    lagH 8173 19 0x45FF6800#32 slices_S128x8192_S128x8173_0_0 slices_S128x8192_S128x8173_0_19 reducesTo_S128x8173_S128_d1 bcast_S128x1_S128x8173_0_1 s,
    lagH 8172 20 0x45FF6000#32 slices_S128x8192_S128x8172_0_0 slices_S128x8192_S128x8172_0_20 reducesTo_S128x8172_S128_d1 bcast_S128x1_S128x8172_0_1 s,
    lagH 8171 21 0x45FF5800#32 slices_S128x8192_S128x8171_0_0 slices_S128x8192_S128x8171_0_21 reducesTo_S128x8171_S128_d1 bcast_S128x1_S128x8171_0_1 s,
    lagH 8170 22 0x45FF5000#32 slices_S128x8192_S128x8170_0_0 slices_S128x8192_S128x8170_0_22 reducesTo_S128x8170_S128_d1 bcast_S128x1_S128x8170_0_1 s,
    lagH 8169 23 0x45FF4800#32 slices_S128x8192_S128x8169_0_0 slices_S128x8192_S128x8169_0_23 reducesTo_S128x8169_S128_d1 bcast_S128x1_S128x8169_0_1 s,
    lagH 8168 24 0x45FF4000#32 slices_S128x8192_S128x8168_0_0 slices_S128x8192_S128x8168_0_24 reducesTo_S128x8168_S128_d1 bcast_S128x1_S128x8168_0_1 s ]

/-- The result from the 24 lag results, the lag weights and the two seasonal weights. -/
def tailH (c : Fin 24 → FVec F S128 .f32) (a2 : FVec F S24 .f32) (a3 : FVec F S2 .f32) : FVec F S_ .f32 :=
  -- the 24 results as the columns of a [128, 24] array
  let col : Fin 24 → FVec F S128x1 .f32 := fun k => broadcastInDim S128x1 ![0] bcast_S128_S128x1_0 (c k)
  let v637 : FVec F S128x16 .f32 :=
    concatenate S128x16 1 [⟨S128x1, col 0⟩, ⟨S128x1, col 1⟩, ⟨S128x1, col 2⟩, ⟨S128x1, col 3⟩, ⟨S128x1, col 4⟩, ⟨S128x1, col 5⟩, ⟨S128x1, col 6⟩, ⟨S128x1, col 7⟩, ⟨S128x1, col 8⟩, ⟨S128x1, col 9⟩, ⟨S128x1, col 10⟩, ⟨S128x1, col 11⟩, ⟨S128x1, col 12⟩, ⟨S128x1, col 13⟩, ⟨S128x1, col 14⟩, ⟨S128x1, col 15⟩]
      concatenates_S128x1_S128x1_S128x1_S128x1_S128x1_S128x1_S128x1_S128x1_S128x1_S128x1_S128x1_S128x1_S128x1_S128x1_S128x1_S128x1_S128x16_d1
  let v638 : FVec F S128x8 .f32 :=
    concatenate S128x8 1 [⟨S128x1, col 16⟩, ⟨S128x1, col 17⟩, ⟨S128x1, col 18⟩, ⟨S128x1, col 19⟩, ⟨S128x1, col 20⟩, ⟨S128x1, col 21⟩, ⟨S128x1, col 22⟩, ⟨S128x1, col 23⟩]
      concatenates_S128x1_S128x1_S128x1_S128x1_S128x1_S128x1_S128x1_S128x1_S128x8_d1
  let v639 : FVec F S128x24 .f32 := concatenate S128x24 1 [⟨S128x16, v637⟩, ⟨S128x8, v638⟩] concatenates_S128x16_S128x8_S128x24_d1
  -- the softmax of the lag weights
  let v640 : FVec F S_ .f32 := Host.reduce FloatOps.maximumf a2 (constant S_ .f32 0xFF800000#32) reducesTo_S24_S_d0 h_S_
  let v641 : FVec F S_ .f32 := maximumf (constant S_ .f32 0xFF800000#32) v640
  let v642 : FVec F S1 .f32 := broadcastInDim S1 ![] bcast_S_S1 v641
  let v643 : FVec F S24 .f32 := broadcastInDim S24 ![0] bcast_S1_S24_0 v642
  let v644 : FVec F S24 .f32 := subf a2 v643
  let v645 : FVec F S24 .f32 := Host.exp v644
  let v646 : FVec F S_ .f32 := Host.reduceAdd v645 (constant S_ .f32 0x00000000#32) reducesTo_S24_S_d0 h_S_
  let v647 : FVec F S1 .f32 := broadcastInDim S1 ![] bcast_S_S1 v646
  let v648 : FVec F S24 .f32 := broadcastInDim S24 ![0] bcast_S1_S24_0 v647
  let v649 : FVec F S24 .f32 := Host.divf v645 v648
  -- the weighted row sum
  let v650 : FVec F S1x24 .f32 := broadcastInDim S1x24 ![1] bcast_S24_S1x24_1 v649
  let v651 : FVec F S128x24 .f32 := broadcastInDim S128x24 ![0, 1] bcast_S1x24_S128x24_0_1 v650
  let v652 : FVec F S128x24 .f32 := mulf v639 v651
  let v653 : FVec F S128 .f32 := Host.reduceAdd v652 (constant S_ .f32 0x00000000#32) reducesTo_S128x24_S128_d1 h_S_
  -- the two seasonal terms: columns 11 and 23 times the two seasonal weights, added to zero
  let v654 : FVec F S128 .f32 := broadcastInDim S128 ![] bcast_S_S128 (constant S_ .f32 0x00000000#32)
  let v655 : FVec F S128x1 .f32 := extractStridedSlice S128x1 ![0, 11] v639 slices_S128x24_S128x1_0_11
  let v656 : FVec F S128 .f32 := shapeCast S128 v655 shapeCasts_S128x1_S128
  let v657 : FVec F S1 .f32 := extractStridedSlice S1 ![0] a3 slices_S2_S1_0
  let v658 : FVec F S_ .f32 := shapeCast S_ v657 shapeCasts_S1_S_
  let v659 : FVec F S128 .f32 := broadcastInDim S128 ![] bcast_S_S128 v658
  let v660 : FVec F S128 .f32 := mulf v656 v659
  let v661 : FVec F S128 .f32 := addf v654 v660
  let v662 : FVec F S128x1 .f32 := extractStridedSlice S128x1 ![0, 23] v639 slices_S128x24_S128x1_0_23
  let v663 : FVec F S128 .f32 := shapeCast S128 v662 shapeCasts_S128x1_S128
  let v664 : FVec F S1 .f32 := extractStridedSlice S1 ![1] a3 slices_S2_S1_1
  let v665 : FVec F S_ .f32 := shapeCast S_ v664 shapeCasts_S1_S_
  let v666 : FVec F S128 .f32 := broadcastInDim S128 ![] bcast_S_S128 v665
  let v667 : FVec F S128 .f32 := mulf v663 v666
  let v668 : FVec F S128 .f32 := addf v661 v667
  let v669 : FVec F S128 .f32 := addf v653 v668
  -- the mean over the 128 rows
  let v670 : FVec F S_ .f32 := Host.reduceAdd v669 (constant S_ .f32 0x00000000#32) reducesTo_S128_S_d0 h_S_
  Host.divf v670 (constant S_ .f32 0x43000000#32)

/-- The reference's result as a function of its first, third and fourth arguments. -/
def refOut (a0 : FVec F S128x8192x8 .f32) (a2 : FVec F S24 .f32) (a3 : FVec F S2 .f32) : FVec F S_ .f32 :=
  tailH (lags (seqnH a0)) a2 a3

end Cert.ReferenceIdeal.HostForms

end
-- ==== Proof.HostLag.lean ====
/-
  One lag of the reference, read at a row.

  The reference computes each lag with host operations over all 128 rows at once: the row sums are reductions from
  a zero initial value, a row's mean is that sum over the float count, broadcast first to a column and then back
  over the row. At the ideal instance row `r` of a lag's result is the clipped correlation `Autocorr.pearson` of row
  `r` of the two column stretches — the same function of the row that the kernel's lag is.
-/
import proofs.«130460_j34522947125965_1_alg».proof.Proof.HostForms
import proofs.«130460_j34522947125965_1_alg».proof.Proof.LibRowOps
import proofs.«130460_j34522947125965_1_alg».proof.Proof.Spec
import Idealize.ShloMosaic.Lib.ValueLayout

noncomputable section

namespace Cert.ReferenceIdeal.HostForms

open Cert.ReferenceIdeal Cert.ReferenceIdeal.Facts₀ Idealize.ShloMosaic Idealize.ShloMosaic.ValueIdx Cert.Autocorr
open scoped BigOperators

variable [Cert.ReferenceIdeal.Facts]

/-- A `[128, W]` array centred row by row, in the host's spelling. -/
def ctrH (W : ℕ) (cb : BitVec 32) (hr : (RW W).ReducesTo [1] S128)
    (hb : S128x1.BroadcastsInDim (RW W) (![0, 1] : Fin 2 → Fin (RW W).rank)) (z : FVec Ideal (RW W) .f32) :
    FVec Ideal (RW W) .f32 :=
  subf z (broadcastInDim (RW W) ![0, 1] hb
    (Host.divf (broadcastInDim S128x1 ![0] bcast_S128_S128x1_0 (Host.reduceAdd z (constant S_ .f32 0x00000000#32) hr h_S_))
      (broadcastInDim S128x1 ![] bcast_S_S128x1 (constant S_ .f32 cb))))

/-- The host's row sum from the zero initial value is the sum over the row. -/
theorem rowSum0 (W : ℕ) (hr : (RW W).ReducesTo [1] S128) (z : FVec Ideal (RW W) .f32) (p : Fin 128) :
    Host.reduceAdd z (constant (F := Ideal) S_ .f32 0x00000000#32) hr h_S_ (ix1 p) = ∑ k : Fin W, z (ix2 p k) := by
  refine (Cert.RowOps.rowSumH z _ hr h_S_ p).trans ?_
  show Ideal.ofBits .f32 0x00000000#32 + _ = _
  rw [Ideal.ofBits_zero_f32, zero_add]

/-- A centred array reads, at `(p, k)`, the entry less the mean of row `p`. -/
theorem ctrH_apply (W : ℕ) (cb : BitVec 32) (hr : (RW W).ReducesTo [1] S128)
    (hb : S128x1.BroadcastsInDim (RW W) (![0, 1] : Fin 2 → Fin (RW W).rank)) (z : FVec Ideal (RW W) .f32)
    (p : Fin 128) (k : Fin W) :
    ctrH W cb hr hb z (ix2 p k) = z (ix2 p k) - meanE (Ideal.ofBits .f32 cb) (fun k : Fin W => z (ix2 p k)) := by
  unfold ctrH
  refine congrArg (z (ix2 p k) - ·) ?_
  refine (Cert.RowOps.bcastRows _ hb p k).trans ?_
  show Ideal.div _ _ = Ideal.div (∑ k : Fin W, z (ix2 p k)) (Ideal.ofBits .f32 cb)
  refine congr (congrArg Ideal.div ?_) ?_
  · exact (Cert.RowOps.bcastCol _ bcast_S128_S128x1_0 p 0).trans (rowSum0 W hr z p)
  · exact broadcastInDim_scalar_apply _ _ _

/-- The row sum of a product of two centred arrays, at row `r`. -/
theorem sumProdH (W : ℕ) (cb : BitVec 32) (hr : (RW W).ReducesTo [1] S128)
    (hb : S128x1.BroadcastsInDim (RW W) (![0, 1] : Fin 2 → Fin (RW W).rank)) (x y : FVec Ideal (RW W) .f32) (r : Fin 128) :
    Host.reduceAdd (mulf (ctrH W cb hr hb x) (ctrH W cb hr hb y)) (constant (F := Ideal) S_ .f32 0x00000000#32) hr h_S_ (ix1 r)
      = ∑ k : Fin W, (x (ix2 r k) - meanE (Ideal.ofBits .f32 cb) (fun k : Fin W => x (ix2 r k)))
          * (y (ix2 r k) - meanE (Ideal.ofBits .f32 cb) (fun k : Fin W => y (ix2 r k))) := by
  refine (rowSum0 W hr _ r).trans ?_
  refine Finset.sum_congr rfl fun k _ => ?_
  exact congr (congrArg HMul.hMul (ctrH_apply W cb hr hb x r k)) (ctrH_apply W cb hr hb y r k)

/-- One lag over the two stretches, in the host's spelling. -/
def corrH (W : ℕ) (cb : BitVec 32) (hr : (RW W).ReducesTo [1] S128)
    (hb : S128x1.BroadcastsInDim (RW W) (![0, 1] : Fin 2 → Fin (RW W).rank)) (x y : FVec Ideal (RW W) .f32) :
    FVec Ideal S128 .f32 :=
  minimumf (broadcastInDim S128 ![] bcast_S_S128 (id (constant S_ .f32 0x3F800000#32)))
    (maximumf (broadcastInDim S128 ![] bcast_S_S128 (id (constant S_ .f32 0xBF800000#32)))
      (Host.divf (Host.reduceAdd (mulf (ctrH W cb hr hb x) (ctrH W cb hr hb y)) (constant S_ .f32 0x00000000#32) hr h_S_)
        (mulf (Host.sqrt (Host.reduceAdd (mulf (ctrH W cb hr hb x) (ctrH W cb hr hb x)) (constant S_ .f32 0x00000000#32) hr h_S_))
          (Host.sqrt (Host.reduceAdd (mulf (ctrH W cb hr hb y) (ctrH W cb hr hb y)) (constant S_ .f32 0x00000000#32) hr h_S_)))))

/-- The reference's lag is `corrH` of the two stretches. -/
theorem lagH_eq (W off : ℕ) (cb : BitVec 32) (hs0 : S128x8192.Slices ![0, 0] (RW W)) (hs1 : S128x8192.Slices ![0, off] (RW W))
    (hr : (RW W).ReducesTo [1] S128) (hb : S128x1.BroadcastsInDim (RW W) (![0, 1] : Fin 2 → Fin (RW W).rank))
    (s : FVec Ideal S128x8192 .f32) :
    lagH (F := Ideal) W off cb hs0 hs1 hr hb s
      = corrH W cb hr hb (extractStridedSlice (RW W) ![0, 0] s hs0) (extractStridedSlice (RW W) ![0, off] s hs1) := rfl

/-- Row `r` of `corrH` is the clipped correlation of row `r` of the two stretches. -/
theorem corrH_apply (W : ℕ) (cb : BitVec 32) (hr : (RW W).ReducesTo [1] S128)
    (hb : S128x1.BroadcastsInDim (RW W) (![0, 1] : Fin 2 → Fin (RW W).rank)) (x y : FVec Ideal (RW W) .f32) (r : Fin 128) :
    corrH W cb hr hb x y (ix1 r)
      = pearson (Ideal.ofBits .f32 cb) (Ideal.ofBits .f32 0xBF800000#32) (Ideal.ofBits .f32 0x3F800000#32)
          (fun k : Fin W => x (ix2 r k)) (fun k : Fin W => y (ix2 r k)) := by
  unfold corrH pearson
  exact congr (congrArg min (broadcastInDim_scalar_apply _ _ _))
    (congr (congrArg max (broadcastInDim_scalar_apply _ _ _))
      (congr (congrArg Ideal.div (sumProdH W cb hr hb x y r))
        (congr (congrArg HMul.hMul (congrArg Ideal.sqrt (sumProdH W cb hr hb x x r)))
          (congrArg Ideal.sqrt (sumProdH W cb hr hb y y r)))))

/-- Row `r` of a lag of the reference is `Autocorr.lagRow` of row `r` of the normalised array. -/
theorem lagH_apply (W off : ℕ) (hW : off + W ≤ 8192) (cb : BitVec 32) (hs0 : S128x8192.Slices ![0, 0] (RW W))
    (hs1 : S128x8192.Slices ![0, off] (RW W)) (hr : (RW W).ReducesTo [1] S128)
    (hb : S128x1.BroadcastsInDim (RW W) (![0, 1] : Fin 2 → Fin (RW W).rank)) (s : FVec Ideal S128x8192 .f32) (r : Fin 128) :
    lagH (F := Ideal) W off cb hs0 hs1 hr hb s (ix1 r)
      = lagRow W off hW (Ideal.ofBits .f32 cb) (Ideal.ofBits .f32 0xBF800000#32) (Ideal.ofBits .f32 0x3F800000#32)
          (fun j : Fin 8192 => s (ix2 r j)) := by
  rw [lagH_eq, corrH_apply]
  unfold lagRow
  congr 1 <;> funext k
  · exact slice2_axis1_eq 0 s hs0 r k
  · exact slice2_axis1_eq off s hs1 r k

end Cert.ReferenceIdeal.HostForms

end
-- ==== Proof.HostNorm.lean ====
/-
  The reference's normalisation read at an entry.

  The reference cuts the first channel out of its first argument as 128 rows of 8192, centres each row at its mean,
  and divides by the row's unbiased standard deviation plus the literal `ε`. The deviation is taken as the root of
  the centred squares' row sum over the count `8192 - 1`, which the program computes from the float `8192` and the
  integer `1` and guards against a count that is not positive: here the count is the float `8191`, which is positive,
  so the guard selects the quotient. At the ideal instance entry `(r, j)` is `Autocorr.normRow` of row `r` at `j`.
-/
import proofs.«130460_j34522947125965_1_alg».proof.Proof.HostLag

noncomputable section

namespace Cert.ReferenceIdeal.HostForms

open Cert.ReferenceIdeal Cert.ReferenceIdeal.Facts₀ Idealize.ShloMosaic Idealize.ShloMosaic.ValueIdx Cert.Autocorr
open scoped BigOperators

variable [Cert.ReferenceIdeal.Facts]

/-- The first channel of the sequence array as 128 rows of 8192. -/
def chan0 (a0 : FVec Ideal S128x8192x8 .f32) : FVec Ideal S128x8192 .f32 :=
  shapeCast S128x8192 (extractStridedSlice S128x8192x1 ![0, 0, 0] a0 slices_S128x8192x8_S128x8192x1_0_0_0)
    shapeCasts_S128x8192x1_S128x8192

/-- Entry `(r, j)` of the first channel is entry `(r, j, 0)` of the array. -/
theorem chan0_apply (a0 : FVec Ideal S128x8192x8 .f32) (r : Fin 128) (j : Fin 8192) :
    chan0 a0 (ix2 r j) = a0 (ix3 r j (0 : Fin 8)) := by
  unfold chan0
  rw [shapeCast_apply _ _ (ix2 r j) (ix3 r j (0 : Fin 1)) (by
    rw [Shape.rowMajor_val_three, Shape.rowMajor_val_two]
    show (r.val * 8192 + j.val) * 1 + 0 = r.val * 8192 + j.val
    omega)]
  refine extractStridedSlice_apply _ _ _ _ (ix3 r j (0 : Fin 8)) ?_
  intro a
  match a with
  | ⟨0, _⟩ => show r.val = 0 + r.val; omega
  | ⟨1, _⟩ => show j.val = 0 + j.val; omega
  | ⟨2, _⟩ => show (0 : ℕ) = 0 + 0; omega

/-- The count the variance is divided by: the float 8192 less the integer 1 converted. -/
def cnt : FVec Ideal S_ .f32 := subf (constant S_ .f32 0x46000000#32) (sitofp .f32 (constantI S_ 32 1#32))

/-- That count is the float 8191. -/
theorem cnt_eq : cnt ix0 = Ideal.ofBits .f32 0x45FFF800#32 := by
  show Ideal.ofBits .f32 0x46000000#32 - (((1#32 : BitVec 32).toInt : ℝ) : EReal) = Ideal.ofBits .f32 0x45FFF800#32
  have h1 : Ideal.ofBits .f32 0x46000000#32 = ((8192 : ℝ) : EReal) := by
    simp [Ideal.ofBits, Ideal.ieee, -EReal.coe_mul]; norm_num
  have h2 : Ideal.ofBits .f32 0x45FFF800#32 = ((8191 : ℝ) : EReal) := by
    simp [Ideal.ofBits, Ideal.ieee, -EReal.coe_mul]; norm_num
  have h3 : (1#32 : BitVec 32).toInt = 1 := by decide
  rw [h1, h2, h3, ← EReal.coe_sub]
  norm_num

/-- It is positive, so the guard's condition holds. -/
theorem cnt_pos : (cmpf .ogt cnt (constant (F := Ideal) S_ .f32 0x00000000#32) : IVec S_ 1) ix0 = 1#1 := by
  show Ideal.cmp .ogt (cnt ix0) (Ideal.ofBits .f32 0x00000000#32) = 1#1
  rw [cnt_eq, Ideal.ofBits_zero_f32]
  have h2 : Ideal.ofBits .f32 0x45FFF800#32 = ((8191 : ℝ) : EReal) := by
    simp [Ideal.ofBits, Ideal.ieee, -EReal.coe_mul]; norm_num
  rw [h2]
  have : (0 : EReal) < ((8191 : ℝ) : EReal) := by exact_mod_cast (by norm_num : (0 : ℝ) < 8191)
  simp [Ideal.cmp, this]

/-- The guard selects its first operand. -/
theorem guard_apply (a b : FVec Ideal S128x1 .f32) (i : S128x1.Idx) :
    select (broadcastInDim S128x1 ![] bcast_S_S128x1 (cmpf .ogt cnt (constant (F := Ideal) S_ .f32 0x00000000#32))) a b i
      = a i := by
  show Scalar.select (broadcastInDim S128x1 ![] bcast_S_S128x1
      (cmpf .ogt cnt (constant (F := Ideal) S_ .f32 0x00000000#32)) i) (a i) (b i) = a i
  rw [broadcastInDim_scalar_apply, cnt_pos, select_one]

/-- The column of deviations plus `ε`, from the row-shaped first channel `v1`. -/
def devH (v1 : FVec Ideal S128x8192 .f32) : FVec Ideal S128x1 .f32 :=
  addf (Host.sqrt (select (broadcastInDim S128x1 ![] bcast_S_S128x1 (cmpf .ogt cnt (constant S_ .f32 0x00000000#32)))
      (Host.divf (broadcastInDim S128x1 ![0] bcast_S128_S128x1_0
          (Host.reduceAdd (mulf (ctrH 8192 0x46000000#32 reducesTo_S128x8192_S128_d1 bcast_S128x1_S128x8192_0_1 v1)
            (ctrH 8192 0x46000000#32 reducesTo_S128x8192_S128_d1 bcast_S128x1_S128x8192_0_1 v1))
            (constant S_ .f32 0x00000000#32) reducesTo_S128x8192_S128_d1 h_S_))
        (broadcastInDim S128x1 ![] bcast_S_S128x1 cnt))
      (broadcastInDim S128x1 ![] bcast_S_S128x1 (id (constant S_ .f32 0x7FC00000#32)))))
    (broadcastInDim S128x1 ![] bcast_S_S128x1 (constant S_ .f32 0x322BCC77#32))

/-- The reference's normalised array: the centred first channel over the broadcast deviations. -/
theorem seqnH_eq (a0 : FVec Ideal S128x8192x8 .f32) :
    seqnH (F := Ideal) a0
      = Host.divf (ctrH 8192 0x46000000#32 reducesTo_S128x8192_S128_d1 bcast_S128x1_S128x8192_0_1 (chan0 a0))
          (broadcastInDim S128x8192 ![0, 1] bcast_S128x1_S128x8192_0_1 (devH (chan0 a0))) := rfl

/-- Row `r` of the deviations column. -/
theorem devH_apply (v1 : FVec Ideal S128x8192 .f32) (r : Fin 128) (u : Fin 1) :
    devH v1 (ix2 r u)
      = Ideal.sqrt (Ideal.div (∑ k : Fin 8192, (v1 (ix2 r k) - meanE (Ideal.ofBits .f32 0x46000000#32) (fun k : Fin 8192 => v1 (ix2 r k)))
            * (v1 (ix2 r k) - meanE (Ideal.ofBits .f32 0x46000000#32) (fun k : Fin 8192 => v1 (ix2 r k))))
          (Ideal.ofBits .f32 0x45FFF800#32)) + Ideal.ofBits .f32 0x322BCC77#32 := by
  unfold devH
  refine congr (congrArg HAdd.hAdd (congrArg Ideal.sqrt ?_)) (broadcastInDim_scalar_apply _ _ _)
  refine (guard_apply _ _ (ix2 r u)).trans ?_
  exact congr (congrArg Ideal.div ((Cert.RowOps.bcastCol _ bcast_S128_S128x1_0 r u).trans
    (sumProdH 8192 _ _ _ v1 v1 r))) ((broadcastInDim_scalar_apply _ _ _).trans cnt_eq)

/-- Entry `(r, j)` of the reference's normalised array is `normRow` of row `r` of the first channel at `j`. -/
theorem seqnH_apply (a0 : FVec Ideal S128x8192x8 .f32) (r : Fin 128) (j : Fin 8192) :
    seqnH (F := Ideal) a0 (ix2 r j)
      = normRow (Ideal.ofBits .f32 0x46000000#32) (Ideal.ofBits .f32 0x45FFF800#32) (Ideal.ofBits .f32 0x322BCC77#32)
          (fun k : Fin 8192 => a0 (ix3 r k (0 : Fin 8))) j := by
  have hv1 : (fun k : Fin 8192 => chan0 a0 (ix2 r k)) = fun k : Fin 8192 => a0 (ix3 r k (0 : Fin 8)) :=
    funext fun k => chan0_apply a0 r k
  rw [← hv1, seqnH_eq]
  unfold normRow
  refine congr (congrArg Ideal.div (ctrH_apply 8192 _ _ _ (chan0 a0) r j)) ?_
  exact (Cert.RowOps.bcastRows _ bcast_S128x1_S128x8192_0_1 r j).trans (devH_apply (chan0 a0) r 0)

end Cert.ReferenceIdeal.HostForms

end
-- ==== Proof.HostTail.lean ====
/- The reference's last stages read on the extended reals: the 24 lag results laid side by side as columns, the
   softmax of the lag weights, each row's score, and the mean over the rows. -/
import proofs.«130460_j34522947125965_1_alg».proof.Proof.HostForms
import proofs.«130460_j34522947125965_1_alg».proof.Proof.Spec
import proofs.«130460_j34522947125965_1_alg».proof.Proof.LibRowOps
import Idealize.ShloMosaic.Lib.Pipeline.Value
import Idealize.ShloMosaic.Lib.ValueLayout
import Idealize.ShloMosaic.Lib.ValueIdx
import Idealize.ShloMosaic.Lib.IdealHost
import Idealize.ShloMosaic.PureOps.Ideal.Laws

noncomputable section

namespace Cert.ReferenceIdeal.HostForms

open Idealize.ShloMosaic Cert.ReferenceIdeal Cert.ReferenceIdeal.Facts₀ Cert.Autocorr Idealize.ShloMosaic.ValueIdx
open scoped BigOperators

variable [Cert.ReferenceIdeal.Facts]

/-! ## Rank-1 index sets -/

/-- A rank-1 index is its one coordinate. -/
def idxEquiv1 (n : ℕ) : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : ℕ} (f : (⟨1, ![n]⟩ : Shape).Idx → M) :
    ∑ i, f i = ∑ a : Fin n, f (ix1 a) :=
  (Equiv.sum_comp (idxEquiv1 n).symm f).symm

/-- A fold over a rank-1 index set is the fold over the coordinate. -/
theorem fold_idx1 {β : Type*} (op : β → β → β) [Std.Commutative op] [Std.Associative op] (b : β) {n : ℕ}
    (f : (⟨1, ![n]⟩ : Shape).Idx → β) :
    Finset.univ.fold op b f = Finset.univ.fold op b (fun a : Fin n => f (ix1 a)) := by
  rw [← Finset.image_univ_equiv (idxEquiv1 n).symm, Finset.fold_image (fun x _ y _ e => (idxEquiv1 n).symm.injective e)]
  rfl

/-- The host's maximum of a vector from an initial value: the fold of `max` over its entries. -/
theorem vecMaxH {W : ℕ} {u : Shape} (x : FVec Ideal ⟨1, ![W]⟩ .f32) (init : u.Idx → Ideal .f32)
    (h' : (⟨1, ![W]⟩ : Shape).ReducesTo [0] ⟨0, ![]⟩) (hu : 0 < u.numel) (j : (⟨0, ![]⟩ : Shape).Idx) :
    Host.reduce FloatOps.maximumf x init h' hu j
      = Finset.univ.fold max (init (Shape.Idx.first hu)) (fun k : Fin W => x (ix1 k)) := by
  refine (Host.reduce_eq_fold FloatOps.maximumf x init h' hu j).trans ?_
  rw [Finset.filter_true_of_mem fun i _ => funext fun b => b.elim0]
  exact fold_idx1 FloatOps.maximumf _ x

/-- The host's sum of a vector from an initial value: that value plus the sum of its entries. -/
theorem vecSumH {W : ℕ} {u : Shape} (x : FVec Ideal ⟨1, ![W]⟩ .f32) (init : u.Idx → Ideal .f32)
    (h' : (⟨1, ![W]⟩ : Shape).ReducesTo [0] ⟨0, ![]⟩) (hu : 0 < u.numel) (j : (⟨0, ![]⟩ : Shape).Idx) :
    Host.reduceAdd x init h' hu j = init (Shape.Idx.first hu) + ∑ k : Fin W, x (ix1 k) := by
  refine (hostReduceAdd_apply x init h' hu j).trans ?_
  refine (Ideal.hostReduceAdd_total h' (fun b => b.elim0) x _ j).trans ?_
  exact congrArg _ (sum_idx1 x)

/-- A `[1]` vector broadcast to `[n]` reads its one entry everywhere. -/
theorem bcast1 {α : Type} {n : ℕ} (v : (⟨1, ![1]⟩ : Shape).Idx → α)
    (h : (⟨1, ![1]⟩ : Shape).BroadcastsInDim ⟨1, ![n]⟩ (![0] : Fin 1 → Fin 1)) (l : Fin n) :
    broadcastInDim ⟨1, ![n]⟩ (![0] : Fin 1 → Fin 1) h v (ix1 l) = v (ix1 (0 : Fin 1)) := by
  refine broadcastInDim_apply _ h v (ix1 l) (ix1 (0 : Fin 1)) fun a => ?_
  match a with
  | ⟨0, _⟩ => rfl

/-- A vector `[n]` broadcast to a row `[1, n]` reads, at `(u, l)`, its entry `l`. -/
theorem bcastRow {α : Type} {n : ℕ} (v : (⟨1, ![n]⟩ : Shape).Idx → α)
    (h : (⟨1, ![n]⟩ : Shape).BroadcastsInDim ⟨2, ![1, n]⟩ (![1] : Fin 1 → Fin 2)) (u : Fin 1) (l : Fin n) :
    broadcastInDim ⟨2, ![1, n]⟩ (![1] : Fin 1 → Fin 2) h v (ix2 u l) = v (ix1 l) := by
  refine broadcastInDim_apply _ h v (ix2 u l) (ix1 l) fun a => ?_
  match a with
  | ⟨0, _⟩ =>
    show l.val = if n = 1 then 0 else l.val
    split
    · have := l.isLt; omega
    · rfl

/-- A row `[1, n]` broadcast to `[R, n]` reads, at `(r, l)`, its entry `(0, l)`. -/
theorem bcastDown {α : Type} {R n : ℕ} (v : (⟨2, ![1, n]⟩ : Shape).Idx → α)
    (h : (⟨2, ![1, n]⟩ : Shape).BroadcastsInDim ⟨2, ![R, n]⟩ (![0, 1] : Fin 2 → Fin 2)) (r : Fin R) (l : Fin n) :
    broadcastInDim ⟨2, ![R, n]⟩ (![0, 1] : Fin 2 → Fin 2) h v (ix2 r l) = v (ix2 (0 : Fin 1) l) := by
  refine broadcastInDim_apply _ h v (ix2 r l) (ix2 (0 : Fin 1) l) fun a => ?_
  match a with
  | ⟨0, _⟩ => rfl
  | ⟨1, _⟩ =>
    show l.val = if n = 1 then 0 else l.val
    split
    · have := l.isLt; omega
    · rfl

/-- One entry of a `[2]` vector cut out as a `[1]` vector and cast to a scalar. -/
theorem scalarOf2H {α : Type} (v : (⟨1, ![2]⟩ : Shape).Idx → α) (o : Nat) (e : Fin 2) (he : e.val = o)
    (h : (⟨1, ![2]⟩ : Shape).Slices ![o] ⟨1, ![1]⟩) (hc : (⟨1, ![1]⟩ : Shape).ShapeCasts ⟨0, ![]⟩) (j : (⟨0, ![]⟩ : Shape).Idx) :
    shapeCast ⟨0, ![]⟩ (extractStridedSlice ⟨1, ![1]⟩ ![o] v h) hc j = v (ix1 e) := by
  refine (shapeCast_apply _ hc j (ix1 (0 : Fin 1)) ?_).trans ?_
  · have h1 := ((⟨0, ![]⟩ : Shape).rowMajor j).isLt
    have hn : (⟨0, ![]⟩ : Shape).numel = 1 := rfl
    rw [Shape.rowMajor_val_one]
    show (0 : ℕ) = _
    omega
  · refine extractStridedSlice_apply _ _ _ _ (ix1 e) ?_
    intro a
    match a with
    | ⟨0, _⟩ => show e.val = o + 0; omega

/-- A column `[a, 1]` cast to a vector `[a]` reads, at `i`, its entry `(i, 0)`. -/
theorem shapeCast_a1_a_applyH {a : ℕ} {α : Type} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The 24 columns side by side -/

/-- Sixteen unit columns side by side read, at `(r, k)`, column `k` at row `r`. -/
theorem cat16_apply {α : Type} (col : Fin 24 → (S128x1.Idx → α))
    (h : Shape.Concatenates [S128x1, S128x1, S128x1, S128x1, S128x1, S128x1, S128x1, S128x1, S128x1, S128x1, S128x1, S128x1, S128x1, S128x1, S128x1, S128x1] S128x16 1) (r : Fin 128) (k : Fin 16) :
    concatenate S128x16 1 [⟨S128x1, col 0⟩, ⟨S128x1, col 1⟩, ⟨S128x1, col 2⟩, ⟨S128x1, col 3⟩, ⟨S128x1, col 4⟩, ⟨S128x1, col 5⟩, ⟨S128x1, col 6⟩, ⟨S128x1, col 7⟩, ⟨S128x1, col 8⟩, ⟨S128x1, col 9⟩, ⟨S128x1, col 10⟩, ⟨S128x1, col 11⟩, ⟨S128x1, col 12⟩, ⟨S128x1, col 13⟩, ⟨S128x1, col 14⟩, ⟨S128x1, col 15⟩] h (ix2 r k)
      = col (Fin.castLE (by decide : 16 ≤ 24) k) (ix2 r (0 : Fin 1)) :=
  concatenate_ofFn_unit_apply (t := S128x16) (s₁ := S128x1) 1 (fun n : Fin 16 => col (Fin.castLE (by decide : 16 ≤ 24) n)) h rfl rfl
    (ix2 r k) k rfl (ix2 r (0 : Fin 1)) (fun b hb => by
      match b with
      | ⟨0, _⟩ => rfl
      | ⟨1, _⟩ => exact absurd rfl hb)

/-- Eight unit columns side by side read, at `(r, k)`, column `16 + k` at row `r`. -/
theorem cat8_apply {α : Type} (col : Fin 24 → (S128x1.Idx → α))
    (h : Shape.Concatenates [S128x1, S128x1, S128x1, S128x1, S128x1, S128x1, S128x1, S128x1] S128x8 1) (r : Fin 128) (k : Fin 8) :
    concatenate S128x8 1 [⟨S128x1, col 16⟩, ⟨S128x1, col 17⟩, ⟨S128x1, col 18⟩, ⟨S128x1, col 19⟩, ⟨S128x1, col 20⟩, ⟨S128x1, col 21⟩, ⟨S128x1, col 22⟩, ⟨S128x1, col 23⟩] h (ix2 r k)
      = col (Fin.natAdd 16 k) (ix2 r (0 : Fin 1)) :=
  concatenate_ofFn_unit_apply (t := S128x8) (s₁ := S128x1) 1 (fun n : Fin 8 => col (Fin.natAdd 16 n)) h rfl rfl
    (ix2 r k) k rfl (ix2 r (0 : Fin 1)) (fun b hb => by
      match b with
      | ⟨0, _⟩ => rfl
      | ⟨1, _⟩ => exact absurd rfl hb)

/-- The two groups side by side: 24 columns, column `l` at row `r`. -/
theorem cat24_apply {α : Type} (x16 : S128x16.Idx → α) (x8 : S128x8.Idx → α) (g : Fin 24 → Fin 128 → α)
    (h16 : ∀ (r : Fin 128) (k : Fin 16), x16 (ix2 r k) = g (Fin.castLE (by decide : 16 ≤ 24) k) r)
    (h8 : ∀ (r : Fin 128) (k : Fin 8), x8 (ix2 r k) = g (Fin.natAdd 16 k) r)
    (h : Shape.Concatenates [S128x16, S128x8] S128x24 1) (r : Fin 128) (l : Fin 24) :
    concatenate S128x24 1 [⟨S128x16, x16⟩, ⟨S128x8, x8⟩] h (ix2 r l) = g l r := by
  by_cases hl : l.val < 16
  · refine (concatenate_pair_apply_left 1 x16 x8 h (ix2 r l) rfl (ix2 r (⟨l.val, hl⟩ : Fin 16)) (fun b => by
      match b with
      | ⟨0, _⟩ => rfl
      | ⟨1, _⟩ => rfl)).trans ?_
    exact h16 r ⟨l.val, hl⟩
  · have hl' : l.val - 16 < 8 := by have := l.isLt; omega
    refine (concatenate_pair_apply_right 1 x16 x8 h (ix2 r l) rfl rfl (ix2 r (⟨l.val - 16, hl'⟩ : Fin 8)) (fun b hb => by
      match b with
      | ⟨0, _⟩ => rfl
      | ⟨1, _⟩ => exact absurd rfl hb) (by show l.val - 16 + 16 = l.val; omega)).trans ?_
    refine (h8 r ⟨l.val - 16, hl'⟩).trans ?_
    exact congrArg (fun q => g q r) (Fin.ext (by show 16 + (l.val - 16) = l.val; omega))

/-! ## The reference's last stages -/

/-- The reference's result from the 24 lag results: the mean over the rows of each row's score, the weights the
    softmax of the lag weights. -/
theorem tailH_eq (c : Fin 24 → FVec Ideal S128 .f32) (a2 : FVec Ideal S24 .f32) (a3 : FVec Ideal S2 .f32) :
    tailH (F := Ideal) c a2 a3 = fun _ => Ideal.div (∑ r : Fin 128, score (fun l : Fin 24 => c l (ix1 r))
      (softmax24 (Ideal.ofBits .f32 0xFF800000#32) (fun k : Fin 24 => a2 (ix1 k))) (a3 (ix1 (0 : Fin 2))) (a3 (ix1 (1 : Fin 2))))
      (Ideal.ofBits .f32 0x43000000#32) := by
  let b : EReal := Ideal.ofBits .f32 0xFF800000#32
  let w : Fin 24 → EReal := fun k => a2 (ix1 k)
  let M : EReal := Finset.univ.fold max b w
  let col : Fin 24 → FVec Ideal S128x1 .f32 := fun k => broadcastInDim S128x1 ![0] bcast_S128_S128x1_0 (c k)
  let v637 : FVec Ideal S128x16 .f32 :=
    concatenate S128x16 1 [⟨S128x1, col 0⟩, ⟨S128x1, col 1⟩, ⟨S128x1, col 2⟩, ⟨S128x1, col 3⟩, ⟨S128x1, col 4⟩, ⟨S128x1, col 5⟩, ⟨S128x1, col 6⟩, ⟨S128x1, col 7⟩, ⟨S128x1, col 8⟩, ⟨S128x1, col 9⟩, ⟨S128x1, col 10⟩, ⟨S128x1, col 11⟩, ⟨S128x1, col 12⟩, ⟨S128x1, col 13⟩, ⟨S128x1, col 14⟩, ⟨S128x1, col 15⟩]
      concatenates_S128x1_S128x1_S128x1_S128x1_S128x1_S128x1_S128x1_S128x1_S128x1_S128x1_S128x1_S128x1_S128x1_S128x1_S128x1_S128x1_S128x16_d1
  let v638 : FVec Ideal S128x8 .f32 :=
    concatenate S128x8 1 [⟨S128x1, col 16⟩, ⟨S128x1, col 17⟩, ⟨S128x1, col 18⟩, ⟨S128x1, col 19⟩, ⟨S128x1, col 20⟩, ⟨S128x1, col 21⟩, ⟨S128x1, col 22⟩, ⟨S128x1, col 23⟩]
      concatenates_S128x1_S128x1_S128x1_S128x1_S128x1_S128x1_S128x1_S128x1_S128x8_d1
  let v639 : FVec Ideal S128x24 .f32 := concatenate S128x24 1 [⟨S128x16, v637⟩, ⟨S128x8, v638⟩] concatenates_S128x16_S128x8_S128x24_d1
  let v640 : FVec Ideal S_ .f32 := Host.reduce FloatOps.maximumf a2 (constant S_ .f32 0xFF800000#32) reducesTo_S24_S_d0 h_S_
  let v641 : FVec Ideal S_ .f32 := maximumf (constant S_ .f32 0xFF800000#32) v640
  let v642 : FVec Ideal S1 .f32 := broadcastInDim S1 ![] bcast_S_S1 v641
  let v643 : FVec Ideal S24 .f32 := broadcastInDim S24 ![0] bcast_S1_S24_0 v642
  let v645 : FVec Ideal S24 .f32 := Host.exp (subf a2 v643)
  let v646 : FVec Ideal S_ .f32 := Host.reduceAdd v645 (constant S_ .f32 0x00000000#32) reducesTo_S24_S_d0 h_S_
  let v647 : FVec Ideal S1 .f32 := broadcastInDim S1 ![] bcast_S_S1 v646
  let v648 : FVec Ideal S24 .f32 := broadcastInDim S24 ![0] bcast_S1_S24_0 v647
  let v649 : FVec Ideal S24 .f32 := Host.divf v645 v648
  let v650 : FVec Ideal S1x24 .f32 := broadcastInDim S1x24 ![1] bcast_S24_S1x24_1 v649
  let v651 : FVec Ideal S128x24 .f32 := broadcastInDim S128x24 ![0, 1] bcast_S1x24_S128x24_0_1 v650
  let v653 : FVec Ideal S128 .f32 := Host.reduceAdd (mulf v639 v651) (constant S_ .f32 0x00000000#32) reducesTo_S128x24_S128_d1 h_S_
  let v656 : FVec Ideal S128 .f32 := shapeCast S128 (extractStridedSlice S128x1 ![0, 11] v639 slices_S128x24_S128x1_0_11) shapeCasts_S128x1_S128
  let v658 : FVec Ideal S_ .f32 := shapeCast S_ (extractStridedSlice S1 ![0] a3 slices_S2_S1_0) shapeCasts_S1_S_
  let v663 : FVec Ideal S128 .f32 := shapeCast S128 (extractStridedSlice S128x1 ![0, 23] v639 slices_S128x24_S128x1_0_23) shapeCasts_S128x1_S128
  let v665 : FVec Ideal S_ .f32 := shapeCast S_ (extractStridedSlice S1 ![1] a3 slices_S2_S1_1) shapeCasts_S1_S_
  let v669 : FVec Ideal S128 .f32 := addf v653 (addf (addf (broadcastInDim S128 ![] bcast_S_S128 (constant S_ .f32 0x00000000#32))
    (mulf v656 (broadcastInDim S128 ![] bcast_S_S128 v658))) (mulf v663 (broadcastInDim S128 ![] bcast_S_S128 v665)))
  -- the 24 columns
  have h639 : ∀ (r : Fin 128) (l : Fin 24), v639 (ix2 r l) = c l (ix1 r) := fun r l =>
    cat24_apply v637 v638 (fun q r => c q (ix1 r))
      (fun r k => (cat16_apply col _ r k).trans (Cert.RowOps.bcastCol (c (Fin.castLE (by decide : 16 ≤ 24) k)) _ r 0))
      (fun r k => (cat8_apply col _ r k).trans (Cert.RowOps.bcastCol (c (Fin.natAdd 16 k)) _ r 0)) _ r l
  -- the softmax
  have hbM : max b M = M := max_eq_right ((Finset.le_fold_max b).2 (Or.inl le_rfl))
  have h641 : ∀ j, v641 j = M := fun j => by
    show max b (v640 j) = M
    rw [show v640 j = M from vecMaxH a2 _ _ _ j]
    exact hbM
  have h643 : ∀ l : Fin 24, v643 (ix1 l) = M := fun l =>
    (bcast1 v642 _ l).trans ((broadcastInDim_scalar_apply _ v641 _).trans (h641 _))
  have h645 : ∀ l : Fin 24, v645 (ix1 l) = Ideal.exp (w l - M) := fun l => by
    show Ideal.exp (a2 (ix1 l) - v643 (ix1 l)) = _
    rw [h643 l]
  have h646 : ∀ j, v646 j = ∑ k : Fin 24, Ideal.exp (w k - M) := fun j => by
    refine (vecSumH v645 _ _ _ j).trans ?_
    show Ideal.ofBits .f32 0x00000000#32 + ∑ k : Fin 24, v645 (ix1 k) = _
    rw [Ideal.ofBits_zero_f32, zero_add]
    exact Finset.sum_congr rfl fun k _ => h645 k
  have h648 : ∀ l : Fin 24, v648 (ix1 l) = ∑ k : Fin 24, Ideal.exp (w k - M) := fun l =>
    (bcast1 v647 _ l).trans ((broadcastInDim_scalar_apply _ v646 _).trans (h646 _))
  have h649 : ∀ l : Fin 24, v649 (ix1 l) = softmax24 b w l := fun l => by
    show Ideal.div (v645 (ix1 l)) (v648 (ix1 l)) = _
    rw [h645 l, h648 l]
    rfl
  have h651 : ∀ (r : Fin 128) (l : Fin 24), v651 (ix2 r l) = softmax24 b w l := fun r l =>
    (bcastDown v650 _ r l).trans ((bcastRow v649 _ 0 l).trans (h649 l))
  -- one row's score
  have h653 : ∀ r : Fin 128, v653 (ix1 r) = ∑ l : Fin 24, c l (ix1 r) * softmax24 b w l := fun r => by
    refine (Cert.RowOps.rowSumH (mulf v639 v651) _ _ _ r).trans ?_
    show Ideal.ofBits .f32 0x00000000#32 + ∑ l : Fin 24, v639 (ix2 r l) * v651 (ix2 r l) = _
    rw [Ideal.ofBits_zero_f32, zero_add]
    exact Finset.sum_congr rfl fun l _ => by rw [h639 r l, h651 r l]
  have h656 : ∀ r : Fin 128, v656 (ix1 r) = c 11 (ix1 r) := fun r =>
    (shapeCast_a1_a_applyH _ _ r).trans ((slice2_axis1_apply 11 v639 _ r (0 : Fin 1) (11 : Fin 24) rfl).trans (h639 r 11))
  have h663 : ∀ r : Fin 128, v663 (ix1 r) = c 23 (ix1 r) := fun r =>
    (shapeCast_a1_a_applyH _ _ r).trans ((slice2_axis1_apply 23 v639 _ r (0 : Fin 1) (23 : Fin 24) rfl).trans (h639 r 23))
  have h658 : ∀ j, v658 j = a3 (ix1 (0 : Fin 2)) := fun j => scalarOf2H a3 0 (0 : Fin 2) rfl _ _ j
  have h665 : ∀ j, v665 j = a3 (ix1 (1 : Fin 2)) := fun j => scalarOf2H a3 1 (1 : Fin 2) rfl _ _ j
  have h669 : ∀ r : Fin 128, v669 (ix1 r) = score (fun l : Fin 24 => c l (ix1 r)) (softmax24 b w) (a3 (ix1 (0 : Fin 2))) (a3 (ix1 (1 : Fin 2))) := fun r => by
    show v653 (ix1 r) + ((broadcastInDim S128 ![] bcast_S_S128 (constant S_ .f32 0x00000000#32) (ix1 r)
      + v656 (ix1 r) * broadcastInDim S128 ![] bcast_S_S128 v658 (ix1 r))
      + v663 (ix1 r) * broadcastInDim S128 ![] bcast_S_S128 v665 (ix1 r)) = _
    rw [h653 r, h656 r, h663 r, broadcastInDim_scalar_apply, broadcastInDim_scalar_apply, broadcastInDim_scalar_apply, h658, h665]
    show _ + ((Ideal.ofBits .f32 0x00000000#32 + _) + _) = _
    rw [Ideal.ofBits_zero_f32]
    rfl
  -- the mean over the rows
  funext j
  show Host.divf (Host.reduceAdd v669 (constant S_ .f32 0x00000000#32) reducesTo_S128_S_d0 h_S_) (constant S_ .f32 0x43000000#32) j = _
  refine (hostDivf_apply _ _ j).trans ?_
  refine congrArg (fun s => Ideal.div s (Ideal.ofBits .f32 0x43000000#32)) ?_
  refine (vecSumH v669 _ _ _ j).trans ?_
  show Ideal.ofBits .f32 0x00000000#32 + ∑ k : Fin 128, v669 (ix1 k) = _
  rw [Ideal.ofBits_zero_f32, zero_add]
  exact Finset.sum_congr rfl fun r _ => h669 r

end Cert.ReferenceIdeal.HostForms

end
-- ==== Proof.HostLags.lean ====
/-
  The reference's 24 lags read at a row.

  Lag `l` of the reference is the host's lag at width `8192 - l`, offset `l` and the float literal `8192 - l`; at row `r`
  it is that lag's correlation of row `r` of the normalised array (`lagH_apply`), entry `l - 1` of `Autocorr.lagRows`.
-/
import proofs.«130460_j34522947125965_1_alg».proof.Proof.HostLag
import proofs.«130460_j34522947125965_1_alg».proof.Proof.SpecRow

noncomputable section

namespace Cert.ReferenceIdeal.HostForms

open Cert.ReferenceIdeal Cert.ReferenceIdeal.Facts₀ Idealize.ShloMosaic Idealize.ShloMosaic.ValueIdx Cert.Autocorr

variable [Cert.ReferenceIdeal.Facts]

theorem lags_apply0 (s : FVec Ideal S128x8192 .f32) (r : Fin 128) :
    lags (F := Ideal) s 0 (ix1 r) = lagRows (fun j : Fin 8192 => s (ix2 r j)) 0 :=
  lagH_apply 8191 1 (by norm_num) 0x45FFF800#32 slices_S128x8192_S128x8191_0_0 slices_S128x8192_S128x8191_0_1 reducesTo_S128x8191_S128_d1 bcast_S128x1_S128x8191_0_1 s r
theorem lags_apply1 (s : FVec Ideal S128x8192 .f32) (r : Fin 128) :
    lags (F := Ideal) s 1 (ix1 r) = lagRows (fun j : Fin 8192 => s (ix2 r j)) 1 :=
  lagH_apply 8190 2 (by norm_num) 0x45FFF000#32 slices_S128x8192_S128x8190_0_0 slices_S128x8192_S128x8190_0_2 reducesTo_S128x8190_S128_d1 bcast_S128x1_S128x8190_0_1 s r
theorem lags_apply2 (s : FVec Ideal S128x8192 .f32) (r : Fin 128) :
    lags (F := Ideal) s 2 (ix1 r) = lagRows (fun j : Fin 8192 => s (ix2 r j)) 2 :=
  lagH_apply 8189 3 (by norm_num) 0x45FFE800#32 slices_S128x8192_S128x8189_0_0 slices_S128x8192_S128x8189_0_3 reducesTo_S128x8189_S128_d1 bcast_S128x1_S128x8189_0_1 s r
theorem lags_apply3 (s : FVec Ideal S128x8192 .f32) (r : Fin 128) :
    lags (F := Ideal) s 3 (ix1 r) = lagRows (fun j : Fin 8192 => s (ix2 r j)) 3 :=
  lagH_apply 8188 4 (by norm_num) 0x45FFE000#32 slices_S128x8192_S128x8188_0_0 slices_S128x8192_S128x8188_0_4 reducesTo_S128x8188_S128_d1 bcast_S128x1_S128x8188_0_1 s r
theorem lags_apply4 (s : FVec Ideal S128x8192 .f32) (r : Fin 128) :
    lags (F := Ideal) s 4 (ix1 r) = lagRows (fun j : Fin 8192 => s (ix2 r j)) 4 :=
  lagH_apply 8187 5 (by norm_num) 0x45FFD800#32 slices_S128x8192_S128x8187_0_0 slices_S128x8192_S128x8187_0_5 reducesTo_S128x8187_S128_d1 bcast_S128x1_S128x8187_0_1 s r
theorem lags_apply5 (s : FVec Ideal S128x8192 .f32) (r : Fin 128) :
    lags (F := Ideal) s 5 (ix1 r) = lagRows (fun j : Fin 8192 => s (ix2 r j)) 5 :=
  lagH_apply 8186 6 (by norm_num) 0x45FFD000#32 slices_S128x8192_S128x8186_0_0 slices_S128x8192_S128x8186_0_6 reducesTo_S128x8186_S128_d1 bcast_S128x1_S128x8186_0_1 s r
theorem lags_apply6 (s : FVec Ideal S128x8192 .f32) (r : Fin 128) :
    lags (F := Ideal) s 6 (ix1 r) = lagRows (fun j : Fin 8192 => s (ix2 r j)) 6 :=
  lagH_apply 8185 7 (by norm_num) 0x45FFC800#32 slices_S128x8192_S128x8185_0_0 slices_S128x8192_S128x8185_0_7 reducesTo_S128x8185_S128_d1 bcast_S128x1_S128x8185_0_1 s r
theorem lags_apply7 (s : FVec Ideal S128x8192 .f32) (r : Fin 128) :
    lags (F := Ideal) s 7 (ix1 r) = lagRows (fun j : Fin 8192 => s (ix2 r j)) 7 :=
  lagH_apply 8184 8 (by norm_num) 0x45FFC000#32 slices_S128x8192_S128x8184_0_0 slices_S128x8192_S128x8184_0_8 reducesTo_S128x8184_S128_d1 bcast_S128x1_S128x8184_0_1 s r
theorem lags_apply8 (s : FVec Ideal S128x8192 .f32) (r : Fin 128) :
    lags (F := Ideal) s 8 (ix1 r) = lagRows (fun j : Fin 8192 => s (ix2 r j)) 8 :=
  lagH_apply 8183 9 (by norm_num) 0x45FFB800#32 slices_S128x8192_S128x8183_0_0 slices_S128x8192_S128x8183_0_9 reducesTo_S128x8183_S128_d1 bcast_S128x1_S128x8183_0_1 s r
theorem lags_apply9 (s : FVec Ideal S128x8192 .f32) (r : Fin 128) :
    lags (F := Ideal) s 9 (ix1 r) = lagRows (fun j : Fin 8192 => s (ix2 r j)) 9 :=
  lagH_apply 8182 10 (by norm_num) 0x45FFB000#32 slices_S128x8192_S128x8182_0_0 slices_S128x8192_S128x8182_0_10 reducesTo_S128x8182_S128_d1 bcast_S128x1_S128x8182_0_1 s r
theorem lags_apply10 (s : FVec Ideal S128x8192 .f32) (r : Fin 128) :
    lags (F := Ideal) s 10 (ix1 r) = lagRows (fun j : Fin 8192 => s (ix2 r j)) 10 :=
  lagH_apply 8181 11 (by norm_num) 0x45FFA800#32 slices_S128x8192_S128x8181_0_0 slices_S128x8192_S128x8181_0_11 reducesTo_S128x8181_S128_d1 bcast_S128x1_S128x8181_0_1 s r
theorem lags_apply11 (s : FVec Ideal S128x8192 .f32) (r : Fin 128) :
    lags (F := Ideal) s 11 (ix1 r) = lagRows (fun j : Fin 8192 => s (ix2 r j)) 11 :=
  lagH_apply 8180 12 (by norm_num) 0x45FFA000#32 slices_S128x8192_S128x8180_0_0 slices_S128x8192_S128x8180_0_12 reducesTo_S128x8180_S128_d1 bcast_S128x1_S128x8180_0_1 s r
theorem lags_apply12 (s : FVec Ideal S128x8192 .f32) (r : Fin 128) :
    lags (F := Ideal) s 12 (ix1 r) = lagRows (fun j : Fin 8192 => s (ix2 r j)) 12 :=
  lagH_apply 8179 13 (by norm_num) 0x45FF9800#32 slices_S128x8192_S128x8179_0_0 slices_S128x8192_S128x8179_0_13 reducesTo_S128x8179_S128_d1 bcast_S128x1_S128x8179_0_1 s r
theorem lags_apply13 (s : FVec Ideal S128x8192 .f32) (r : Fin 128) :
    lags (F := Ideal) s 13 (ix1 r) = lagRows (fun j : Fin 8192 => s (ix2 r j)) 13 :=
  lagH_apply 8178 14 (by norm_num) 0x45FF9000#32 slices_S128x8192_S128x8178_0_0 slices_S128x8192_S128x8178_0_14 reducesTo_S128x8178_S128_d1 bcast_S128x1_S128x8178_0_1 s r
theorem lags_apply14 (s : FVec Ideal S128x8192 .f32) (r : Fin 128) :
    lags (F := Ideal) s 14 (ix1 r) = lagRows (fun j : Fin 8192 => s (ix2 r j)) 14 :=
  lagH_apply 8177 15 (by norm_num) 0x45FF8800#32 slices_S128x8192_S128x8177_0_0 slices_S128x8192_S128x8177_0_15 reducesTo_S128x8177_S128_d1 bcast_S128x1_S128x8177_0_1 s r
theorem lags_apply15 (s : FVec Ideal S128x8192 .f32) (r : Fin 128) :
    lags (F := Ideal) s 15 (ix1 r) = lagRows (fun j : Fin 8192 => s (ix2 r j)) 15 :=
  lagH_apply 8176 16 (by norm_num) 0x45FF8000#32 slices_S128x8192_S128x8176_0_0 slices_S128x8192_S128x8176_0_16 reducesTo_S128x8176_S128_d1 bcast_S128x1_S128x8176_0_1 s r
theorem lags_apply16 (s : FVec Ideal S128x8192 .f32) (r : Fin 128) :
    lags (F := Ideal) s 16 (ix1 r) = lagRows (fun j : Fin 8192 => s (ix2 r j)) 16 :=
  lagH_apply 8175 17 (by norm_num) 0x45FF7800#32 slices_S128x8192_S128x8175_0_0 slices_S128x8192_S128x8175_0_17 reducesTo_S128x8175_S128_d1 bcast_S128x1_S128x8175_0_1 s r
theorem lags_apply17 (s : FVec Ideal S128x8192 .f32) (r : Fin 128) :
    lags (F := Ideal) s 17 (ix1 r) = lagRows (fun j : Fin 8192 => s (ix2 r j)) 17 :=
  lagH_apply 8174 18 (by norm_num) 0x45FF7000#32 slices_S128x8192_S128x8174_0_0 slices_S128x8192_S128x8174_0_18 reducesTo_S128x8174_S128_d1 bcast_S128x1_S128x8174_0_1 s r
theorem lags_apply18 (s : FVec Ideal S128x8192 .f32) (r : Fin 128) :
    lags (F := Ideal) s 18 (ix1 r) = lagRows (fun j : Fin 8192 => s (ix2 r j)) 18 :=
  lagH_apply 8173 19 (by norm_num) 0x45FF6800#32 slices_S128x8192_S128x8173_0_0 slices_S128x8192_S128x8173_0_19 reducesTo_S128x8173_S128_d1 bcast_S128x1_S128x8173_0_1 s r
theorem lags_apply19 (s : FVec Ideal S128x8192 .f32) (r : Fin 128) :
    lags (F := Ideal) s 19 (ix1 r) = lagRows (fun j : Fin 8192 => s (ix2 r j)) 19 :=
  lagH_apply 8172 20 (by norm_num) 0x45FF6000#32 slices_S128x8192_S128x8172_0_0 slices_S128x8192_S128x8172_0_20 reducesTo_S128x8172_S128_d1 bcast_S128x1_S128x8172_0_1 s r
theorem lags_apply20 (s : FVec Ideal S128x8192 .f32) (r : Fin 128) :
    lags (F := Ideal) s 20 (ix1 r) = lagRows (fun j : Fin 8192 => s (ix2 r j)) 20 :=
  lagH_apply 8171 21 (by norm_num) 0x45FF5800#32 slices_S128x8192_S128x8171_0_0 slices_S128x8192_S128x8171_0_21 reducesTo_S128x8171_S128_d1 bcast_S128x1_S128x8171_0_1 s r
theorem lags_apply21 (s : FVec Ideal S128x8192 .f32) (r : Fin 128) :
    lags (F := Ideal) s 21 (ix1 r) = lagRows (fun j : Fin 8192 => s (ix2 r j)) 21 :=
  lagH_apply 8170 22 (by norm_num) 0x45FF5000#32 slices_S128x8192_S128x8170_0_0 slices_S128x8192_S128x8170_0_22 reducesTo_S128x8170_S128_d1 bcast_S128x1_S128x8170_0_1 s r
theorem lags_apply22 (s : FVec Ideal S128x8192 .f32) (r : Fin 128) :
    lags (F := Ideal) s 22 (ix1 r) = lagRows (fun j : Fin 8192 => s (ix2 r j)) 22 :=
  lagH_apply 8169 23 (by norm_num) 0x45FF4800#32 slices_S128x8192_S128x8169_0_0 slices_S128x8192_S128x8169_0_23 reducesTo_S128x8169_S128_d1 bcast_S128x1_S128x8169_0_1 s r
theorem lags_apply23 (s : FVec Ideal S128x8192 .f32) (r : Fin 128) :
    lags (F := Ideal) s 23 (ix1 r) = lagRows (fun j : Fin 8192 => s (ix2 r j)) 23 :=
  lagH_apply 8168 24 (by norm_num) 0x45FF4000#32 slices_S128x8192_S128x8168_0_0 slices_S128x8192_S128x8168_0_24 reducesTo_S128x8168_S128_d1 bcast_S128x1_S128x8168_0_1 s r

/-- The 24 lags of the reference, at row `r`, are the 24 correlations of that row. -/
theorem lags_apply (s : FVec Ideal S128x8192 .f32) (r : Fin 128) (l : Fin 24) :
    lags (F := Ideal) s l (ix1 r) = lagRows (fun j : Fin 8192 => s (ix2 r j)) l := by
  fin_cases l
  · exact lags_apply0 s r
  · exact lags_apply1 s r
  · exact lags_apply2 s r
  · exact lags_apply3 s r
  · exact lags_apply4 s r
  · exact lags_apply5 s r
  · exact lags_apply6 s r
  · exact lags_apply7 s r
  · exact lags_apply8 s r
  · exact lags_apply9 s r
  · exact lags_apply10 s r
  · exact lags_apply11 s r
  · exact lags_apply12 s r
  · exact lags_apply13 s r
  · exact lags_apply14 s r
  · exact lags_apply15 s r
  · exact lags_apply16 s r
  · exact lags_apply17 s r
  · exact lags_apply18 s r
  · exact lags_apply19 s r
  · exact lags_apply20 s r
  · exact lags_apply21 s r
  · exact lags_apply22 s r
  · exact lags_apply23 s r

end Cert.ReferenceIdeal.HostForms

end
-- ==== Proof.Bridge.lean ====
/-
  The two programs' results are one function of the arguments.

  The reference's result is the mean over the 128 rows of the rows' scores, each row's score being
  `Autocorr.rowScore` of the row's first channel, the lag weights and the two seasonal weights. The kernel program's
  result is the mean over the 128 entries of the array its two grid points write, and entry `64 t + r` of that array
  is what the body stores at row `r` at point `t`: the score of row `r` of block `t`, which is row `64 t + r` of the first
  channel. Both are therefore the same quotient of the same sum.
-/
import proofs.«130460_j34522947125965_1_alg».proof.Proof.KernelBody
import proofs.«130460_j34522947125965_1_alg».proof.Proof.KernelRun
import proofs.«130460_j34522947125965_1_alg».proof.Proof.HostNorm
import proofs.«130460_j34522947125965_1_alg».proof.Proof.HostTail
import proofs.«130460_j34522947125965_1_alg».proof.Proof.HostLags

noncomputable section

namespace Cert.Bridge

open Idealize.ShloMosaic Idealize.ShloMosaic.ValueIdx Cert.Autocorr
open scoped BigOperators

/-- The common value: the mean of the 128 rows' scores (the count as the float literal `128`). -/
def meanScore (a0 : (⟨3, ![128, 8192, 8]⟩ : Shape).Idx → EReal) (a2 : (⟨1, ![24]⟩ : Shape).Idx → EReal)
    (a3 : (⟨1, ![2]⟩ : Shape).Idx → EReal) : EReal :=
  Ideal.div (∑ r : Fin 128, rowScore (fun j : Fin 8192 => a0 (ix3 r j (0 : Fin 8))) (fun k : Fin 24 => a2 (ix1 k))
    (a3 (ix1 (0 : Fin 2))) (a3 (ix1 (1 : Fin 2)))) (Ideal.ofBits .f32 0x43000000#32)

section Reference
open Cert.ReferenceIdeal Cert.ReferenceIdeal.HostForms

variable [Cert.ReferenceIdeal.Facts]

/-- The reference's result is the mean of the rows' scores. -/
theorem refOut_eq (a0 : FVec Ideal S128x8192x8 .f32) (a2 : FVec Ideal S24 .f32) (a3 : FVec Ideal S2 .f32) :
    refOut (F := Ideal) a0 a2 a3 = fun _ => meanScore a0 a2 a3 := by
  unfold refOut
  rw [tailH_eq]
  funext _
  unfold meanScore
  refine congrArg (Ideal.div · (Ideal.ofBits .f32 0x43000000#32)) (Finset.sum_congr rfl fun r _ => ?_)
  unfold rowScore
  refine congrArg (fun A => score A _ _ _) ?_
  funext l
  rw [lags_apply]
  exact congrArg (fun zn => lagRows zn l) (funext fun j => seqnH_apply a0 r j)

end Reference

section Kernel
open Cert.KernelIdeal Cert.KernelIdeal.HandValue Cert.KernelIdeal.Forms

/-- Entry `i` of the array the region writes is the score of row `i` of the first channel. -/
theorem perRowK_row (a0 : FVec Ideal S128x8192x8 .f32) (a2 : FVec Ideal S24 .f32) (a3 : FVec Ideal S2 .f32) (i : Fin 128) :
    perRowK a0 a2 a3 (ix2 i (0 : Fin 1))
      = rowScore (fun j : Fin 8192 => a0 (ix3 i j (0 : Fin 8))) (fun k : Fin 24 => a2 (ix1 k))
          (a3 (ix1 (0 : Fin 2))) (a3 (ix1 (1 : Fin 2))) := by
  obtain ⟨t, r, h⟩ : ∃ (t : Fin 2) (r : Fin 64), i = ⟨64 * t.val + r.val, by have := t.isLt; have := r.isLt; omega⟩ := by
    have hi := i.isLt
    exact ⟨⟨i.val / 64, by omega⟩, ⟨i.val % 64, by omega⟩,
      Fin.ext (by show i.val = 64 * (i.val / 64) + i.val % 64; omega)⟩
  subst h
  rw [perRowK_apply, out0_3_apply]
  simp only [blk0_apply, row24_apply, row2_apply]

/-- The kernel program's result is the mean of the rows' scores. -/
theorem kernelOut_eq (a0 : FVec Ideal S128x8192x8 .f32) (a2 : FVec Ideal S24 .f32) (a3 : FVec Ideal S2 .f32) :
    meanK (perRowK a0 a2 a3) = fun _ => meanScore a0 a2 a3 := by
  rw [meanK_eq]
  funext _
  unfold meanScore
  exact congrArg (Ideal.div · (Ideal.ofBits .f32 0x43000000#32)) (Finset.sum_congr rfl fun r _ => perRowK_row a0 a2 a3 r)

end Kernel

end Cert.Bridge

end
-- ==== Proof.RefT0.lean ====
import proofs.«130460_j34522947125965_1_alg».proof.ReferenceIdeal
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations of statements in printed window 0, reading window 0: 40 of them. -/
abbrev pc0 : List (HloOp τ sig (Elt F)) :=
  [ StableHlo.unary main_arg0 main_v0 ((extractStridedSlice S128x8192x1 ![0, 0, 0] · slices_S128x8192x8_S128x8192x1_0_0_0) : (⟨S128x8192x8, .f32⟩ : BufTy).Contents (Elt F) → (⟨S128x8192x1, .f32⟩ : BufTy).Contents (Elt F)),
    StableHlo.reshape main_v0 main_v1 rfl shapeCasts_S128x8192x1_S128x8192,
    StableHlo.nullary main_cst (constant S_ .f32 0x00000000#32),
    StableHlo.binary main_v1 main_cst main_v2 ((fun x v => Host.reduceAdd x v reducesTo_S128x8192_S128_d1 h_S_) : (⟨S128x8192, .f32⟩ : BufTy).Contents (Elt F) → (⟨S_, .f32⟩ : BufTy).Contents (Elt F) → (⟨S128, .f32⟩ : BufTy).Contents (Elt F)),
    StableHlo.unary main_v2 main_v3 (broadcastInDim S128x1 ![0] bcast_S128_S128x1_0 : (⟨S128, .f32⟩ : BufTy).Contents (Elt F) → (⟨S128x1, .f32⟩ : BufTy).Contents (Elt F)),
    StableHlo.nullary main_cst_0 (constant S_ .f32 0x46000000#32),
    StableHlo.unary main_cst_0 main_v4 (broadcastInDim S128x1 ![] bcast_S_S128x1 : (⟨S_, .f32⟩ : BufTy).Contents (Elt F) → (⟨S128x1, .f32⟩ : BufTy).Contents (Elt F)),
    StableHlo.binary main_v3 main_v4 main_v5 (Host.divf : (⟨S128x1, .f32⟩ : BufTy).Contents (Elt F) → (⟨S128x1, .f32⟩ : BufTy).Contents (Elt F) → (⟨S128x1, .f32⟩ : BufTy).Contents (Elt F)),
    StableHlo.nullary main_c (constantI S_ 32 1#32),
    StableHlo.TRef.nullary main_call0.call0.cst (constant S_ .f32 0x00000000#32),
    StableHlo.TRef.binary (.of main_v1 : StableHlo.TRef sig ⟨S128x8192, .f32⟩) main_call0.call0.cst main_call0.call0.v0 (fun x v => Host.reduceAdd x v reducesTo_S128x8192_S128_d1 h_S_),
    StableHlo.TRef.unary main_call0.call0.v0 main_call0.call0.v1 (broadcastInDim S128x1 ![0] bcast_S128_S128x1_0),
    StableHlo.TRef.nullary main_call0.call0.cst_0 (constant S_ .f32 0x46000000#32),
    StableHlo.TRef.unary main_call0.call0.cst_0 main_call0.call0.v2 (broadcastInDim S128x1 ![] bcast_S_S128x1),
    StableHlo.TRef.binary main_call0.call0.v1 main_call0.call0.v2 main_call0.call0.v3 Host.divf,
    StableHlo.TRef.unary main_call0.call0.v3 main_call0.call0.v4 (broadcastInDim S128x8192 ![0, 1] bcast_S128x1_S128x8192_0_1),
    StableHlo.TRef.binary (.of main_v1 : StableHlo.TRef sig ⟨S128x8192, .f32⟩) main_call0.call0.v4 main_call0.call0.v5 subf,
    StableHlo.TRef.binary main_call0.call0.v5 main_call0.call0.v5 main_call0.call0.v6 mulf,
    StableHlo.TRef.unary (.of main_c : StableHlo.TRef sig ⟨S_, .i32⟩) main_call0.call0.v7 (sitofp .f32),
    StableHlo.TRef.nullary main_call0.call0.cst_1 (constant S_ .f32 0x46000000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S128x8192_S128_d1 h_S_),
    StableHlo.TRef.unary main_call0.call0.v9 main_call0.call0.v10 (broadcastInDim S128x1 ![0] bcast_S128_S128x1_0),
    StableHlo.TRef.unary main_call0.call0.v8 main_call0.call0.v11 (broadcastInDim S128x1 ![] bcast_S_S128x1),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S128x1 ![] bcast_S_S128x1),
    StableHlo.TRef.ternary main_call0.call0.v13 main_call0.call0.v12 main_call0.call0.call0.v1 main_call0.call0.call0.v2 (fun p a b => select (broadcastInDim S128x1 ![] bcast_S_S128x1 p) a b),
    StableHlo.TRef.unary main_call0.call0.call0.v2 main_call0.v1 Host.sqrt,
    StableHlo.unary main_v5 main_v7 (broadcastInDim S128x8192 ![0, 1] bcast_S128x1_S128x8192_0_1 : (⟨S128x1, .f32⟩ : BufTy).Contents (Elt F) → (⟨S128x8192, .f32⟩ : BufTy).Contents (Elt F)),
    StableHlo.binary main_v1 main_v7 main_v8 (subf : (⟨S128x8192, .f32⟩ : BufTy).Contents (Elt F) → (⟨S128x8192, .f32⟩ : BufTy).Contents (Elt F) → (⟨S128x8192, .f32⟩ : BufTy).Contents (Elt F)),
    StableHlo.nullary main_cst_1 (constant S_ .f32 0x322BCC77#32),
    StableHlo.unary main_cst_1 main_v9 (broadcastInDim S128x1 ![] bcast_S_S128x1 : (⟨S_, .f32⟩ : BufTy).Contents (Elt F) → (⟨S128x1, .f32⟩ : BufTy).Contents (Elt F)),
    StableHlo.binary main_v6 main_v9 main_v10 (addf : (⟨S128x1, .f32⟩ : BufTy).Contents (Elt F) → (⟨S128x1, .f32⟩ : BufTy).Contents (Elt F) → (⟨S128x1, .f32⟩ : BufTy).Contents (Elt F)),
    StableHlo.unary main_v10 main_v11 (broadcastInDim S128x8192 ![0, 1] bcast_S128x1_S128x8192_0_1 : (⟨S128x1, .f32⟩ : BufTy).Contents (Elt F) → (⟨S128x8192, .f32⟩ : BufTy).Contents (Elt F)),
    StableHlo.binary main_v8 main_v11 main_v12 (Host.divf : (⟨S128x8192, .f32⟩ : BufTy).Contents (Elt F) → (⟨S128x8192, .f32⟩ : BufTy).Contents (Elt F) → (⟨S128x8192, .f32⟩ : BufTy).Contents (Elt F)) ]

abbrev pc0_W : List (Ref sig .tc) := [main_v0, main_v1, main_cst, main_v2, main_v3, main_cst_0, main_v4, main_v5, main_c, (main_call0.call0.cst).ref, (main_call0.call0.v0).ref, (main_call0.call0.v1).ref, (main_call0.call0.cst_0).ref, (main_call0.call0.v2).ref, (main_call0.call0.v3).ref, (main_call0.call0.v4).ref, (main_call0.call0.v5).ref, (main_call0.call0.v6).ref, (main_call0.call0.v7).ref, (main_call0.call0.cst_1).ref, (main_call0.call0.v8).ref, (main_call0.call0.cst_2).ref, (main_call0.call0.v9).ref, (main_call0.call0.v10).ref, (main_call0.call0.v11).ref, (main_call0.call0.v12).ref, (main_call0.call0.cst_3).ref, (main_call0.call0.v13).ref, (main_call0.call0.cst_4).ref, (main_call0.call0.call0.v0).ref, (main_call0.call0.call0.v1).ref, (main_call0.call0.call0.v2).ref, (main_call0.v1).ref, main_v7, main_v8, main_cst_1, main_v9, main_v10, main_v11, main_v12]
theorem pc0_sub : (pc0 : List (HloOp τ sig (Elt F))).Forall fun op => op.bufs ⊆ tcRefs τ sig :=
  ⟨unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub ..⟩
theorem pc0_writes : (pc0 : List (HloOp τ sig (Elt F))).Forall fun op => op.writes ⊆ (pc0_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc0_fresh : ∀ op ∈ (pc0 : List (HloOp τ sig (Elt F))), op.fresh = ∅ := by
  intro _ h; (repeat (cases h with | head => rfl | tail _ h => ?_)); exact nomatch h

/-- Operations of statements in printed window 0, reading window 1: 39 of them. -/
abbrev pc1 : List (HloOp τ sig (Elt F)) :=
  [ StableHlo.unary main_v12 main_v13 ((extractStridedSlice S128x8191 ![0, 0] · slices_S128x8192_S128x8191_0_0) : (⟨S128x8192, .f32⟩ : BufTy).Contents (Elt F) → (⟨S128x8191, .f32⟩ : BufTy).Contents (Elt F)),
    StableHlo.unary main_v12 main_v14 ((extractStridedSlice S128x8191 ![0, 1] · slices_S128x8192_S128x8191_0_1) : (⟨S128x8192, .f32⟩ : BufTy).Contents (Elt F) → (⟨S128x8191, .f32⟩ : BufTy).Contents (Elt F)),
    StableHlo.nullary main_cst_2 (constant S_ .f32 0x00000000#32),
    StableHlo.binary main_v13 main_cst_2 main_v15 ((fun x v => Host.reduceAdd x v reducesTo_S128x8191_S128_d1 h_S_) : (⟨S128x8191, .f32⟩ : BufTy).Contents (Elt F) → (⟨S_, .f32⟩ : BufTy).Contents (Elt F) → (⟨S128, .f32⟩ : BufTy).Contents (Elt F)),
    StableHlo.unary main_v15 main_v16 (broadcastInDim S128x1 ![0] bcast_S128_S128x1_0 : (⟨S128, .f32⟩ : BufTy).Contents (Elt F) → (⟨S128x1, .f32⟩ : BufTy).Contents (Elt F)),
    StableHlo.nullary main_cst_3 (constant S_ .f32 0x45FFF800#32),
    StableHlo.unary main_cst_3 main_v17 (broadcastInDim S128x1 ![] bcast_S_S128x1 : (⟨S_, .f32⟩ : BufTy).Contents (Elt F) → (⟨S128x1, .f32⟩ : BufTy).Contents (Elt F)),
    StableHlo.binary main_v16 main_v17 main_v18 (Host.divf : (⟨S128x1, .f32⟩ : BufTy).Contents (Elt F) → (⟨S128x1, .f32⟩ : BufTy).Contents (Elt F) → (⟨S128x1, .f32⟩ : BufTy).Contents (Elt F)),
    StableHlo.unary main_v18 main_v19 (broadcastInDim S128x8191 ![0, 1] bcast_S128x1_S128x8191_0_1 : (⟨S128x1, .f32⟩ : BufTy).Contents (Elt F) → (⟨S128x8191, .f32⟩ : BufTy).Contents (Elt F)),
    StableHlo.binary main_v13 main_v19 main_v20 (subf : (⟨S128x8191, .f32⟩ : BufTy).Contents (Elt F) → (⟨S128x8191, .f32⟩ : BufTy).Contents (Elt F) → (⟨S128x8191, .f32⟩ : BufTy).Contents (Elt F)),
    StableHlo.nullary main_cst_4 (constant S_ .f32 0x00000000#32),
    StableHlo.binary main_v14 main_cst_4 main_v21 ((fun x v => Host.reduceAdd x v reducesTo_S128x8191_S128_d1 h_S_) : (⟨S128x8191, .f32⟩ : BufTy).Contents (Elt F) → (⟨S_, .f32⟩ : BufTy).Contents (Elt F) → (⟨S128, .f32⟩ : BufTy).Contents (Elt F)),
    StableHlo.unary main_v21 main_v22 (broadcastInDim S128x1 ![0] bcast_S128_S128x1_0 : (⟨S128, .f32⟩ : BufTy).Contents (Elt F) → (⟨S128x1, .f32⟩ : BufTy).Contents (Elt F)),
    StableHlo.nullary main_cst_5 (constant S_ .f32 0x45FFF800#32),
    StableHlo.unary main_cst_5 main_v23 (broadcastInDim S128x1 ![] bcast_S_S128x1 : (⟨S_, .f32⟩ : BufTy).Contents (Elt F) → (⟨S128x1, .f32⟩ : BufTy).Contents (Elt F)),
    StableHlo.binary main_v22 main_v23 main_v24 (Host.divf : (⟨S128x1, .f32⟩ : BufTy).Contents (Elt F) → (⟨S128x1, .f32⟩ : BufTy).Contents (Elt F) → (⟨S128x1, .f32⟩ : BufTy).Contents (Elt F)),
    StableHlo.unary main_v24 main_v25 (broadcastInDim S128x8191 ![0, 1] bcast_S128x1_S128x8191_0_1 : (⟨S128x1, .f32⟩ : BufTy).Contents (Elt F) → (⟨S128x8191, .f32⟩ : BufTy).Contents (Elt F)),
    StableHlo.binary main_v14 main_v25 main_v26 (subf : (⟨S128x8191, .f32⟩ : BufTy).Contents (Elt F) → (⟨S128x8191, .f32⟩ : BufTy).Contents (Elt F) → (⟨S128x8191, .f32⟩ : BufTy).Contents (Elt F)),
    StableHlo.binary main_v20 main_v26 main_v27 (mulf : (⟨S128x8191, .f32⟩ : BufTy).Contents (Elt F) → (⟨S128x8191, .f32⟩ : BufTy).Contents (Elt F) → (⟨S128x8191, .f32⟩ : BufTy).Contents (Elt F)),
    StableHlo.nullary main_cst_6 (constant S_ .f32 0x00000000#32),
    StableHlo.binary main_v27 main_cst_6 main_v28 ((fun x v => Host.reduceAdd x v reducesTo_S128x8191_S128_d1 h_S_) : (⟨S128x8191, .f32⟩ : BufTy).Contents (Elt F) → (⟨S_, .f32⟩ : BufTy).Contents (Elt F) → (⟨S128, .f32⟩ : BufTy).Contents (Elt F)),
    StableHlo.binary main_v20 main_v20 main_v29 (mulf : (⟨S128x8191, .f32⟩ : BufTy).Contents (Elt F) → (⟨S128x8191, .f32⟩ : BufTy).Contents (Elt F) → (⟨S128x8191, .f32⟩ : BufTy).Contents (Elt F)),
    StableHlo.nullary main_cst_7 (constant S_ .f32 0x00000000#32),
    StableHlo.binary main_v29 main_cst_7 main_v30 ((fun x v => Host.reduceAdd x v reducesTo_S128x8191_S128_d1 h_S_) : (⟨S128x8191, .f32⟩ : BufTy).Contents (Elt F) → (⟨S_, .f32⟩ : BufTy).Contents (Elt F) → (⟨S128, .f32⟩ : BufTy).Contents (Elt F)),
    StableHlo.unary main_v30 main_v31 (Host.sqrt : (⟨S128, .f32⟩ : BufTy).Contents (Elt F) → (⟨S128, .f32⟩ : BufTy).Contents (Elt F)),
    StableHlo.binary main_v26 main_v26 main_v32 (mulf : (⟨S128x8191, .f32⟩ : BufTy).Contents (Elt F) → (⟨S128x8191, .f32⟩ : BufTy).Contents (Elt F) → (⟨S128x8191, .f32⟩ : BufTy).Contents (Elt F)),
    StableHlo.nullary main_cst_8 (constant S_ .f32 0x00000000#32),
    StableHlo.binary main_v32 main_cst_8 main_v33 ((fun x v => Host.reduceAdd x v reducesTo_S128x8191_S128_d1 h_S_) : (⟨S128x8191, .f32⟩ : BufTy).Contents (Elt F) → (⟨S_, .f32⟩ : BufTy).Contents (Elt F) → (⟨S128, .f32⟩ : BufTy).Contents (Elt F)),
    StableHlo.unary main_v33 main_v34 (Host.sqrt : (⟨S128, .f32⟩ : BufTy).Contents (Elt F) → (⟨S128, .f32⟩ : BufTy).Contents (Elt F)),
    StableHlo.binary main_v31 main_v34 main_v35 (mulf : (⟨S128, .f32⟩ : BufTy).Contents (Elt F) → (⟨S128, .f32⟩ : BufTy).Contents (Elt F) → (⟨S128, .f32⟩ : BufTy).Contents (Elt F)),
    StableHlo.binary main_v28 main_v35 main_v36 (Host.divf : (⟨S128, .f32⟩ : BufTy).Contents (Elt F) → (⟨S128, .f32⟩ : BufTy).Contents (Elt F) → (⟨S128, .f32⟩ : BufTy).Contents (Elt F)),
    StableHlo.nullary main_cst_9 (constant S_ .f32 0xBF800000#32),
    StableHlo.nullary main_cst_10 (constant S_ .f32 0x3F800000#32),
    StableHlo.TRef.unary (.of main_cst_9 : StableHlo.TRef sig ⟨S_, .f32⟩) main_call1.v0 id,
    StableHlo.TRef.unary main_call1.v0 main_call1.v1 (broadcastInDim S128 ![] bcast_S_S128),
    StableHlo.TRef.binary main_call1.v1 (.of main_v36 : StableHlo.TRef sig ⟨S128, .f32⟩) main_call1.v2 maximumf,
    StableHlo.TRef.unary (.of main_cst_10 : StableHlo.TRef sig ⟨S_, .f32⟩) main_call1.v3 id,
    StableHlo.TRef.unary main_call1.v3 main_call1.v4 (broadcastInDim S128 ![] bcast_S_S128),
    StableHlo.TRef.binary main_call1.v4 main_call1.v2 main_call1.v5 minimumf ]

abbrev pc1_W : List (Ref sig .tc) := [main_v13, main_v14, main_cst_2, main_v15, main_v16, main_cst_3, main_v17, main_v18, main_v19, main_v20, main_cst_4, main_v21, main_v22, main_cst_5, main_v23, main_v24, main_v25, main_v26, main_v27, main_cst_6, main_v28, main_v29, main_cst_7, main_v30, main_v31, main_v32, main_cst_8, main_v33, main_v34, main_v35, main_v36, main_cst_9, main_cst_10, (main_call1.v0).ref, (main_call1.v1).ref, (main_call1.v2).ref, (main_call1.v3).ref, (main_call1.v4).ref, (main_call1.v5).ref]
theorem pc1_sub : (pc1 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc1_writes : (pc1 : List (HloOp τ sig (Elt F))).Forall fun op => op.writes ⊆ (pc1_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc1_fresh : ∀ op ∈ (pc1 : List (HloOp τ sig (Elt F))), op.fresh = ∅ := by
  intro _ h; (repeat (cases h with | head => rfl | tail _ h => ?_)); exact nomatch h

/-- Operations of statements in printed window 0, reading window 2: 9 of them. -/
abbrev pc2 : List (HloOp τ sig (Elt F)) :=
  [ StableHlo.unary main_v12 main_v38 ((extractStridedSlice S128x8190 ![0, 0] · slices_S128x8192_S128x8190_0_0) : (⟨S128x8192, .f32⟩ : BufTy).Contents (Elt F) → (⟨S128x8190, .f32⟩ : BufTy).Contents (Elt F)),
    StableHlo.unary main_v12 main_v39 ((extractStridedSlice S128x8190 ![0, 2] · slices_S128x8192_S128x8190_0_2) : (⟨S128x8192, .f32⟩ : BufTy).Contents (Elt F) → (⟨S128x8190, .f32⟩ : BufTy).Contents (Elt F)),
    StableHlo.nullary main_cst_11 (constant S_ .f32 0x00000000#32),
    StableHlo.binary main_v38 main_cst_11 main_v40 ((fun x v => Host.reduceAdd x v reducesTo_S128x8190_S128_d1 h_S_) : (⟨S128x8190, .f32⟩ : BufTy).Contents (Elt F) → (⟨S_, .f32⟩ : BufTy).Contents (Elt F) → (⟨S128, .f32⟩ : BufTy).Contents (Elt F)),
    StableHlo.unary main_v40 main_v41 (broadcastInDim S128x1 ![0] bcast_S128_S128x1_0 : (⟨S128, .f32⟩ : BufTy).Contents (Elt F) → (⟨S128x1, .f32⟩ : BufTy).Contents (Elt F)),
    StableHlo.nullary main_cst_12 (constant S_ .f32 0x45FFF000#32),
    StableHlo.unary main_cst_12 main_v42 (broadcastInDim S128x1 ![] bcast_S_S128x1 : (⟨S_, .f32⟩ : BufTy).Contents (Elt F) → (⟨S128x1, .f32⟩ : BufTy).Contents (Elt F)),
    StableHlo.binary main_v41 main_v42 main_v43 (Host.divf : (⟨S128x1, .f32⟩ : BufTy).Contents (Elt F) → (⟨S128x1, .f32⟩ : BufTy).Contents (Elt F) → (⟨S128x1, .f32⟩ : BufTy).Contents (Elt F)),
    StableHlo.unary main_v43 main_v44 (broadcastInDim S128x8190 ![0, 1] bcast_S128x1_S128x8190_0_1 : (⟨S128x1, .f32⟩ : BufTy).Contents (Elt F) → (⟨S128x8190, .f32⟩ : BufTy).Contents (Elt F)) ]

abbrev pc2_W : List (Ref sig .tc) := [main_v38, main_v39, main_cst_11, main_v40, main_v41, main_cst_12, main_v42, main_v43, main_v44]
theorem pc2_sub : (pc2 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub ..⟩
theorem pc2_writes : (pc2 : List (HloOp τ sig (Elt F))).Forall fun op => op.writes ⊆ (pc2_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc2_fresh : ∀ op ∈ (pc2 : List (HloOp τ sig (Elt F))), op.fresh = ∅ := by
  intro _ h; (repeat (cases h with | head => rfl | tail _ h => ?_)); exact nomatch h

/-- Operations of statements in printed window 1, reading window 2: 30 of them. -/
abbrev pc3 : List (HloOp τ sig (Elt F)) :=
  [ StableHlo.binary main_v38 main_v44 main_v45 (subf : (⟨S128x8190, .f32⟩ : BufTy).Contents (Elt F) → (⟨S128x8190, .f32⟩ : BufTy).Contents (Elt F) → (⟨S128x8190, .f32⟩ : BufTy).Contents (Elt F)),
    StableHlo.nullary main_cst_13 (constant S_ .f32 0x00000000#32),
    StableHlo.binary main_v39 main_cst_13 main_v46 ((fun x v => Host.reduceAdd x v reducesTo_S128x8190_S128_d1 h_S_) : (⟨S128x8190, .f32⟩ : BufTy).Contents (Elt F) → (⟨S_, .f32⟩ : BufTy).Contents (Elt F) → (⟨S128, .f32⟩ : BufTy).Contents (Elt F)),
    StableHlo.unary main_v46 main_v47 (broadcastInDim S128x1 ![0] bcast_S128_S128x1_0 : (⟨S128, .f32⟩ : BufTy).Contents (Elt F) → (⟨S128x1, .f32⟩ : BufTy).Contents (Elt F)),
    StableHlo.nullary main_cst_14 (constant S_ .f32 0x45FFF000#32),
    StableHlo.unary main_cst_14 main_v48 (broadcastInDim S128x1 ![] bcast_S_S128x1 : (⟨S_, .f32⟩ : BufTy).Contents (Elt F) → (⟨S128x1, .f32⟩ : BufTy).Contents (Elt F)),
    StableHlo.binary main_v47 main_v48 main_v49 (Host.divf : (⟨S128x1, .f32⟩ : BufTy).Contents (Elt F) → (⟨S128x1, .f32⟩ : BufTy).Contents (Elt F) → (⟨S128x1, .f32⟩ : BufTy).Contents (Elt F)),
    StableHlo.unary main_v49 main_v50 (broadcastInDim S128x8190 ![0, 1] bcast_S128x1_S128x8190_0_1 : (⟨S128x1, .f32⟩ : BufTy).Contents (Elt F) → (⟨S128x8190, .f32⟩ : BufTy).Contents (Elt F)),
    StableHlo.binary main_v39 main_v50 main_v51 (subf : (⟨S128x8190, .f32⟩ : BufTy).Contents (Elt F) → (⟨S128x8190, .f32⟩ : BufTy).Contents (Elt F) → (⟨S128x8190, .f32⟩ : BufTy).Contents (Elt F)),
    StableHlo.binary main_v45 main_v51 main_v52 (mulf : (⟨S128x8190, .f32⟩ : BufTy).Contents (Elt F) → (⟨S128x8190, .f32⟩ : BufTy).Contents (Elt F) → (⟨S128x8190, .f32⟩ : BufTy).Contents (Elt F)),
    StableHlo.nullary main_cst_15 (constant S_ .f32 0x00000000#32),
    StableHlo.binary main_v52 main_cst_15 main_v53 ((fun x v => Host.reduceAdd x v reducesTo_S128x8190_S128_d1 h_S_) : (⟨S128x8190, .f32⟩ : BufTy).Contents (Elt F) → (⟨S_, .f32⟩ : BufTy).Contents (Elt F) → (⟨S128, .f32⟩ : BufTy).Contents (Elt F)),
    StableHlo.binary main_v45 main_v45 main_v54 (mulf : (⟨S128x8190, .f32⟩ : BufTy).Contents (Elt F) → (⟨S128x8190, .f32⟩ : BufTy).Contents (Elt F) → (⟨S128x8190, .f32⟩ : BufTy).Contents (Elt F)),
    StableHlo.nullary main_cst_16 (constant S_ .f32 0x00000000#32),
    StableHlo.binary main_v54 main_cst_16 main_v55 ((fun x v => Host.reduceAdd x v reducesTo_S128x8190_S128_d1 h_S_) : (⟨S128x8190, .f32⟩ : BufTy).Contents (Elt F) → (⟨S_, .f32⟩ : BufTy).Contents (Elt F) → (⟨S128, .f32⟩ : BufTy).Contents (Elt F)),
    StableHlo.unary main_v55 main_v56 (Host.sqrt : (⟨S128, .f32⟩ : BufTy).Contents (Elt F) → (⟨S128, .f32⟩ : BufTy).Contents (Elt F)),
    StableHlo.binary main_v51 main_v51 main_v57 (mulf : (⟨S128x8190, .f32⟩ : BufTy).Contents (Elt F) → (⟨S128x8190, .f32⟩ : BufTy).Contents (Elt F) → (⟨S128x8190, .f32⟩ : BufTy).Contents (Elt F)),
    StableHlo.nullary main_cst_17 (constant S_ .f32 0x00000000#32),
    StableHlo.binary main_v57 main_cst_17 main_v58 ((fun x v => Host.reduceAdd x v reducesTo_S128x8190_S128_d1 h_S_) : (⟨S128x8190, .f32⟩ : BufTy).Contents (Elt F) → (⟨S_, .f32⟩ : BufTy).Contents (Elt F) → (⟨S128, .f32⟩ : BufTy).Contents (Elt F)),
    StableHlo.unary main_v58 main_v59 (Host.sqrt : (⟨S128, .f32⟩ : BufTy).Contents (Elt F) → (⟨S128, .f32⟩ : BufTy).Contents (Elt F)),
    StableHlo.binary main_v56 main_v59 main_v60 (mulf : (⟨S128, .f32⟩ : BufTy).Contents (Elt F) → (⟨S128, .f32⟩ : BufTy).Contents (Elt F) → (⟨S128, .f32⟩ : BufTy).Contents (Elt F)),
    StableHlo.binary main_v53 main_v60 main_v61 (Host.divf : (⟨S128, .f32⟩ : BufTy).Contents (Elt F) → (⟨S128, .f32⟩ : BufTy).Contents (Elt F) → (⟨S128, .f32⟩ : BufTy).Contents (Elt F)),
    StableHlo.nullary main_cst_18 (constant S_ .f32 0xBF800000#32),
    StableHlo.nullary main_cst_19 (constant S_ .f32 0x3F800000#32),
    StableHlo.TRef.unary (.of main_cst_18 : StableHlo.TRef sig ⟨S_, .f32⟩) main_call2.v0 id,
    StableHlo.TRef.unary main_call2.v0 main_call2.v1 (broadcastInDim S128 ![] bcast_S_S128),
    StableHlo.TRef.binary main_call2.v1 (.of main_v61 : StableHlo.TRef sig ⟨S128, .f32⟩) main_call2.v2 maximumf,
    StableHlo.TRef.unary (.of main_cst_19 : StableHlo.TRef sig ⟨S_, .f32⟩) main_call2.v3 id,
    StableHlo.TRef.unary main_call2.v3 main_call2.v4 (broadcastInDim S128 ![] bcast_S_S128),
    StableHlo.TRef.binary main_call2.v4 main_call2.v2 main_call2.v5 minimumf ]

abbrev pc3_W : List (Ref sig .tc) := [main_v45, main_cst_13, main_v46, main_v47, main_cst_14, main_v48, main_v49, main_v50, main_v51, main_v52, main_cst_15, main_v53, main_v54, main_cst_16, main_v55, main_v56, main_v57, main_cst_17, main_v58, main_v59, main_v60, main_v61, main_cst_18, main_cst_19, (main_call2.v0).ref, (main_call2.v1).ref, (main_call2.v2).ref, (main_call2.v3).ref, (main_call2.v4).ref, (main_call2.v5).ref]
theorem pc3_sub : (pc3 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc3_writes : (pc3 : List (HloOp τ sig (Elt F))).Forall fun op => op.writes ⊆ (pc3_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc3_fresh : ∀ op ∈ (pc3 : List (HloOp τ sig (Elt F))), op.fresh = ∅ := by
  intro _ h; (repeat (cases h with | head => rfl | tail _ h => ?_)); exact nomatch h

end Cert.ReferenceIdeal.HandRun

end
-- ==== Proof.RefT1.lean ====
import proofs.«130460_j34522947125965_1_alg».proof.ReferenceIdeal
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations of statements in printed window 1, reading window 3: 39 of them. -/
abbrev pc4 : List (HloOp τ sig (Elt F)) :=
  [ StableHlo.unary main_v12 main_v63 ((extractStridedSlice S128x8189 ![0, 0] · slices_S128x8192_S128x8189_0_0) : (⟨S128x8192, .f32⟩ : BufTy).Contents (Elt F) → (⟨S128x8189, .f32⟩ : BufTy).Contents (Elt F)),
    StableHlo.unary main_v12 main_v64 ((extractStridedSlice S128x8189 ![0, 3] · slices_S128x8192_S128x8189_0_3) : (⟨S128x8192, .f32⟩ : BufTy).Contents (Elt F) → (⟨S128x8189, .f32⟩ : BufTy).Contents (Elt F)),
    StableHlo.nullary main_cst_20 (constant S_ .f32 0x00000000#32),
    StableHlo.binary main_v63 main_cst_20 main_v65 ((fun x v => Host.reduceAdd x v reducesTo_S128x8189_S128_d1 h_S_) : (⟨S128x8189, .f32⟩ : BufTy).Contents (Elt F) → (⟨S_, .f32⟩ : BufTy).Contents (Elt F) → (⟨S128, .f32⟩ : BufTy).Contents (Elt F)),
    StableHlo.unary main_v65 main_v66 (broadcastInDim S128x1 ![0] bcast_S128_S128x1_0 : (⟨S128, .f32⟩ : BufTy).Contents (Elt F) → (⟨S128x1, .f32⟩ : BufTy).Contents (Elt F)),
    StableHlo.nullary main_cst_21 (constant S_ .f32 0x45FFE800#32),
    StableHlo.unary main_cst_21 main_v67 (broadcastInDim S128x1 ![] bcast_S_S128x1 : (⟨S_, .f32⟩ : BufTy).Contents (Elt F) → (⟨S128x1, .f32⟩ : BufTy).Contents (Elt F)),
    StableHlo.binary main_v66 main_v67 main_v68 (Host.divf : (⟨S128x1, .f32⟩ : BufTy).Contents (Elt F) → (⟨S128x1, .f32⟩ : BufTy).Contents (Elt F) → (⟨S128x1, .f32⟩ : BufTy).Contents (Elt F)),
    StableHlo.unary main_v68 main_v69 (broadcastInDim S128x8189 ![0, 1] bcast_S128x1_S128x8189_0_1 : (⟨S128x1, .f32⟩ : BufTy).Contents (Elt F) → (⟨S128x8189, .f32⟩ : BufTy).Contents (Elt F)),
    StableHlo.binary main_v63 main_v69 main_v70 (subf : (⟨S128x8189, .f32⟩ : BufTy).Contents (Elt F) → (⟨S128x8189, .f32⟩ : BufTy).Contents (Elt F) → (⟨S128x8189, .f32⟩ : BufTy).Contents (Elt F)),
    StableHlo.nullary main_cst_22 (constant S_ .f32 0x00000000#32),
    StableHlo.binary main_v64 main_cst_22 main_v71 ((fun x v => Host.reduceAdd x v reducesTo_S128x8189_S128_d1 h_S_) : (⟨S128x8189, .f32⟩ : BufTy).Contents (Elt F) → (⟨S_, .f32⟩ : BufTy).Contents (Elt F) → (⟨S128, .f32⟩ : BufTy).Contents (Elt F)),
    StableHlo.unary main_v71 main_v72 (broadcastInDim S128x1 ![0] bcast_S128_S128x1_0 : (⟨S128, .f32⟩ : BufTy).Contents (Elt F) → (⟨S128x1, .f32⟩ : BufTy).Contents (Elt F)),
    StableHlo.nullary main_cst_23 (constant S_ .f32 0x45FFE800#32),
    StableHlo.unary main_cst_23 main_v73 (broadcastInDim S128x1 ![] bcast_S_S128x1 : (⟨S_, .f32⟩ : BufTy).Contents (Elt F) → (⟨S128x1, .f32⟩ : BufTy).Contents (Elt F)),
    StableHlo.binary main_v72 main_v73 main_v74 (Host.divf : (⟨S128x1, .f32⟩ : BufTy).Contents (Elt F) → (⟨S128x1, .f32⟩ : BufTy).Contents (Elt F) → (⟨S128x1, .f32⟩ : BufTy).Contents (Elt F)),
    StableHlo.unary main_v74 main_v75 (broadcastInDim S128x8189 ![0, 1] bcast_S128x1_S128x8189_0_1 : (⟨S128x1, .f32⟩ : BufTy).Contents (Elt F) → (⟨S128x8189, .f32⟩ : BufTy).Contents (Elt F)),
    StableHlo.binary main_v64 main_v75 main_v76 (subf : (⟨S128x8189, .f32⟩ : BufTy).Contents (Elt F) → (⟨S128x8189, .f32⟩ : BufTy).Contents (Elt F) → (⟨S128x8189, .f32⟩ : BufTy).Contents (Elt F)),
    StableHlo.binary main_v70 main_v76 main_v77 (mulf : (⟨S128x8189, .f32⟩ : BufTy).Contents (Elt F) → (⟨S128x8189, .f32⟩ : BufTy).Contents (Elt F) → (⟨S128x8189, .f32⟩ : BufTy).Contents (Elt F)),
    StableHlo.nullary main_cst_24 (constant S_ .f32 0x00000000#32),
    StableHlo.binary main_v77 main_cst_24 main_v78 ((fun x v => Host.reduceAdd x v reducesTo_S128x8189_S128_d1 h_S_) : (⟨S128x8189, .f32⟩ : BufTy).Contents (Elt F) → (⟨S_, .f32⟩ : BufTy).Contents (Elt F) → (⟨S128, .f32⟩ : BufTy).Contents (Elt F)),
    StableHlo.binary main_v70 main_v70 main_v79 (mulf : (⟨S128x8189, .f32⟩ : BufTy).Contents (Elt F) → (⟨S128x8189, .f32⟩ : BufTy).Contents (Elt F) → (⟨S128x8189, .f32⟩ : BufTy).Contents (Elt F)),
    StableHlo.nullary main_cst_25 (constant S_ .f32 0x00000000#32),
    StableHlo.binary main_v79 main_cst_25 main_v80 ((fun x v => Host.reduceAdd x v reducesTo_S128x8189_S128_d1 h_S_) : (⟨S128x8189, .f32⟩ : BufTy).Contents (Elt F) → (⟨S_, .f32⟩ : BufTy).Contents (Elt F) → (⟨S128, .f32⟩ : BufTy).Contents (Elt F)),
    StableHlo.unary main_v80 main_v81 (Host.sqrt : (⟨S128, .f32⟩ : BufTy).Contents (Elt F) → (⟨S128, .f32⟩ : BufTy).Contents (Elt F)),
    StableHlo.binary main_v76 main_v76 main_v82 (mulf : (⟨S128x8189, .f32⟩ : BufTy).Contents (Elt F) → (⟨S128x8189, .f32⟩ : BufTy).Contents (Elt F) → (⟨S128x8189, .f32⟩ : BufTy).Contents (Elt F)),
    StableHlo.nullary main_cst_26 (constant S_ .f32 0x00000000#32),
    StableHlo.binary main_v82 main_cst_26 main_v83 ((fun x v => Host.reduceAdd x v reducesTo_S128x8189_S128_d1 h_S_) : (⟨S128x8189, .f32⟩ : BufTy).Contents (Elt F) → (⟨S_, .f32⟩ : BufTy).Contents (Elt F) → (⟨S128, .f32⟩ : BufTy).Contents (Elt F)),
    StableHlo.unary main_v83 main_v84 (Host.sqrt : (⟨S128, .f32⟩ : BufTy).Contents (Elt F) → (⟨S128, .f32⟩ : BufTy).Contents (Elt F)),
    StableHlo.binary main_v81 main_v84 main_v85 (mulf : (⟨S128, .f32⟩ : BufTy).Contents (Elt F) → (⟨S128, .f32⟩ : BufTy).Contents (Elt F) → (⟨S128, .f32⟩ : BufTy).Contents (Elt F)),
    StableHlo.binary main_v78 main_v85 main_v86 (Host.divf : (⟨S128, .f32⟩ : BufTy).Contents (Elt F) → (⟨S128, .f32⟩ : BufTy).Contents (Elt F) → (⟨S128, .f32⟩ : BufTy).Contents (Elt F)),
    StableHlo.nullary main_cst_27 (constant S_ .f32 0xBF800000#32),
    StableHlo.nullary main_cst_28 (constant S_ .f32 0x3F800000#32),
    StableHlo.TRef.unary (.of main_cst_27 : StableHlo.TRef sig ⟨S_, .f32⟩) main_call3.v0 id,
    StableHlo.TRef.unary main_call3.v0 main_call3.v1 (broadcastInDim S128 ![] bcast_S_S128),
    StableHlo.TRef.binary main_call3.v1 (.of main_v86 : StableHlo.TRef sig ⟨S128, .f32⟩) main_call3.v2 maximumf,
    StableHlo.TRef.unary (.of main_cst_28 : StableHlo.TRef sig ⟨S_, .f32⟩) main_call3.v3 id,
    StableHlo.TRef.unary main_call3.v3 main_call3.v4 (broadcastInDim S128 ![] bcast_S_S128),
    StableHlo.TRef.binary main_call3.v4 main_call3.v2 main_call3.v5 minimumf ]

abbrev pc4_W : List (Ref sig .tc) := [main_v63, main_v64, main_cst_20, main_v65, main_v66, main_cst_21, main_v67, main_v68, main_v69, main_v70, main_cst_22, main_v71, main_v72, main_cst_23, main_v73, main_v74, main_v75, main_v76, main_v77, main_cst_24, main_v78, main_v79, main_cst_25, main_v80, main_v81, main_v82, main_cst_26, main_v83, main_v84, main_v85, main_v86, main_cst_27, main_cst_28, (main_call3.v0).ref, (main_call3.v1).ref, (main_call3.v2).ref, (main_call3.v3).ref, (main_call3.v4).ref, (main_call3.v5).ref]
theorem pc4_sub : (pc4 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc4_writes : (pc4 : List (HloOp τ sig (Elt F))).Forall fun op => op.writes ⊆ (pc4_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc4_fresh : ∀ op ∈ (pc4 : List (HloOp τ sig (Elt F))), op.fresh = ∅ := by
  intro _ h; (repeat (cases h with | head => rfl | tail _ h => ?_)); exact nomatch h

/-- Operations of statements in printed window 1, reading window 4: 1 of them. -/
abbrev pc5 : List (HloOp τ sig (Elt F)) :=
  [ StableHlo.unary main_v12 main_v88 ((extractStridedSlice S128x8188 ![0, 0] · slices_S128x8192_S128x8188_0_0) : (⟨S128x8192, .f32⟩ : BufTy).Contents (Elt F) → (⟨S128x8188, .f32⟩ : BufTy).Contents (Elt F)) ]

abbrev pc5_W : List (Ref sig .tc) := [main_v88]
theorem pc5_sub : (pc5 : List (HloOp τ sig (Elt F))).Forall fun op => op.bufs ⊆ tcRefs τ sig :=
  unary_bufs_sub ..
theorem pc5_writes : (pc5 : List (HloOp τ sig (Elt F))).Forall fun op => op.writes ⊆ (pc5_W.map (Proc.devRef (τ := τ) .tc)).toFinset := by
  simp only [List.Forall]; exact (by simp only [nullary_writes, unary_writes, binary_writes, ternary_writes, quaternary_writes, reshape_writes, nary_writes, Finset.singleton_subset_iff, List.mem_toFinset]; exact List.mem_map_of_mem (by decide))
theorem pc5_fresh : ∀ op ∈ (pc5 : List (HloOp τ sig (Elt F))), op.fresh = ∅ := by
  intro _ h; (repeat (cases h with | head => rfl | tail _ h => ?_)); exact nomatch h

/-- Operations of statements in printed window 2, reading window 4: 38 of them. -/
abbrev pc6 : List (HloOp τ sig (Elt F)) :=
  [ StableHlo.unary main_v12 main_v89 ((extractStridedSlice S128x8188 ![0, 4] · slices_S128x8192_S128x8188_0_4) : (⟨S128x8192, .f32⟩ : BufTy).Contents (Elt F) → (⟨S128x8188, .f32⟩ : BufTy).Contents (Elt F)),
    StableHlo.nullary main_cst_29 (constant S_ .f32 0x00000000#32),
    StableHlo.binary main_v88 main_cst_29 main_v90 ((fun x v => Host.reduceAdd x v reducesTo_S128x8188_S128_d1 h_S_) : (⟨S128x8188, .f32⟩ : BufTy).Contents (Elt F) → (⟨S_, .f32⟩ : BufTy).Contents (Elt F) → (⟨S128, .f32⟩ : BufTy).Contents (Elt F)),
    StableHlo.unary main_v90 main_v91 (broadcastInDim S128x1 ![0] bcast_S128_S128x1_0 : (⟨S128, .f32⟩ : BufTy).Contents (Elt F) → (⟨S128x1, .f32⟩ : BufTy).Contents (Elt F)),
    StableHlo.nullary main_cst_30 (constant S_ .f32 0x45FFE000#32),
    StableHlo.unary main_cst_30 main_v92 (broadcastInDim S128x1 ![] bcast_S_S128x1 : (⟨S_, .f32⟩ : BufTy).Contents (Elt F) → (⟨S128x1, .f32⟩ : BufTy).Contents (Elt F)),
    StableHlo.binary main_v91 main_v92 main_v93 (Host.divf : (⟨S128x1, .f32⟩ : BufTy).Contents (Elt F) → (⟨S128x1, .f32⟩ : BufTy).Contents (Elt F) → (⟨S128x1, .f32⟩ : BufTy).Contents (Elt F)),
    StableHlo.unary main_v93 main_v94 (broadcastInDim S128x8188 ![0, 1] bcast_S128x1_S128x8188_0_1 : (⟨S128x1, .f32⟩ : BufTy).Contents (Elt F) → (⟨S128x8188, .f32⟩ : BufTy).Contents (Elt F)),
    StableHlo.binary main_v88 main_v94 main_v95 (subf : (⟨S128x8188, .f32⟩ : BufTy).Contents (Elt F) → (⟨S128x8188, .f32⟩ : BufTy).Contents (Elt F) → (⟨S128x8188, .f32⟩ : BufTy).Contents (Elt F)),
    StableHlo.nullary main_cst_31 (constant S_ .f32 0x00000000#32),
    StableHlo.binary main_v89 main_cst_31 main_v96 ((fun x v => Host.reduceAdd x v reducesTo_S128x8188_S128_d1 h_S_) : (⟨S128x8188, .f32⟩ : BufTy).Contents (Elt F) → (⟨S_, .f32⟩ : BufTy).Contents (Elt F) → (⟨S128, .f32⟩ : BufTy).Contents (Elt F)),
    StableHlo.unary main_v96 main_v97 (broadcastInDim S128x1 ![0] bcast_S128_S128x1_0 : (⟨S128, .f32⟩ : BufTy).Contents (Elt F) → (⟨S128x1, .f32⟩ : BufTy).Contents (Elt F)),
    StableHlo.nullary main_cst_32 (constant S_ .f32 0x45FFE000#32),
    StableHlo.unary main_cst_32 main_v98 (broadcastInDim S128x1 ![] bcast_S_S128x1 : (⟨S_, .f32⟩ : BufTy).Contents (Elt F) → (⟨S128x1, .f32⟩ : BufTy).Contents (Elt F)),
    StableHlo.binary main_v97 main_v98 main_v99 (Host.divf : (⟨S128x1, .f32⟩ : BufTy).Contents (Elt F) → (⟨S128x1, .f32⟩ : BufTy).Contents (Elt F) → (⟨S128x1, .f32⟩ : BufTy).Contents (Elt F)),
    StableHlo.unary main_v99 main_v100 (broadcastInDim S128x8188 ![0, 1] bcast_S128x1_S128x8188_0_1 : (⟨S128x1, .f32⟩ : BufTy).Contents (Elt F) → (⟨S128x8188, .f32⟩ : BufTy).Contents (Elt F)),
    StableHlo.binary main_v89 main_v100 main_v101 (subf : (⟨S128x8188, .f32⟩ : BufTy).Contents (Elt F) → (⟨S128x8188, .f32⟩ : BufTy).Contents (Elt F) → (⟨S128x8188, .f32⟩ : BufTy).Contents (Elt F)),
    StableHlo.binary main_v95 main_v101 main_v102 (mulf : (⟨S128x8188, .f32⟩ : BufTy).Contents (Elt F) → (⟨S128x8188, .f32⟩ : BufTy).Contents (Elt F) → (⟨S128x8188, .f32⟩ : BufTy).Contents (Elt F)),
    StableHlo.nullary main_cst_33 (constant S_ .f32 0x00000000#32),
    StableHlo.binary main_v102 main_cst_33 main_v103 ((fun x v => Host.reduceAdd x v reducesTo_S128x8188_S128_d1 h_S_) : (⟨S128x8188, .f32⟩ : BufTy).Contents (Elt F) → (⟨S_, .f32⟩ : BufTy).Contents (Elt F) → (⟨S128, .f32⟩ : BufTy).Contents (Elt F)),
    StableHlo.binary main_v95 main_v95 main_v104 (mulf : (⟨S128x8188, .f32⟩ : BufTy).Contents (Elt F) → (⟨S128x8188, .f32⟩ : BufTy).Contents (Elt F) → (⟨S128x8188, .f32⟩ : BufTy).Contents (Elt F)),
    StableHlo.nullary main_cst_34 (constant S_ .f32 0x00000000#32),
    StableHlo.binary main_v104 main_cst_34 main_v105 ((fun x v => Host.reduceAdd x v reducesTo_S128x8188_S128_d1 h_S_) : (⟨S128x8188, .f32⟩ : BufTy).Contents (Elt F) → (⟨S_, .f32⟩ : BufTy).Contents (Elt F) → (⟨S128, .f32⟩ : BufTy).Contents (Elt F)),
    StableHlo.unary main_v105 main_v106 (Host.sqrt : (⟨S128, .f32⟩ : BufTy).Contents (Elt F) → (⟨S128, .f32⟩ : BufTy).Contents (Elt F)),
    StableHlo.binary main_v101 main_v101 main_v107 (mulf : (⟨S128x8188, .f32⟩ : BufTy).Contents (Elt F) → (⟨S128x8188, .f32⟩ : BufTy).Contents (Elt F) → (⟨S128x8188, .f32⟩ : BufTy).Contents (Elt F)),
    StableHlo.nullary main_cst_35 (constant S_ .f32 0x00000000#32),
    StableHlo.binary main_v107 main_cst_35 main_v108 ((fun x v => Host.reduceAdd x v reducesTo_S128x8188_S128_d1 h_S_) : (⟨S128x8188, .f32⟩ : BufTy).Contents (Elt F) → (⟨S_, .f32⟩ : BufTy).Contents (Elt F) → (⟨S128, .f32⟩ : BufTy).Contents (Elt F)),
    StableHlo.unary main_v108 main_v109 (Host.sqrt : (⟨S128, .f32⟩ : BufTy).Contents (Elt F) → (⟨S128, .f32⟩ : BufTy).Contents (Elt F)),
    StableHlo.binary main_v106 main_v109 main_v110 (mulf : (⟨S128, .f32⟩ : BufTy).Contents (Elt F) → (⟨S128, .f32⟩ : BufTy).Contents (Elt F) → (⟨S128, .f32⟩ : BufTy).Contents (Elt F)),
    StableHlo.binary main_v103 main_v110 main_v111 (Host.divf : (⟨S128, .f32⟩ : BufTy).Contents (Elt F) → (⟨S128, .f32⟩ : BufTy).Contents (Elt F) → (⟨S128, .f32⟩ : BufTy).Contents (Elt F)),
    StableHlo.nullary main_cst_36 (constant S_ .f32 0xBF800000#32),
    StableHlo.nullary main_cst_37 (constant S_ .f32 0x3F800000#32),
    StableHlo.TRef.unary (.of main_cst_36 : StableHlo.TRef sig ⟨S_, .f32⟩) main_call4.v0 id,
    StableHlo.TRef.unary main_call4.v0 main_call4.v1 (broadcastInDim S128 ![] bcast_S_S128),
    StableHlo.TRef.binary main_call4.v1 (.of main_v111 : StableHlo.TRef sig ⟨S128, .f32⟩) main_call4.v2 maximumf,
    StableHlo.TRef.unary (.of main_cst_37 : StableHlo.TRef sig ⟨S_, .f32⟩) main_call4.v3 id,
    StableHlo.TRef.unary main_call4.v3 main_call4.v4 (broadcastInDim S128 ![] bcast_S_S128),
    StableHlo.TRef.binary main_call4.v4 main_call4.v2 main_call4.v5 minimumf ]

abbrev pc6_W : List (Ref sig .tc) := [main_v89, main_cst_29, main_v90, main_v91, main_cst_30, main_v92, main_v93, main_v94, main_v95, main_cst_31, main_v96, main_v97, main_cst_32, main_v98, main_v99, main_v100, main_v101, main_v102, main_cst_33, main_v103, main_v104, main_cst_34, main_v105, main_v106, main_v107, main_cst_35, main_v108, main_v109, main_v110, main_v111, main_cst_36, main_cst_37, (main_call4.v0).ref, (main_call4.v1).ref, (main_call4.v2).ref, (main_call4.v3).ref, (main_call4.v4).ref, (main_call4.v5).ref]
theorem pc6_sub : (pc6 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc6_writes : (pc6 : List (HloOp τ sig (Elt F))).Forall fun op => op.writes ⊆ (pc6_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc6_fresh : ∀ op ∈ (pc6 : List (HloOp τ sig (Elt F))), op.fresh = ∅ := by
  intro _ h; (repeat (cases h with | head => rfl | tail _ h => ?_)); exact nomatch h

/-- Operations of statements in printed window 2, reading window 5: 27 of them. -/
abbrev pc7 : List (HloOp τ sig (Elt F)) :=
  [ StableHlo.unary main_v12 main_v113 ((extractStridedSlice S128x8187 ![0, 0] · slices_S128x8192_S128x8187_0_0) : (⟨S128x8192, .f32⟩ : BufTy).Contents (Elt F) → (⟨S128x8187, .f32⟩ : BufTy).Contents (Elt F)),
    StableHlo.unary main_v12 main_v114 ((extractStridedSlice S128x8187 ![0, 5] · slices_S128x8192_S128x8187_0_5) : (⟨S128x8192, .f32⟩ : BufTy).Contents (Elt F) → (⟨S128x8187, .f32⟩ : BufTy).Contents (Elt F)),
    StableHlo.nullary main_cst_38 (constant S_ .f32 0x00000000#32),
    StableHlo.binary main_v113 main_cst_38 main_v115 ((fun x v => Host.reduceAdd x v reducesTo_S128x8187_S128_d1 h_S_) : (⟨S128x8187, .f32⟩ : BufTy).Contents (Elt F) → (⟨S_, .f32⟩ : BufTy).Contents (Elt F) → (⟨S128, .f32⟩ : BufTy).Contents (Elt F)),
    StableHlo.unary main_v115 main_v116 (broadcastInDim S128x1 ![0] bcast_S128_S128x1_0 : (⟨S128, .f32⟩ : BufTy).Contents (Elt F) → (⟨S128x1, .f32⟩ : BufTy).Contents (Elt F)),
    StableHlo.nullary main_cst_39 (constant S_ .f32 0x45FFD800#32),
    StableHlo.unary main_cst_39 main_v117 (broadcastInDim S128x1 ![] bcast_S_S128x1 : (⟨S_, .f32⟩ : BufTy).Contents (Elt F) → (⟨S128x1, .f32⟩ : BufTy).Contents (Elt F)),
    StableHlo.binary main_v116 main_v117 main_v118 (Host.divf : (⟨S128x1, .f32⟩ : BufTy).Contents (Elt F) → (⟨S128x1, .f32⟩ : BufTy).Contents (Elt F) → (⟨S128x1, .f32⟩ : BufTy).Contents (Elt F)),
    StableHlo.unary main_v118 main_v119 (broadcastInDim S128x8187 ![0, 1] bcast_S128x1_S128x8187_0_1 : (⟨S128x1, .f32⟩ : BufTy).Contents (Elt F) → (⟨S128x8187, .f32⟩ : BufTy).Contents (Elt F)),
    StableHlo.binary main_v113 main_v119 main_v120 (subf : (⟨S128x8187, .f32⟩ : BufTy).Contents (Elt F) → (⟨S128x8187, .f32⟩ : BufTy).Contents (Elt F) → (⟨S128x8187, .f32⟩ : BufTy).Contents (Elt F)),
    StableHlo.nullary main_cst_40 (constant S_ .f32 0x00000000#32),
    StableHlo.binary main_v114 main_cst_40 main_v121 ((fun x v => Host.reduceAdd x v reducesTo_S128x8187_S128_d1 h_S_) : (⟨S128x8187, .f32⟩ : BufTy).Contents (Elt F) → (⟨S_, .f32⟩ : BufTy).Contents (Elt F) → (⟨S128, .f32⟩ : BufTy).Contents (Elt F)),
    StableHlo.unary main_v121 main_v122 (broadcastInDim S128x1 ![0] bcast_S128_S128x1_0 : (⟨S128, .f32⟩ : BufTy).Contents (Elt F) → (⟨S128x1, .f32⟩ : BufTy).Contents (Elt F)),
    StableHlo.nullary main_cst_41 (constant S_ .f32 0x45FFD800#32),
    StableHlo.unary main_cst_41 main_v123 (broadcastInDim S128x1 ![] bcast_S_S128x1 : (⟨S_, .f32⟩ : BufTy).Contents (Elt F) → (⟨S128x1, .f32⟩ : BufTy).Contents (Elt F)),
    StableHlo.binary main_v122 main_v123 main_v124 (Host.divf : (⟨S128x1, .f32⟩ : BufTy).Contents (Elt F) → (⟨S128x1, .f32⟩ : BufTy).Contents (Elt F) → (⟨S128x1, .f32⟩ : BufTy).Contents (Elt F)),
    StableHlo.unary main_v124 main_v125 (broadcastInDim S128x8187 ![0, 1] bcast_S128x1_S128x8187_0_1 : (⟨S128x1, .f32⟩ : BufTy).Contents (Elt F) → (⟨S128x8187, .f32⟩ : BufTy).Contents (Elt F)),
    StableHlo.binary main_v114 main_v125 main_v126 (subf : (⟨S128x8187, .f32⟩ : BufTy).Contents (Elt F) → (⟨S128x8187, .f32⟩ : BufTy).Contents (Elt F) → (⟨S128x8187, .f32⟩ : BufTy).Contents (Elt F)),
    StableHlo.binary main_v120 main_v126 main_v127 (mulf : (⟨S128x8187, .f32⟩ : BufTy).Contents (Elt F) → (⟨S128x8187, .f32⟩ : BufTy).Contents (Elt F) → (⟨S128x8187, .f32⟩ : BufTy).Contents (Elt F)),
    StableHlo.nullary main_cst_42 (constant S_ .f32 0x00000000#32),
    StableHlo.binary main_v127 main_cst_42 main_v128 ((fun x v => Host.reduceAdd x v reducesTo_S128x8187_S128_d1 h_S_) : (⟨S128x8187, .f32⟩ : BufTy).Contents (Elt F) → (⟨S_, .f32⟩ : BufTy).Contents (Elt F) → (⟨S128, .f32⟩ : BufTy).Contents (Elt F)),
    StableHlo.binary main_v120 main_v120 main_v129 (mulf : (⟨S128x8187, .f32⟩ : BufTy).Contents (Elt F) → (⟨S128x8187, .f32⟩ : BufTy).Contents (Elt F) → (⟨S128x8187, .f32⟩ : BufTy).Contents (Elt F)),
    StableHlo.nullary main_cst_43 (constant S_ .f32 0x00000000#32),
    StableHlo.binary main_v129 main_cst_43 main_v130 ((fun x v => Host.reduceAdd x v reducesTo_S128x8187_S128_d1 h_S_) : (⟨S128x8187, .f32⟩ : BufTy).Contents (Elt F) → (⟨S_, .f32⟩ : BufTy).Contents (Elt F) → (⟨S128, .f32⟩ : BufTy).Contents (Elt F)),
    StableHlo.unary main_v130 main_v131 (Host.sqrt : (⟨S128, .f32⟩ : BufTy).Contents (Elt F) → (⟨S128, .f32⟩ : BufTy).Contents (Elt F)),
    StableHlo.binary main_v126 main_v126 main_v132 (mulf : (⟨S128x8187, .f32⟩ : BufTy).Contents (Elt F) → (⟨S128x8187, .f32⟩ : BufTy).Contents (Elt F) → (⟨S128x8187, .f32⟩ : BufTy).Contents (Elt F)),
    StableHlo.nullary main_cst_44 (constant S_ .f32 0x00000000#32) ]

abbrev pc7_W : List (Ref sig .tc) := [main_v113, main_v114, main_cst_38, main_v115, main_v116, main_cst_39, main_v117, main_v118, main_v119, main_v120, main_cst_40, main_v121, main_v122, main_cst_41, main_v123, main_v124, main_v125, main_v126, main_v127, main_cst_42, main_v128, main_v129, main_cst_43, main_v130, main_v131, main_v132, main_cst_44]
theorem pc7_sub : (pc7 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub ..⟩
theorem pc7_writes : (pc7 : List (HloOp τ sig (Elt F))).Forall fun op => op.writes ⊆ (pc7_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc7_fresh : ∀ op ∈ (pc7 : List (HloOp τ sig (Elt F))), op.fresh = ∅ := by
  intro _ h; (repeat (cases h with | head => rfl | tail _ h => ?_)); exact nomatch h

end Cert.ReferenceIdeal.HandRun

end
-- ==== Proof.RefT2.lean ====
import proofs.«130460_j34522947125965_1_alg».proof.ReferenceIdeal
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations of statements in printed window 3, reading window 5: 12 of them. -/
abbrev pc8 : List (HloOp τ sig (Elt F)) :=
  [ StableHlo.binary main_v132 main_cst_44 main_v133 ((fun x v => Host.reduceAdd x v reducesTo_S128x8187_S128_d1 h_S_) : (⟨S128x8187, .f32⟩ : BufTy).Contents (Elt F) → (⟨S_, .f32⟩ : BufTy).Contents (Elt F) → (⟨S128, .f32⟩ : BufTy).Contents (Elt F)),
    StableHlo.unary main_v133 main_v134 (Host.sqrt : (⟨S128, .f32⟩ : BufTy).Contents (Elt F) → (⟨S128, .f32⟩ : BufTy).Contents (Elt F)),
    StableHlo.binary main_v131 main_v134 main_v135 (mulf : (⟨S128, .f32⟩ : BufTy).Contents (Elt F) → (⟨S128, .f32⟩ : BufTy).Contents (Elt F) → (⟨S128, .f32⟩ : BufTy).Contents (Elt F)),
    StableHlo.binary main_v128 main_v135 main_v136 (Host.divf : (⟨S128, .f32⟩ : BufTy).Contents (Elt F) → (⟨S128, .f32⟩ : BufTy).Contents (Elt F) → (⟨S128, .f32⟩ : BufTy).Contents (Elt F)),
    StableHlo.nullary main_cst_45 (constant S_ .f32 0xBF800000#32),
    StableHlo.nullary main_cst_46 (constant S_ .f32 0x3F800000#32),
    StableHlo.TRef.unary (.of main_cst_45 : StableHlo.TRef sig ⟨S_, .f32⟩) main_call5.v0 id,
    StableHlo.TRef.unary main_call5.v0 main_call5.v1 (broadcastInDim S128 ![] bcast_S_S128),
    StableHlo.TRef.binary main_call5.v1 (.of main_v136 : StableHlo.TRef sig ⟨S128, .f32⟩) main_call5.v2 maximumf,
    StableHlo.TRef.unary (.of main_cst_46 : StableHlo.TRef sig ⟨S_, .f32⟩) main_call5.v3 id,
    StableHlo.TRef.unary main_call5.v3 main_call5.v4 (broadcastInDim S128 ![] bcast_S_S128),
    StableHlo.TRef.binary main_call5.v4 main_call5.v2 main_call5.v5 minimumf ]

abbrev pc8_W : List (Ref sig .tc) := [main_v133, main_v134, main_v135, main_v136, main_cst_45, main_cst_46, (main_call5.v0).ref, (main_call5.v1).ref, (main_call5.v2).ref, (main_call5.v3).ref, (main_call5.v4).ref, (main_call5.v5).ref]
theorem pc8_sub : (pc8 : List (HloOp τ sig (Elt F))).Forall fun op => op.bufs ⊆ tcRefs τ sig :=
  ⟨binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc8_writes : (pc8 : List (HloOp τ sig (Elt F))).Forall fun op => op.writes ⊆ (pc8_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc8_fresh : ∀ op ∈ (pc8 : List (HloOp τ sig (Elt F))), op.fresh = ∅ := by
  intro _ h; (repeat (cases h with | head => rfl | tail _ h => ?_)); exact nomatch h

/-- Operations of statements in printed window 3, reading window 6: 39 of them. -/
abbrev pc9 : List (HloOp τ sig (Elt F)) :=
  [ StableHlo.unary main_v12 main_v138 ((extractStridedSlice S128x8186 ![0, 0] · slices_S128x8192_S128x8186_0_0) : (⟨S128x8192, .f32⟩ : BufTy).Contents (Elt F) → (⟨S128x8186, .f32⟩ : BufTy).Contents (Elt F)),
    StableHlo.unary main_v12 main_v139 ((extractStridedSlice S128x8186 ![0, 6] · slices_S128x8192_S128x8186_0_6) : (⟨S128x8192, .f32⟩ : BufTy).Contents (Elt F) → (⟨S128x8186, .f32⟩ : BufTy).Contents (Elt F)),
    StableHlo.nullary main_cst_47 (constant S_ .f32 0x00000000#32),
    StableHlo.binary main_v138 main_cst_47 main_v140 ((fun x v => Host.reduceAdd x v reducesTo_S128x8186_S128_d1 h_S_) : (⟨S128x8186, .f32⟩ : BufTy).Contents (Elt F) → (⟨S_, .f32⟩ : BufTy).Contents (Elt F) → (⟨S128, .f32⟩ : BufTy).Contents (Elt F)),
    StableHlo.unary main_v140 main_v141 (broadcastInDim S128x1 ![0] bcast_S128_S128x1_0 : (⟨S128, .f32⟩ : BufTy).Contents (Elt F) → (⟨S128x1, .f32⟩ : BufTy).Contents (Elt F)),
    StableHlo.nullary main_cst_48 (constant S_ .f32 0x45FFD000#32),
    StableHlo.unary main_cst_48 main_v142 (broadcastInDim S128x1 ![] bcast_S_S128x1 : (⟨S_, .f32⟩ : BufTy).Contents (Elt F) → (⟨S128x1, .f32⟩ : BufTy).Contents (Elt F)),
    StableHlo.binary main_v141 main_v142 main_v143 (Host.divf : (⟨S128x1, .f32⟩ : BufTy).Contents (Elt F) → (⟨S128x1, .f32⟩ : BufTy).Contents (Elt F) → (⟨S128x1, .f32⟩ : BufTy).Contents (Elt F)),
    StableHlo.unary main_v143 main_v144 (broadcastInDim S128x8186 ![0, 1] bcast_S128x1_S128x8186_0_1 : (⟨S128x1, .f32⟩ : BufTy).Contents (Elt F) → (⟨S128x8186, .f32⟩ : BufTy).Contents (Elt F)),
    StableHlo.binary main_v138 main_v144 main_v145 (subf : (⟨S128x8186, .f32⟩ : BufTy).Contents (Elt F) → (⟨S128x8186, .f32⟩ : BufTy).Contents (Elt F) → (⟨S128x8186, .f32⟩ : BufTy).Contents (Elt F)),
    StableHlo.nullary main_cst_49 (constant S_ .f32 0x00000000#32),
    StableHlo.binary main_v139 main_cst_49 main_v146 ((fun x v => Host.reduceAdd x v reducesTo_S128x8186_S128_d1 h_S_) : (⟨S128x8186, .f32⟩ : BufTy).Contents (Elt F) → (⟨S_, .f32⟩ : BufTy).Contents (Elt F) → (⟨S128, .f32⟩ : BufTy).Contents (Elt F)),
    StableHlo.unary main_v146 main_v147 (broadcastInDim S128x1 ![0] bcast_S128_S128x1_0 : (⟨S128, .f32⟩ : BufTy).Contents (Elt F) → (⟨S128x1, .f32⟩ : BufTy).Contents (Elt F)),
    StableHlo.nullary main_cst_50 (constant S_ .f32 0x45FFD000#32),
    StableHlo.unary main_cst_50 main_v148 (broadcastInDim S128x1 ![] bcast_S_S128x1 : (⟨S_, .f32⟩ : BufTy).Contents (Elt F) → (⟨S128x1, .f32⟩ : BufTy).Contents (Elt F)),
    StableHlo.binary main_v147 main_v148 main_v149 (Host.divf : (⟨S128x1, .f32⟩ : BufTy).Contents (Elt F) → (⟨S128x1, .f32⟩ : BufTy).Contents (Elt F) → (⟨S128x1, .f32⟩ : BufTy).Contents (Elt F)),
    StableHlo.unary main_v149 main_v150 (broadcastInDim S128x8186 ![0, 1] bcast_S128x1_S128x8186_0_1 : (⟨S128x1, .f32⟩ : BufTy).Contents (Elt F) → (⟨S128x8186, .f32⟩ : BufTy).Contents (Elt F)),
    StableHlo.binary main_v139 main_v150 main_v151 (subf : (⟨S128x8186, .f32⟩ : BufTy).Contents (Elt F) → (⟨S128x8186, .f32⟩ : BufTy).Contents (Elt F) → (⟨S128x8186, .f32⟩ : BufTy).Contents (Elt F)),
    StableHlo.binary main_v145 main_v151 main_v152 (mulf : (⟨S128x8186, .f32⟩ : BufTy).Contents (Elt F) → (⟨S128x8186, .f32⟩ : BufTy).Contents (Elt F) → (⟨S128x8186, .f32⟩ : BufTy).Contents (Elt F)),
    StableHlo.nullary main_cst_51 (constant S_ .f32 0x00000000#32),
    StableHlo.binary main_v152 main_cst_51 main_v153 ((fun x v => Host.reduceAdd x v reducesTo_S128x8186_S128_d1 h_S_) : (⟨S128x8186, .f32⟩ : BufTy).Contents (Elt F) → (⟨S_, .f32⟩ : BufTy).Contents (Elt F) → (⟨S128, .f32⟩ : BufTy).Contents (Elt F)),
    StableHlo.binary main_v145 main_v145 main_v154 (mulf : (⟨S128x8186, .f32⟩ : BufTy).Contents (Elt F) → (⟨S128x8186, .f32⟩ : BufTy).Contents (Elt F) → (⟨S128x8186, .f32⟩ : BufTy).Contents (Elt F)),
    StableHlo.nullary main_cst_52 (constant S_ .f32 0x00000000#32),
    StableHlo.binary main_v154 main_cst_52 main_v155 ((fun x v => Host.reduceAdd x v reducesTo_S128x8186_S128_d1 h_S_) : (⟨S128x8186, .f32⟩ : BufTy).Contents (Elt F) → (⟨S_, .f32⟩ : BufTy).Contents (Elt F) → (⟨S128, .f32⟩ : BufTy).Contents (Elt F)),
    StableHlo.unary main_v155 main_v156 (Host.sqrt : (⟨S128, .f32⟩ : BufTy).Contents (Elt F) → (⟨S128, .f32⟩ : BufTy).Contents (Elt F)),
    StableHlo.binary main_v151 main_v151 main_v157 (mulf : (⟨S128x8186, .f32⟩ : BufTy).Contents (Elt F) → (⟨S128x8186, .f32⟩ : BufTy).Contents (Elt F) → (⟨S128x8186, .f32⟩ : BufTy).Contents (Elt F)),
    StableHlo.nullary main_cst_53 (constant S_ .f32 0x00000000#32),
    StableHlo.binary main_v157 main_cst_53 main_v158 ((fun x v => Host.reduceAdd x v reducesTo_S128x8186_S128_d1 h_S_) : (⟨S128x8186, .f32⟩ : BufTy).Contents (Elt F) → (⟨S_, .f32⟩ : BufTy).Contents (Elt F) → (⟨S128, .f32⟩ : BufTy).Contents (Elt F)),
    StableHlo.unary main_v158 main_v159 (Host.sqrt : (⟨S128, .f32⟩ : BufTy).Contents (Elt F) → (⟨S128, .f32⟩ : BufTy).Contents (Elt F)),
    StableHlo.binary main_v156 main_v159 main_v160 (mulf : (⟨S128, .f32⟩ : BufTy).Contents (Elt F) → (⟨S128, .f32⟩ : BufTy).Contents (Elt F) → (⟨S128, .f32⟩ : BufTy).Contents (Elt F)),
    StableHlo.binary main_v153 main_v160 main_v161 (Host.divf : (⟨S128, .f32⟩ : BufTy).Contents (Elt F) → (⟨S128, .f32⟩ : BufTy).Contents (Elt F) → (⟨S128, .f32⟩ : BufTy).Contents (Elt F)),
    StableHlo.nullary main_cst_54 (constant S_ .f32 0xBF800000#32),
    StableHlo.nullary main_cst_55 (constant S_ .f32 0x3F800000#32),
    StableHlo.TRef.unary (.of main_cst_54 : StableHlo.TRef sig ⟨S_, .f32⟩) main_call6.v0 id,
    StableHlo.TRef.unary main_call6.v0 main_call6.v1 (broadcastInDim S128 ![] bcast_S_S128),
    StableHlo.TRef.binary main_call6.v1 (.of main_v161 : StableHlo.TRef sig ⟨S128, .f32⟩) main_call6.v2 maximumf,
    StableHlo.TRef.unary (.of main_cst_55 : StableHlo.TRef sig ⟨S_, .f32⟩) main_call6.v3 id,
    StableHlo.TRef.unary main_call6.v3 main_call6.v4 (broadcastInDim S128 ![] bcast_S_S128),
    StableHlo.TRef.binary main_call6.v4 main_call6.v2 main_call6.v5 minimumf ]

abbrev pc9_W : List (Ref sig .tc) := [main_v138, main_v139, main_cst_47, main_v140, main_v141, main_cst_48, main_v142, main_v143, main_v144, main_v145, main_cst_49, main_v146, main_v147, main_cst_50, main_v148, main_v149, main_v150, main_v151, main_v152, main_cst_51, main_v153, main_v154, main_cst_52, main_v155, main_v156, main_v157, main_cst_53, main_v158, main_v159, main_v160, main_v161, main_cst_54, main_cst_55, (main_call6.v0).ref, (main_call6.v1).ref, (main_call6.v2).ref, (main_call6.v3).ref, (main_call6.v4).ref, (main_call6.v5).ref]
theorem pc9_sub : (pc9 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc9_writes : (pc9 : List (HloOp τ sig (Elt F))).Forall fun op => op.writes ⊆ (pc9_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc9_fresh : ∀ op ∈ (pc9 : List (HloOp τ sig (Elt F))), op.fresh = ∅ := by
  intro _ h; (repeat (cases h with | head => rfl | tail _ h => ?_)); exact nomatch h

/-- Operations of statements in printed window 3, reading window 7: 19 of them. -/
abbrev pc10 : List (HloOp τ sig (Elt F)) :=
  [ StableHlo.unary main_v12 main_v163 ((extractStridedSlice S128x8185 ![0, 0] · slices_S128x8192_S128x8185_0_0) : (⟨S128x8192, .f32⟩ : BufTy).Contents (Elt F) → (⟨S128x8185, .f32⟩ : BufTy).Contents (Elt F)),
    StableHlo.unary main_v12 main_v164 ((extractStridedSlice S128x8185 ![0, 7] · slices_S128x8192_S128x8185_0_7) : (⟨S128x8192, .f32⟩ : BufTy).Contents (Elt F) → (⟨S128x8185, .f32⟩ : BufTy).Contents (Elt F)),
    StableHlo.nullary main_cst_56 (constant S_ .f32 0x00000000#32),
    StableHlo.binary main_v163 main_cst_56 main_v165 ((fun x v => Host.reduceAdd x v reducesTo_S128x8185_S128_d1 h_S_) : (⟨S128x8185, .f32⟩ : BufTy).Contents (Elt F) → (⟨S_, .f32⟩ : BufTy).Contents (Elt F) → (⟨S128, .f32⟩ : BufTy).Contents (Elt F)),
    StableHlo.unary main_v165 main_v166 (broadcastInDim S128x1 ![0] bcast_S128_S128x1_0 : (⟨S128, .f32⟩ : BufTy).Contents (Elt F) → (⟨S128x1, .f32⟩ : BufTy).Contents (Elt F)),
    StableHlo.nullary main_cst_57 (constant S_ .f32 0x45FFC800#32),
    StableHlo.unary main_cst_57 main_v167 (broadcastInDim S128x1 ![] bcast_S_S128x1 : (⟨S_, .f32⟩ : BufTy).Contents (Elt F) → (⟨S128x1, .f32⟩ : BufTy).Contents (Elt F)),
    StableHlo.binary main_v166 main_v167 main_v168 (Host.divf : (⟨S128x1, .f32⟩ : BufTy).Contents (Elt F) → (⟨S128x1, .f32⟩ : BufTy).Contents (Elt F) → (⟨S128x1, .f32⟩ : BufTy).Contents (Elt F)),
    StableHlo.unary main_v168 main_v169 (broadcastInDim S128x8185 ![0, 1] bcast_S128x1_S128x8185_0_1 : (⟨S128x1, .f32⟩ : BufTy).Contents (Elt F) → (⟨S128x8185, .f32⟩ : BufTy).Contents (Elt F)),
    StableHlo.binary main_v163 main_v169 main_v170 (subf : (⟨S128x8185, .f32⟩ : BufTy).Contents (Elt F) → (⟨S128x8185, .f32⟩ : BufTy).Contents (Elt F) → (⟨S128x8185, .f32⟩ : BufTy).Contents (Elt F)),
    StableHlo.nullary main_cst_58 (constant S_ .f32 0x00000000#32),
    StableHlo.binary main_v164 main_cst_58 main_v171 ((fun x v => Host.reduceAdd x v reducesTo_S128x8185_S128_d1 h_S_) : (⟨S128x8185, .f32⟩ : BufTy).Contents (Elt F) → (⟨S_, .f32⟩ : BufTy).Contents (Elt F) → (⟨S128, .f32⟩ : BufTy).Contents (Elt F)),
    StableHlo.unary main_v171 main_v172 (broadcastInDim S128x1 ![0] bcast_S128_S128x1_0 : (⟨S128, .f32⟩ : BufTy).Contents (Elt F) → (⟨S128x1, .f32⟩ : BufTy).Contents (Elt F)),
    StableHlo.nullary main_cst_59 (constant S_ .f32 0x45FFC800#32),
    StableHlo.unary main_cst_59 main_v173 (broadcastInDim S128x1 ![] bcast_S_S128x1 : (⟨S_, .f32⟩ : BufTy).Contents (Elt F) → (⟨S128x1, .f32⟩ : BufTy).Contents (Elt F)),
    StableHlo.binary main_v172 main_v173 main_v174 (Host.divf : (⟨S128x1, .f32⟩ : BufTy).Contents (Elt F) → (⟨S128x1, .f32⟩ : BufTy).Contents (Elt F) → (⟨S128x1, .f32⟩ : BufTy).Contents (Elt F)),
    StableHlo.unary main_v174 main_v175 (broadcastInDim S128x8185 ![0, 1] bcast_S128x1_S128x8185_0_1 : (⟨S128x1, .f32⟩ : BufTy).Contents (Elt F) → (⟨S128x8185, .f32⟩ : BufTy).Contents (Elt F)),
    StableHlo.binary main_v164 main_v175 main_v176 (subf : (⟨S128x8185, .f32⟩ : BufTy).Contents (Elt F) → (⟨S128x8185, .f32⟩ : BufTy).Contents (Elt F) → (⟨S128x8185, .f32⟩ : BufTy).Contents (Elt F)),
    StableHlo.binary main_v170 main_v176 main_v177 (mulf : (⟨S128x8185, .f32⟩ : BufTy).Contents (Elt F) → (⟨S128x8185, .f32⟩ : BufTy).Contents (Elt F) → (⟨S128x8185, .f32⟩ : BufTy).Contents (Elt F)) ]

abbrev pc10_W : List (Ref sig .tc) := [main_v163, main_v164, main_cst_56, main_v165, main_v166, main_cst_57, main_v167, main_v168, main_v169, main_v170, main_cst_58, main_v171, main_v172, main_cst_59, main_v173, main_v174, main_v175, main_v176, main_v177]
theorem pc10_sub : (pc10 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub ..⟩
theorem pc10_writes : (pc10 : List (HloOp τ sig (Elt F))).Forall fun op => op.writes ⊆ (pc10_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc10_fresh : ∀ op ∈ (pc10 : List (HloOp τ sig (Elt F))), op.fresh = ∅ := by
  intro _ h; (repeat (cases h with | head => rfl | tail _ h => ?_)); exact nomatch h

/-- Operations of statements in printed window 4, reading window 7: 20 of them. -/
abbrev pc11 : List (HloOp τ sig (Elt F)) :=
  [ StableHlo.nullary main_cst_60 (constant S_ .f32 0x00000000#32),
    StableHlo.binary main_v177 main_cst_60 main_v178 ((fun x v => Host.reduceAdd x v reducesTo_S128x8185_S128_d1 h_S_) : (⟨S128x8185, .f32⟩ : BufTy).Contents (Elt F) → (⟨S_, .f32⟩ : BufTy).Contents (Elt F) → (⟨S128, .f32⟩ : BufTy).Contents (Elt F)),
    StableHlo.binary main_v170 main_v170 main_v179 (mulf : (⟨S128x8185, .f32⟩ : BufTy).Contents (Elt F) → (⟨S128x8185, .f32⟩ : BufTy).Contents (Elt F) → (⟨S128x8185, .f32⟩ : BufTy).Contents (Elt F)),
    StableHlo.nullary main_cst_61 (constant S_ .f32 0x00000000#32),
    StableHlo.binary main_v179 main_cst_61 main_v180 ((fun x v => Host.reduceAdd x v reducesTo_S128x8185_S128_d1 h_S_) : (⟨S128x8185, .f32⟩ : BufTy).Contents (Elt F) → (⟨S_, .f32⟩ : BufTy).Contents (Elt F) → (⟨S128, .f32⟩ : BufTy).Contents (Elt F)),
    StableHlo.unary main_v180 main_v181 (Host.sqrt : (⟨S128, .f32⟩ : BufTy).Contents (Elt F) → (⟨S128, .f32⟩ : BufTy).Contents (Elt F)),
    StableHlo.binary main_v176 main_v176 main_v182 (mulf : (⟨S128x8185, .f32⟩ : BufTy).Contents (Elt F) → (⟨S128x8185, .f32⟩ : BufTy).Contents (Elt F) → (⟨S128x8185, .f32⟩ : BufTy).Contents (Elt F)),
    StableHlo.nullary main_cst_62 (constant S_ .f32 0x00000000#32),
    StableHlo.binary main_v182 main_cst_62 main_v183 ((fun x v => Host.reduceAdd x v reducesTo_S128x8185_S128_d1 h_S_) : (⟨S128x8185, .f32⟩ : BufTy).Contents (Elt F) → (⟨S_, .f32⟩ : BufTy).Contents (Elt F) → (⟨S128, .f32⟩ : BufTy).Contents (Elt F)),
    StableHlo.unary main_v183 main_v184 (Host.sqrt : (⟨S128, .f32⟩ : BufTy).Contents (Elt F) → (⟨S128, .f32⟩ : BufTy).Contents (Elt F)),
    StableHlo.binary main_v181 main_v184 main_v185 (mulf : (⟨S128, .f32⟩ : BufTy).Contents (Elt F) → (⟨S128, .f32⟩ : BufTy).Contents (Elt F) → (⟨S128, .f32⟩ : BufTy).Contents (Elt F)),
    StableHlo.binary main_v178 main_v185 main_v186 (Host.divf : (⟨S128, .f32⟩ : BufTy).Contents (Elt F) → (⟨S128, .f32⟩ : BufTy).Contents (Elt F) → (⟨S128, .f32⟩ : BufTy).Contents (Elt F)),
    StableHlo.nullary main_cst_63 (constant S_ .f32 0xBF800000#32),
    StableHlo.nullary main_cst_64 (constant S_ .f32 0x3F800000#32),
    StableHlo.TRef.unary (.of main_cst_63 : StableHlo.TRef sig ⟨S_, .f32⟩) main_call7.v0 id,
    StableHlo.TRef.unary main_call7.v0 main_call7.v1 (broadcastInDim S128 ![] bcast_S_S128),
    StableHlo.TRef.binary main_call7.v1 (.of main_v186 : StableHlo.TRef sig ⟨S128, .f32⟩) main_call7.v2 maximumf,
    StableHlo.TRef.unary (.of main_cst_64 : StableHlo.TRef sig ⟨S_, .f32⟩) main_call7.v3 id,
    StableHlo.TRef.unary main_call7.v3 main_call7.v4 (broadcastInDim S128 ![] bcast_S_S128),
    StableHlo.TRef.binary main_call7.v4 main_call7.v2 main_call7.v5 minimumf ]

abbrev pc11_W : List (Ref sig .tc) := [main_cst_60, main_v178, main_v179, main_cst_61, main_v180, main_v181, main_v182, main_cst_62, main_v183, main_v184, main_v185, main_v186, main_cst_63, main_cst_64, (main_call7.v0).ref, (main_call7.v1).ref, (main_call7.v2).ref, (main_call7.v3).ref, (main_call7.v4).ref, (main_call7.v5).ref]
theorem pc11_sub : (pc11 : List (HloOp τ sig (Elt F))).Forall fun op => op.bufs ⊆ tcRefs τ sig :=
  ⟨nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc11_writes : (pc11 : List (HloOp τ sig (Elt F))).Forall fun op => op.writes ⊆ (pc11_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc11_fresh : ∀ op ∈ (pc11 : List (HloOp τ sig (Elt F))), op.fresh = ∅ := by
  intro _ h; (repeat (cases h with | head => rfl | tail _ h => ?_)); exact nomatch h

end Cert.ReferenceIdeal.HandRun

end
-- ==== Proof.RefT3.lean ====
import proofs.«130460_j34522947125965_1_alg».proof.ReferenceIdeal
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations of statements in printed window 4, reading window 8: 39 of them. -/
abbrev pc12 : List (HloOp τ sig (Elt F)) :=
  [ StableHlo.unary main_v12 main_v188 ((extractStridedSlice S128x8184 ![0, 0] · slices_S128x8192_S128x8184_0_0) : (⟨S128x8192, .f32⟩ : BufTy).Contents (Elt F) → (⟨S128x8184, .f32⟩ : BufTy).Contents (Elt F)),
    StableHlo.unary main_v12 main_v189 ((extractStridedSlice S128x8184 ![0, 8] · slices_S128x8192_S128x8184_0_8) : (⟨S128x8192, .f32⟩ : BufTy).Contents (Elt F) → (⟨S128x8184, .f32⟩ : BufTy).Contents (Elt F)),
    StableHlo.nullary main_cst_65 (constant S_ .f32 0x00000000#32),
    StableHlo.binary main_v188 main_cst_65 main_v190 ((fun x v => Host.reduceAdd x v reducesTo_S128x8184_S128_d1 h_S_) : (⟨S128x8184, .f32⟩ : BufTy).Contents (Elt F) → (⟨S_, .f32⟩ : BufTy).Contents (Elt F) → (⟨S128, .f32⟩ : BufTy).Contents (Elt F)),
    StableHlo.unary main_v190 main_v191 (broadcastInDim S128x1 ![0] bcast_S128_S128x1_0 : (⟨S128, .f32⟩ : BufTy).Contents (Elt F) → (⟨S128x1, .f32⟩ : BufTy).Contents (Elt F)),
    StableHlo.nullary main_cst_66 (constant S_ .f32 0x45FFC000#32),
    StableHlo.unary main_cst_66 main_v192 (broadcastInDim S128x1 ![] bcast_S_S128x1 : (⟨S_, .f32⟩ : BufTy).Contents (Elt F) → (⟨S128x1, .f32⟩ : BufTy).Contents (Elt F)),
    StableHlo.binary main_v191 main_v192 main_v193 (Host.divf : (⟨S128x1, .f32⟩ : BufTy).Contents (Elt F) → (⟨S128x1, .f32⟩ : BufTy).Contents (Elt F) → (⟨S128x1, .f32⟩ : BufTy).Contents (Elt F)),
    StableHlo.unary main_v193 main_v194 (broadcastInDim S128x8184 ![0, 1] bcast_S128x1_S128x8184_0_1 : (⟨S128x1, .f32⟩ : BufTy).Contents (Elt F) → (⟨S128x8184, .f32⟩ : BufTy).Contents (Elt F)),
    StableHlo.binary main_v188 main_v194 main_v195 (subf : (⟨S128x8184, .f32⟩ : BufTy).Contents (Elt F) → (⟨S128x8184, .f32⟩ : BufTy).Contents (Elt F) → (⟨S128x8184, .f32⟩ : BufTy).Contents (Elt F)),
    StableHlo.nullary main_cst_67 (constant S_ .f32 0x00000000#32),
    StableHlo.binary main_v189 main_cst_67 main_v196 ((fun x v => Host.reduceAdd x v reducesTo_S128x8184_S128_d1 h_S_) : (⟨S128x8184, .f32⟩ : BufTy).Contents (Elt F) → (⟨S_, .f32⟩ : BufTy).Contents (Elt F) → (⟨S128, .f32⟩ : BufTy).Contents (Elt F)),
    StableHlo.unary main_v196 main_v197 (broadcastInDim S128x1 ![0] bcast_S128_S128x1_0 : (⟨S128, .f32⟩ : BufTy).Contents (Elt F) → (⟨S128x1, .f32⟩ : BufTy).Contents (Elt F)),
    StableHlo.nullary main_cst_68 (constant S_ .f32 0x45FFC000#32),
    StableHlo.unary main_cst_68 main_v198 (broadcastInDim S128x1 ![] bcast_S_S128x1 : (⟨S_, .f32⟩ : BufTy).Contents (Elt F) → (⟨S128x1, .f32⟩ : BufTy).Contents (Elt F)),
    StableHlo.binary main_v197 main_v198 main_v199 (Host.divf : (⟨S128x1, .f32⟩ : BufTy).Contents (Elt F) → (⟨S128x1, .f32⟩ : BufTy).Contents (Elt F) → (⟨S128x1, .f32⟩ : BufTy).Contents (Elt F)),
    StableHlo.unary main_v199 main_v200 (broadcastInDim S128x8184 ![0, 1] bcast_S128x1_S128x8184_0_1 : (⟨S128x1, .f32⟩ : BufTy).Contents (Elt F) → (⟨S128x8184, .f32⟩ : BufTy).Contents (Elt F)),
    StableHlo.binary main_v189 main_v200 main_v201 (subf : (⟨S128x8184, .f32⟩ : BufTy).Contents (Elt F) → (⟨S128x8184, .f32⟩ : BufTy).Contents (Elt F) → (⟨S128x8184, .f32⟩ : BufTy).Contents (Elt F)),
    StableHlo.binary main_v195 main_v201 main_v202 (mulf : (⟨S128x8184, .f32⟩ : BufTy).Contents (Elt F) → (⟨S128x8184, .f32⟩ : BufTy).Contents (Elt F) → (⟨S128x8184, .f32⟩ : BufTy).Contents (Elt F)),
    StableHlo.nullary main_cst_69 (constant S_ .f32 0x00000000#32),
    StableHlo.binary main_v202 main_cst_69 main_v203 ((fun x v => Host.reduceAdd x v reducesTo_S128x8184_S128_d1 h_S_) : (⟨S128x8184, .f32⟩ : BufTy).Contents (Elt F) → (⟨S_, .f32⟩ : BufTy).Contents (Elt F) → (⟨S128, .f32⟩ : BufTy).Contents (Elt F)),
    StableHlo.binary main_v195 main_v195 main_v204 (mulf : (⟨S128x8184, .f32⟩ : BufTy).Contents (Elt F) → (⟨S128x8184, .f32⟩ : BufTy).Contents (Elt F) → (⟨S128x8184, .f32⟩ : BufTy).Contents (Elt F)),
    StableHlo.nullary main_cst_70 (constant S_ .f32 0x00000000#32),
    StableHlo.binary main_v204 main_cst_70 main_v205 ((fun x v => Host.reduceAdd x v reducesTo_S128x8184_S128_d1 h_S_) : (⟨S128x8184, .f32⟩ : BufTy).Contents (Elt F) → (⟨S_, .f32⟩ : BufTy).Contents (Elt F) → (⟨S128, .f32⟩ : BufTy).Contents (Elt F)),
    StableHlo.unary main_v205 main_v206 (Host.sqrt : (⟨S128, .f32⟩ : BufTy).Contents (Elt F) → (⟨S128, .f32⟩ : BufTy).Contents (Elt F)),
    StableHlo.binary main_v201 main_v201 main_v207 (mulf : (⟨S128x8184, .f32⟩ : BufTy).Contents (Elt F) → (⟨S128x8184, .f32⟩ : BufTy).Contents (Elt F) → (⟨S128x8184, .f32⟩ : BufTy).Contents (Elt F)),
    StableHlo.nullary main_cst_71 (constant S_ .f32 0x00000000#32),
    StableHlo.binary main_v207 main_cst_71 main_v208 ((fun x v => Host.reduceAdd x v reducesTo_S128x8184_S128_d1 h_S_) : (⟨S128x8184, .f32⟩ : BufTy).Contents (Elt F) → (⟨S_, .f32⟩ : BufTy).Contents (Elt F) → (⟨S128, .f32⟩ : BufTy).Contents (Elt F)),
    StableHlo.unary main_v208 main_v209 (Host.sqrt : (⟨S128, .f32⟩ : BufTy).Contents (Elt F) → (⟨S128, .f32⟩ : BufTy).Contents (Elt F)),
    StableHlo.binary main_v206 main_v209 main_v210 (mulf : (⟨S128, .f32⟩ : BufTy).Contents (Elt F) → (⟨S128, .f32⟩ : BufTy).Contents (Elt F) → (⟨S128, .f32⟩ : BufTy).Contents (Elt F)),
    StableHlo.binary main_v203 main_v210 main_v211 (Host.divf : (⟨S128, .f32⟩ : BufTy).Contents (Elt F) → (⟨S128, .f32⟩ : BufTy).Contents (Elt F) → (⟨S128, .f32⟩ : BufTy).Contents (Elt F)),
    StableHlo.nullary main_cst_72 (constant S_ .f32 0xBF800000#32),
    StableHlo.nullary main_cst_73 (constant S_ .f32 0x3F800000#32),
    StableHlo.TRef.unary (.of main_cst_72 : StableHlo.TRef sig ⟨S_, .f32⟩) main_call8.v0 id,
    StableHlo.TRef.unary main_call8.v0 main_call8.v1 (broadcastInDim S128 ![] bcast_S_S128),
    StableHlo.TRef.binary main_call8.v1 (.of main_v211 : StableHlo.TRef sig ⟨S128, .f32⟩) main_call8.v2 maximumf,
    StableHlo.TRef.unary (.of main_cst_73 : StableHlo.TRef sig ⟨S_, .f32⟩) main_call8.v3 id,
    StableHlo.TRef.unary main_call8.v3 main_call8.v4 (broadcastInDim S128 ![] bcast_S_S128),
    StableHlo.TRef.binary main_call8.v4 main_call8.v2 main_call8.v5 minimumf ]

abbrev pc12_W : List (Ref sig .tc) := [main_v188, main_v189, main_cst_65, main_v190, main_v191, main_cst_66, main_v192, main_v193, main_v194, main_v195, main_cst_67, main_v196, main_v197, main_cst_68, main_v198, main_v199, main_v200, main_v201, main_v202, main_cst_69, main_v203, main_v204, main_cst_70, main_v205, main_v206, main_v207, main_cst_71, main_v208, main_v209, main_v210, main_v211, main_cst_72, main_cst_73, (main_call8.v0).ref, (main_call8.v1).ref, (main_call8.v2).ref, (main_call8.v3).ref, (main_call8.v4).ref, (main_call8.v5).ref]
theorem pc12_sub : (pc12 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc12_writes : (pc12 : List (HloOp τ sig (Elt F))).Forall fun op => op.writes ⊆ (pc12_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc12_fresh : ∀ op ∈ (pc12 : List (HloOp τ sig (Elt F))), op.fresh = ∅ := by
  intro _ h; (repeat (cases h with | head => rfl | tail _ h => ?_)); exact nomatch h

/-- Operations of statements in printed window 4, reading window 9: 11 of them. -/
abbrev pc13 : List (HloOp τ sig (Elt F)) :=
  [ StableHlo.unary main_v12 main_v213 ((extractStridedSlice S128x8183 ![0, 0] · slices_S128x8192_S128x8183_0_0) : (⟨S128x8192, .f32⟩ : BufTy).Contents (Elt F) → (⟨S128x8183, .f32⟩ : BufTy).Contents (Elt F)),
    StableHlo.unary main_v12 main_v214 ((extractStridedSlice S128x8183 ![0, 9] · slices_S128x8192_S128x8183_0_9) : (⟨S128x8192, .f32⟩ : BufTy).Contents (Elt F) → (⟨S128x8183, .f32⟩ : BufTy).Contents (Elt F)),
    StableHlo.nullary main_cst_74 (constant S_ .f32 0x00000000#32),
    StableHlo.binary main_v213 main_cst_74 main_v215 ((fun x v => Host.reduceAdd x v reducesTo_S128x8183_S128_d1 h_S_) : (⟨S128x8183, .f32⟩ : BufTy).Contents (Elt F) → (⟨S_, .f32⟩ : BufTy).Contents (Elt F) → (⟨S128, .f32⟩ : BufTy).Contents (Elt F)),
    StableHlo.unary main_v215 main_v216 (broadcastInDim S128x1 ![0] bcast_S128_S128x1_0 : (⟨S128, .f32⟩ : BufTy).Contents (Elt F) → (⟨S128x1, .f32⟩ : BufTy).Contents (Elt F)),
    StableHlo.nullary main_cst_75 (constant S_ .f32 0x45FFB800#32),
    StableHlo.unary main_cst_75 main_v217 (broadcastInDim S128x1 ![] bcast_S_S128x1 : (⟨S_, .f32⟩ : BufTy).Contents (Elt F) → (⟨S128x1, .f32⟩ : BufTy).Contents (Elt F)),
    StableHlo.binary main_v216 main_v217 main_v218 (Host.divf : (⟨S128x1, .f32⟩ : BufTy).Contents (Elt F) → (⟨S128x1, .f32⟩ : BufTy).Contents (Elt F) → (⟨S128x1, .f32⟩ : BufTy).Contents (Elt F)),
    StableHlo.unary main_v218 main_v219 (broadcastInDim S128x8183 ![0, 1] bcast_S128x1_S128x8183_0_1 : (⟨S128x1, .f32⟩ : BufTy).Contents (Elt F) → (⟨S128x8183, .f32⟩ : BufTy).Contents (Elt F)),
    StableHlo.binary main_v213 main_v219 main_v220 (subf : (⟨S128x8183, .f32⟩ : BufTy).Contents (Elt F) → (⟨S128x8183, .f32⟩ : BufTy).Contents (Elt F) → (⟨S128x8183, .f32⟩ : BufTy).Contents (Elt F)),
    StableHlo.nullary main_cst_76 (constant S_ .f32 0x00000000#32) ]

abbrev pc13_W : List (Ref sig .tc) := [main_v213, main_v214, main_cst_74, main_v215, main_v216, main_cst_75, main_v217, main_v218, main_v219, main_v220, main_cst_76]
theorem pc13_sub : (pc13 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub ..⟩
theorem pc13_writes : (pc13 : List (HloOp τ sig (Elt F))).Forall fun op => op.writes ⊆ (pc13_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc13_fresh : ∀ op ∈ (pc13 : List (HloOp τ sig (Elt F))), op.fresh = ∅ := by
  intro _ h; (repeat (cases h with | head => rfl | tail _ h => ?_)); exact nomatch h

/-- Operations of statements in printed window 5, reading window 9: 28 of them. -/
abbrev pc14 : List (HloOp τ sig (Elt F)) :=
  [ StableHlo.binary main_v214 main_cst_76 main_v221 ((fun x v => Host.reduceAdd x v reducesTo_S128x8183_S128_d1 h_S_) : (⟨S128x8183, .f32⟩ : BufTy).Contents (Elt F) → (⟨S_, .f32⟩ : BufTy).Contents (Elt F) → (⟨S128, .f32⟩ : BufTy).Contents (Elt F)),
    StableHlo.unary main_v221 main_v222 (broadcastInDim S128x1 ![0] bcast_S128_S128x1_0 : (⟨S128, .f32⟩ : BufTy).Contents (Elt F) → (⟨S128x1, .f32⟩ : BufTy).Contents (Elt F)),
    StableHlo.nullary main_cst_77 (constant S_ .f32 0x45FFB800#32),
    StableHlo.unary main_cst_77 main_v223 (broadcastInDim S128x1 ![] bcast_S_S128x1 : (⟨S_, .f32⟩ : BufTy).Contents (Elt F) → (⟨S128x1, .f32⟩ : BufTy).Contents (Elt F)),
    StableHlo.binary main_v222 main_v223 main_v224 (Host.divf : (⟨S128x1, .f32⟩ : BufTy).Contents (Elt F) → (⟨S128x1, .f32⟩ : BufTy).Contents (Elt F) → (⟨S128x1, .f32⟩ : BufTy).Contents (Elt F)),
    StableHlo.unary main_v224 main_v225 (broadcastInDim S128x8183 ![0, 1] bcast_S128x1_S128x8183_0_1 : (⟨S128x1, .f32⟩ : BufTy).Contents (Elt F) → (⟨S128x8183, .f32⟩ : BufTy).Contents (Elt F)),
    StableHlo.binary main_v214 main_v225 main_v226 (subf : (⟨S128x8183, .f32⟩ : BufTy).Contents (Elt F) → (⟨S128x8183, .f32⟩ : BufTy).Contents (Elt F) → (⟨S128x8183, .f32⟩ : BufTy).Contents (Elt F)),
    StableHlo.binary main_v220 main_v226 main_v227 (mulf : (⟨S128x8183, .f32⟩ : BufTy).Contents (Elt F) → (⟨S128x8183, .f32⟩ : BufTy).Contents (Elt F) → (⟨S128x8183, .f32⟩ : BufTy).Contents (Elt F)),
    StableHlo.nullary main_cst_78 (constant S_ .f32 0x00000000#32),
    StableHlo.binary main_v227 main_cst_78 main_v228 ((fun x v => Host.reduceAdd x v reducesTo_S128x8183_S128_d1 h_S_) : (⟨S128x8183, .f32⟩ : BufTy).Contents (Elt F) → (⟨S_, .f32⟩ : BufTy).Contents (Elt F) → (⟨S128, .f32⟩ : BufTy).Contents (Elt F)),
    StableHlo.binary main_v220 main_v220 main_v229 (mulf : (⟨S128x8183, .f32⟩ : BufTy).Contents (Elt F) → (⟨S128x8183, .f32⟩ : BufTy).Contents (Elt F) → (⟨S128x8183, .f32⟩ : BufTy).Contents (Elt F)),
    StableHlo.nullary main_cst_79 (constant S_ .f32 0x00000000#32),
    StableHlo.binary main_v229 main_cst_79 main_v230 ((fun x v => Host.reduceAdd x v reducesTo_S128x8183_S128_d1 h_S_) : (⟨S128x8183, .f32⟩ : BufTy).Contents (Elt F) → (⟨S_, .f32⟩ : BufTy).Contents (Elt F) → (⟨S128, .f32⟩ : BufTy).Contents (Elt F)),
    StableHlo.unary main_v230 main_v231 (Host.sqrt : (⟨S128, .f32⟩ : BufTy).Contents (Elt F) → (⟨S128, .f32⟩ : BufTy).Contents (Elt F)),
    StableHlo.binary main_v226 main_v226 main_v232 (mulf : (⟨S128x8183, .f32⟩ : BufTy).Contents (Elt F) → (⟨S128x8183, .f32⟩ : BufTy).Contents (Elt F) → (⟨S128x8183, .f32⟩ : BufTy).Contents (Elt F)),
    StableHlo.nullary main_cst_80 (constant S_ .f32 0x00000000#32),
    StableHlo.binary main_v232 main_cst_80 main_v233 ((fun x v => Host.reduceAdd x v reducesTo_S128x8183_S128_d1 h_S_) : (⟨S128x8183, .f32⟩ : BufTy).Contents (Elt F) → (⟨S_, .f32⟩ : BufTy).Contents (Elt F) → (⟨S128, .f32⟩ : BufTy).Contents (Elt F)),
    StableHlo.unary main_v233 main_v234 (Host.sqrt : (⟨S128, .f32⟩ : BufTy).Contents (Elt F) → (⟨S128, .f32⟩ : BufTy).Contents (Elt F)),
    StableHlo.binary main_v231 main_v234 main_v235 (mulf : (⟨S128, .f32⟩ : BufTy).Contents (Elt F) → (⟨S128, .f32⟩ : BufTy).Contents (Elt F) → (⟨S128, .f32⟩ : BufTy).Contents (Elt F)),
    StableHlo.binary main_v228 main_v235 main_v236 (Host.divf : (⟨S128, .f32⟩ : BufTy).Contents (Elt F) → (⟨S128, .f32⟩ : BufTy).Contents (Elt F) → (⟨S128, .f32⟩ : BufTy).Contents (Elt F)),
    StableHlo.nullary main_cst_81 (constant S_ .f32 0xBF800000#32),
    StableHlo.nullary main_cst_82 (constant S_ .f32 0x3F800000#32),
    StableHlo.TRef.unary (.of main_cst_81 : StableHlo.TRef sig ⟨S_, .f32⟩) main_call9.v0 id,
    StableHlo.TRef.unary main_call9.v0 main_call9.v1 (broadcastInDim S128 ![] bcast_S_S128),
    StableHlo.TRef.binary main_call9.v1 (.of main_v236 : StableHlo.TRef sig ⟨S128, .f32⟩) main_call9.v2 maximumf,
    StableHlo.TRef.unary (.of main_cst_82 : StableHlo.TRef sig ⟨S_, .f32⟩) main_call9.v3 id,
    StableHlo.TRef.unary main_call9.v3 main_call9.v4 (broadcastInDim S128 ![] bcast_S_S128),
    StableHlo.TRef.binary main_call9.v4 main_call9.v2 main_call9.v5 minimumf ]

abbrev pc14_W : List (Ref sig .tc) := [main_v221, main_v222, main_cst_77, main_v223, main_v224, main_v225, main_v226, main_v227, main_cst_78, main_v228, main_v229, main_cst_79, main_v230, main_v231, main_v232, main_cst_80, main_v233, main_v234, main_v235, main_v236, main_cst_81, main_cst_82, (main_call9.v0).ref, (main_call9.v1).ref, (main_call9.v2).ref, (main_call9.v3).ref, (main_call9.v4).ref, (main_call9.v5).ref]
theorem pc14_sub : (pc14 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc14_writes : (pc14 : List (HloOp τ sig (Elt F))).Forall fun op => op.writes ⊆ (pc14_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc14_fresh : ∀ op ∈ (pc14 : List (HloOp τ sig (Elt F))), op.fresh = ∅ := by
  intro _ h; (repeat (cases h with | head => rfl | tail _ h => ?_)); exact nomatch h

/-- Operations of statements in printed window 5, reading window 10: 39 of them. -/
abbrev pc15 : List (HloOp τ sig (Elt F)) :=
  [ StableHlo.unary main_v12 main_v238 ((extractStridedSlice S128x8182 ![0, 0] · slices_S128x8192_S128x8182_0_0) : (⟨S128x8192, .f32⟩ : BufTy).Contents (Elt F) → (⟨S128x8182, .f32⟩ : BufTy).Contents (Elt F)),
    StableHlo.unary main_v12 main_v239 ((extractStridedSlice S128x8182 ![0, 10] · slices_S128x8192_S128x8182_0_10) : (⟨S128x8192, .f32⟩ : BufTy).Contents (Elt F) → (⟨S128x8182, .f32⟩ : BufTy).Contents (Elt F)),
    StableHlo.nullary main_cst_83 (constant S_ .f32 0x00000000#32),
    StableHlo.binary main_v238 main_cst_83 main_v240 ((fun x v => Host.reduceAdd x v reducesTo_S128x8182_S128_d1 h_S_) : (⟨S128x8182, .f32⟩ : BufTy).Contents (Elt F) → (⟨S_, .f32⟩ : BufTy).Contents (Elt F) → (⟨S128, .f32⟩ : BufTy).Contents (Elt F)),
    StableHlo.unary main_v240 main_v241 (broadcastInDim S128x1 ![0] bcast_S128_S128x1_0 : (⟨S128, .f32⟩ : BufTy).Contents (Elt F) → (⟨S128x1, .f32⟩ : BufTy).Contents (Elt F)),
    StableHlo.nullary main_cst_84 (constant S_ .f32 0x45FFB000#32),
    StableHlo.unary main_cst_84 main_v242 (broadcastInDim S128x1 ![] bcast_S_S128x1 : (⟨S_, .f32⟩ : BufTy).Contents (Elt F) → (⟨S128x1, .f32⟩ : BufTy).Contents (Elt F)),
    StableHlo.binary main_v241 main_v242 main_v243 (Host.divf : (⟨S128x1, .f32⟩ : BufTy).Contents (Elt F) → (⟨S128x1, .f32⟩ : BufTy).Contents (Elt F) → (⟨S128x1, .f32⟩ : BufTy).Contents (Elt F)),
    StableHlo.unary main_v243 main_v244 (broadcastInDim S128x8182 ![0, 1] bcast_S128x1_S128x8182_0_1 : (⟨S128x1, .f32⟩ : BufTy).Contents (Elt F) → (⟨S128x8182, .f32⟩ : BufTy).Contents (Elt F)),
    StableHlo.binary main_v238 main_v244 main_v245 (subf : (⟨S128x8182, .f32⟩ : BufTy).Contents (Elt F) → (⟨S128x8182, .f32⟩ : BufTy).Contents (Elt F) → (⟨S128x8182, .f32⟩ : BufTy).Contents (Elt F)),
    StableHlo.nullary main_cst_85 (constant S_ .f32 0x00000000#32),
    StableHlo.binary main_v239 main_cst_85 main_v246 ((fun x v => Host.reduceAdd x v reducesTo_S128x8182_S128_d1 h_S_) : (⟨S128x8182, .f32⟩ : BufTy).Contents (Elt F) → (⟨S_, .f32⟩ : BufTy).Contents (Elt F) → (⟨S128, .f32⟩ : BufTy).Contents (Elt F)),
    StableHlo.unary main_v246 main_v247 (broadcastInDim S128x1 ![0] bcast_S128_S128x1_0 : (⟨S128, .f32⟩ : BufTy).Contents (Elt F) → (⟨S128x1, .f32⟩ : BufTy).Contents (Elt F)),
    StableHlo.nullary main_cst_86 (constant S_ .f32 0x45FFB000#32),
    StableHlo.unary main_cst_86 main_v248 (broadcastInDim S128x1 ![] bcast_S_S128x1 : (⟨S_, .f32⟩ : BufTy).Contents (Elt F) → (⟨S128x1, .f32⟩ : BufTy).Contents (Elt F)),
    StableHlo.binary main_v247 main_v248 main_v249 (Host.divf : (⟨S128x1, .f32⟩ : BufTy).Contents (Elt F) → (⟨S128x1, .f32⟩ : BufTy).Contents (Elt F) → (⟨S128x1, .f32⟩ : BufTy).Contents (Elt F)),
    StableHlo.unary main_v249 main_v250 (broadcastInDim S128x8182 ![0, 1] bcast_S128x1_S128x8182_0_1 : (⟨S128x1, .f32⟩ : BufTy).Contents (Elt F) → (⟨S128x8182, .f32⟩ : BufTy).Contents (Elt F)),
    StableHlo.binary main_v239 main_v250 main_v251 (subf : (⟨S128x8182, .f32⟩ : BufTy).Contents (Elt F) → (⟨S128x8182, .f32⟩ : BufTy).Contents (Elt F) → (⟨S128x8182, .f32⟩ : BufTy).Contents (Elt F)),
    StableHlo.binary main_v245 main_v251 main_v252 (mulf : (⟨S128x8182, .f32⟩ : BufTy).Contents (Elt F) → (⟨S128x8182, .f32⟩ : BufTy).Contents (Elt F) → (⟨S128x8182, .f32⟩ : BufTy).Contents (Elt F)),
    StableHlo.nullary main_cst_87 (constant S_ .f32 0x00000000#32),
    StableHlo.binary main_v252 main_cst_87 main_v253 ((fun x v => Host.reduceAdd x v reducesTo_S128x8182_S128_d1 h_S_) : (⟨S128x8182, .f32⟩ : BufTy).Contents (Elt F) → (⟨S_, .f32⟩ : BufTy).Contents (Elt F) → (⟨S128, .f32⟩ : BufTy).Contents (Elt F)),
    StableHlo.binary main_v245 main_v245 main_v254 (mulf : (⟨S128x8182, .f32⟩ : BufTy).Contents (Elt F) → (⟨S128x8182, .f32⟩ : BufTy).Contents (Elt F) → (⟨S128x8182, .f32⟩ : BufTy).Contents (Elt F)),
    StableHlo.nullary main_cst_88 (constant S_ .f32 0x00000000#32),
    StableHlo.binary main_v254 main_cst_88 main_v255 ((fun x v => Host.reduceAdd x v reducesTo_S128x8182_S128_d1 h_S_) : (⟨S128x8182, .f32⟩ : BufTy).Contents (Elt F) → (⟨S_, .f32⟩ : BufTy).Contents (Elt F) → (⟨S128, .f32⟩ : BufTy).Contents (Elt F)),
    StableHlo.unary main_v255 main_v256 (Host.sqrt : (⟨S128, .f32⟩ : BufTy).Contents (Elt F) → (⟨S128, .f32⟩ : BufTy).Contents (Elt F)),
    StableHlo.binary main_v251 main_v251 main_v257 (mulf : (⟨S128x8182, .f32⟩ : BufTy).Contents (Elt F) → (⟨S128x8182, .f32⟩ : BufTy).Contents (Elt F) → (⟨S128x8182, .f32⟩ : BufTy).Contents (Elt F)),
    StableHlo.nullary main_cst_89 (constant S_ .f32 0x00000000#32),
    StableHlo.binary main_v257 main_cst_89 main_v258 ((fun x v => Host.reduceAdd x v reducesTo_S128x8182_S128_d1 h_S_) : (⟨S128x8182, .f32⟩ : BufTy).Contents (Elt F) → (⟨S_, .f32⟩ : BufTy).Contents (Elt F) → (⟨S128, .f32⟩ : BufTy).Contents (Elt F)),
    StableHlo.unary main_v258 main_v259 (Host.sqrt : (⟨S128, .f32⟩ : BufTy).Contents (Elt F) → (⟨S128, .f32⟩ : BufTy).Contents (Elt F)),
    StableHlo.binary main_v256 main_v259 main_v260 (mulf : (⟨S128, .f32⟩ : BufTy).Contents (Elt F) → (⟨S128, .f32⟩ : BufTy).Contents (Elt F) → (⟨S128, .f32⟩ : BufTy).Contents (Elt F)),
    StableHlo.binary main_v253 main_v260 main_v261 (Host.divf : (⟨S128, .f32⟩ : BufTy).Contents (Elt F) → (⟨S128, .f32⟩ : BufTy).Contents (Elt F) → (⟨S128, .f32⟩ : BufTy).Contents (Elt F)),
    StableHlo.nullary main_cst_90 (constant S_ .f32 0xBF800000#32),
    StableHlo.nullary main_cst_91 (constant S_ .f32 0x3F800000#32),
    StableHlo.TRef.unary (.of main_cst_90 : StableHlo.TRef sig ⟨S_, .f32⟩) main_call10.v0 id,
    StableHlo.TRef.unary main_call10.v0 main_call10.v1 (broadcastInDim S128 ![] bcast_S_S128),
    StableHlo.TRef.binary main_call10.v1 (.of main_v261 : StableHlo.TRef sig ⟨S128, .f32⟩) main_call10.v2 maximumf,
    StableHlo.TRef.unary (.of main_cst_91 : StableHlo.TRef sig ⟨S_, .f32⟩) main_call10.v3 id,
    StableHlo.TRef.unary main_call10.v3 main_call10.v4 (broadcastInDim S128 ![] bcast_S_S128),
    StableHlo.TRef.binary main_call10.v4 main_call10.v2 main_call10.v5 minimumf ]

abbrev pc15_W : List (Ref sig .tc) := [main_v238, main_v239, main_cst_83, main_v240, main_v241, main_cst_84, main_v242, main_v243, main_v244, main_v245, main_cst_85, main_v246, main_v247, main_cst_86, main_v248, main_v249, main_v250, main_v251, main_v252, main_cst_87, main_v253, main_v254, main_cst_88, main_v255, main_v256, main_v257, main_cst_89, main_v258, main_v259, main_v260, main_v261, main_cst_90, main_cst_91, (main_call10.v0).ref, (main_call10.v1).ref, (main_call10.v2).ref, (main_call10.v3).ref, (main_call10.v4).ref, (main_call10.v5).ref]
theorem pc15_sub : (pc15 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc15_writes : (pc15 : List (HloOp τ sig (Elt F))).Forall fun op => op.writes ⊆ (pc15_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc15_fresh : ∀ op ∈ (pc15 : List (HloOp τ sig (Elt F))), op.fresh = ∅ := by
  intro _ h; (repeat (cases h with | head => rfl | tail _ h => ?_)); exact nomatch h

end Cert.ReferenceIdeal.HandRun

end
-- ==== Proof.RefT4.lean ====
import proofs.«130460_j34522947125965_1_alg».proof.ReferenceIdeal
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations of statements in printed window 5, reading window 11: 3 of them. -/
abbrev pc16 : List (HloOp τ sig (Elt F)) :=
  [ StableHlo.unary main_v12 main_v263 ((extractStridedSlice S128x8181 ![0, 0] · slices_S128x8192_S128x8181_0_0) : (⟨S128x8192, .f32⟩ : BufTy).Contents (Elt F) → (⟨S128x8181, .f32⟩ : BufTy).Contents (Elt F)),
    StableHlo.unary main_v12 main_v264 ((extractStridedSlice S128x8181 ![0, 11] · slices_S128x8192_S128x8181_0_11) : (⟨S128x8192, .f32⟩ : BufTy).Contents (Elt F) → (⟨S128x8181, .f32⟩ : BufTy).Contents (Elt F)),
    StableHlo.nullary main_cst_92 (constant S_ .f32 0x00000000#32) ]

abbrev pc16_W : List (Ref sig .tc) := [main_v263, main_v264, main_cst_92]
theorem pc16_sub : (pc16 : List (HloOp τ sig (Elt F))).Forall fun op => op.bufs ⊆ tcRefs τ sig :=
  ⟨unary_bufs_sub .., unary_bufs_sub .., nullary_bufs_sub ..⟩
theorem pc16_writes : (pc16 : List (HloOp τ sig (Elt F))).Forall fun op => op.writes ⊆ (pc16_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc16_fresh : ∀ op ∈ (pc16 : List (HloOp τ sig (Elt F))), op.fresh = ∅ := by
  intro _ h; (repeat (cases h with | head => rfl | tail _ h => ?_)); exact nomatch h

/-- Operations of statements in printed window 6, reading window 11: 36 of them. -/
abbrev pc17 : List (HloOp τ sig (Elt F)) :=
  [ StableHlo.binary main_v263 main_cst_92 main_v265 ((fun x v => Host.reduceAdd x v reducesTo_S128x8181_S128_d1 h_S_) : (⟨S128x8181, .f32⟩ : BufTy).Contents (Elt F) → (⟨S_, .f32⟩ : BufTy).Contents (Elt F) → (⟨S128, .f32⟩ : BufTy).Contents (Elt F)),
    StableHlo.unary main_v265 main_v266 (broadcastInDim S128x1 ![0] bcast_S128_S128x1_0 : (⟨S128, .f32⟩ : BufTy).Contents (Elt F) → (⟨S128x1, .f32⟩ : BufTy).Contents (Elt F)),
    StableHlo.nullary main_cst_93 (constant S_ .f32 0x45FFA800#32),
    StableHlo.unary main_cst_93 main_v267 (broadcastInDim S128x1 ![] bcast_S_S128x1 : (⟨S_, .f32⟩ : BufTy).Contents (Elt F) → (⟨S128x1, .f32⟩ : BufTy).Contents (Elt F)),
    StableHlo.binary main_v266 main_v267 main_v268 (Host.divf : (⟨S128x1, .f32⟩ : BufTy).Contents (Elt F) → (⟨S128x1, .f32⟩ : BufTy).Contents (Elt F) → (⟨S128x1, .f32⟩ : BufTy).Contents (Elt F)),
    StableHlo.unary main_v268 main_v269 (broadcastInDim S128x8181 ![0, 1] bcast_S128x1_S128x8181_0_1 : (⟨S128x1, .f32⟩ : BufTy).Contents (Elt F) → (⟨S128x8181, .f32⟩ : BufTy).Contents (Elt F)),
    StableHlo.binary main_v263 main_v269 main_v270 (subf : (⟨S128x8181, .f32⟩ : BufTy).Contents (Elt F) → (⟨S128x8181, .f32⟩ : BufTy).Contents (Elt F) → (⟨S128x8181, .f32⟩ : BufTy).Contents (Elt F)),
    StableHlo.nullary main_cst_94 (constant S_ .f32 0x00000000#32),
    StableHlo.binary main_v264 main_cst_94 main_v271 ((fun x v => Host.reduceAdd x v reducesTo_S128x8181_S128_d1 h_S_) : (⟨S128x8181, .f32⟩ : BufTy).Contents (Elt F) → (⟨S_, .f32⟩ : BufTy).Contents (Elt F) → (⟨S128, .f32⟩ : BufTy).Contents (Elt F)),
    StableHlo.unary main_v271 main_v272 (broadcastInDim S128x1 ![0] bcast_S128_S128x1_0 : (⟨S128, .f32⟩ : BufTy).Contents (Elt F) → (⟨S128x1, .f32⟩ : BufTy).Contents (Elt F)),
    StableHlo.nullary main_cst_95 (constant S_ .f32 0x45FFA800#32),
    StableHlo.unary main_cst_95 main_v273 (broadcastInDim S128x1 ![] bcast_S_S128x1 : (⟨S_, .f32⟩ : BufTy).Contents (Elt F) → (⟨S128x1, .f32⟩ : BufTy).Contents (Elt F)),
    StableHlo.binary main_v272 main_v273 main_v274 (Host.divf : (⟨S128x1, .f32⟩ : BufTy).Contents (Elt F) → (⟨S128x1, .f32⟩ : BufTy).Contents (Elt F) → (⟨S128x1, .f32⟩ : BufTy).Contents (Elt F)),
    StableHlo.unary main_v274 main_v275 (broadcastInDim S128x8181 ![0, 1] bcast_S128x1_S128x8181_0_1 : (⟨S128x1, .f32⟩ : BufTy).Contents (Elt F) → (⟨S128x8181, .f32⟩ : BufTy).Contents (Elt F)),
    StableHlo.binary main_v264 main_v275 main_v276 (subf : (⟨S128x8181, .f32⟩ : BufTy).Contents (Elt F) → (⟨S128x8181, .f32⟩ : BufTy).Contents (Elt F) → (⟨S128x8181, .f32⟩ : BufTy).Contents (Elt F)),
    StableHlo.binary main_v270 main_v276 main_v277 (mulf : (⟨S128x8181, .f32⟩ : BufTy).Contents (Elt F) → (⟨S128x8181, .f32⟩ : BufTy).Contents (Elt F) → (⟨S128x8181, .f32⟩ : BufTy).Contents (Elt F)),
    StableHlo.nullary main_cst_96 (constant S_ .f32 0x00000000#32),
    StableHlo.binary main_v277 main_cst_96 main_v278 ((fun x v => Host.reduceAdd x v reducesTo_S128x8181_S128_d1 h_S_) : (⟨S128x8181, .f32⟩ : BufTy).Contents (Elt F) → (⟨S_, .f32⟩ : BufTy).Contents (Elt F) → (⟨S128, .f32⟩ : BufTy).Contents (Elt F)),
    StableHlo.binary main_v270 main_v270 main_v279 (mulf : (⟨S128x8181, .f32⟩ : BufTy).Contents (Elt F) → (⟨S128x8181, .f32⟩ : BufTy).Contents (Elt F) → (⟨S128x8181, .f32⟩ : BufTy).Contents (Elt F)),
    StableHlo.nullary main_cst_97 (constant S_ .f32 0x00000000#32),
    StableHlo.binary main_v279 main_cst_97 main_v280 ((fun x v => Host.reduceAdd x v reducesTo_S128x8181_S128_d1 h_S_) : (⟨S128x8181, .f32⟩ : BufTy).Contents (Elt F) → (⟨S_, .f32⟩ : BufTy).Contents (Elt F) → (⟨S128, .f32⟩ : BufTy).Contents (Elt F)),
    StableHlo.unary main_v280 main_v281 (Host.sqrt : (⟨S128, .f32⟩ : BufTy).Contents (Elt F) → (⟨S128, .f32⟩ : BufTy).Contents (Elt F)),
    StableHlo.binary main_v276 main_v276 main_v282 (mulf : (⟨S128x8181, .f32⟩ : BufTy).Contents (Elt F) → (⟨S128x8181, .f32⟩ : BufTy).Contents (Elt F) → (⟨S128x8181, .f32⟩ : BufTy).Contents (Elt F)),
    StableHlo.nullary main_cst_98 (constant S_ .f32 0x00000000#32),
    StableHlo.binary main_v282 main_cst_98 main_v283 ((fun x v => Host.reduceAdd x v reducesTo_S128x8181_S128_d1 h_S_) : (⟨S128x8181, .f32⟩ : BufTy).Contents (Elt F) → (⟨S_, .f32⟩ : BufTy).Contents (Elt F) → (⟨S128, .f32⟩ : BufTy).Contents (Elt F)),
    StableHlo.unary main_v283 main_v284 (Host.sqrt : (⟨S128, .f32⟩ : BufTy).Contents (Elt F) → (⟨S128, .f32⟩ : BufTy).Contents (Elt F)),
    StableHlo.binary main_v281 main_v284 main_v285 (mulf : (⟨S128, .f32⟩ : BufTy).Contents (Elt F) → (⟨S128, .f32⟩ : BufTy).Contents (Elt F) → (⟨S128, .f32⟩ : BufTy).Contents (Elt F)),
    StableHlo.binary main_v278 main_v285 main_v286 (Host.divf : (⟨S128, .f32⟩ : BufTy).Contents (Elt F) → (⟨S128, .f32⟩ : BufTy).Contents (Elt F) → (⟨S128, .f32⟩ : BufTy).Contents (Elt F)),
    StableHlo.nullary main_cst_99 (constant S_ .f32 0xBF800000#32),
    StableHlo.nullary main_cst_100 (constant S_ .f32 0x3F800000#32),
    StableHlo.TRef.unary (.of main_cst_99 : StableHlo.TRef sig ⟨S_, .f32⟩) main_call11.v0 id,
    StableHlo.TRef.unary main_call11.v0 main_call11.v1 (broadcastInDim S128 ![] bcast_S_S128),
    StableHlo.TRef.binary main_call11.v1 (.of main_v286 : StableHlo.TRef sig ⟨S128, .f32⟩) main_call11.v2 maximumf,
    StableHlo.TRef.unary (.of main_cst_100 : StableHlo.TRef sig ⟨S_, .f32⟩) main_call11.v3 id,
    StableHlo.TRef.unary main_call11.v3 main_call11.v4 (broadcastInDim S128 ![] bcast_S_S128),
    StableHlo.TRef.binary main_call11.v4 main_call11.v2 main_call11.v5 minimumf ]

abbrev pc17_W : List (Ref sig .tc) := [main_v265, main_v266, main_cst_93, main_v267, main_v268, main_v269, main_v270, main_cst_94, main_v271, main_v272, main_cst_95, main_v273, main_v274, main_v275, main_v276, main_v277, main_cst_96, main_v278, main_v279, main_cst_97, main_v280, main_v281, main_v282, main_cst_98, main_v283, main_v284, main_v285, main_v286, main_cst_99, main_cst_100, (main_call11.v0).ref, (main_call11.v1).ref, (main_call11.v2).ref, (main_call11.v3).ref, (main_call11.v4).ref, (main_call11.v5).ref]
theorem pc17_sub : (pc17 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc17_writes : (pc17 : List (HloOp τ sig (Elt F))).Forall fun op => op.writes ⊆ (pc17_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc17_fresh : ∀ op ∈ (pc17 : List (HloOp τ sig (Elt F))), op.fresh = ∅ := by
  intro _ h; (repeat (cases h with | head => rfl | tail _ h => ?_)); exact nomatch h

/-- Operations of statements in printed window 6, reading window 12: 29 of them. -/
abbrev pc18 : List (HloOp τ sig (Elt F)) :=
  [ StableHlo.unary main_v12 main_v288 ((extractStridedSlice S128x8180 ![0, 0] · slices_S128x8192_S128x8180_0_0) : (⟨S128x8192, .f32⟩ : BufTy).Contents (Elt F) → (⟨S128x8180, .f32⟩ : BufTy).Contents (Elt F)),
    StableHlo.unary main_v12 main_v289 ((extractStridedSlice S128x8180 ![0, 12] · slices_S128x8192_S128x8180_0_12) : (⟨S128x8192, .f32⟩ : BufTy).Contents (Elt F) → (⟨S128x8180, .f32⟩ : BufTy).Contents (Elt F)),
    StableHlo.nullary main_cst_101 (constant S_ .f32 0x00000000#32),
    StableHlo.binary main_v288 main_cst_101 main_v290 ((fun x v => Host.reduceAdd x v reducesTo_S128x8180_S128_d1 h_S_) : (⟨S128x8180, .f32⟩ : BufTy).Contents (Elt F) → (⟨S_, .f32⟩ : BufTy).Contents (Elt F) → (⟨S128, .f32⟩ : BufTy).Contents (Elt F)),
    StableHlo.unary main_v290 main_v291 (broadcastInDim S128x1 ![0] bcast_S128_S128x1_0 : (⟨S128, .f32⟩ : BufTy).Contents (Elt F) → (⟨S128x1, .f32⟩ : BufTy).Contents (Elt F)),
    StableHlo.nullary main_cst_102 (constant S_ .f32 0x45FFA000#32),
    StableHlo.unary main_cst_102 main_v292 (broadcastInDim S128x1 ![] bcast_S_S128x1 : (⟨S_, .f32⟩ : BufTy).Contents (Elt F) → (⟨S128x1, .f32⟩ : BufTy).Contents (Elt F)),
    StableHlo.binary main_v291 main_v292 main_v293 (Host.divf : (⟨S128x1, .f32⟩ : BufTy).Contents (Elt F) → (⟨S128x1, .f32⟩ : BufTy).Contents (Elt F) → (⟨S128x1, .f32⟩ : BufTy).Contents (Elt F)),
    StableHlo.unary main_v293 main_v294 (broadcastInDim S128x8180 ![0, 1] bcast_S128x1_S128x8180_0_1 : (⟨S128x1, .f32⟩ : BufTy).Contents (Elt F) → (⟨S128x8180, .f32⟩ : BufTy).Contents (Elt F)),
    StableHlo.binary main_v288 main_v294 main_v295 (subf : (⟨S128x8180, .f32⟩ : BufTy).Contents (Elt F) → (⟨S128x8180, .f32⟩ : BufTy).Contents (Elt F) → (⟨S128x8180, .f32⟩ : BufTy).Contents (Elt F)),
    StableHlo.nullary main_cst_103 (constant S_ .f32 0x00000000#32),
    StableHlo.binary main_v289 main_cst_103 main_v296 ((fun x v => Host.reduceAdd x v reducesTo_S128x8180_S128_d1 h_S_) : (⟨S128x8180, .f32⟩ : BufTy).Contents (Elt F) → (⟨S_, .f32⟩ : BufTy).Contents (Elt F) → (⟨S128, .f32⟩ : BufTy).Contents (Elt F)),
    StableHlo.unary main_v296 main_v297 (broadcastInDim S128x1 ![0] bcast_S128_S128x1_0 : (⟨S128, .f32⟩ : BufTy).Contents (Elt F) → (⟨S128x1, .f32⟩ : BufTy).Contents (Elt F)),
    StableHlo.nullary main_cst_104 (constant S_ .f32 0x45FFA000#32),
    StableHlo.unary main_cst_104 main_v298 (broadcastInDim S128x1 ![] bcast_S_S128x1 : (⟨S_, .f32⟩ : BufTy).Contents (Elt F) → (⟨S128x1, .f32⟩ : BufTy).Contents (Elt F)),
    StableHlo.binary main_v297 main_v298 main_v299 (Host.divf : (⟨S128x1, .f32⟩ : BufTy).Contents (Elt F) → (⟨S128x1, .f32⟩ : BufTy).Contents (Elt F) → (⟨S128x1, .f32⟩ : BufTy).Contents (Elt F)),
    StableHlo.unary main_v299 main_v300 (broadcastInDim S128x8180 ![0, 1] bcast_S128x1_S128x8180_0_1 : (⟨S128x1, .f32⟩ : BufTy).Contents (Elt F) → (⟨S128x8180, .f32⟩ : BufTy).Contents (Elt F)),
    StableHlo.binary main_v289 main_v300 main_v301 (subf : (⟨S128x8180, .f32⟩ : BufTy).Contents (Elt F) → (⟨S128x8180, .f32⟩ : BufTy).Contents (Elt F) → (⟨S128x8180, .f32⟩ : BufTy).Contents (Elt F)),
    StableHlo.binary main_v295 main_v301 main_v302 (mulf : (⟨S128x8180, .f32⟩ : BufTy).Contents (Elt F) → (⟨S128x8180, .f32⟩ : BufTy).Contents (Elt F) → (⟨S128x8180, .f32⟩ : BufTy).Contents (Elt F)),
    StableHlo.nullary main_cst_105 (constant S_ .f32 0x00000000#32),
    StableHlo.binary main_v302 main_cst_105 main_v303 ((fun x v => Host.reduceAdd x v reducesTo_S128x8180_S128_d1 h_S_) : (⟨S128x8180, .f32⟩ : BufTy).Contents (Elt F) → (⟨S_, .f32⟩ : BufTy).Contents (Elt F) → (⟨S128, .f32⟩ : BufTy).Contents (Elt F)),
    StableHlo.binary main_v295 main_v295 main_v304 (mulf : (⟨S128x8180, .f32⟩ : BufTy).Contents (Elt F) → (⟨S128x8180, .f32⟩ : BufTy).Contents (Elt F) → (⟨S128x8180, .f32⟩ : BufTy).Contents (Elt F)),
    StableHlo.nullary main_cst_106 (constant S_ .f32 0x00000000#32),
    StableHlo.binary main_v304 main_cst_106 main_v305 ((fun x v => Host.reduceAdd x v reducesTo_S128x8180_S128_d1 h_S_) : (⟨S128x8180, .f32⟩ : BufTy).Contents (Elt F) → (⟨S_, .f32⟩ : BufTy).Contents (Elt F) → (⟨S128, .f32⟩ : BufTy).Contents (Elt F)),
    StableHlo.unary main_v305 main_v306 (Host.sqrt : (⟨S128, .f32⟩ : BufTy).Contents (Elt F) → (⟨S128, .f32⟩ : BufTy).Contents (Elt F)),
    StableHlo.binary main_v301 main_v301 main_v307 (mulf : (⟨S128x8180, .f32⟩ : BufTy).Contents (Elt F) → (⟨S128x8180, .f32⟩ : BufTy).Contents (Elt F) → (⟨S128x8180, .f32⟩ : BufTy).Contents (Elt F)),
    StableHlo.nullary main_cst_107 (constant S_ .f32 0x00000000#32),
    StableHlo.binary main_v307 main_cst_107 main_v308 ((fun x v => Host.reduceAdd x v reducesTo_S128x8180_S128_d1 h_S_) : (⟨S128x8180, .f32⟩ : BufTy).Contents (Elt F) → (⟨S_, .f32⟩ : BufTy).Contents (Elt F) → (⟨S128, .f32⟩ : BufTy).Contents (Elt F)),
    StableHlo.unary main_v308 main_v309 (Host.sqrt : (⟨S128, .f32⟩ : BufTy).Contents (Elt F) → (⟨S128, .f32⟩ : BufTy).Contents (Elt F)) ]

abbrev pc18_W : List (Ref sig .tc) := [main_v288, main_v289, main_cst_101, main_v290, main_v291, main_cst_102, main_v292, main_v293, main_v294, main_v295, main_cst_103, main_v296, main_v297, main_cst_104, main_v298, main_v299, main_v300, main_v301, main_v302, main_cst_105, main_v303, main_v304, main_cst_106, main_v305, main_v306, main_v307, main_cst_107, main_v308, main_v309]
theorem pc18_sub : (pc18 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub ..⟩
theorem pc18_writes : (pc18 : List (HloOp τ sig (Elt F))).Forall fun op => op.writes ⊆ (pc18_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc18_fresh : ∀ op ∈ (pc18 : List (HloOp τ sig (Elt F))), op.fresh = ∅ := by
  intro _ h; (repeat (cases h with | head => rfl | tail _ h => ?_)); exact nomatch h

/-- Operations of statements in printed window 7, reading window 12: 10 of them. -/
abbrev pc19 : List (HloOp τ sig (Elt F)) :=
  [ StableHlo.binary main_v306 main_v309 main_v310 (mulf : (⟨S128, .f32⟩ : BufTy).Contents (Elt F) → (⟨S128, .f32⟩ : BufTy).Contents (Elt F) → (⟨S128, .f32⟩ : BufTy).Contents (Elt F)),
    StableHlo.binary main_v303 main_v310 main_v311 (Host.divf : (⟨S128, .f32⟩ : BufTy).Contents (Elt F) → (⟨S128, .f32⟩ : BufTy).Contents (Elt F) → (⟨S128, .f32⟩ : BufTy).Contents (Elt F)),
    StableHlo.nullary main_cst_108 (constant S_ .f32 0xBF800000#32),
    StableHlo.nullary main_cst_109 (constant S_ .f32 0x3F800000#32),
    StableHlo.TRef.unary (.of main_cst_108 : StableHlo.TRef sig ⟨S_, .f32⟩) main_call12.v0 id,
    StableHlo.TRef.unary main_call12.v0 main_call12.v1 (broadcastInDim S128 ![] bcast_S_S128),
    StableHlo.TRef.binary main_call12.v1 (.of main_v311 : StableHlo.TRef sig ⟨S128, .f32⟩) main_call12.v2 maximumf,
    StableHlo.TRef.unary (.of main_cst_109 : StableHlo.TRef sig ⟨S_, .f32⟩) main_call12.v3 id,
    StableHlo.TRef.unary main_call12.v3 main_call12.v4 (broadcastInDim S128 ![] bcast_S_S128),
    StableHlo.TRef.binary main_call12.v4 main_call12.v2 main_call12.v5 minimumf ]

abbrev pc19_W : List (Ref sig .tc) := [main_v310, main_v311, main_cst_108, main_cst_109, (main_call12.v0).ref, (main_call12.v1).ref, (main_call12.v2).ref, (main_call12.v3).ref, (main_call12.v4).ref, (main_call12.v5).ref]
theorem pc19_sub : (pc19 : List (HloOp τ sig (Elt F))).Forall fun op => op.bufs ⊆ tcRefs τ sig :=
  ⟨binary_bufs_sub .., binary_bufs_sub .., nullary_bufs_sub .., nullary_bufs_sub .., unary_bufs_sub .., unary_bufs_sub .., binary_bufs_sub .., unary_bufs_sub .., unary_bufs_sub .., binary_bufs_sub ..⟩
theorem pc19_writes : (pc19 : List (HloOp τ sig (Elt F))).Forall fun op => op.writes ⊆ (pc19_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc19_fresh : ∀ op ∈ (pc19 : List (HloOp τ sig (Elt F))), op.fresh = ∅ := by
  intro _ h; (repeat (cases h with | head => rfl | tail _ h => ?_)); exact nomatch h

end Cert.ReferenceIdeal.HandRun

end
-- ==== Proof.RefT5.lean ====
import proofs.«130460_j34522947125965_1_alg».proof.ReferenceIdeal
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations of statements in printed window 7, reading window 13: 39 of them. -/
abbrev pc20 : List (HloOp τ sig (Elt F)) :=
  [ StableHlo.unary main_v12 main_v313 ((extractStridedSlice S128x8179 ![0, 0] · slices_S128x8192_S128x8179_0_0) : (⟨S128x8192, .f32⟩ : BufTy).Contents (Elt F) → (⟨S128x8179, .f32⟩ : BufTy).Contents (Elt F)),
    StableHlo.unary main_v12 main_v314 ((extractStridedSlice S128x8179 ![0, 13] · slices_S128x8192_S128x8179_0_13) : (⟨S128x8192, .f32⟩ : BufTy).Contents (Elt F) → (⟨S128x8179, .f32⟩ : BufTy).Contents (Elt F)),
    StableHlo.nullary main_cst_110 (constant S_ .f32 0x00000000#32),
    StableHlo.binary main_v313 main_cst_110 main_v315 ((fun x v => Host.reduceAdd x v reducesTo_S128x8179_S128_d1 h_S_) : (⟨S128x8179, .f32⟩ : BufTy).Contents (Elt F) → (⟨S_, .f32⟩ : BufTy).Contents (Elt F) → (⟨S128, .f32⟩ : BufTy).Contents (Elt F)),
    StableHlo.unary main_v315 main_v316 (broadcastInDim S128x1 ![0] bcast_S128_S128x1_0 : (⟨S128, .f32⟩ : BufTy).Contents (Elt F) → (⟨S128x1, .f32⟩ : BufTy).Contents (Elt F)),
    StableHlo.nullary main_cst_111 (constant S_ .f32 0x45FF9800#32),
    StableHlo.unary main_cst_111 main_v317 (broadcastInDim S128x1 ![] bcast_S_S128x1 : (⟨S_, .f32⟩ : BufTy).Contents (Elt F) → (⟨S128x1, .f32⟩ : BufTy).Contents (Elt F)),
    StableHlo.binary main_v316 main_v317 main_v318 (Host.divf : (⟨S128x1, .f32⟩ : BufTy).Contents (Elt F) → (⟨S128x1, .f32⟩ : BufTy).Contents (Elt F) → (⟨S128x1, .f32⟩ : BufTy).Contents (Elt F)),
    StableHlo.unary main_v318 main_v319 (broadcastInDim S128x8179 ![0, 1] bcast_S128x1_S128x8179_0_1 : (⟨S128x1, .f32⟩ : BufTy).Contents (Elt F) → (⟨S128x8179, .f32⟩ : BufTy).Contents (Elt F)),
    StableHlo.binary main_v313 main_v319 main_v320 (subf : (⟨S128x8179, .f32⟩ : BufTy).Contents (Elt F) → (⟨S128x8179, .f32⟩ : BufTy).Contents (Elt F) → (⟨S128x8179, .f32⟩ : BufTy).Contents (Elt F)),
    StableHlo.nullary main_cst_112 (constant S_ .f32 0x00000000#32),
    StableHlo.binary main_v314 main_cst_112 main_v321 ((fun x v => Host.reduceAdd x v reducesTo_S128x8179_S128_d1 h_S_) : (⟨S128x8179, .f32⟩ : BufTy).Contents (Elt F) → (⟨S_, .f32⟩ : BufTy).Contents (Elt F) → (⟨S128, .f32⟩ : BufTy).Contents (Elt F)),
    StableHlo.unary main_v321 main_v322 (broadcastInDim S128x1 ![0] bcast_S128_S128x1_0 : (⟨S128, .f32⟩ : BufTy).Contents (Elt F) → (⟨S128x1, .f32⟩ : BufTy).Contents (Elt F)),
    StableHlo.nullary main_cst_113 (constant S_ .f32 0x45FF9800#32),
    StableHlo.unary main_cst_113 main_v323 (broadcastInDim S128x1 ![] bcast_S_S128x1 : (⟨S_, .f32⟩ : BufTy).Contents (Elt F) → (⟨S128x1, .f32⟩ : BufTy).Contents (Elt F)),
    StableHlo.binary main_v322 main_v323 main_v324 (Host.divf : (⟨S128x1, .f32⟩ : BufTy).Contents (Elt F) → (⟨S128x1, .f32⟩ : BufTy).Contents (Elt F) → (⟨S128x1, .f32⟩ : BufTy).Contents (Elt F)),
    StableHlo.unary main_v324 main_v325 (broadcastInDim S128x8179 ![0, 1] bcast_S128x1_S128x8179_0_1 : (⟨S128x1, .f32⟩ : BufTy).Contents (Elt F) → (⟨S128x8179, .f32⟩ : BufTy).Contents (Elt F)),
    StableHlo.binary main_v314 main_v325 main_v326 (subf : (⟨S128x8179, .f32⟩ : BufTy).Contents (Elt F) → (⟨S128x8179, .f32⟩ : BufTy).Contents (Elt F) → (⟨S128x8179, .f32⟩ : BufTy).Contents (Elt F)),
    StableHlo.binary main_v320 main_v326 main_v327 (mulf : (⟨S128x8179, .f32⟩ : BufTy).Contents (Elt F) → (⟨S128x8179, .f32⟩ : BufTy).Contents (Elt F) → (⟨S128x8179, .f32⟩ : BufTy).Contents (Elt F)),
    StableHlo.nullary main_cst_114 (constant S_ .f32 0x00000000#32),
    StableHlo.binary main_v327 main_cst_114 main_v328 ((fun x v => Host.reduceAdd x v reducesTo_S128x8179_S128_d1 h_S_) : (⟨S128x8179, .f32⟩ : BufTy).Contents (Elt F) → (⟨S_, .f32⟩ : BufTy).Contents (Elt F) → (⟨S128, .f32⟩ : BufTy).Contents (Elt F)),
    StableHlo.binary main_v320 main_v320 main_v329 (mulf : (⟨S128x8179, .f32⟩ : BufTy).Contents (Elt F) → (⟨S128x8179, .f32⟩ : BufTy).Contents (Elt F) → (⟨S128x8179, .f32⟩ : BufTy).Contents (Elt F)),
    StableHlo.nullary main_cst_115 (constant S_ .f32 0x00000000#32),
    StableHlo.binary main_v329 main_cst_115 main_v330 ((fun x v => Host.reduceAdd x v reducesTo_S128x8179_S128_d1 h_S_) : (⟨S128x8179, .f32⟩ : BufTy).Contents (Elt F) → (⟨S_, .f32⟩ : BufTy).Contents (Elt F) → (⟨S128, .f32⟩ : BufTy).Contents (Elt F)),
    StableHlo.unary main_v330 main_v331 (Host.sqrt : (⟨S128, .f32⟩ : BufTy).Contents (Elt F) → (⟨S128, .f32⟩ : BufTy).Contents (Elt F)),
    StableHlo.binary main_v326 main_v326 main_v332 (mulf : (⟨S128x8179, .f32⟩ : BufTy).Contents (Elt F) → (⟨S128x8179, .f32⟩ : BufTy).Contents (Elt F) → (⟨S128x8179, .f32⟩ : BufTy).Contents (Elt F)),
    StableHlo.nullary main_cst_116 (constant S_ .f32 0x00000000#32),
    StableHlo.binary main_v332 main_cst_116 main_v333 ((fun x v => Host.reduceAdd x v reducesTo_S128x8179_S128_d1 h_S_) : (⟨S128x8179, .f32⟩ : BufTy).Contents (Elt F) → (⟨S_, .f32⟩ : BufTy).Contents (Elt F) → (⟨S128, .f32⟩ : BufTy).Contents (Elt F)),
    StableHlo.unary main_v333 main_v334 (Host.sqrt : (⟨S128, .f32⟩ : BufTy).Contents (Elt F) → (⟨S128, .f32⟩ : BufTy).Contents (Elt F)),
    StableHlo.binary main_v331 main_v334 main_v335 (mulf : (⟨S128, .f32⟩ : BufTy).Contents (Elt F) → (⟨S128, .f32⟩ : BufTy).Contents (Elt F) → (⟨S128, .f32⟩ : BufTy).Contents (Elt F)),
    StableHlo.binary main_v328 main_v335 main_v336 (Host.divf : (⟨S128, .f32⟩ : BufTy).Contents (Elt F) → (⟨S128, .f32⟩ : BufTy).Contents (Elt F) → (⟨S128, .f32⟩ : BufTy).Contents (Elt F)),
    StableHlo.nullary main_cst_117 (constant S_ .f32 0xBF800000#32),
    StableHlo.nullary main_cst_118 (constant S_ .f32 0x3F800000#32),
    StableHlo.TRef.unary (.of main_cst_117 : StableHlo.TRef sig ⟨S_, .f32⟩) main_call13.v0 id,
    StableHlo.TRef.unary main_call13.v0 main_call13.v1 (broadcastInDim S128 ![] bcast_S_S128),
    StableHlo.TRef.binary main_call13.v1 (.of main_v336 : StableHlo.TRef sig ⟨S128, .f32⟩) main_call13.v2 maximumf,
    StableHlo.TRef.unary (.of main_cst_118 : StableHlo.TRef sig ⟨S_, .f32⟩) main_call13.v3 id,
    StableHlo.TRef.unary main_call13.v3 main_call13.v4 (broadcastInDim S128 ![] bcast_S_S128),
    StableHlo.TRef.binary main_call13.v4 main_call13.v2 main_call13.v5 minimumf ]

abbrev pc20_W : List (Ref sig .tc) := [main_v313, main_v314, main_cst_110, main_v315, main_v316, main_cst_111, main_v317, main_v318, main_v319, main_v320, main_cst_112, main_v321, main_v322, main_cst_113, main_v323, main_v324, main_v325, main_v326, main_v327, main_cst_114, main_v328, main_v329, main_cst_115, main_v330, main_v331, main_v332, main_cst_116, main_v333, main_v334, main_v335, main_v336, main_cst_117, main_cst_118, (main_call13.v0).ref, (main_call13.v1).ref, (main_call13.v2).ref, (main_call13.v3).ref, (main_call13.v4).ref, (main_call13.v5).ref]
theorem pc20_sub : (pc20 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc20_writes : (pc20 : List (HloOp τ sig (Elt F))).Forall fun op => op.writes ⊆ (pc20_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc20_fresh : ∀ op ∈ (pc20 : List (HloOp τ sig (Elt F))), op.fresh = ∅ := by
  intro _ h; (repeat (cases h with | head => rfl | tail _ h => ?_)); exact nomatch h

/-- Operations of statements in printed window 7, reading window 14: 21 of them. -/
abbrev pc21 : List (HloOp τ sig (Elt F)) :=
  [ StableHlo.unary main_v12 main_v338 ((extractStridedSlice S128x8178 ![0, 0] · slices_S128x8192_S128x8178_0_0) : (⟨S128x8192, .f32⟩ : BufTy).Contents (Elt F) → (⟨S128x8178, .f32⟩ : BufTy).Contents (Elt F)),
    StableHlo.unary main_v12 main_v339 ((extractStridedSlice S128x8178 ![0, 14] · slices_S128x8192_S128x8178_0_14) : (⟨S128x8192, .f32⟩ : BufTy).Contents (Elt F) → (⟨S128x8178, .f32⟩ : BufTy).Contents (Elt F)),
    StableHlo.nullary main_cst_119 (constant S_ .f32 0x00000000#32),
    StableHlo.binary main_v338 main_cst_119 main_v340 ((fun x v => Host.reduceAdd x v reducesTo_S128x8178_S128_d1 h_S_) : (⟨S128x8178, .f32⟩ : BufTy).Contents (Elt F) → (⟨S_, .f32⟩ : BufTy).Contents (Elt F) → (⟨S128, .f32⟩ : BufTy).Contents (Elt F)),
    StableHlo.unary main_v340 main_v341 (broadcastInDim S128x1 ![0] bcast_S128_S128x1_0 : (⟨S128, .f32⟩ : BufTy).Contents (Elt F) → (⟨S128x1, .f32⟩ : BufTy).Contents (Elt F)),
    StableHlo.nullary main_cst_120 (constant S_ .f32 0x45FF9000#32),
    StableHlo.unary main_cst_120 main_v342 (broadcastInDim S128x1 ![] bcast_S_S128x1 : (⟨S_, .f32⟩ : BufTy).Contents (Elt F) → (⟨S128x1, .f32⟩ : BufTy).Contents (Elt F)),
    StableHlo.binary main_v341 main_v342 main_v343 (Host.divf : (⟨S128x1, .f32⟩ : BufTy).Contents (Elt F) → (⟨S128x1, .f32⟩ : BufTy).Contents (Elt F) → (⟨S128x1, .f32⟩ : BufTy).Contents (Elt F)),
    StableHlo.unary main_v343 main_v344 (broadcastInDim S128x8178 ![0, 1] bcast_S128x1_S128x8178_0_1 : (⟨S128x1, .f32⟩ : BufTy).Contents (Elt F) → (⟨S128x8178, .f32⟩ : BufTy).Contents (Elt F)),
    StableHlo.binary main_v338 main_v344 main_v345 (subf : (⟨S128x8178, .f32⟩ : BufTy).Contents (Elt F) → (⟨S128x8178, .f32⟩ : BufTy).Contents (Elt F) → (⟨S128x8178, .f32⟩ : BufTy).Contents (Elt F)),
    StableHlo.nullary main_cst_121 (constant S_ .f32 0x00000000#32),
    StableHlo.binary main_v339 main_cst_121 main_v346 ((fun x v => Host.reduceAdd x v reducesTo_S128x8178_S128_d1 h_S_) : (⟨S128x8178, .f32⟩ : BufTy).Contents (Elt F) → (⟨S_, .f32⟩ : BufTy).Contents (Elt F) → (⟨S128, .f32⟩ : BufTy).Contents (Elt F)),
    StableHlo.unary main_v346 main_v347 (broadcastInDim S128x1 ![0] bcast_S128_S128x1_0 : (⟨S128, .f32⟩ : BufTy).Contents (Elt F) → (⟨S128x1, .f32⟩ : BufTy).Contents (Elt F)),
    StableHlo.nullary main_cst_122 (constant S_ .f32 0x45FF9000#32),
    StableHlo.unary main_cst_122 main_v348 (broadcastInDim S128x1 ![] bcast_S_S128x1 : (⟨S_, .f32⟩ : BufTy).Contents (Elt F) → (⟨S128x1, .f32⟩ : BufTy).Contents (Elt F)),
    StableHlo.binary main_v347 main_v348 main_v349 (Host.divf : (⟨S128x1, .f32⟩ : BufTy).Contents (Elt F) → (⟨S128x1, .f32⟩ : BufTy).Contents (Elt F) → (⟨S128x1, .f32⟩ : BufTy).Contents (Elt F)),
    StableHlo.unary main_v349 main_v350 (broadcastInDim S128x8178 ![0, 1] bcast_S128x1_S128x8178_0_1 : (⟨S128x1, .f32⟩ : BufTy).Contents (Elt F) → (⟨S128x8178, .f32⟩ : BufTy).Contents (Elt F)),
    StableHlo.binary main_v339 main_v350 main_v351 (subf : (⟨S128x8178, .f32⟩ : BufTy).Contents (Elt F) → (⟨S128x8178, .f32⟩ : BufTy).Contents (Elt F) → (⟨S128x8178, .f32⟩ : BufTy).Contents (Elt F)),
    StableHlo.binary main_v345 main_v351 main_v352 (mulf : (⟨S128x8178, .f32⟩ : BufTy).Contents (Elt F) → (⟨S128x8178, .f32⟩ : BufTy).Contents (Elt F) → (⟨S128x8178, .f32⟩ : BufTy).Contents (Elt F)),
    StableHlo.nullary main_cst_123 (constant S_ .f32 0x00000000#32),
    StableHlo.binary main_v352 main_cst_123 main_v353 ((fun x v => Host.reduceAdd x v reducesTo_S128x8178_S128_d1 h_S_) : (⟨S128x8178, .f32⟩ : BufTy).Contents (Elt F) → (⟨S_, .f32⟩ : BufTy).Contents (Elt F) → (⟨S128, .f32⟩ : BufTy).Contents (Elt F)) ]

abbrev pc21_W : List (Ref sig .tc) := [main_v338, main_v339, main_cst_119, main_v340, main_v341, main_cst_120, main_v342, main_v343, main_v344, main_v345, main_cst_121, main_v346, main_v347, main_cst_122, main_v348, main_v349, main_v350, main_v351, main_v352, main_cst_123, main_v353]
theorem pc21_sub : (pc21 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub ..⟩
theorem pc21_writes : (pc21 : List (HloOp τ sig (Elt F))).Forall fun op => op.writes ⊆ (pc21_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc21_fresh : ∀ op ∈ (pc21 : List (HloOp τ sig (Elt F))), op.fresh = ∅ := by
  intro _ h; (repeat (cases h with | head => rfl | tail _ h => ?_)); exact nomatch h

/-- Operations of statements in printed window 8, reading window 14: 18 of them. -/
abbrev pc22 : List (HloOp τ sig (Elt F)) :=
  [ StableHlo.binary main_v345 main_v345 main_v354 (mulf : (⟨S128x8178, .f32⟩ : BufTy).Contents (Elt F) → (⟨S128x8178, .f32⟩ : BufTy).Contents (Elt F) → (⟨S128x8178, .f32⟩ : BufTy).Contents (Elt F)),
    StableHlo.nullary main_cst_124 (constant S_ .f32 0x00000000#32),
    StableHlo.binary main_v354 main_cst_124 main_v355 ((fun x v => Host.reduceAdd x v reducesTo_S128x8178_S128_d1 h_S_) : (⟨S128x8178, .f32⟩ : BufTy).Contents (Elt F) → (⟨S_, .f32⟩ : BufTy).Contents (Elt F) → (⟨S128, .f32⟩ : BufTy).Contents (Elt F)),
    StableHlo.unary main_v355 main_v356 (Host.sqrt : (⟨S128, .f32⟩ : BufTy).Contents (Elt F) → (⟨S128, .f32⟩ : BufTy).Contents (Elt F)),
    StableHlo.binary main_v351 main_v351 main_v357 (mulf : (⟨S128x8178, .f32⟩ : BufTy).Contents (Elt F) → (⟨S128x8178, .f32⟩ : BufTy).Contents (Elt F) → (⟨S128x8178, .f32⟩ : BufTy).Contents (Elt F)),
    StableHlo.nullary main_cst_125 (constant S_ .f32 0x00000000#32),
    StableHlo.binary main_v357 main_cst_125 main_v358 ((fun x v => Host.reduceAdd x v reducesTo_S128x8178_S128_d1 h_S_) : (⟨S128x8178, .f32⟩ : BufTy).Contents (Elt F) → (⟨S_, .f32⟩ : BufTy).Contents (Elt F) → (⟨S128, .f32⟩ : BufTy).Contents (Elt F)),
    StableHlo.unary main_v358 main_v359 (Host.sqrt : (⟨S128, .f32⟩ : BufTy).Contents (Elt F) → (⟨S128, .f32⟩ : BufTy).Contents (Elt F)),
    StableHlo.binary main_v356 main_v359 main_v360 (mulf : (⟨S128, .f32⟩ : BufTy).Contents (Elt F) → (⟨S128, .f32⟩ : BufTy).Contents (Elt F) → (⟨S128, .f32⟩ : BufTy).Contents (Elt F)),
    StableHlo.binary main_v353 main_v360 main_v361 (Host.divf : (⟨S128, .f32⟩ : BufTy).Contents (Elt F) → (⟨S128, .f32⟩ : BufTy).Contents (Elt F) → (⟨S128, .f32⟩ : BufTy).Contents (Elt F)),
    StableHlo.nullary main_cst_126 (constant S_ .f32 0xBF800000#32),
    StableHlo.nullary main_cst_127 (constant S_ .f32 0x3F800000#32),
    StableHlo.TRef.unary (.of main_cst_126 : StableHlo.TRef sig ⟨S_, .f32⟩) main_call14.v0 id,
    StableHlo.TRef.unary main_call14.v0 main_call14.v1 (broadcastInDim S128 ![] bcast_S_S128),
    StableHlo.TRef.binary main_call14.v1 (.of main_v361 : StableHlo.TRef sig ⟨S128, .f32⟩) main_call14.v2 maximumf,
    StableHlo.TRef.unary (.of main_cst_127 : StableHlo.TRef sig ⟨S_, .f32⟩) main_call14.v3 id,
    StableHlo.TRef.unary main_call14.v3 main_call14.v4 (broadcastInDim S128 ![] bcast_S_S128),
    StableHlo.TRef.binary main_call14.v4 main_call14.v2 main_call14.v5 minimumf ]

abbrev pc22_W : List (Ref sig .tc) := [main_v354, main_cst_124, main_v355, main_v356, main_v357, main_cst_125, main_v358, main_v359, main_v360, main_v361, main_cst_126, main_cst_127, (main_call14.v0).ref, (main_call14.v1).ref, (main_call14.v2).ref, (main_call14.v3).ref, (main_call14.v4).ref, (main_call14.v5).ref]
theorem pc22_sub : (pc22 : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc22_writes : (pc22 : List (HloOp τ sig (Elt F))).Forall fun op => op.writes ⊆ (pc22_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc22_fresh : ∀ op ∈ (pc22 : List (HloOp τ sig (Elt F))), op.fresh = ∅ := by
  intro _ h; (repeat (cases h with | head => rfl | tail _ h => ?_)); exact nomatch h

/-- Operations of statements in printed window 8, reading window 15: 39 of them. -/
abbrev pc23 : List (HloOp τ sig (Elt F)) :=
  [ StableHlo.unary main_v12 main_v363 ((extractStridedSlice S128x8177 ![0, 0] · slices_S128x8192_S128x8177_0_0) : (⟨S128x8192, .f32⟩ : BufTy).Contents (Elt F) → (⟨S128x8177, .f32⟩ : BufTy).Contents (Elt F)),
    StableHlo.unary main_v12 main_v364 ((extractStridedSlice S128x8177 ![0, 15] · slices_S128x8192_S128x8177_0_15) : (⟨S128x8192, .f32⟩ : BufTy).Contents (Elt F) → (⟨S128x8177, .f32⟩ : BufTy).Contents (Elt F)),
    StableHlo.nullary main_cst_128 (constant S_ .f32 0x00000000#32),
    StableHlo.binary main_v363 main_cst_128 main_v365 ((fun x v => Host.reduceAdd x v reducesTo_S128x8177_S128_d1 h_S_) : (⟨S128x8177, .f32⟩ : BufTy).Contents (Elt F) → (⟨S_, .f32⟩ : BufTy).Contents (Elt F) → (⟨S128, .f32⟩ : BufTy).Contents (Elt F)),
    StableHlo.unary main_v365 main_v366 (broadcastInDim S128x1 ![0] bcast_S128_S128x1_0 : (⟨S128, .f32⟩ : BufTy).Contents (Elt F) → (⟨S128x1, .f32⟩ : BufTy).Contents (Elt F)),
    StableHlo.nullary main_cst_129 (constant S_ .f32 0x45FF8800#32),
    StableHlo.unary main_cst_129 main_v367 (broadcastInDim S128x1 ![] bcast_S_S128x1 : (⟨S_, .f32⟩ : BufTy).Contents (Elt F) → (⟨S128x1, .f32⟩ : BufTy).Contents (Elt F)),
    StableHlo.binary main_v366 main_v367 main_v368 (Host.divf : (⟨S128x1, .f32⟩ : BufTy).Contents (Elt F) → (⟨S128x1, .f32⟩ : BufTy).Contents (Elt F) → (⟨S128x1, .f32⟩ : BufTy).Contents (Elt F)),
    StableHlo.unary main_v368 main_v369 (broadcastInDim S128x8177 ![0, 1] bcast_S128x1_S128x8177_0_1 : (⟨S128x1, .f32⟩ : BufTy).Contents (Elt F) → (⟨S128x8177, .f32⟩ : BufTy).Contents (Elt F)),
    StableHlo.binary main_v363 main_v369 main_v370 (subf : (⟨S128x8177, .f32⟩ : BufTy).Contents (Elt F) → (⟨S128x8177, .f32⟩ : BufTy).Contents (Elt F) → (⟨S128x8177, .f32⟩ : BufTy).Contents (Elt F)),
    StableHlo.nullary main_cst_130 (constant S_ .f32 0x00000000#32),
    StableHlo.binary main_v364 main_cst_130 main_v371 ((fun x v => Host.reduceAdd x v reducesTo_S128x8177_S128_d1 h_S_) : (⟨S128x8177, .f32⟩ : BufTy).Contents (Elt F) → (⟨S_, .f32⟩ : BufTy).Contents (Elt F) → (⟨S128, .f32⟩ : BufTy).Contents (Elt F)),
    StableHlo.unary main_v371 main_v372 (broadcastInDim S128x1 ![0] bcast_S128_S128x1_0 : (⟨S128, .f32⟩ : BufTy).Contents (Elt F) → (⟨S128x1, .f32⟩ : BufTy).Contents (Elt F)),
    StableHlo.nullary main_cst_131 (constant S_ .f32 0x45FF8800#32),
    StableHlo.unary main_cst_131 main_v373 (broadcastInDim S128x1 ![] bcast_S_S128x1 : (⟨S_, .f32⟩ : BufTy).Contents (Elt F) → (⟨S128x1, .f32⟩ : BufTy).Contents (Elt F)),
    StableHlo.binary main_v372 main_v373 main_v374 (Host.divf : (⟨S128x1, .f32⟩ : BufTy).Contents (Elt F) → (⟨S128x1, .f32⟩ : BufTy).Contents (Elt F) → (⟨S128x1, .f32⟩ : BufTy).Contents (Elt F)),
    StableHlo.unary main_v374 main_v375 (broadcastInDim S128x8177 ![0, 1] bcast_S128x1_S128x8177_0_1 : (⟨S128x1, .f32⟩ : BufTy).Contents (Elt F) → (⟨S128x8177, .f32⟩ : BufTy).Contents (Elt F)),
    StableHlo.binary main_v364 main_v375 main_v376 (subf : (⟨S128x8177, .f32⟩ : BufTy).Contents (Elt F) → (⟨S128x8177, .f32⟩ : BufTy).Contents (Elt F) → (⟨S128x8177, .f32⟩ : BufTy).Contents (Elt F)),
    StableHlo.binary main_v370 main_v376 main_v377 (mulf : (⟨S128x8177, .f32⟩ : BufTy).Contents (Elt F) → (⟨S128x8177, .f32⟩ : BufTy).Contents (Elt F) → (⟨S128x8177, .f32⟩ : BufTy).Contents (Elt F)),
    StableHlo.nullary main_cst_132 (constant S_ .f32 0x00000000#32),
    StableHlo.binary main_v377 main_cst_132 main_v378 ((fun x v => Host.reduceAdd x v reducesTo_S128x8177_S128_d1 h_S_) : (⟨S128x8177, .f32⟩ : BufTy).Contents (Elt F) → (⟨S_, .f32⟩ : BufTy).Contents (Elt F) → (⟨S128, .f32⟩ : BufTy).Contents (Elt F)),
    StableHlo.binary main_v370 main_v370 main_v379 (mulf : (⟨S128x8177, .f32⟩ : BufTy).Contents (Elt F) → (⟨S128x8177, .f32⟩ : BufTy).Contents (Elt F) → (⟨S128x8177, .f32⟩ : BufTy).Contents (Elt F)),
    StableHlo.nullary main_cst_133 (constant S_ .f32 0x00000000#32),
    StableHlo.binary main_v379 main_cst_133 main_v380 ((fun x v => Host.reduceAdd x v reducesTo_S128x8177_S128_d1 h_S_) : (⟨S128x8177, .f32⟩ : BufTy).Contents (Elt F) → (⟨S_, .f32⟩ : BufTy).Contents (Elt F) → (⟨S128, .f32⟩ : BufTy).Contents (Elt F)),
    StableHlo.unary main_v380 main_v381 (Host.sqrt : (⟨S128, .f32⟩ : BufTy).Contents (Elt F) → (⟨S128, .f32⟩ : BufTy).Contents (Elt F)),
    StableHlo.binary main_v376 main_v376 main_v382 (mulf : (⟨S128x8177, .f32⟩ : BufTy).Contents (Elt F) → (⟨S128x8177, .f32⟩ : BufTy).Contents (Elt F) → (⟨S128x8177, .f32⟩ : BufTy).Contents (Elt F)),
    StableHlo.nullary main_cst_134 (constant S_ .f32 0x00000000#32),
    StableHlo.binary main_v382 main_cst_134 main_v383 ((fun x v => Host.reduceAdd x v reducesTo_S128x8177_S128_d1 h_S_) : (⟨S128x8177, .f32⟩ : BufTy).Contents (Elt F) → (⟨S_, .f32⟩ : BufTy).Contents (Elt F) → (⟨S128, .f32⟩ : BufTy).Contents (Elt F)),
    StableHlo.unary main_v383 main_v384 (Host.sqrt : (⟨S128, .f32⟩ : BufTy).Contents (Elt F) → (⟨S128, .f32⟩ : BufTy).Contents (Elt F)),
    StableHlo.binary main_v381 main_v384 main_v385 (mulf : (⟨S128, .f32⟩ : BufTy).Contents (Elt F) → (⟨S128, .f32⟩ : BufTy).Contents (Elt F) → (⟨S128, .f32⟩ : BufTy).Contents (Elt F)),
    StableHlo.binary main_v378 main_v385 main_v386 (Host.divf : (⟨S128, .f32⟩ : BufTy).Contents (Elt F) → (⟨S128, .f32⟩ : BufTy).Contents (Elt F) → (⟨S128, .f32⟩ : BufTy).Contents (Elt F)),
    StableHlo.nullary main_cst_135 (constant S_ .f32 0xBF800000#32),
    StableHlo.nullary main_cst_136 (constant S_ .f32 0x3F800000#32),
    StableHlo.TRef.unary (.of main_cst_135 : StableHlo.TRef sig ⟨S_, .f32⟩) main_call15.v0 id,
    StableHlo.TRef.unary main_call15.v0 main_call15.v1 (broadcastInDim S128 ![] bcast_S_S128),
    StableHlo.TRef.binary main_call15.v1 (.of main_v386 : StableHlo.TRef sig ⟨S128, .f32⟩) main_call15.v2 maximumf,
    StableHlo.TRef.unary (.of main_cst_136 : StableHlo.TRef sig ⟨S_, .f32⟩) main_call15.v3 id,
    StableHlo.TRef.unary main_call15.v3 main_call15.v4 (broadcastInDim S128 ![] bcast_S_S128),
    StableHlo.TRef.binary main_call15.v4 main_call15.v2 main_call15.v5 minimumf ]

abbrev pc23_W : List (Ref sig .tc) := [main_v363, main_v364, main_cst_128, main_v365, main_v366, main_cst_129, main_v367, main_v368, main_v369, main_v370, main_cst_130, main_v371, main_v372, main_cst_131, main_v373, main_v374, main_v375, main_v376, main_v377, main_cst_132, main_v378, main_v379, main_cst_133, main_v380, main_v381, main_v382, main_cst_134, main_v383, main_v384, main_v385, main_v386, main_cst_135, main_cst_136, (main_call15.v0).ref, (main_call15.v1).ref, (main_call15.v2).ref, (main_call15.v3).ref, (main_call15.v4).ref, (main_call15.v5).ref]
theorem pc23_sub : (pc23 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc23_writes : (pc23 : List (HloOp τ sig (Elt F))).Forall fun op => op.writes ⊆ (pc23_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc23_fresh : ∀ op ∈ (pc23 : List (HloOp τ sig (Elt F))), op.fresh = ∅ := by
  intro _ h; (repeat (cases h with | head => rfl | tail _ h => ?_)); exact nomatch h

end Cert.ReferenceIdeal.HandRun

end
-- ==== Proof.RefT6.lean ====
import proofs.«130460_j34522947125965_1_alg».proof.ReferenceIdeal
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations of statements in printed window 8, reading window 16: 13 of them. -/
abbrev pc24 : List (HloOp τ sig (Elt F)) :=
  [ StableHlo.unary main_v12 main_v388 ((extractStridedSlice S128x8176 ![0, 0] · slices_S128x8192_S128x8176_0_0) : (⟨S128x8192, .f32⟩ : BufTy).Contents (Elt F) → (⟨S128x8176, .f32⟩ : BufTy).Contents (Elt F)),
    StableHlo.unary main_v12 main_v389 ((extractStridedSlice S128x8176 ![0, 16] · slices_S128x8192_S128x8176_0_16) : (⟨S128x8192, .f32⟩ : BufTy).Contents (Elt F) → (⟨S128x8176, .f32⟩ : BufTy).Contents (Elt F)),
    StableHlo.nullary main_cst_137 (constant S_ .f32 0x00000000#32),
    StableHlo.binary main_v388 main_cst_137 main_v390 ((fun x v => Host.reduceAdd x v reducesTo_S128x8176_S128_d1 h_S_) : (⟨S128x8176, .f32⟩ : BufTy).Contents (Elt F) → (⟨S_, .f32⟩ : BufTy).Contents (Elt F) → (⟨S128, .f32⟩ : BufTy).Contents (Elt F)),
    StableHlo.unary main_v390 main_v391 (broadcastInDim S128x1 ![0] bcast_S128_S128x1_0 : (⟨S128, .f32⟩ : BufTy).Contents (Elt F) → (⟨S128x1, .f32⟩ : BufTy).Contents (Elt F)),
    StableHlo.nullary main_cst_138 (constant S_ .f32 0x45FF8000#32),
    StableHlo.unary main_cst_138 main_v392 (broadcastInDim S128x1 ![] bcast_S_S128x1 : (⟨S_, .f32⟩ : BufTy).Contents (Elt F) → (⟨S128x1, .f32⟩ : BufTy).Contents (Elt F)),
    StableHlo.binary main_v391 main_v392 main_v393 (Host.divf : (⟨S128x1, .f32⟩ : BufTy).Contents (Elt F) → (⟨S128x1, .f32⟩ : BufTy).Contents (Elt F) → (⟨S128x1, .f32⟩ : BufTy).Contents (Elt F)),
    StableHlo.unary main_v393 main_v394 (broadcastInDim S128x8176 ![0, 1] bcast_S128x1_S128x8176_0_1 : (⟨S128x1, .f32⟩ : BufTy).Contents (Elt F) → (⟨S128x8176, .f32⟩ : BufTy).Contents (Elt F)),
    StableHlo.binary main_v388 main_v394 main_v395 (subf : (⟨S128x8176, .f32⟩ : BufTy).Contents (Elt F) → (⟨S128x8176, .f32⟩ : BufTy).Contents (Elt F) → (⟨S128x8176, .f32⟩ : BufTy).Contents (Elt F)),
    StableHlo.nullary main_cst_139 (constant S_ .f32 0x00000000#32),
    StableHlo.binary main_v389 main_cst_139 main_v396 ((fun x v => Host.reduceAdd x v reducesTo_S128x8176_S128_d1 h_S_) : (⟨S128x8176, .f32⟩ : BufTy).Contents (Elt F) → (⟨S_, .f32⟩ : BufTy).Contents (Elt F) → (⟨S128, .f32⟩ : BufTy).Contents (Elt F)),
    StableHlo.unary main_v396 main_v397 (broadcastInDim S128x1 ![0] bcast_S128_S128x1_0 : (⟨S128, .f32⟩ : BufTy).Contents (Elt F) → (⟨S128x1, .f32⟩ : BufTy).Contents (Elt F)) ]

abbrev pc24_W : List (Ref sig .tc) := [main_v388, main_v389, main_cst_137, main_v390, main_v391, main_cst_138, main_v392, main_v393, main_v394, main_v395, main_cst_139, main_v396, main_v397]
theorem pc24_sub : (pc24 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub ..⟩
theorem pc24_writes : (pc24 : List (HloOp τ sig (Elt F))).Forall fun op => op.writes ⊆ (pc24_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc24_fresh : ∀ op ∈ (pc24 : List (HloOp τ sig (Elt F))), op.fresh = ∅ := by
  intro _ h; (repeat (cases h with | head => rfl | tail _ h => ?_)); exact nomatch h

/-- Operations of statements in printed window 9, reading window 16: 26 of them. -/
abbrev pc25 : List (HloOp τ sig (Elt F)) :=
  [ StableHlo.nullary main_cst_140 (constant S_ .f32 0x45FF8000#32),
    StableHlo.unary main_cst_140 main_v398 (broadcastInDim S128x1 ![] bcast_S_S128x1 : (⟨S_, .f32⟩ : BufTy).Contents (Elt F) → (⟨S128x1, .f32⟩ : BufTy).Contents (Elt F)),
    StableHlo.binary main_v397 main_v398 main_v399 (Host.divf : (⟨S128x1, .f32⟩ : BufTy).Contents (Elt F) → (⟨S128x1, .f32⟩ : BufTy).Contents (Elt F) → (⟨S128x1, .f32⟩ : BufTy).Contents (Elt F)),
    StableHlo.unary main_v399 main_v400 (broadcastInDim S128x8176 ![0, 1] bcast_S128x1_S128x8176_0_1 : (⟨S128x1, .f32⟩ : BufTy).Contents (Elt F) → (⟨S128x8176, .f32⟩ : BufTy).Contents (Elt F)),
    StableHlo.binary main_v389 main_v400 main_v401 (subf : (⟨S128x8176, .f32⟩ : BufTy).Contents (Elt F) → (⟨S128x8176, .f32⟩ : BufTy).Contents (Elt F) → (⟨S128x8176, .f32⟩ : BufTy).Contents (Elt F)),
    StableHlo.binary main_v395 main_v401 main_v402 (mulf : (⟨S128x8176, .f32⟩ : BufTy).Contents (Elt F) → (⟨S128x8176, .f32⟩ : BufTy).Contents (Elt F) → (⟨S128x8176, .f32⟩ : BufTy).Contents (Elt F)),
    StableHlo.nullary main_cst_141 (constant S_ .f32 0x00000000#32),
    StableHlo.binary main_v402 main_cst_141 main_v403 ((fun x v => Host.reduceAdd x v reducesTo_S128x8176_S128_d1 h_S_) : (⟨S128x8176, .f32⟩ : BufTy).Contents (Elt F) → (⟨S_, .f32⟩ : BufTy).Contents (Elt F) → (⟨S128, .f32⟩ : BufTy).Contents (Elt F)),
    StableHlo.binary main_v395 main_v395 main_v404 (mulf : (⟨S128x8176, .f32⟩ : BufTy).Contents (Elt F) → (⟨S128x8176, .f32⟩ : BufTy).Contents (Elt F) → (⟨S128x8176, .f32⟩ : BufTy).Contents (Elt F)),
    StableHlo.nullary main_cst_142 (constant S_ .f32 0x00000000#32),
    StableHlo.binary main_v404 main_cst_142 main_v405 ((fun x v => Host.reduceAdd x v reducesTo_S128x8176_S128_d1 h_S_) : (⟨S128x8176, .f32⟩ : BufTy).Contents (Elt F) → (⟨S_, .f32⟩ : BufTy).Contents (Elt F) → (⟨S128, .f32⟩ : BufTy).Contents (Elt F)),
    StableHlo.unary main_v405 main_v406 (Host.sqrt : (⟨S128, .f32⟩ : BufTy).Contents (Elt F) → (⟨S128, .f32⟩ : BufTy).Contents (Elt F)),
    StableHlo.binary main_v401 main_v401 main_v407 (mulf : (⟨S128x8176, .f32⟩ : BufTy).Contents (Elt F) → (⟨S128x8176, .f32⟩ : BufTy).Contents (Elt F) → (⟨S128x8176, .f32⟩ : BufTy).Contents (Elt F)),
    StableHlo.nullary main_cst_143 (constant S_ .f32 0x00000000#32),
    StableHlo.binary main_v407 main_cst_143 main_v408 ((fun x v => Host.reduceAdd x v reducesTo_S128x8176_S128_d1 h_S_) : (⟨S128x8176, .f32⟩ : BufTy).Contents (Elt F) → (⟨S_, .f32⟩ : BufTy).Contents (Elt F) → (⟨S128, .f32⟩ : BufTy).Contents (Elt F)),
    StableHlo.unary main_v408 main_v409 (Host.sqrt : (⟨S128, .f32⟩ : BufTy).Contents (Elt F) → (⟨S128, .f32⟩ : BufTy).Contents (Elt F)),
    StableHlo.binary main_v406 main_v409 main_v410 (mulf : (⟨S128, .f32⟩ : BufTy).Contents (Elt F) → (⟨S128, .f32⟩ : BufTy).Contents (Elt F) → (⟨S128, .f32⟩ : BufTy).Contents (Elt F)),
    StableHlo.binary main_v403 main_v410 main_v411 (Host.divf : (⟨S128, .f32⟩ : BufTy).Contents (Elt F) → (⟨S128, .f32⟩ : BufTy).Contents (Elt F) → (⟨S128, .f32⟩ : BufTy).Contents (Elt F)),
    StableHlo.nullary main_cst_144 (constant S_ .f32 0xBF800000#32),
    StableHlo.nullary main_cst_145 (constant S_ .f32 0x3F800000#32),
    StableHlo.TRef.unary (.of main_cst_144 : StableHlo.TRef sig ⟨S_, .f32⟩) main_call16.v0 id,
    StableHlo.TRef.unary main_call16.v0 main_call16.v1 (broadcastInDim S128 ![] bcast_S_S128),
    StableHlo.TRef.binary main_call16.v1 (.of main_v411 : StableHlo.TRef sig ⟨S128, .f32⟩) main_call16.v2 maximumf,
    StableHlo.TRef.unary (.of main_cst_145 : StableHlo.TRef sig ⟨S_, .f32⟩) main_call16.v3 id,
    StableHlo.TRef.unary main_call16.v3 main_call16.v4 (broadcastInDim S128 ![] bcast_S_S128),
    StableHlo.TRef.binary main_call16.v4 main_call16.v2 main_call16.v5 minimumf ]

abbrev pc25_W : List (Ref sig .tc) := [main_cst_140, main_v398, main_v399, main_v400, main_v401, main_v402, main_cst_141, main_v403, main_v404, main_cst_142, main_v405, main_v406, main_v407, main_cst_143, main_v408, main_v409, main_v410, main_v411, main_cst_144, main_cst_145, (main_call16.v0).ref, (main_call16.v1).ref, (main_call16.v2).ref, (main_call16.v3).ref, (main_call16.v4).ref, (main_call16.v5).ref]
theorem pc25_sub : (pc25 : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc25_writes : (pc25 : List (HloOp τ sig (Elt F))).Forall fun op => op.writes ⊆ (pc25_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc25_fresh : ∀ op ∈ (pc25 : List (HloOp τ sig (Elt F))), op.fresh = ∅ := by
  intro _ h; (repeat (cases h with | head => rfl | tail _ h => ?_)); exact nomatch h

/-- Operations of statements in printed window 9, reading window 17: 39 of them. -/
abbrev pc26 : List (HloOp τ sig (Elt F)) :=
  [ StableHlo.unary main_v12 main_v413 ((extractStridedSlice S128x8175 ![0, 0] · slices_S128x8192_S128x8175_0_0) : (⟨S128x8192, .f32⟩ : BufTy).Contents (Elt F) → (⟨S128x8175, .f32⟩ : BufTy).Contents (Elt F)),
    StableHlo.unary main_v12 main_v414 ((extractStridedSlice S128x8175 ![0, 17] · slices_S128x8192_S128x8175_0_17) : (⟨S128x8192, .f32⟩ : BufTy).Contents (Elt F) → (⟨S128x8175, .f32⟩ : BufTy).Contents (Elt F)),
    StableHlo.nullary main_cst_146 (constant S_ .f32 0x00000000#32),
    StableHlo.binary main_v413 main_cst_146 main_v415 ((fun x v => Host.reduceAdd x v reducesTo_S128x8175_S128_d1 h_S_) : (⟨S128x8175, .f32⟩ : BufTy).Contents (Elt F) → (⟨S_, .f32⟩ : BufTy).Contents (Elt F) → (⟨S128, .f32⟩ : BufTy).Contents (Elt F)),
    StableHlo.unary main_v415 main_v416 (broadcastInDim S128x1 ![0] bcast_S128_S128x1_0 : (⟨S128, .f32⟩ : BufTy).Contents (Elt F) → (⟨S128x1, .f32⟩ : BufTy).Contents (Elt F)),
    StableHlo.nullary main_cst_147 (constant S_ .f32 0x45FF7800#32),
    StableHlo.unary main_cst_147 main_v417 (broadcastInDim S128x1 ![] bcast_S_S128x1 : (⟨S_, .f32⟩ : BufTy).Contents (Elt F) → (⟨S128x1, .f32⟩ : BufTy).Contents (Elt F)),
    StableHlo.binary main_v416 main_v417 main_v418 (Host.divf : (⟨S128x1, .f32⟩ : BufTy).Contents (Elt F) → (⟨S128x1, .f32⟩ : BufTy).Contents (Elt F) → (⟨S128x1, .f32⟩ : BufTy).Contents (Elt F)),
    StableHlo.unary main_v418 main_v419 (broadcastInDim S128x8175 ![0, 1] bcast_S128x1_S128x8175_0_1 : (⟨S128x1, .f32⟩ : BufTy).Contents (Elt F) → (⟨S128x8175, .f32⟩ : BufTy).Contents (Elt F)),
    StableHlo.binary main_v413 main_v419 main_v420 (subf : (⟨S128x8175, .f32⟩ : BufTy).Contents (Elt F) → (⟨S128x8175, .f32⟩ : BufTy).Contents (Elt F) → (⟨S128x8175, .f32⟩ : BufTy).Contents (Elt F)),
    StableHlo.nullary main_cst_148 (constant S_ .f32 0x00000000#32),
    StableHlo.binary main_v414 main_cst_148 main_v421 ((fun x v => Host.reduceAdd x v reducesTo_S128x8175_S128_d1 h_S_) : (⟨S128x8175, .f32⟩ : BufTy).Contents (Elt F) → (⟨S_, .f32⟩ : BufTy).Contents (Elt F) → (⟨S128, .f32⟩ : BufTy).Contents (Elt F)),
    StableHlo.unary main_v421 main_v422 (broadcastInDim S128x1 ![0] bcast_S128_S128x1_0 : (⟨S128, .f32⟩ : BufTy).Contents (Elt F) → (⟨S128x1, .f32⟩ : BufTy).Contents (Elt F)),
    StableHlo.nullary main_cst_149 (constant S_ .f32 0x45FF7800#32),
    StableHlo.unary main_cst_149 main_v423 (broadcastInDim S128x1 ![] bcast_S_S128x1 : (⟨S_, .f32⟩ : BufTy).Contents (Elt F) → (⟨S128x1, .f32⟩ : BufTy).Contents (Elt F)),
    StableHlo.binary main_v422 main_v423 main_v424 (Host.divf : (⟨S128x1, .f32⟩ : BufTy).Contents (Elt F) → (⟨S128x1, .f32⟩ : BufTy).Contents (Elt F) → (⟨S128x1, .f32⟩ : BufTy).Contents (Elt F)),
    StableHlo.unary main_v424 main_v425 (broadcastInDim S128x8175 ![0, 1] bcast_S128x1_S128x8175_0_1 : (⟨S128x1, .f32⟩ : BufTy).Contents (Elt F) → (⟨S128x8175, .f32⟩ : BufTy).Contents (Elt F)),
    StableHlo.binary main_v414 main_v425 main_v426 (subf : (⟨S128x8175, .f32⟩ : BufTy).Contents (Elt F) → (⟨S128x8175, .f32⟩ : BufTy).Contents (Elt F) → (⟨S128x8175, .f32⟩ : BufTy).Contents (Elt F)),
    StableHlo.binary main_v420 main_v426 main_v427 (mulf : (⟨S128x8175, .f32⟩ : BufTy).Contents (Elt F) → (⟨S128x8175, .f32⟩ : BufTy).Contents (Elt F) → (⟨S128x8175, .f32⟩ : BufTy).Contents (Elt F)),
    StableHlo.nullary main_cst_150 (constant S_ .f32 0x00000000#32),
    StableHlo.binary main_v427 main_cst_150 main_v428 ((fun x v => Host.reduceAdd x v reducesTo_S128x8175_S128_d1 h_S_) : (⟨S128x8175, .f32⟩ : BufTy).Contents (Elt F) → (⟨S_, .f32⟩ : BufTy).Contents (Elt F) → (⟨S128, .f32⟩ : BufTy).Contents (Elt F)),
    StableHlo.binary main_v420 main_v420 main_v429 (mulf : (⟨S128x8175, .f32⟩ : BufTy).Contents (Elt F) → (⟨S128x8175, .f32⟩ : BufTy).Contents (Elt F) → (⟨S128x8175, .f32⟩ : BufTy).Contents (Elt F)),
    StableHlo.nullary main_cst_151 (constant S_ .f32 0x00000000#32),
    StableHlo.binary main_v429 main_cst_151 main_v430 ((fun x v => Host.reduceAdd x v reducesTo_S128x8175_S128_d1 h_S_) : (⟨S128x8175, .f32⟩ : BufTy).Contents (Elt F) → (⟨S_, .f32⟩ : BufTy).Contents (Elt F) → (⟨S128, .f32⟩ : BufTy).Contents (Elt F)),
    StableHlo.unary main_v430 main_v431 (Host.sqrt : (⟨S128, .f32⟩ : BufTy).Contents (Elt F) → (⟨S128, .f32⟩ : BufTy).Contents (Elt F)),
    StableHlo.binary main_v426 main_v426 main_v432 (mulf : (⟨S128x8175, .f32⟩ : BufTy).Contents (Elt F) → (⟨S128x8175, .f32⟩ : BufTy).Contents (Elt F) → (⟨S128x8175, .f32⟩ : BufTy).Contents (Elt F)),
    StableHlo.nullary main_cst_152 (constant S_ .f32 0x00000000#32),
    StableHlo.binary main_v432 main_cst_152 main_v433 ((fun x v => Host.reduceAdd x v reducesTo_S128x8175_S128_d1 h_S_) : (⟨S128x8175, .f32⟩ : BufTy).Contents (Elt F) → (⟨S_, .f32⟩ : BufTy).Contents (Elt F) → (⟨S128, .f32⟩ : BufTy).Contents (Elt F)),
    StableHlo.unary main_v433 main_v434 (Host.sqrt : (⟨S128, .f32⟩ : BufTy).Contents (Elt F) → (⟨S128, .f32⟩ : BufTy).Contents (Elt F)),
    StableHlo.binary main_v431 main_v434 main_v435 (mulf : (⟨S128, .f32⟩ : BufTy).Contents (Elt F) → (⟨S128, .f32⟩ : BufTy).Contents (Elt F) → (⟨S128, .f32⟩ : BufTy).Contents (Elt F)),
    StableHlo.binary main_v428 main_v435 main_v436 (Host.divf : (⟨S128, .f32⟩ : BufTy).Contents (Elt F) → (⟨S128, .f32⟩ : BufTy).Contents (Elt F) → (⟨S128, .f32⟩ : BufTy).Contents (Elt F)),
    StableHlo.nullary main_cst_153 (constant S_ .f32 0xBF800000#32),
    StableHlo.nullary main_cst_154 (constant S_ .f32 0x3F800000#32),
    StableHlo.TRef.unary (.of main_cst_153 : StableHlo.TRef sig ⟨S_, .f32⟩) main_call17.v0 id,
    StableHlo.TRef.unary main_call17.v0 main_call17.v1 (broadcastInDim S128 ![] bcast_S_S128),
    StableHlo.TRef.binary main_call17.v1 (.of main_v436 : StableHlo.TRef sig ⟨S128, .f32⟩) main_call17.v2 maximumf,
    StableHlo.TRef.unary (.of main_cst_154 : StableHlo.TRef sig ⟨S_, .f32⟩) main_call17.v3 id,
    StableHlo.TRef.unary main_call17.v3 main_call17.v4 (broadcastInDim S128 ![] bcast_S_S128),
    StableHlo.TRef.binary main_call17.v4 main_call17.v2 main_call17.v5 minimumf ]

abbrev pc26_W : List (Ref sig .tc) := [main_v413, main_v414, main_cst_146, main_v415, main_v416, main_cst_147, main_v417, main_v418, main_v419, main_v420, main_cst_148, main_v421, main_v422, main_cst_149, main_v423, main_v424, main_v425, main_v426, main_v427, main_cst_150, main_v428, main_v429, main_cst_151, main_v430, main_v431, main_v432, main_cst_152, main_v433, main_v434, main_v435, main_v436, main_cst_153, main_cst_154, (main_call17.v0).ref, (main_call17.v1).ref, (main_call17.v2).ref, (main_call17.v3).ref, (main_call17.v4).ref, (main_call17.v5).ref]
theorem pc26_sub : (pc26 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc26_writes : (pc26 : List (HloOp τ sig (Elt F))).Forall fun op => op.writes ⊆ (pc26_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc26_fresh : ∀ op ∈ (pc26 : List (HloOp τ sig (Elt F))), op.fresh = ∅ := by
  intro _ h; (repeat (cases h with | head => rfl | tail _ h => ?_)); exact nomatch h

/-- Operations of statements in printed window 9, reading window 18: 5 of them. -/
abbrev pc27 : List (HloOp τ sig (Elt F)) :=
  [ StableHlo.unary main_v12 main_v438 ((extractStridedSlice S128x8174 ![0, 0] · slices_S128x8192_S128x8174_0_0) : (⟨S128x8192, .f32⟩ : BufTy).Contents (Elt F) → (⟨S128x8174, .f32⟩ : BufTy).Contents (Elt F)),
    StableHlo.unary main_v12 main_v439 ((extractStridedSlice S128x8174 ![0, 18] · slices_S128x8192_S128x8174_0_18) : (⟨S128x8192, .f32⟩ : BufTy).Contents (Elt F) → (⟨S128x8174, .f32⟩ : BufTy).Contents (Elt F)),
    StableHlo.nullary main_cst_155 (constant S_ .f32 0x00000000#32),
    StableHlo.binary main_v438 main_cst_155 main_v440 ((fun x v => Host.reduceAdd x v reducesTo_S128x8174_S128_d1 h_S_) : (⟨S128x8174, .f32⟩ : BufTy).Contents (Elt F) → (⟨S_, .f32⟩ : BufTy).Contents (Elt F) → (⟨S128, .f32⟩ : BufTy).Contents (Elt F)),
    StableHlo.unary main_v440 main_v441 (broadcastInDim S128x1 ![0] bcast_S128_S128x1_0 : (⟨S128, .f32⟩ : BufTy).Contents (Elt F) → (⟨S128x1, .f32⟩ : BufTy).Contents (Elt F)) ]

abbrev pc27_W : List (Ref sig .tc) := [main_v438, main_v439, main_cst_155, main_v440, main_v441]
theorem pc27_sub : (pc27 : List (HloOp τ sig (Elt F))).Forall fun op => op.bufs ⊆ tcRefs τ sig :=
  ⟨unary_bufs_sub .., unary_bufs_sub .., nullary_bufs_sub .., binary_bufs_sub .., unary_bufs_sub ..⟩
theorem pc27_writes : (pc27 : List (HloOp τ sig (Elt F))).Forall fun op => op.writes ⊆ (pc27_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc27_fresh : ∀ op ∈ (pc27 : List (HloOp τ sig (Elt F))), op.fresh = ∅ := by
  intro _ h; (repeat (cases h with | head => rfl | tail _ h => ?_)); exact nomatch h

end Cert.ReferenceIdeal.HandRun

end
-- ==== Proof.RefT7.lean ====
import proofs.«130460_j34522947125965_1_alg».proof.ReferenceIdeal
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations of statements in printed window 10, reading window 18: 34 of them. -/
abbrev pc28 : List (HloOp τ sig (Elt F)) :=
  [ StableHlo.nullary main_cst_156 (constant S_ .f32 0x45FF7000#32),
    StableHlo.unary main_cst_156 main_v442 (broadcastInDim S128x1 ![] bcast_S_S128x1 : (⟨S_, .f32⟩ : BufTy).Contents (Elt F) → (⟨S128x1, .f32⟩ : BufTy).Contents (Elt F)),
    StableHlo.binary main_v441 main_v442 main_v443 (Host.divf : (⟨S128x1, .f32⟩ : BufTy).Contents (Elt F) → (⟨S128x1, .f32⟩ : BufTy).Contents (Elt F) → (⟨S128x1, .f32⟩ : BufTy).Contents (Elt F)),
    StableHlo.unary main_v443 main_v444 (broadcastInDim S128x8174 ![0, 1] bcast_S128x1_S128x8174_0_1 : (⟨S128x1, .f32⟩ : BufTy).Contents (Elt F) → (⟨S128x8174, .f32⟩ : BufTy).Contents (Elt F)),
    StableHlo.binary main_v438 main_v444 main_v445 (subf : (⟨S128x8174, .f32⟩ : BufTy).Contents (Elt F) → (⟨S128x8174, .f32⟩ : BufTy).Contents (Elt F) → (⟨S128x8174, .f32⟩ : BufTy).Contents (Elt F)),
    StableHlo.nullary main_cst_157 (constant S_ .f32 0x00000000#32),
    StableHlo.binary main_v439 main_cst_157 main_v446 ((fun x v => Host.reduceAdd x v reducesTo_S128x8174_S128_d1 h_S_) : (⟨S128x8174, .f32⟩ : BufTy).Contents (Elt F) → (⟨S_, .f32⟩ : BufTy).Contents (Elt F) → (⟨S128, .f32⟩ : BufTy).Contents (Elt F)),
    StableHlo.unary main_v446 main_v447 (broadcastInDim S128x1 ![0] bcast_S128_S128x1_0 : (⟨S128, .f32⟩ : BufTy).Contents (Elt F) → (⟨S128x1, .f32⟩ : BufTy).Contents (Elt F)),
    StableHlo.nullary main_cst_158 (constant S_ .f32 0x45FF7000#32),
    StableHlo.unary main_cst_158 main_v448 (broadcastInDim S128x1 ![] bcast_S_S128x1 : (⟨S_, .f32⟩ : BufTy).Contents (Elt F) → (⟨S128x1, .f32⟩ : BufTy).Contents (Elt F)),
    StableHlo.binary main_v447 main_v448 main_v449 (Host.divf : (⟨S128x1, .f32⟩ : BufTy).Contents (Elt F) → (⟨S128x1, .f32⟩ : BufTy).Contents (Elt F) → (⟨S128x1, .f32⟩ : BufTy).Contents (Elt F)),
    StableHlo.unary main_v449 main_v450 (broadcastInDim S128x8174 ![0, 1] bcast_S128x1_S128x8174_0_1 : (⟨S128x1, .f32⟩ : BufTy).Contents (Elt F) → (⟨S128x8174, .f32⟩ : BufTy).Contents (Elt F)),
    StableHlo.binary main_v439 main_v450 main_v451 (subf : (⟨S128x8174, .f32⟩ : BufTy).Contents (Elt F) → (⟨S128x8174, .f32⟩ : BufTy).Contents (Elt F) → (⟨S128x8174, .f32⟩ : BufTy).Contents (Elt F)),
    StableHlo.binary main_v445 main_v451 main_v452 (mulf : (⟨S128x8174, .f32⟩ : BufTy).Contents (Elt F) → (⟨S128x8174, .f32⟩ : BufTy).Contents (Elt F) → (⟨S128x8174, .f32⟩ : BufTy).Contents (Elt F)),
    StableHlo.nullary main_cst_159 (constant S_ .f32 0x00000000#32),
    StableHlo.binary main_v452 main_cst_159 main_v453 ((fun x v => Host.reduceAdd x v reducesTo_S128x8174_S128_d1 h_S_) : (⟨S128x8174, .f32⟩ : BufTy).Contents (Elt F) → (⟨S_, .f32⟩ : BufTy).Contents (Elt F) → (⟨S128, .f32⟩ : BufTy).Contents (Elt F)),
    StableHlo.binary main_v445 main_v445 main_v454 (mulf : (⟨S128x8174, .f32⟩ : BufTy).Contents (Elt F) → (⟨S128x8174, .f32⟩ : BufTy).Contents (Elt F) → (⟨S128x8174, .f32⟩ : BufTy).Contents (Elt F)),
    StableHlo.nullary main_cst_160 (constant S_ .f32 0x00000000#32),
    StableHlo.binary main_v454 main_cst_160 main_v455 ((fun x v => Host.reduceAdd x v reducesTo_S128x8174_S128_d1 h_S_) : (⟨S128x8174, .f32⟩ : BufTy).Contents (Elt F) → (⟨S_, .f32⟩ : BufTy).Contents (Elt F) → (⟨S128, .f32⟩ : BufTy).Contents (Elt F)),
    StableHlo.unary main_v455 main_v456 (Host.sqrt : (⟨S128, .f32⟩ : BufTy).Contents (Elt F) → (⟨S128, .f32⟩ : BufTy).Contents (Elt F)),
    StableHlo.binary main_v451 main_v451 main_v457 (mulf : (⟨S128x8174, .f32⟩ : BufTy).Contents (Elt F) → (⟨S128x8174, .f32⟩ : BufTy).Contents (Elt F) → (⟨S128x8174, .f32⟩ : BufTy).Contents (Elt F)),
    StableHlo.nullary main_cst_161 (constant S_ .f32 0x00000000#32),
    StableHlo.binary main_v457 main_cst_161 main_v458 ((fun x v => Host.reduceAdd x v reducesTo_S128x8174_S128_d1 h_S_) : (⟨S128x8174, .f32⟩ : BufTy).Contents (Elt F) → (⟨S_, .f32⟩ : BufTy).Contents (Elt F) → (⟨S128, .f32⟩ : BufTy).Contents (Elt F)),
    StableHlo.unary main_v458 main_v459 (Host.sqrt : (⟨S128, .f32⟩ : BufTy).Contents (Elt F) → (⟨S128, .f32⟩ : BufTy).Contents (Elt F)),
    StableHlo.binary main_v456 main_v459 main_v460 (mulf : (⟨S128, .f32⟩ : BufTy).Contents (Elt F) → (⟨S128, .f32⟩ : BufTy).Contents (Elt F) → (⟨S128, .f32⟩ : BufTy).Contents (Elt F)),
    StableHlo.binary main_v453 main_v460 main_v461 (Host.divf : (⟨S128, .f32⟩ : BufTy).Contents (Elt F) → (⟨S128, .f32⟩ : BufTy).Contents (Elt F) → (⟨S128, .f32⟩ : BufTy).Contents (Elt F)),
    StableHlo.nullary main_cst_162 (constant S_ .f32 0xBF800000#32),
    StableHlo.nullary main_cst_163 (constant S_ .f32 0x3F800000#32),
    StableHlo.TRef.unary (.of main_cst_162 : StableHlo.TRef sig ⟨S_, .f32⟩) main_call18.v0 id,
    StableHlo.TRef.unary main_call18.v0 main_call18.v1 (broadcastInDim S128 ![] bcast_S_S128),
    StableHlo.TRef.binary main_call18.v1 (.of main_v461 : StableHlo.TRef sig ⟨S128, .f32⟩) main_call18.v2 maximumf,
    StableHlo.TRef.unary (.of main_cst_163 : StableHlo.TRef sig ⟨S_, .f32⟩) main_call18.v3 id,
    StableHlo.TRef.unary main_call18.v3 main_call18.v4 (broadcastInDim S128 ![] bcast_S_S128),
    StableHlo.TRef.binary main_call18.v4 main_call18.v2 main_call18.v5 minimumf ]

abbrev pc28_W : List (Ref sig .tc) := [main_cst_156, main_v442, main_v443, main_v444, main_v445, main_cst_157, main_v446, main_v447, main_cst_158, main_v448, main_v449, main_v450, main_v451, main_v452, main_cst_159, main_v453, main_v454, main_cst_160, main_v455, main_v456, main_v457, main_cst_161, main_v458, main_v459, main_v460, main_v461, main_cst_162, main_cst_163, (main_call18.v0).ref, (main_call18.v1).ref, (main_call18.v2).ref, (main_call18.v3).ref, (main_call18.v4).ref, (main_call18.v5).ref]
theorem pc28_sub : (pc28 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc28_writes : (pc28 : List (HloOp τ sig (Elt F))).Forall fun op => op.writes ⊆ (pc28_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc28_fresh : ∀ op ∈ (pc28 : List (HloOp τ sig (Elt F))), op.fresh = ∅ := by
  intro _ h; (repeat (cases h with | head => rfl | tail _ h => ?_)); exact nomatch h

/-- Operations of statements in printed window 10, reading window 19: 31 of them. -/
abbrev pc29 : List (HloOp τ sig (Elt F)) :=
  [ StableHlo.unary main_v12 main_v463 ((extractStridedSlice S128x8173 ![0, 0] · slices_S128x8192_S128x8173_0_0) : (⟨S128x8192, .f32⟩ : BufTy).Contents (Elt F) → (⟨S128x8173, .f32⟩ : BufTy).Contents (Elt F)),
    StableHlo.unary main_v12 main_v464 ((extractStridedSlice S128x8173 ![0, 19] · slices_S128x8192_S128x8173_0_19) : (⟨S128x8192, .f32⟩ : BufTy).Contents (Elt F) → (⟨S128x8173, .f32⟩ : BufTy).Contents (Elt F)),
    StableHlo.nullary main_cst_164 (constant S_ .f32 0x00000000#32),
    StableHlo.binary main_v463 main_cst_164 main_v465 ((fun x v => Host.reduceAdd x v reducesTo_S128x8173_S128_d1 h_S_) : (⟨S128x8173, .f32⟩ : BufTy).Contents (Elt F) → (⟨S_, .f32⟩ : BufTy).Contents (Elt F) → (⟨S128, .f32⟩ : BufTy).Contents (Elt F)),
    StableHlo.unary main_v465 main_v466 (broadcastInDim S128x1 ![0] bcast_S128_S128x1_0 : (⟨S128, .f32⟩ : BufTy).Contents (Elt F) → (⟨S128x1, .f32⟩ : BufTy).Contents (Elt F)),
    StableHlo.nullary main_cst_165 (constant S_ .f32 0x45FF6800#32),
    StableHlo.unary main_cst_165 main_v467 (broadcastInDim S128x1 ![] bcast_S_S128x1 : (⟨S_, .f32⟩ : BufTy).Contents (Elt F) → (⟨S128x1, .f32⟩ : BufTy).Contents (Elt F)),
    StableHlo.binary main_v466 main_v467 main_v468 (Host.divf : (⟨S128x1, .f32⟩ : BufTy).Contents (Elt F) → (⟨S128x1, .f32⟩ : BufTy).Contents (Elt F) → (⟨S128x1, .f32⟩ : BufTy).Contents (Elt F)),
    StableHlo.unary main_v468 main_v469 (broadcastInDim S128x8173 ![0, 1] bcast_S128x1_S128x8173_0_1 : (⟨S128x1, .f32⟩ : BufTy).Contents (Elt F) → (⟨S128x8173, .f32⟩ : BufTy).Contents (Elt F)),
    StableHlo.binary main_v463 main_v469 main_v470 (subf : (⟨S128x8173, .f32⟩ : BufTy).Contents (Elt F) → (⟨S128x8173, .f32⟩ : BufTy).Contents (Elt F) → (⟨S128x8173, .f32⟩ : BufTy).Contents (Elt F)),
    StableHlo.nullary main_cst_166 (constant S_ .f32 0x00000000#32),
    StableHlo.binary main_v464 main_cst_166 main_v471 ((fun x v => Host.reduceAdd x v reducesTo_S128x8173_S128_d1 h_S_) : (⟨S128x8173, .f32⟩ : BufTy).Contents (Elt F) → (⟨S_, .f32⟩ : BufTy).Contents (Elt F) → (⟨S128, .f32⟩ : BufTy).Contents (Elt F)),
    StableHlo.unary main_v471 main_v472 (broadcastInDim S128x1 ![0] bcast_S128_S128x1_0 : (⟨S128, .f32⟩ : BufTy).Contents (Elt F) → (⟨S128x1, .f32⟩ : BufTy).Contents (Elt F)),
    StableHlo.nullary main_cst_167 (constant S_ .f32 0x45FF6800#32),
    StableHlo.unary main_cst_167 main_v473 (broadcastInDim S128x1 ![] bcast_S_S128x1 : (⟨S_, .f32⟩ : BufTy).Contents (Elt F) → (⟨S128x1, .f32⟩ : BufTy).Contents (Elt F)),
    StableHlo.binary main_v472 main_v473 main_v474 (Host.divf : (⟨S128x1, .f32⟩ : BufTy).Contents (Elt F) → (⟨S128x1, .f32⟩ : BufTy).Contents (Elt F) → (⟨S128x1, .f32⟩ : BufTy).Contents (Elt F)),
    StableHlo.unary main_v474 main_v475 (broadcastInDim S128x8173 ![0, 1] bcast_S128x1_S128x8173_0_1 : (⟨S128x1, .f32⟩ : BufTy).Contents (Elt F) → (⟨S128x8173, .f32⟩ : BufTy).Contents (Elt F)),
    StableHlo.binary main_v464 main_v475 main_v476 (subf : (⟨S128x8173, .f32⟩ : BufTy).Contents (Elt F) → (⟨S128x8173, .f32⟩ : BufTy).Contents (Elt F) → (⟨S128x8173, .f32⟩ : BufTy).Contents (Elt F)),
    StableHlo.binary main_v470 main_v476 main_v477 (mulf : (⟨S128x8173, .f32⟩ : BufTy).Contents (Elt F) → (⟨S128x8173, .f32⟩ : BufTy).Contents (Elt F) → (⟨S128x8173, .f32⟩ : BufTy).Contents (Elt F)),
    StableHlo.nullary main_cst_168 (constant S_ .f32 0x00000000#32),
    StableHlo.binary main_v477 main_cst_168 main_v478 ((fun x v => Host.reduceAdd x v reducesTo_S128x8173_S128_d1 h_S_) : (⟨S128x8173, .f32⟩ : BufTy).Contents (Elt F) → (⟨S_, .f32⟩ : BufTy).Contents (Elt F) → (⟨S128, .f32⟩ : BufTy).Contents (Elt F)),
    StableHlo.binary main_v470 main_v470 main_v479 (mulf : (⟨S128x8173, .f32⟩ : BufTy).Contents (Elt F) → (⟨S128x8173, .f32⟩ : BufTy).Contents (Elt F) → (⟨S128x8173, .f32⟩ : BufTy).Contents (Elt F)),
    StableHlo.nullary main_cst_169 (constant S_ .f32 0x00000000#32),
    StableHlo.binary main_v479 main_cst_169 main_v480 ((fun x v => Host.reduceAdd x v reducesTo_S128x8173_S128_d1 h_S_) : (⟨S128x8173, .f32⟩ : BufTy).Contents (Elt F) → (⟨S_, .f32⟩ : BufTy).Contents (Elt F) → (⟨S128, .f32⟩ : BufTy).Contents (Elt F)),
    StableHlo.unary main_v480 main_v481 (Host.sqrt : (⟨S128, .f32⟩ : BufTy).Contents (Elt F) → (⟨S128, .f32⟩ : BufTy).Contents (Elt F)),
    StableHlo.binary main_v476 main_v476 main_v482 (mulf : (⟨S128x8173, .f32⟩ : BufTy).Contents (Elt F) → (⟨S128x8173, .f32⟩ : BufTy).Contents (Elt F) → (⟨S128x8173, .f32⟩ : BufTy).Contents (Elt F)),
    StableHlo.nullary main_cst_170 (constant S_ .f32 0x00000000#32),
    StableHlo.binary main_v482 main_cst_170 main_v483 ((fun x v => Host.reduceAdd x v reducesTo_S128x8173_S128_d1 h_S_) : (⟨S128x8173, .f32⟩ : BufTy).Contents (Elt F) → (⟨S_, .f32⟩ : BufTy).Contents (Elt F) → (⟨S128, .f32⟩ : BufTy).Contents (Elt F)),
    StableHlo.unary main_v483 main_v484 (Host.sqrt : (⟨S128, .f32⟩ : BufTy).Contents (Elt F) → (⟨S128, .f32⟩ : BufTy).Contents (Elt F)),
    StableHlo.binary main_v481 main_v484 main_v485 (mulf : (⟨S128, .f32⟩ : BufTy).Contents (Elt F) → (⟨S128, .f32⟩ : BufTy).Contents (Elt F) → (⟨S128, .f32⟩ : BufTy).Contents (Elt F)),
    StableHlo.binary main_v478 main_v485 main_v486 (Host.divf : (⟨S128, .f32⟩ : BufTy).Contents (Elt F) → (⟨S128, .f32⟩ : BufTy).Contents (Elt F) → (⟨S128, .f32⟩ : BufTy).Contents (Elt F)) ]

abbrev pc29_W : List (Ref sig .tc) := [main_v463, main_v464, main_cst_164, main_v465, main_v466, main_cst_165, main_v467, main_v468, main_v469, main_v470, main_cst_166, main_v471, main_v472, main_cst_167, main_v473, main_v474, main_v475, main_v476, main_v477, main_cst_168, main_v478, main_v479, main_cst_169, main_v480, main_v481, main_v482, main_cst_170, main_v483, main_v484, main_v485, main_v486]
theorem pc29_sub : (pc29 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub ..⟩
theorem pc29_writes : (pc29 : List (HloOp τ sig (Elt F))).Forall fun op => op.writes ⊆ (pc29_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc29_fresh : ∀ op ∈ (pc29 : List (HloOp τ sig (Elt F))), op.fresh = ∅ := by
  intro _ h; (repeat (cases h with | head => rfl | tail _ h => ?_)); exact nomatch h

/-- Operations of statements in printed window 11, reading window 19: 8 of them. -/
abbrev pc30 : List (HloOp τ sig (Elt F)) :=
  [ StableHlo.nullary main_cst_171 (constant S_ .f32 0xBF800000#32),
    StableHlo.nullary main_cst_172 (constant S_ .f32 0x3F800000#32),
    StableHlo.TRef.unary (.of main_cst_171 : StableHlo.TRef sig ⟨S_, .f32⟩) main_call19.v0 id,
    StableHlo.TRef.unary main_call19.v0 main_call19.v1 (broadcastInDim S128 ![] bcast_S_S128),
    StableHlo.TRef.binary main_call19.v1 (.of main_v486 : StableHlo.TRef sig ⟨S128, .f32⟩) main_call19.v2 maximumf,
    StableHlo.TRef.unary (.of main_cst_172 : StableHlo.TRef sig ⟨S_, .f32⟩) main_call19.v3 id,
    StableHlo.TRef.unary main_call19.v3 main_call19.v4 (broadcastInDim S128 ![] bcast_S_S128),
    StableHlo.TRef.binary main_call19.v4 main_call19.v2 main_call19.v5 minimumf ]

abbrev pc30_W : List (Ref sig .tc) := [main_cst_171, main_cst_172, (main_call19.v0).ref, (main_call19.v1).ref, (main_call19.v2).ref, (main_call19.v3).ref, (main_call19.v4).ref, (main_call19.v5).ref]
theorem pc30_sub : (pc30 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub ..⟩
theorem pc30_writes : (pc30 : List (HloOp τ sig (Elt F))).Forall fun op => op.writes ⊆ (pc30_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc30_fresh : ∀ op ∈ (pc30 : List (HloOp τ sig (Elt F))), op.fresh = ∅ := by
  intro _ h; (repeat (cases h with | head => rfl | tail _ h => ?_)); exact nomatch h

/-- Operations of statements in printed window 11, reading window 20: 39 of them. -/
abbrev pc31 : List (HloOp τ sig (Elt F)) :=
  [ StableHlo.unary main_v12 main_v488 ((extractStridedSlice S128x8172 ![0, 0] · slices_S128x8192_S128x8172_0_0) : (⟨S128x8192, .f32⟩ : BufTy).Contents (Elt F) → (⟨S128x8172, .f32⟩ : BufTy).Contents (Elt F)),
    StableHlo.unary main_v12 main_v489 ((extractStridedSlice S128x8172 ![0, 20] · slices_S128x8192_S128x8172_0_20) : (⟨S128x8192, .f32⟩ : BufTy).Contents (Elt F) → (⟨S128x8172, .f32⟩ : BufTy).Contents (Elt F)),
    StableHlo.nullary main_cst_173 (constant S_ .f32 0x00000000#32),
    StableHlo.binary main_v488 main_cst_173 main_v490 ((fun x v => Host.reduceAdd x v reducesTo_S128x8172_S128_d1 h_S_) : (⟨S128x8172, .f32⟩ : BufTy).Contents (Elt F) → (⟨S_, .f32⟩ : BufTy).Contents (Elt F) → (⟨S128, .f32⟩ : BufTy).Contents (Elt F)),
    StableHlo.unary main_v490 main_v491 (broadcastInDim S128x1 ![0] bcast_S128_S128x1_0 : (⟨S128, .f32⟩ : BufTy).Contents (Elt F) → (⟨S128x1, .f32⟩ : BufTy).Contents (Elt F)),
    StableHlo.nullary main_cst_174 (constant S_ .f32 0x45FF6000#32),
    StableHlo.unary main_cst_174 main_v492 (broadcastInDim S128x1 ![] bcast_S_S128x1 : (⟨S_, .f32⟩ : BufTy).Contents (Elt F) → (⟨S128x1, .f32⟩ : BufTy).Contents (Elt F)),
    StableHlo.binary main_v491 main_v492 main_v493 (Host.divf : (⟨S128x1, .f32⟩ : BufTy).Contents (Elt F) → (⟨S128x1, .f32⟩ : BufTy).Contents (Elt F) → (⟨S128x1, .f32⟩ : BufTy).Contents (Elt F)),
    StableHlo.unary main_v493 main_v494 (broadcastInDim S128x8172 ![0, 1] bcast_S128x1_S128x8172_0_1 : (⟨S128x1, .f32⟩ : BufTy).Contents (Elt F) → (⟨S128x8172, .f32⟩ : BufTy).Contents (Elt F)),
    StableHlo.binary main_v488 main_v494 main_v495 (subf : (⟨S128x8172, .f32⟩ : BufTy).Contents (Elt F) → (⟨S128x8172, .f32⟩ : BufTy).Contents (Elt F) → (⟨S128x8172, .f32⟩ : BufTy).Contents (Elt F)),
    StableHlo.nullary main_cst_175 (constant S_ .f32 0x00000000#32),
    StableHlo.binary main_v489 main_cst_175 main_v496 ((fun x v => Host.reduceAdd x v reducesTo_S128x8172_S128_d1 h_S_) : (⟨S128x8172, .f32⟩ : BufTy).Contents (Elt F) → (⟨S_, .f32⟩ : BufTy).Contents (Elt F) → (⟨S128, .f32⟩ : BufTy).Contents (Elt F)),
    StableHlo.unary main_v496 main_v497 (broadcastInDim S128x1 ![0] bcast_S128_S128x1_0 : (⟨S128, .f32⟩ : BufTy).Contents (Elt F) → (⟨S128x1, .f32⟩ : BufTy).Contents (Elt F)),
    StableHlo.nullary main_cst_176 (constant S_ .f32 0x45FF6000#32),
    StableHlo.unary main_cst_176 main_v498 (broadcastInDim S128x1 ![] bcast_S_S128x1 : (⟨S_, .f32⟩ : BufTy).Contents (Elt F) → (⟨S128x1, .f32⟩ : BufTy).Contents (Elt F)),
    StableHlo.binary main_v497 main_v498 main_v499 (Host.divf : (⟨S128x1, .f32⟩ : BufTy).Contents (Elt F) → (⟨S128x1, .f32⟩ : BufTy).Contents (Elt F) → (⟨S128x1, .f32⟩ : BufTy).Contents (Elt F)),
    StableHlo.unary main_v499 main_v500 (broadcastInDim S128x8172 ![0, 1] bcast_S128x1_S128x8172_0_1 : (⟨S128x1, .f32⟩ : BufTy).Contents (Elt F) → (⟨S128x8172, .f32⟩ : BufTy).Contents (Elt F)),
    StableHlo.binary main_v489 main_v500 main_v501 (subf : (⟨S128x8172, .f32⟩ : BufTy).Contents (Elt F) → (⟨S128x8172, .f32⟩ : BufTy).Contents (Elt F) → (⟨S128x8172, .f32⟩ : BufTy).Contents (Elt F)),
    StableHlo.binary main_v495 main_v501 main_v502 (mulf : (⟨S128x8172, .f32⟩ : BufTy).Contents (Elt F) → (⟨S128x8172, .f32⟩ : BufTy).Contents (Elt F) → (⟨S128x8172, .f32⟩ : BufTy).Contents (Elt F)),
    StableHlo.nullary main_cst_177 (constant S_ .f32 0x00000000#32),
    StableHlo.binary main_v502 main_cst_177 main_v503 ((fun x v => Host.reduceAdd x v reducesTo_S128x8172_S128_d1 h_S_) : (⟨S128x8172, .f32⟩ : BufTy).Contents (Elt F) → (⟨S_, .f32⟩ : BufTy).Contents (Elt F) → (⟨S128, .f32⟩ : BufTy).Contents (Elt F)),
    StableHlo.binary main_v495 main_v495 main_v504 (mulf : (⟨S128x8172, .f32⟩ : BufTy).Contents (Elt F) → (⟨S128x8172, .f32⟩ : BufTy).Contents (Elt F) → (⟨S128x8172, .f32⟩ : BufTy).Contents (Elt F)),
    StableHlo.nullary main_cst_178 (constant S_ .f32 0x00000000#32),
    StableHlo.binary main_v504 main_cst_178 main_v505 ((fun x v => Host.reduceAdd x v reducesTo_S128x8172_S128_d1 h_S_) : (⟨S128x8172, .f32⟩ : BufTy).Contents (Elt F) → (⟨S_, .f32⟩ : BufTy).Contents (Elt F) → (⟨S128, .f32⟩ : BufTy).Contents (Elt F)),
    StableHlo.unary main_v505 main_v506 (Host.sqrt : (⟨S128, .f32⟩ : BufTy).Contents (Elt F) → (⟨S128, .f32⟩ : BufTy).Contents (Elt F)),
    StableHlo.binary main_v501 main_v501 main_v507 (mulf : (⟨S128x8172, .f32⟩ : BufTy).Contents (Elt F) → (⟨S128x8172, .f32⟩ : BufTy).Contents (Elt F) → (⟨S128x8172, .f32⟩ : BufTy).Contents (Elt F)),
    StableHlo.nullary main_cst_179 (constant S_ .f32 0x00000000#32),
    StableHlo.binary main_v507 main_cst_179 main_v508 ((fun x v => Host.reduceAdd x v reducesTo_S128x8172_S128_d1 h_S_) : (⟨S128x8172, .f32⟩ : BufTy).Contents (Elt F) → (⟨S_, .f32⟩ : BufTy).Contents (Elt F) → (⟨S128, .f32⟩ : BufTy).Contents (Elt F)),
    StableHlo.unary main_v508 main_v509 (Host.sqrt : (⟨S128, .f32⟩ : BufTy).Contents (Elt F) → (⟨S128, .f32⟩ : BufTy).Contents (Elt F)),
    StableHlo.binary main_v506 main_v509 main_v510 (mulf : (⟨S128, .f32⟩ : BufTy).Contents (Elt F) → (⟨S128, .f32⟩ : BufTy).Contents (Elt F) → (⟨S128, .f32⟩ : BufTy).Contents (Elt F)),
    StableHlo.binary main_v503 main_v510 main_v511 (Host.divf : (⟨S128, .f32⟩ : BufTy).Contents (Elt F) → (⟨S128, .f32⟩ : BufTy).Contents (Elt F) → (⟨S128, .f32⟩ : BufTy).Contents (Elt F)),
    StableHlo.nullary main_cst_180 (constant S_ .f32 0xBF800000#32),
    StableHlo.nullary main_cst_181 (constant S_ .f32 0x3F800000#32),
    StableHlo.TRef.unary (.of main_cst_180 : StableHlo.TRef sig ⟨S_, .f32⟩) main_call20.v0 id,
    StableHlo.TRef.unary main_call20.v0 main_call20.v1 (broadcastInDim S128 ![] bcast_S_S128),
    StableHlo.TRef.binary main_call20.v1 (.of main_v511 : StableHlo.TRef sig ⟨S128, .f32⟩) main_call20.v2 maximumf,
    StableHlo.TRef.unary (.of main_cst_181 : StableHlo.TRef sig ⟨S_, .f32⟩) main_call20.v3 id,
    StableHlo.TRef.unary main_call20.v3 main_call20.v4 (broadcastInDim S128 ![] bcast_S_S128),
    StableHlo.TRef.binary main_call20.v4 main_call20.v2 main_call20.v5 minimumf ]

abbrev pc31_W : List (Ref sig .tc) := [main_v488, main_v489, main_cst_173, main_v490, main_v491, main_cst_174, main_v492, main_v493, main_v494, main_v495, main_cst_175, main_v496, main_v497, main_cst_176, main_v498, main_v499, main_v500, main_v501, main_v502, main_cst_177, main_v503, main_v504, main_cst_178, main_v505, main_v506, main_v507, main_cst_179, main_v508, main_v509, main_v510, main_v511, main_cst_180, main_cst_181, (main_call20.v0).ref, (main_call20.v1).ref, (main_call20.v2).ref, (main_call20.v3).ref, (main_call20.v4).ref, (main_call20.v5).ref]
theorem pc31_sub : (pc31 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc31_writes : (pc31 : List (HloOp τ sig (Elt F))).Forall fun op => op.writes ⊆ (pc31_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc31_fresh : ∀ op ∈ (pc31 : List (HloOp τ sig (Elt F))), op.fresh = ∅ := by
  intro _ h; (repeat (cases h with | head => rfl | tail _ h => ?_)); exact nomatch h

end Cert.ReferenceIdeal.HandRun

end
-- ==== Proof.RefT8.lean ====
import proofs.«130460_j34522947125965_1_alg».proof.ReferenceIdeal
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations of statements in printed window 11, reading window 21: 23 of them. -/
abbrev pc32 : List (HloOp τ sig (Elt F)) :=
  [ StableHlo.unary main_v12 main_v513 ((extractStridedSlice S128x8171 ![0, 0] · slices_S128x8192_S128x8171_0_0) : (⟨S128x8192, .f32⟩ : BufTy).Contents (Elt F) → (⟨S128x8171, .f32⟩ : BufTy).Contents (Elt F)),
    StableHlo.unary main_v12 main_v514 ((extractStridedSlice S128x8171 ![0, 21] · slices_S128x8192_S128x8171_0_21) : (⟨S128x8192, .f32⟩ : BufTy).Contents (Elt F) → (⟨S128x8171, .f32⟩ : BufTy).Contents (Elt F)),
    StableHlo.nullary main_cst_182 (constant S_ .f32 0x00000000#32),
    StableHlo.binary main_v513 main_cst_182 main_v515 ((fun x v => Host.reduceAdd x v reducesTo_S128x8171_S128_d1 h_S_) : (⟨S128x8171, .f32⟩ : BufTy).Contents (Elt F) → (⟨S_, .f32⟩ : BufTy).Contents (Elt F) → (⟨S128, .f32⟩ : BufTy).Contents (Elt F)),
    StableHlo.unary main_v515 main_v516 (broadcastInDim S128x1 ![0] bcast_S128_S128x1_0 : (⟨S128, .f32⟩ : BufTy).Contents (Elt F) → (⟨S128x1, .f32⟩ : BufTy).Contents (Elt F)),
    StableHlo.nullary main_cst_183 (constant S_ .f32 0x45FF5800#32),
    StableHlo.unary main_cst_183 main_v517 (broadcastInDim S128x1 ![] bcast_S_S128x1 : (⟨S_, .f32⟩ : BufTy).Contents (Elt F) → (⟨S128x1, .f32⟩ : BufTy).Contents (Elt F)),
    StableHlo.binary main_v516 main_v517 main_v518 (Host.divf : (⟨S128x1, .f32⟩ : BufTy).Contents (Elt F) → (⟨S128x1, .f32⟩ : BufTy).Contents (Elt F) → (⟨S128x1, .f32⟩ : BufTy).Contents (Elt F)),
    StableHlo.unary main_v518 main_v519 (broadcastInDim S128x8171 ![0, 1] bcast_S128x1_S128x8171_0_1 : (⟨S128x1, .f32⟩ : BufTy).Contents (Elt F) → (⟨S128x8171, .f32⟩ : BufTy).Contents (Elt F)),
    StableHlo.binary main_v513 main_v519 main_v520 (subf : (⟨S128x8171, .f32⟩ : BufTy).Contents (Elt F) → (⟨S128x8171, .f32⟩ : BufTy).Contents (Elt F) → (⟨S128x8171, .f32⟩ : BufTy).Contents (Elt F)),
    StableHlo.nullary main_cst_184 (constant S_ .f32 0x00000000#32),
    StableHlo.binary main_v514 main_cst_184 main_v521 ((fun x v => Host.reduceAdd x v reducesTo_S128x8171_S128_d1 h_S_) : (⟨S128x8171, .f32⟩ : BufTy).Contents (Elt F) → (⟨S_, .f32⟩ : BufTy).Contents (Elt F) → (⟨S128, .f32⟩ : BufTy).Contents (Elt F)),
    StableHlo.unary main_v521 main_v522 (broadcastInDim S128x1 ![0] bcast_S128_S128x1_0 : (⟨S128, .f32⟩ : BufTy).Contents (Elt F) → (⟨S128x1, .f32⟩ : BufTy).Contents (Elt F)),
    StableHlo.nullary main_cst_185 (constant S_ .f32 0x45FF5800#32),
    StableHlo.unary main_cst_185 main_v523 (broadcastInDim S128x1 ![] bcast_S_S128x1 : (⟨S_, .f32⟩ : BufTy).Contents (Elt F) → (⟨S128x1, .f32⟩ : BufTy).Contents (Elt F)),
    StableHlo.binary main_v522 main_v523 main_v524 (Host.divf : (⟨S128x1, .f32⟩ : BufTy).Contents (Elt F) → (⟨S128x1, .f32⟩ : BufTy).Contents (Elt F) → (⟨S128x1, .f32⟩ : BufTy).Contents (Elt F)),
    StableHlo.unary main_v524 main_v525 (broadcastInDim S128x8171 ![0, 1] bcast_S128x1_S128x8171_0_1 : (⟨S128x1, .f32⟩ : BufTy).Contents (Elt F) → (⟨S128x8171, .f32⟩ : BufTy).Contents (Elt F)),
    StableHlo.binary main_v514 main_v525 main_v526 (subf : (⟨S128x8171, .f32⟩ : BufTy).Contents (Elt F) → (⟨S128x8171, .f32⟩ : BufTy).Contents (Elt F) → (⟨S128x8171, .f32⟩ : BufTy).Contents (Elt F)),
    StableHlo.binary main_v520 main_v526 main_v527 (mulf : (⟨S128x8171, .f32⟩ : BufTy).Contents (Elt F) → (⟨S128x8171, .f32⟩ : BufTy).Contents (Elt F) → (⟨S128x8171, .f32⟩ : BufTy).Contents (Elt F)),
    StableHlo.nullary main_cst_186 (constant S_ .f32 0x00000000#32),
    StableHlo.binary main_v527 main_cst_186 main_v528 ((fun x v => Host.reduceAdd x v reducesTo_S128x8171_S128_d1 h_S_) : (⟨S128x8171, .f32⟩ : BufTy).Contents (Elt F) → (⟨S_, .f32⟩ : BufTy).Contents (Elt F) → (⟨S128, .f32⟩ : BufTy).Contents (Elt F)),
    StableHlo.binary main_v520 main_v520 main_v529 (mulf : (⟨S128x8171, .f32⟩ : BufTy).Contents (Elt F) → (⟨S128x8171, .f32⟩ : BufTy).Contents (Elt F) → (⟨S128x8171, .f32⟩ : BufTy).Contents (Elt F)),
    StableHlo.nullary main_cst_187 (constant S_ .f32 0x00000000#32) ]

abbrev pc32_W : List (Ref sig .tc) := [main_v513, main_v514, main_cst_182, main_v515, main_v516, main_cst_183, main_v517, main_v518, main_v519, main_v520, main_cst_184, main_v521, main_v522, main_cst_185, main_v523, main_v524, main_v525, main_v526, main_v527, main_cst_186, main_v528, main_v529, main_cst_187]
theorem pc32_sub : (pc32 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub ..⟩
theorem pc32_writes : (pc32 : List (HloOp τ sig (Elt F))).Forall fun op => op.writes ⊆ (pc32_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc32_fresh : ∀ op ∈ (pc32 : List (HloOp τ sig (Elt F))), op.fresh = ∅ := by
  intro _ h; (repeat (cases h with | head => rfl | tail _ h => ?_)); exact nomatch h

/-- Operations of statements in printed window 12, reading window 21: 16 of them. -/
abbrev pc33 : List (HloOp τ sig (Elt F)) :=
  [ StableHlo.binary main_v529 main_cst_187 main_v530 ((fun x v => Host.reduceAdd x v reducesTo_S128x8171_S128_d1 h_S_) : (⟨S128x8171, .f32⟩ : BufTy).Contents (Elt F) → (⟨S_, .f32⟩ : BufTy).Contents (Elt F) → (⟨S128, .f32⟩ : BufTy).Contents (Elt F)),
    StableHlo.unary main_v530 main_v531 (Host.sqrt : (⟨S128, .f32⟩ : BufTy).Contents (Elt F) → (⟨S128, .f32⟩ : BufTy).Contents (Elt F)),
    StableHlo.binary main_v526 main_v526 main_v532 (mulf : (⟨S128x8171, .f32⟩ : BufTy).Contents (Elt F) → (⟨S128x8171, .f32⟩ : BufTy).Contents (Elt F) → (⟨S128x8171, .f32⟩ : BufTy).Contents (Elt F)),
    StableHlo.nullary main_cst_188 (constant S_ .f32 0x00000000#32),
    StableHlo.binary main_v532 main_cst_188 main_v533 ((fun x v => Host.reduceAdd x v reducesTo_S128x8171_S128_d1 h_S_) : (⟨S128x8171, .f32⟩ : BufTy).Contents (Elt F) → (⟨S_, .f32⟩ : BufTy).Contents (Elt F) → (⟨S128, .f32⟩ : BufTy).Contents (Elt F)),
    StableHlo.unary main_v533 main_v534 (Host.sqrt : (⟨S128, .f32⟩ : BufTy).Contents (Elt F) → (⟨S128, .f32⟩ : BufTy).Contents (Elt F)),
    StableHlo.binary main_v531 main_v534 main_v535 (mulf : (⟨S128, .f32⟩ : BufTy).Contents (Elt F) → (⟨S128, .f32⟩ : BufTy).Contents (Elt F) → (⟨S128, .f32⟩ : BufTy).Contents (Elt F)),
    StableHlo.binary main_v528 main_v535 main_v536 (Host.divf : (⟨S128, .f32⟩ : BufTy).Contents (Elt F) → (⟨S128, .f32⟩ : BufTy).Contents (Elt F) → (⟨S128, .f32⟩ : BufTy).Contents (Elt F)),
    StableHlo.nullary main_cst_189 (constant S_ .f32 0xBF800000#32),
    StableHlo.nullary main_cst_190 (constant S_ .f32 0x3F800000#32),
    StableHlo.TRef.unary (.of main_cst_189 : StableHlo.TRef sig ⟨S_, .f32⟩) main_call21.v0 id,
    StableHlo.TRef.unary main_call21.v0 main_call21.v1 (broadcastInDim S128 ![] bcast_S_S128),
    StableHlo.TRef.binary main_call21.v1 (.of main_v536 : StableHlo.TRef sig ⟨S128, .f32⟩) main_call21.v2 maximumf,
    StableHlo.TRef.unary (.of main_cst_190 : StableHlo.TRef sig ⟨S_, .f32⟩) main_call21.v3 id,
    StableHlo.TRef.unary main_call21.v3 main_call21.v4 (broadcastInDim S128 ![] bcast_S_S128),
    StableHlo.TRef.binary main_call21.v4 main_call21.v2 main_call21.v5 minimumf ]

abbrev pc33_W : List (Ref sig .tc) := [main_v530, main_v531, main_v532, main_cst_188, main_v533, main_v534, main_v535, main_v536, main_cst_189, main_cst_190, (main_call21.v0).ref, (main_call21.v1).ref, (main_call21.v2).ref, (main_call21.v3).ref, (main_call21.v4).ref, (main_call21.v5).ref]
theorem pc33_sub : (pc33 : List (HloOp τ sig (Elt F))).Forall fun op => op.bufs ⊆ tcRefs τ sig :=
  ⟨binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc33_writes : (pc33 : List (HloOp τ sig (Elt F))).Forall fun op => op.writes ⊆ (pc33_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc33_fresh : ∀ op ∈ (pc33 : List (HloOp τ sig (Elt F))), op.fresh = ∅ := by
  intro _ h; (repeat (cases h with | head => rfl | tail _ h => ?_)); exact nomatch h

/-- Operations of statements in printed window 12, reading window 22: 39 of them. -/
abbrev pc34 : List (HloOp τ sig (Elt F)) :=
  [ StableHlo.unary main_v12 main_v538 ((extractStridedSlice S128x8170 ![0, 0] · slices_S128x8192_S128x8170_0_0) : (⟨S128x8192, .f32⟩ : BufTy).Contents (Elt F) → (⟨S128x8170, .f32⟩ : BufTy).Contents (Elt F)),
    StableHlo.unary main_v12 main_v539 ((extractStridedSlice S128x8170 ![0, 22] · slices_S128x8192_S128x8170_0_22) : (⟨S128x8192, .f32⟩ : BufTy).Contents (Elt F) → (⟨S128x8170, .f32⟩ : BufTy).Contents (Elt F)),
    StableHlo.nullary main_cst_191 (constant S_ .f32 0x00000000#32),
    StableHlo.binary main_v538 main_cst_191 main_v540 ((fun x v => Host.reduceAdd x v reducesTo_S128x8170_S128_d1 h_S_) : (⟨S128x8170, .f32⟩ : BufTy).Contents (Elt F) → (⟨S_, .f32⟩ : BufTy).Contents (Elt F) → (⟨S128, .f32⟩ : BufTy).Contents (Elt F)),
    StableHlo.unary main_v540 main_v541 (broadcastInDim S128x1 ![0] bcast_S128_S128x1_0 : (⟨S128, .f32⟩ : BufTy).Contents (Elt F) → (⟨S128x1, .f32⟩ : BufTy).Contents (Elt F)),
    StableHlo.nullary main_cst_192 (constant S_ .f32 0x45FF5000#32),
    StableHlo.unary main_cst_192 main_v542 (broadcastInDim S128x1 ![] bcast_S_S128x1 : (⟨S_, .f32⟩ : BufTy).Contents (Elt F) → (⟨S128x1, .f32⟩ : BufTy).Contents (Elt F)),
    StableHlo.binary main_v541 main_v542 main_v543 (Host.divf : (⟨S128x1, .f32⟩ : BufTy).Contents (Elt F) → (⟨S128x1, .f32⟩ : BufTy).Contents (Elt F) → (⟨S128x1, .f32⟩ : BufTy).Contents (Elt F)),
    StableHlo.unary main_v543 main_v544 (broadcastInDim S128x8170 ![0, 1] bcast_S128x1_S128x8170_0_1 : (⟨S128x1, .f32⟩ : BufTy).Contents (Elt F) → (⟨S128x8170, .f32⟩ : BufTy).Contents (Elt F)),
    StableHlo.binary main_v538 main_v544 main_v545 (subf : (⟨S128x8170, .f32⟩ : BufTy).Contents (Elt F) → (⟨S128x8170, .f32⟩ : BufTy).Contents (Elt F) → (⟨S128x8170, .f32⟩ : BufTy).Contents (Elt F)),
    StableHlo.nullary main_cst_193 (constant S_ .f32 0x00000000#32),
    StableHlo.binary main_v539 main_cst_193 main_v546 ((fun x v => Host.reduceAdd x v reducesTo_S128x8170_S128_d1 h_S_) : (⟨S128x8170, .f32⟩ : BufTy).Contents (Elt F) → (⟨S_, .f32⟩ : BufTy).Contents (Elt F) → (⟨S128, .f32⟩ : BufTy).Contents (Elt F)),
    StableHlo.unary main_v546 main_v547 (broadcastInDim S128x1 ![0] bcast_S128_S128x1_0 : (⟨S128, .f32⟩ : BufTy).Contents (Elt F) → (⟨S128x1, .f32⟩ : BufTy).Contents (Elt F)),
    StableHlo.nullary main_cst_194 (constant S_ .f32 0x45FF5000#32),
    StableHlo.unary main_cst_194 main_v548 (broadcastInDim S128x1 ![] bcast_S_S128x1 : (⟨S_, .f32⟩ : BufTy).Contents (Elt F) → (⟨S128x1, .f32⟩ : BufTy).Contents (Elt F)),
    StableHlo.binary main_v547 main_v548 main_v549 (Host.divf : (⟨S128x1, .f32⟩ : BufTy).Contents (Elt F) → (⟨S128x1, .f32⟩ : BufTy).Contents (Elt F) → (⟨S128x1, .f32⟩ : BufTy).Contents (Elt F)),
    StableHlo.unary main_v549 main_v550 (broadcastInDim S128x8170 ![0, 1] bcast_S128x1_S128x8170_0_1 : (⟨S128x1, .f32⟩ : BufTy).Contents (Elt F) → (⟨S128x8170, .f32⟩ : BufTy).Contents (Elt F)),
    StableHlo.binary main_v539 main_v550 main_v551 (subf : (⟨S128x8170, .f32⟩ : BufTy).Contents (Elt F) → (⟨S128x8170, .f32⟩ : BufTy).Contents (Elt F) → (⟨S128x8170, .f32⟩ : BufTy).Contents (Elt F)),
    StableHlo.binary main_v545 main_v551 main_v552 (mulf : (⟨S128x8170, .f32⟩ : BufTy).Contents (Elt F) → (⟨S128x8170, .f32⟩ : BufTy).Contents (Elt F) → (⟨S128x8170, .f32⟩ : BufTy).Contents (Elt F)),
    StableHlo.nullary main_cst_195 (constant S_ .f32 0x00000000#32),
    StableHlo.binary main_v552 main_cst_195 main_v553 ((fun x v => Host.reduceAdd x v reducesTo_S128x8170_S128_d1 h_S_) : (⟨S128x8170, .f32⟩ : BufTy).Contents (Elt F) → (⟨S_, .f32⟩ : BufTy).Contents (Elt F) → (⟨S128, .f32⟩ : BufTy).Contents (Elt F)),
    StableHlo.binary main_v545 main_v545 main_v554 (mulf : (⟨S128x8170, .f32⟩ : BufTy).Contents (Elt F) → (⟨S128x8170, .f32⟩ : BufTy).Contents (Elt F) → (⟨S128x8170, .f32⟩ : BufTy).Contents (Elt F)),
    StableHlo.nullary main_cst_196 (constant S_ .f32 0x00000000#32),
    StableHlo.binary main_v554 main_cst_196 main_v555 ((fun x v => Host.reduceAdd x v reducesTo_S128x8170_S128_d1 h_S_) : (⟨S128x8170, .f32⟩ : BufTy).Contents (Elt F) → (⟨S_, .f32⟩ : BufTy).Contents (Elt F) → (⟨S128, .f32⟩ : BufTy).Contents (Elt F)),
    StableHlo.unary main_v555 main_v556 (Host.sqrt : (⟨S128, .f32⟩ : BufTy).Contents (Elt F) → (⟨S128, .f32⟩ : BufTy).Contents (Elt F)),
    StableHlo.binary main_v551 main_v551 main_v557 (mulf : (⟨S128x8170, .f32⟩ : BufTy).Contents (Elt F) → (⟨S128x8170, .f32⟩ : BufTy).Contents (Elt F) → (⟨S128x8170, .f32⟩ : BufTy).Contents (Elt F)),
    StableHlo.nullary main_cst_197 (constant S_ .f32 0x00000000#32),
    StableHlo.binary main_v557 main_cst_197 main_v558 ((fun x v => Host.reduceAdd x v reducesTo_S128x8170_S128_d1 h_S_) : (⟨S128x8170, .f32⟩ : BufTy).Contents (Elt F) → (⟨S_, .f32⟩ : BufTy).Contents (Elt F) → (⟨S128, .f32⟩ : BufTy).Contents (Elt F)),
    StableHlo.unary main_v558 main_v559 (Host.sqrt : (⟨S128, .f32⟩ : BufTy).Contents (Elt F) → (⟨S128, .f32⟩ : BufTy).Contents (Elt F)),
    StableHlo.binary main_v556 main_v559 main_v560 (mulf : (⟨S128, .f32⟩ : BufTy).Contents (Elt F) → (⟨S128, .f32⟩ : BufTy).Contents (Elt F) → (⟨S128, .f32⟩ : BufTy).Contents (Elt F)),
    StableHlo.binary main_v553 main_v560 main_v561 (Host.divf : (⟨S128, .f32⟩ : BufTy).Contents (Elt F) → (⟨S128, .f32⟩ : BufTy).Contents (Elt F) → (⟨S128, .f32⟩ : BufTy).Contents (Elt F)),
    StableHlo.nullary main_cst_198 (constant S_ .f32 0xBF800000#32),
    StableHlo.nullary main_cst_199 (constant S_ .f32 0x3F800000#32),
    StableHlo.TRef.unary (.of main_cst_198 : StableHlo.TRef sig ⟨S_, .f32⟩) main_call22.v0 id,
    StableHlo.TRef.unary main_call22.v0 main_call22.v1 (broadcastInDim S128 ![] bcast_S_S128),
    StableHlo.TRef.binary main_call22.v1 (.of main_v561 : StableHlo.TRef sig ⟨S128, .f32⟩) main_call22.v2 maximumf,
    StableHlo.TRef.unary (.of main_cst_199 : StableHlo.TRef sig ⟨S_, .f32⟩) main_call22.v3 id,
    StableHlo.TRef.unary main_call22.v3 main_call22.v4 (broadcastInDim S128 ![] bcast_S_S128),
    StableHlo.TRef.binary main_call22.v4 main_call22.v2 main_call22.v5 minimumf ]

abbrev pc34_W : List (Ref sig .tc) := [main_v538, main_v539, main_cst_191, main_v540, main_v541, main_cst_192, main_v542, main_v543, main_v544, main_v545, main_cst_193, main_v546, main_v547, main_cst_194, main_v548, main_v549, main_v550, main_v551, main_v552, main_cst_195, main_v553, main_v554, main_cst_196, main_v555, main_v556, main_v557, main_cst_197, main_v558, main_v559, main_v560, main_v561, main_cst_198, main_cst_199, (main_call22.v0).ref, (main_call22.v1).ref, (main_call22.v2).ref, (main_call22.v3).ref, (main_call22.v4).ref, (main_call22.v5).ref]
theorem pc34_sub : (pc34 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc34_writes : (pc34 : List (HloOp τ sig (Elt F))).Forall fun op => op.writes ⊆ (pc34_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc34_fresh : ∀ op ∈ (pc34 : List (HloOp τ sig (Elt F))), op.fresh = ∅ := by
  intro _ h; (repeat (cases h with | head => rfl | tail _ h => ?_)); exact nomatch h

/-- Operations of statements in printed window 12, reading window 23: 15 of them. -/
abbrev pc35 : List (HloOp τ sig (Elt F)) :=
  [ StableHlo.unary main_v12 main_v563 ((extractStridedSlice S128x8169 ![0, 0] · slices_S128x8192_S128x8169_0_0) : (⟨S128x8192, .f32⟩ : BufTy).Contents (Elt F) → (⟨S128x8169, .f32⟩ : BufTy).Contents (Elt F)),
    StableHlo.unary main_v12 main_v564 ((extractStridedSlice S128x8169 ![0, 23] · slices_S128x8192_S128x8169_0_23) : (⟨S128x8192, .f32⟩ : BufTy).Contents (Elt F) → (⟨S128x8169, .f32⟩ : BufTy).Contents (Elt F)),
    StableHlo.nullary main_cst_200 (constant S_ .f32 0x00000000#32),
    StableHlo.binary main_v563 main_cst_200 main_v565 ((fun x v => Host.reduceAdd x v reducesTo_S128x8169_S128_d1 h_S_) : (⟨S128x8169, .f32⟩ : BufTy).Contents (Elt F) → (⟨S_, .f32⟩ : BufTy).Contents (Elt F) → (⟨S128, .f32⟩ : BufTy).Contents (Elt F)),
    StableHlo.unary main_v565 main_v566 (broadcastInDim S128x1 ![0] bcast_S128_S128x1_0 : (⟨S128, .f32⟩ : BufTy).Contents (Elt F) → (⟨S128x1, .f32⟩ : BufTy).Contents (Elt F)),
    StableHlo.nullary main_cst_201 (constant S_ .f32 0x45FF4800#32),
    StableHlo.unary main_cst_201 main_v567 (broadcastInDim S128x1 ![] bcast_S_S128x1 : (⟨S_, .f32⟩ : BufTy).Contents (Elt F) → (⟨S128x1, .f32⟩ : BufTy).Contents (Elt F)),
    StableHlo.binary main_v566 main_v567 main_v568 (Host.divf : (⟨S128x1, .f32⟩ : BufTy).Contents (Elt F) → (⟨S128x1, .f32⟩ : BufTy).Contents (Elt F) → (⟨S128x1, .f32⟩ : BufTy).Contents (Elt F)),
    StableHlo.unary main_v568 main_v569 (broadcastInDim S128x8169 ![0, 1] bcast_S128x1_S128x8169_0_1 : (⟨S128x1, .f32⟩ : BufTy).Contents (Elt F) → (⟨S128x8169, .f32⟩ : BufTy).Contents (Elt F)),
    StableHlo.binary main_v563 main_v569 main_v570 (subf : (⟨S128x8169, .f32⟩ : BufTy).Contents (Elt F) → (⟨S128x8169, .f32⟩ : BufTy).Contents (Elt F) → (⟨S128x8169, .f32⟩ : BufTy).Contents (Elt F)),
    StableHlo.nullary main_cst_202 (constant S_ .f32 0x00000000#32),
    StableHlo.binary main_v564 main_cst_202 main_v571 ((fun x v => Host.reduceAdd x v reducesTo_S128x8169_S128_d1 h_S_) : (⟨S128x8169, .f32⟩ : BufTy).Contents (Elt F) → (⟨S_, .f32⟩ : BufTy).Contents (Elt F) → (⟨S128, .f32⟩ : BufTy).Contents (Elt F)),
    StableHlo.unary main_v571 main_v572 (broadcastInDim S128x1 ![0] bcast_S128_S128x1_0 : (⟨S128, .f32⟩ : BufTy).Contents (Elt F) → (⟨S128x1, .f32⟩ : BufTy).Contents (Elt F)),
    StableHlo.nullary main_cst_203 (constant S_ .f32 0x45FF4800#32),
    StableHlo.unary main_cst_203 main_v573 (broadcastInDim S128x1 ![] bcast_S_S128x1 : (⟨S_, .f32⟩ : BufTy).Contents (Elt F) → (⟨S128x1, .f32⟩ : BufTy).Contents (Elt F)) ]

abbrev pc35_W : List (Ref sig .tc) := [main_v563, main_v564, main_cst_200, main_v565, main_v566, main_cst_201, main_v567, main_v568, main_v569, main_v570, main_cst_202, main_v571, main_v572, main_cst_203, main_v573]
theorem pc35_sub : (pc35 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub ..⟩
theorem pc35_writes : (pc35 : List (HloOp τ sig (Elt F))).Forall fun op => op.writes ⊆ (pc35_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc35_fresh : ∀ op ∈ (pc35 : List (HloOp τ sig (Elt F))), op.fresh = ∅ := by
  intro _ h; (repeat (cases h with | head => rfl | tail _ h => ?_)); exact nomatch h

end Cert.ReferenceIdeal.HandRun

end
-- ==== Proof.RefT9.lean ====
import proofs.«130460_j34522947125965_1_alg».proof.ReferenceIdeal
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- Operations of statements in printed window 13, reading window 23: 24 of them. -/
abbrev pc36 : List (HloOp τ sig (Elt F)) :=
  [ StableHlo.binary main_v572 main_v573 main_v574 (Host.divf : (⟨S128x1, .f32⟩ : BufTy).Contents (Elt F) → (⟨S128x1, .f32⟩ : BufTy).Contents (Elt F) → (⟨S128x1, .f32⟩ : BufTy).Contents (Elt F)),
    StableHlo.unary main_v574 main_v575 (broadcastInDim S128x8169 ![0, 1] bcast_S128x1_S128x8169_0_1 : (⟨S128x1, .f32⟩ : BufTy).Contents (Elt F) → (⟨S128x8169, .f32⟩ : BufTy).Contents (Elt F)),
    StableHlo.binary main_v564 main_v575 main_v576 (subf : (⟨S128x8169, .f32⟩ : BufTy).Contents (Elt F) → (⟨S128x8169, .f32⟩ : BufTy).Contents (Elt F) → (⟨S128x8169, .f32⟩ : BufTy).Contents (Elt F)),
    StableHlo.binary main_v570 main_v576 main_v577 (mulf : (⟨S128x8169, .f32⟩ : BufTy).Contents (Elt F) → (⟨S128x8169, .f32⟩ : BufTy).Contents (Elt F) → (⟨S128x8169, .f32⟩ : BufTy).Contents (Elt F)),
    StableHlo.nullary main_cst_204 (constant S_ .f32 0x00000000#32),
    StableHlo.binary main_v577 main_cst_204 main_v578 ((fun x v => Host.reduceAdd x v reducesTo_S128x8169_S128_d1 h_S_) : (⟨S128x8169, .f32⟩ : BufTy).Contents (Elt F) → (⟨S_, .f32⟩ : BufTy).Contents (Elt F) → (⟨S128, .f32⟩ : BufTy).Contents (Elt F)),
    StableHlo.binary main_v570 main_v570 main_v579 (mulf : (⟨S128x8169, .f32⟩ : BufTy).Contents (Elt F) → (⟨S128x8169, .f32⟩ : BufTy).Contents (Elt F) → (⟨S128x8169, .f32⟩ : BufTy).Contents (Elt F)),
    StableHlo.nullary main_cst_205 (constant S_ .f32 0x00000000#32),
    StableHlo.binary main_v579 main_cst_205 main_v580 ((fun x v => Host.reduceAdd x v reducesTo_S128x8169_S128_d1 h_S_) : (⟨S128x8169, .f32⟩ : BufTy).Contents (Elt F) → (⟨S_, .f32⟩ : BufTy).Contents (Elt F) → (⟨S128, .f32⟩ : BufTy).Contents (Elt F)),
    StableHlo.unary main_v580 main_v581 (Host.sqrt : (⟨S128, .f32⟩ : BufTy).Contents (Elt F) → (⟨S128, .f32⟩ : BufTy).Contents (Elt F)),
    StableHlo.binary main_v576 main_v576 main_v582 (mulf : (⟨S128x8169, .f32⟩ : BufTy).Contents (Elt F) → (⟨S128x8169, .f32⟩ : BufTy).Contents (Elt F) → (⟨S128x8169, .f32⟩ : BufTy).Contents (Elt F)),
    StableHlo.nullary main_cst_206 (constant S_ .f32 0x00000000#32),
    StableHlo.binary main_v582 main_cst_206 main_v583 ((fun x v => Host.reduceAdd x v reducesTo_S128x8169_S128_d1 h_S_) : (⟨S128x8169, .f32⟩ : BufTy).Contents (Elt F) → (⟨S_, .f32⟩ : BufTy).Contents (Elt F) → (⟨S128, .f32⟩ : BufTy).Contents (Elt F)),
    StableHlo.unary main_v583 main_v584 (Host.sqrt : (⟨S128, .f32⟩ : BufTy).Contents (Elt F) → (⟨S128, .f32⟩ : BufTy).Contents (Elt F)),
    StableHlo.binary main_v581 main_v584 main_v585 (mulf : (⟨S128, .f32⟩ : BufTy).Contents (Elt F) → (⟨S128, .f32⟩ : BufTy).Contents (Elt F) → (⟨S128, .f32⟩ : BufTy).Contents (Elt F)),
    StableHlo.binary main_v578 main_v585 main_v586 (Host.divf : (⟨S128, .f32⟩ : BufTy).Contents (Elt F) → (⟨S128, .f32⟩ : BufTy).Contents (Elt F) → (⟨S128, .f32⟩ : BufTy).Contents (Elt F)),
    StableHlo.nullary main_cst_207 (constant S_ .f32 0xBF800000#32),
    StableHlo.nullary main_cst_208 (constant S_ .f32 0x3F800000#32),
    StableHlo.TRef.unary (.of main_cst_207 : StableHlo.TRef sig ⟨S_, .f32⟩) main_call23.v0 id,
    StableHlo.TRef.unary main_call23.v0 main_call23.v1 (broadcastInDim S128 ![] bcast_S_S128),
    StableHlo.TRef.binary main_call23.v1 (.of main_v586 : StableHlo.TRef sig ⟨S128, .f32⟩) main_call23.v2 maximumf,
    StableHlo.TRef.unary (.of main_cst_208 : StableHlo.TRef sig ⟨S_, .f32⟩) main_call23.v3 id,
    StableHlo.TRef.unary main_call23.v3 main_call23.v4 (broadcastInDim S128 ![] bcast_S_S128),
    StableHlo.TRef.binary main_call23.v4 main_call23.v2 main_call23.v5 minimumf ]

abbrev pc36_W : List (Ref sig .tc) := [main_v574, main_v575, main_v576, main_v577, main_cst_204, main_v578, main_v579, main_cst_205, main_v580, main_v581, main_v582, main_cst_206, main_v583, main_v584, main_v585, main_v586, main_cst_207, main_cst_208, (main_call23.v0).ref, (main_call23.v1).ref, (main_call23.v2).ref, (main_call23.v3).ref, (main_call23.v4).ref, (main_call23.v5).ref]
theorem pc36_sub : (pc36 : List (HloOp τ sig (Elt F))).Forall fun op => op.bufs ⊆ tcRefs τ sig :=
  ⟨binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc36_writes : (pc36 : List (HloOp τ sig (Elt F))).Forall fun op => op.writes ⊆ (pc36_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc36_fresh : ∀ op ∈ (pc36 : List (HloOp τ sig (Elt F))), op.fresh = ∅ := by
  intro _ h; (repeat (cases h with | head => rfl | tail _ h => ?_)); exact nomatch h

/-- Operations of statements in printed window 13, reading window 24: 39 of them. -/
abbrev pc37 : List (HloOp τ sig (Elt F)) :=
  [ StableHlo.unary main_v12 main_v588 ((extractStridedSlice S128x8168 ![0, 0] · slices_S128x8192_S128x8168_0_0) : (⟨S128x8192, .f32⟩ : BufTy).Contents (Elt F) → (⟨S128x8168, .f32⟩ : BufTy).Contents (Elt F)),
    StableHlo.unary main_v12 main_v589 ((extractStridedSlice S128x8168 ![0, 24] · slices_S128x8192_S128x8168_0_24) : (⟨S128x8192, .f32⟩ : BufTy).Contents (Elt F) → (⟨S128x8168, .f32⟩ : BufTy).Contents (Elt F)),
    StableHlo.nullary main_cst_209 (constant S_ .f32 0x00000000#32),
    StableHlo.binary main_v588 main_cst_209 main_v590 ((fun x v => Host.reduceAdd x v reducesTo_S128x8168_S128_d1 h_S_) : (⟨S128x8168, .f32⟩ : BufTy).Contents (Elt F) → (⟨S_, .f32⟩ : BufTy).Contents (Elt F) → (⟨S128, .f32⟩ : BufTy).Contents (Elt F)),
    StableHlo.unary main_v590 main_v591 (broadcastInDim S128x1 ![0] bcast_S128_S128x1_0 : (⟨S128, .f32⟩ : BufTy).Contents (Elt F) → (⟨S128x1, .f32⟩ : BufTy).Contents (Elt F)),
    StableHlo.nullary main_cst_210 (constant S_ .f32 0x45FF4000#32),
    StableHlo.unary main_cst_210 main_v592 (broadcastInDim S128x1 ![] bcast_S_S128x1 : (⟨S_, .f32⟩ : BufTy).Contents (Elt F) → (⟨S128x1, .f32⟩ : BufTy).Contents (Elt F)),
    StableHlo.binary main_v591 main_v592 main_v593 (Host.divf : (⟨S128x1, .f32⟩ : BufTy).Contents (Elt F) → (⟨S128x1, .f32⟩ : BufTy).Contents (Elt F) → (⟨S128x1, .f32⟩ : BufTy).Contents (Elt F)),
    StableHlo.unary main_v593 main_v594 (broadcastInDim S128x8168 ![0, 1] bcast_S128x1_S128x8168_0_1 : (⟨S128x1, .f32⟩ : BufTy).Contents (Elt F) → (⟨S128x8168, .f32⟩ : BufTy).Contents (Elt F)),
    StableHlo.binary main_v588 main_v594 main_v595 (subf : (⟨S128x8168, .f32⟩ : BufTy).Contents (Elt F) → (⟨S128x8168, .f32⟩ : BufTy).Contents (Elt F) → (⟨S128x8168, .f32⟩ : BufTy).Contents (Elt F)),
    StableHlo.nullary main_cst_211 (constant S_ .f32 0x00000000#32),
    StableHlo.binary main_v589 main_cst_211 main_v596 ((fun x v => Host.reduceAdd x v reducesTo_S128x8168_S128_d1 h_S_) : (⟨S128x8168, .f32⟩ : BufTy).Contents (Elt F) → (⟨S_, .f32⟩ : BufTy).Contents (Elt F) → (⟨S128, .f32⟩ : BufTy).Contents (Elt F)),
    StableHlo.unary main_v596 main_v597 (broadcastInDim S128x1 ![0] bcast_S128_S128x1_0 : (⟨S128, .f32⟩ : BufTy).Contents (Elt F) → (⟨S128x1, .f32⟩ : BufTy).Contents (Elt F)),
    StableHlo.nullary main_cst_212 (constant S_ .f32 0x45FF4000#32),
    StableHlo.unary main_cst_212 main_v598 (broadcastInDim S128x1 ![] bcast_S_S128x1 : (⟨S_, .f32⟩ : BufTy).Contents (Elt F) → (⟨S128x1, .f32⟩ : BufTy).Contents (Elt F)),
    StableHlo.binary main_v597 main_v598 main_v599 (Host.divf : (⟨S128x1, .f32⟩ : BufTy).Contents (Elt F) → (⟨S128x1, .f32⟩ : BufTy).Contents (Elt F) → (⟨S128x1, .f32⟩ : BufTy).Contents (Elt F)),
    StableHlo.unary main_v599 main_v600 (broadcastInDim S128x8168 ![0, 1] bcast_S128x1_S128x8168_0_1 : (⟨S128x1, .f32⟩ : BufTy).Contents (Elt F) → (⟨S128x8168, .f32⟩ : BufTy).Contents (Elt F)),
    StableHlo.binary main_v589 main_v600 main_v601 (subf : (⟨S128x8168, .f32⟩ : BufTy).Contents (Elt F) → (⟨S128x8168, .f32⟩ : BufTy).Contents (Elt F) → (⟨S128x8168, .f32⟩ : BufTy).Contents (Elt F)),
    StableHlo.binary main_v595 main_v601 main_v602 (mulf : (⟨S128x8168, .f32⟩ : BufTy).Contents (Elt F) → (⟨S128x8168, .f32⟩ : BufTy).Contents (Elt F) → (⟨S128x8168, .f32⟩ : BufTy).Contents (Elt F)),
    StableHlo.nullary main_cst_213 (constant S_ .f32 0x00000000#32),
    StableHlo.binary main_v602 main_cst_213 main_v603 ((fun x v => Host.reduceAdd x v reducesTo_S128x8168_S128_d1 h_S_) : (⟨S128x8168, .f32⟩ : BufTy).Contents (Elt F) → (⟨S_, .f32⟩ : BufTy).Contents (Elt F) → (⟨S128, .f32⟩ : BufTy).Contents (Elt F)),
    StableHlo.binary main_v595 main_v595 main_v604 (mulf : (⟨S128x8168, .f32⟩ : BufTy).Contents (Elt F) → (⟨S128x8168, .f32⟩ : BufTy).Contents (Elt F) → (⟨S128x8168, .f32⟩ : BufTy).Contents (Elt F)),
    StableHlo.nullary main_cst_214 (constant S_ .f32 0x00000000#32),
    StableHlo.binary main_v604 main_cst_214 main_v605 ((fun x v => Host.reduceAdd x v reducesTo_S128x8168_S128_d1 h_S_) : (⟨S128x8168, .f32⟩ : BufTy).Contents (Elt F) → (⟨S_, .f32⟩ : BufTy).Contents (Elt F) → (⟨S128, .f32⟩ : BufTy).Contents (Elt F)),
    StableHlo.unary main_v605 main_v606 (Host.sqrt : (⟨S128, .f32⟩ : BufTy).Contents (Elt F) → (⟨S128, .f32⟩ : BufTy).Contents (Elt F)),
    StableHlo.binary main_v601 main_v601 main_v607 (mulf : (⟨S128x8168, .f32⟩ : BufTy).Contents (Elt F) → (⟨S128x8168, .f32⟩ : BufTy).Contents (Elt F) → (⟨S128x8168, .f32⟩ : BufTy).Contents (Elt F)),
    StableHlo.nullary main_cst_215 (constant S_ .f32 0x00000000#32),
    StableHlo.binary main_v607 main_cst_215 main_v608 ((fun x v => Host.reduceAdd x v reducesTo_S128x8168_S128_d1 h_S_) : (⟨S128x8168, .f32⟩ : BufTy).Contents (Elt F) → (⟨S_, .f32⟩ : BufTy).Contents (Elt F) → (⟨S128, .f32⟩ : BufTy).Contents (Elt F)),
    StableHlo.unary main_v608 main_v609 (Host.sqrt : (⟨S128, .f32⟩ : BufTy).Contents (Elt F) → (⟨S128, .f32⟩ : BufTy).Contents (Elt F)),
    StableHlo.binary main_v606 main_v609 main_v610 (mulf : (⟨S128, .f32⟩ : BufTy).Contents (Elt F) → (⟨S128, .f32⟩ : BufTy).Contents (Elt F) → (⟨S128, .f32⟩ : BufTy).Contents (Elt F)),
    StableHlo.binary main_v603 main_v610 main_v611 (Host.divf : (⟨S128, .f32⟩ : BufTy).Contents (Elt F) → (⟨S128, .f32⟩ : BufTy).Contents (Elt F) → (⟨S128, .f32⟩ : BufTy).Contents (Elt F)),
    StableHlo.nullary main_cst_216 (constant S_ .f32 0xBF800000#32),
    StableHlo.nullary main_cst_217 (constant S_ .f32 0x3F800000#32),
    StableHlo.TRef.unary (.of main_cst_216 : StableHlo.TRef sig ⟨S_, .f32⟩) main_call24.v0 id,
    StableHlo.TRef.unary main_call24.v0 main_call24.v1 (broadcastInDim S128 ![] bcast_S_S128),
    StableHlo.TRef.binary main_call24.v1 (.of main_v611 : StableHlo.TRef sig ⟨S128, .f32⟩) main_call24.v2 maximumf,
    StableHlo.TRef.unary (.of main_cst_217 : StableHlo.TRef sig ⟨S_, .f32⟩) main_call24.v3 id,
    StableHlo.TRef.unary main_call24.v3 main_call24.v4 (broadcastInDim S128 ![] bcast_S_S128),
    StableHlo.TRef.binary main_call24.v4 main_call24.v2 main_call24.v5 minimumf ]

abbrev pc37_W : List (Ref sig .tc) := [main_v588, main_v589, main_cst_209, main_v590, main_v591, main_cst_210, main_v592, main_v593, main_v594, main_v595, main_cst_211, main_v596, main_v597, main_cst_212, main_v598, main_v599, main_v600, main_v601, main_v602, main_cst_213, main_v603, main_v604, main_cst_214, main_v605, main_v606, main_v607, main_cst_215, main_v608, main_v609, main_v610, main_v611, main_cst_216, main_cst_217, (main_call24.v0).ref, (main_call24.v1).ref, (main_call24.v2).ref, (main_call24.v3).ref, (main_call24.v4).ref, (main_call24.v5).ref]
theorem pc37_sub : (pc37 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩
theorem pc37_writes : (pc37 : List (HloOp τ sig (Elt F))).Forall fun op => op.writes ⊆ (pc37_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc37_fresh : ∀ op ∈ (pc37 : List (HloOp τ sig (Elt F))), op.fresh = ∅ := by
  intro _ h; (repeat (cases h with | head => rfl | tail _ h => ?_)); exact nomatch h

/-- Operations of statements in printed window 13, reading window 25: 7 of them. -/
abbrev pc38 : List (HloOp τ sig (Elt F)) :=
  [ StableHlo.unary main_v37 main_v613 (broadcastInDim S128x1 ![0] bcast_S128_S128x1_0 : (⟨S128, .f32⟩ : BufTy).Contents (Elt F) → (⟨S128x1, .f32⟩ : BufTy).Contents (Elt F)),
    StableHlo.unary main_v62 main_v614 (broadcastInDim S128x1 ![0] bcast_S128_S128x1_0 : (⟨S128, .f32⟩ : BufTy).Contents (Elt F) → (⟨S128x1, .f32⟩ : BufTy).Contents (Elt F)),
    StableHlo.unary main_v87 main_v615 (broadcastInDim S128x1 ![0] bcast_S128_S128x1_0 : (⟨S128, .f32⟩ : BufTy).Contents (Elt F) → (⟨S128x1, .f32⟩ : BufTy).Contents (Elt F)),
    StableHlo.unary main_v112 main_v616 (broadcastInDim S128x1 ![0] bcast_S128_S128x1_0 : (⟨S128, .f32⟩ : BufTy).Contents (Elt F) → (⟨S128x1, .f32⟩ : BufTy).Contents (Elt F)),
    StableHlo.unary main_v137 main_v617 (broadcastInDim S128x1 ![0] bcast_S128_S128x1_0 : (⟨S128, .f32⟩ : BufTy).Contents (Elt F) → (⟨S128x1, .f32⟩ : BufTy).Contents (Elt F)),
    StableHlo.unary main_v162 main_v618 (broadcastInDim S128x1 ![0] bcast_S128_S128x1_0 : (⟨S128, .f32⟩ : BufTy).Contents (Elt F) → (⟨S128x1, .f32⟩ : BufTy).Contents (Elt F)),
    StableHlo.unary main_v187 main_v619 (broadcastInDim S128x1 ![0] bcast_S128_S128x1_0 : (⟨S128, .f32⟩ : BufTy).Contents (Elt F) → (⟨S128x1, .f32⟩ : BufTy).Contents (Elt F)) ]

abbrev pc38_W : List (Ref sig .tc) := [main_v613, main_v614, main_v615, main_v616, main_v617, main_v618, main_v619]
theorem pc38_sub : (pc38 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub ..⟩
theorem pc38_writes : (pc38 : List (HloOp τ sig (Elt F))).Forall fun op => op.writes ⊆ (pc38_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc38_fresh : ∀ op ∈ (pc38 : List (HloOp τ sig (Elt F))), op.fresh = ∅ := by
  intro _ h; (repeat (cases h with | head => rfl | tail _ h => ?_)); exact nomatch h

/-- Operations of statements in printed window 14, reading window 25: 30 of them. -/
abbrev pc39 : List (HloOp τ sig (Elt F)) :=
  [ StableHlo.unary main_v212 main_v620 (broadcastInDim S128x1 ![0] bcast_S128_S128x1_0 : (⟨S128, .f32⟩ : BufTy).Contents (Elt F) → (⟨S128x1, .f32⟩ : BufTy).Contents (Elt F)),
    StableHlo.unary main_v237 main_v621 (broadcastInDim S128x1 ![0] bcast_S128_S128x1_0 : (⟨S128, .f32⟩ : BufTy).Contents (Elt F) → (⟨S128x1, .f32⟩ : BufTy).Contents (Elt F)),
    StableHlo.unary main_v262 main_v622 (broadcastInDim S128x1 ![0] bcast_S128_S128x1_0 : (⟨S128, .f32⟩ : BufTy).Contents (Elt F) → (⟨S128x1, .f32⟩ : BufTy).Contents (Elt F)),
    StableHlo.unary main_v287 main_v623 (broadcastInDim S128x1 ![0] bcast_S128_S128x1_0 : (⟨S128, .f32⟩ : BufTy).Contents (Elt F) → (⟨S128x1, .f32⟩ : BufTy).Contents (Elt F)),
    StableHlo.unary main_v312 main_v624 (broadcastInDim S128x1 ![0] bcast_S128_S128x1_0 : (⟨S128, .f32⟩ : BufTy).Contents (Elt F) → (⟨S128x1, .f32⟩ : BufTy).Contents (Elt F)),
    StableHlo.unary main_v337 main_v625 (broadcastInDim S128x1 ![0] bcast_S128_S128x1_0 : (⟨S128, .f32⟩ : BufTy).Contents (Elt F) → (⟨S128x1, .f32⟩ : BufTy).Contents (Elt F)),
    StableHlo.unary main_v362 main_v626 (broadcastInDim S128x1 ![0] bcast_S128_S128x1_0 : (⟨S128, .f32⟩ : BufTy).Contents (Elt F) → (⟨S128x1, .f32⟩ : BufTy).Contents (Elt F)),
    StableHlo.unary main_v387 main_v627 (broadcastInDim S128x1 ![0] bcast_S128_S128x1_0 : (⟨S128, .f32⟩ : BufTy).Contents (Elt F) → (⟨S128x1, .f32⟩ : BufTy).Contents (Elt F)),
    StableHlo.unary main_v412 main_v628 (broadcastInDim S128x1 ![0] bcast_S128_S128x1_0 : (⟨S128, .f32⟩ : BufTy).Contents (Elt F) → (⟨S128x1, .f32⟩ : BufTy).Contents (Elt F)),
    StableHlo.unary main_v437 main_v629 (broadcastInDim S128x1 ![0] bcast_S128_S128x1_0 : (⟨S128, .f32⟩ : BufTy).Contents (Elt F) → (⟨S128x1, .f32⟩ : BufTy).Contents (Elt F)),
    StableHlo.unary main_v462 main_v630 (broadcastInDim S128x1 ![0] bcast_S128_S128x1_0 : (⟨S128, .f32⟩ : BufTy).Contents (Elt F) → (⟨S128x1, .f32⟩ : BufTy).Contents (Elt F)),
    StableHlo.unary main_v487 main_v631 (broadcastInDim S128x1 ![0] bcast_S128_S128x1_0 : (⟨S128, .f32⟩ : BufTy).Contents (Elt F) → (⟨S128x1, .f32⟩ : BufTy).Contents (Elt F)),
    StableHlo.unary main_v512 main_v632 (broadcastInDim S128x1 ![0] bcast_S128_S128x1_0 : (⟨S128, .f32⟩ : BufTy).Contents (Elt F) → (⟨S128x1, .f32⟩ : BufTy).Contents (Elt F)),
    StableHlo.unary main_v537 main_v633 (broadcastInDim S128x1 ![0] bcast_S128_S128x1_0 : (⟨S128, .f32⟩ : BufTy).Contents (Elt F) → (⟨S128x1, .f32⟩ : BufTy).Contents (Elt F)),
    StableHlo.unary main_v562 main_v634 (broadcastInDim S128x1 ![0] bcast_S128_S128x1_0 : (⟨S128, .f32⟩ : BufTy).Contents (Elt F) → (⟨S128x1, .f32⟩ : BufTy).Contents (Elt F)),
    StableHlo.unary main_v587 main_v635 (broadcastInDim S128x1 ![0] bcast_S128_S128x1_0 : (⟨S128, .f32⟩ : BufTy).Contents (Elt F) → (⟨S128x1, .f32⟩ : BufTy).Contents (Elt F)),
    StableHlo.unary main_v612 main_v636 (broadcastInDim S128x1 ![0] bcast_S128_S128x1_0 : (⟨S128, .f32⟩ : BufTy).Contents (Elt F) → (⟨S128x1, .f32⟩ : BufTy).Contents (Elt F)),
    StableHlo.nary ![main_v613, main_v614, main_v615, main_v616, main_v617, main_v618, main_v619, main_v620, main_v621, main_v622, main_v623, main_v624, main_v625, main_v626, main_v627, main_v628] main_v637 (fun u => concatenate S128x16 1 [⟨S128x1, u 0⟩, ⟨S128x1, u 1⟩, ⟨S128x1, u 2⟩, ⟨S128x1, u 3⟩, ⟨S128x1, u 4⟩, ⟨S128x1, u 5⟩, ⟨S128x1, u 6⟩, ⟨S128x1, u 7⟩, ⟨S128x1, u 8⟩, ⟨S128x1, u 9⟩, ⟨S128x1, u 10⟩, ⟨S128x1, u 11⟩, ⟨S128x1, u 12⟩, ⟨S128x1, u 13⟩, ⟨S128x1, u 14⟩, ⟨S128x1, u 15⟩] concatenates_S128x1_S128x1_S128x1_S128x1_S128x1_S128x1_S128x1_S128x1_S128x1_S128x1_S128x1_S128x1_S128x1_S128x1_S128x1_S128x1_S128x16_d1),
    StableHlo.nary ![main_v629, main_v630, main_v631, main_v632, main_v633, main_v634, main_v635, main_v636] main_v638 (fun u => concatenate S128x8 1 [⟨S128x1, u 0⟩, ⟨S128x1, u 1⟩, ⟨S128x1, u 2⟩, ⟨S128x1, u 3⟩, ⟨S128x1, u 4⟩, ⟨S128x1, u 5⟩, ⟨S128x1, u 6⟩, ⟨S128x1, u 7⟩] concatenates_S128x1_S128x1_S128x1_S128x1_S128x1_S128x1_S128x1_S128x1_S128x8_d1),
    StableHlo.binary main_v637 main_v638 main_v639 ((fun a b => concatenate S128x24 1 [⟨S128x16, a⟩, ⟨S128x8, b⟩] concatenates_S128x16_S128x8_S128x24_d1) : (⟨S128x16, .f32⟩ : BufTy).Contents (Elt F) → (⟨S128x8, .f32⟩ : BufTy).Contents (Elt F) → (⟨S128x24, .f32⟩ : BufTy).Contents (Elt F)),
    StableHlo.nullary main_cst_218 (constant S_ .f32 0xFF800000#32),
    StableHlo.binary main_arg2 main_cst_218 main_v640 ((fun x v => Host.reduce FloatOps.maximumf x v reducesTo_S24_S_d0 h_S_) : (⟨S24, .f32⟩ : BufTy).Contents (Elt F) → (⟨S_, .f32⟩ : BufTy).Contents (Elt F) → (⟨S_, .f32⟩ : BufTy).Contents (Elt F)),
    StableHlo.nullary main_cst_219 (constant S_ .f32 0xFF800000#32),
    StableHlo.binary main_cst_219 main_v640 main_v641 (maximumf : (⟨S_, .f32⟩ : BufTy).Contents (Elt F) → (⟨S_, .f32⟩ : BufTy).Contents (Elt F) → (⟨S_, .f32⟩ : BufTy).Contents (Elt F)),
    StableHlo.unary main_v641 main_v642 (broadcastInDim S1 ![] bcast_S_S1 : (⟨S_, .f32⟩ : BufTy).Contents (Elt F) → (⟨S1, .f32⟩ : BufTy).Contents (Elt F)),
    StableHlo.unary main_v642 main_v643 (broadcastInDim S24 ![0] bcast_S1_S24_0 : (⟨S1, .f32⟩ : BufTy).Contents (Elt F) → (⟨S24, .f32⟩ : BufTy).Contents (Elt F)),
    StableHlo.binary main_arg2 main_v643 main_v644 (subf : (⟨S24, .f32⟩ : BufTy).Contents (Elt F) → (⟨S24, .f32⟩ : BufTy).Contents (Elt F) → (⟨S24, .f32⟩ : BufTy).Contents (Elt F)),
    StableHlo.unary main_v644 main_v645 (Host.exp : (⟨S24, .f32⟩ : BufTy).Contents (Elt F) → (⟨S24, .f32⟩ : BufTy).Contents (Elt F)),
    StableHlo.nullary main_cst_220 (constant S_ .f32 0x00000000#32),
    StableHlo.binary main_v645 main_cst_220 main_v646 ((fun x v => Host.reduceAdd x v reducesTo_S24_S_d0 h_S_) : (⟨S24, .f32⟩ : BufTy).Contents (Elt F) → (⟨S_, .f32⟩ : BufTy).Contents (Elt F) → (⟨S_, .f32⟩ : BufTy).Contents (Elt F)) ]

abbrev pc39_W : List (Ref sig .tc) := [main_v620, main_v621, main_v622, main_v623, main_v624, main_v625, main_v626, main_v627, main_v628, main_v629, main_v630, main_v631, main_v632, main_v633, main_v634, main_v635, main_v636, main_v637, main_v638, main_v639, main_cst_218, main_v640, main_cst_219, main_v641, main_v642, main_v643, main_v644, main_v645, main_cst_220, main_v646]
theorem pc39_sub : (pc39 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub ..⟩
theorem pc39_writes : (pc39 : List (HloOp τ sig (Elt F))).Forall fun op => op.writes ⊆ (pc39_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc39_fresh : ∀ op ∈ (pc39 : List (HloOp τ sig (Elt F))), op.fresh = ∅ := by
  intro _ h; (repeat (cases h with | head => rfl | tail _ h => ?_)); exact nomatch h

/-- Operations of statements in printed window 14, reading window 25: 29 of them. -/
abbrev pc40 : List (HloOp τ sig (Elt F)) :=
  [ StableHlo.unary main_v646 main_v647 (broadcastInDim S1 ![] bcast_S_S1 : (⟨S_, .f32⟩ : BufTy).Contents (Elt F) → (⟨S1, .f32⟩ : BufTy).Contents (Elt F)),
    StableHlo.unary main_v647 main_v648 (broadcastInDim S24 ![0] bcast_S1_S24_0 : (⟨S1, .f32⟩ : BufTy).Contents (Elt F) → (⟨S24, .f32⟩ : BufTy).Contents (Elt F)),
    StableHlo.binary main_v645 main_v648 main_v649 (Host.divf : (⟨S24, .f32⟩ : BufTy).Contents (Elt F) → (⟨S24, .f32⟩ : BufTy).Contents (Elt F) → (⟨S24, .f32⟩ : BufTy).Contents (Elt F)),
    StableHlo.unary main_v649 main_v650 (broadcastInDim S1x24 ![1] bcast_S24_S1x24_1 : (⟨S24, .f32⟩ : BufTy).Contents (Elt F) → (⟨S1x24, .f32⟩ : BufTy).Contents (Elt F)),
    StableHlo.unary main_v650 main_v651 (broadcastInDim S128x24 ![0, 1] bcast_S1x24_S128x24_0_1 : (⟨S1x24, .f32⟩ : BufTy).Contents (Elt F) → (⟨S128x24, .f32⟩ : BufTy).Contents (Elt F)),
    StableHlo.binary main_v639 main_v651 main_v652 (mulf : (⟨S128x24, .f32⟩ : BufTy).Contents (Elt F) → (⟨S128x24, .f32⟩ : BufTy).Contents (Elt F) → (⟨S128x24, .f32⟩ : BufTy).Contents (Elt F)),
    StableHlo.nullary main_cst_221 (constant S_ .f32 0x00000000#32),
    StableHlo.binary main_v652 main_cst_221 main_v653 ((fun x v => Host.reduceAdd x v reducesTo_S128x24_S128_d1 h_S_) : (⟨S128x24, .f32⟩ : BufTy).Contents (Elt F) → (⟨S_, .f32⟩ : BufTy).Contents (Elt F) → (⟨S128, .f32⟩ : BufTy).Contents (Elt F)),
    StableHlo.nullary main_cst_222 (constant S_ .f32 0x00000000#32),
    StableHlo.unary main_cst_222 main_v654 (broadcastInDim S128 ![] bcast_S_S128 : (⟨S_, .f32⟩ : BufTy).Contents (Elt F) → (⟨S128, .f32⟩ : BufTy).Contents (Elt F)),
    StableHlo.unary main_v639 main_v655 ((extractStridedSlice S128x1 ![0, 11] · slices_S128x24_S128x1_0_11) : (⟨S128x24, .f32⟩ : BufTy).Contents (Elt F) → (⟨S128x1, .f32⟩ : BufTy).Contents (Elt F)),
    StableHlo.reshape main_v655 main_v656 rfl shapeCasts_S128x1_S128,
    StableHlo.unary main_arg3 main_v657 ((extractStridedSlice S1 ![0] · slices_S2_S1_0) : (⟨S2, .f32⟩ : BufTy).Contents (Elt F) → (⟨S1, .f32⟩ : BufTy).Contents (Elt F)),
    StableHlo.reshape main_v657 main_v658 rfl shapeCasts_S1_S_,
    StableHlo.unary main_v658 main_v659 (broadcastInDim S128 ![] bcast_S_S128 : (⟨S_, .f32⟩ : BufTy).Contents (Elt F) → (⟨S128, .f32⟩ : BufTy).Contents (Elt F)),
    StableHlo.binary main_v656 main_v659 main_v660 (mulf : (⟨S128, .f32⟩ : BufTy).Contents (Elt F) → (⟨S128, .f32⟩ : BufTy).Contents (Elt F) → (⟨S128, .f32⟩ : BufTy).Contents (Elt F)),
    StableHlo.binary main_v654 main_v660 main_v661 (addf : (⟨S128, .f32⟩ : BufTy).Contents (Elt F) → (⟨S128, .f32⟩ : BufTy).Contents (Elt F) → (⟨S128, .f32⟩ : BufTy).Contents (Elt F)),
    StableHlo.unary main_v639 main_v662 ((extractStridedSlice S128x1 ![0, 23] · slices_S128x24_S128x1_0_23) : (⟨S128x24, .f32⟩ : BufTy).Contents (Elt F) → (⟨S128x1, .f32⟩ : BufTy).Contents (Elt F)),
    StableHlo.reshape main_v662 main_v663 rfl shapeCasts_S128x1_S128,
    StableHlo.unary main_arg3 main_v664 ((extractStridedSlice S1 ![1] · slices_S2_S1_1) : (⟨S2, .f32⟩ : BufTy).Contents (Elt F) → (⟨S1, .f32⟩ : BufTy).Contents (Elt F)),
    StableHlo.reshape main_v664 main_v665 rfl shapeCasts_S1_S_,
    StableHlo.unary main_v665 main_v666 (broadcastInDim S128 ![] bcast_S_S128 : (⟨S_, .f32⟩ : BufTy).Contents (Elt F) → (⟨S128, .f32⟩ : BufTy).Contents (Elt F)),
    StableHlo.binary main_v663 main_v666 main_v667 (mulf : (⟨S128, .f32⟩ : BufTy).Contents (Elt F) → (⟨S128, .f32⟩ : BufTy).Contents (Elt F) → (⟨S128, .f32⟩ : BufTy).Contents (Elt F)),
    StableHlo.binary main_v661 main_v667 main_v668 (addf : (⟨S128, .f32⟩ : BufTy).Contents (Elt F) → (⟨S128, .f32⟩ : BufTy).Contents (Elt F) → (⟨S128, .f32⟩ : BufTy).Contents (Elt F)),
    StableHlo.binary main_v653 main_v668 main_v669 (addf : (⟨S128, .f32⟩ : BufTy).Contents (Elt F) → (⟨S128, .f32⟩ : BufTy).Contents (Elt F) → (⟨S128, .f32⟩ : BufTy).Contents (Elt F)),
    StableHlo.nullary main_cst_223 (constant S_ .f32 0x00000000#32),
    StableHlo.binary main_v669 main_cst_223 main_v670 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_224 (constant S_ .f32 0x43000000#32),
    StableHlo.binary main_v670 main_cst_224 main_v671 (Host.divf : (⟨S_, .f32⟩ : BufTy).Contents (Elt F) → (⟨S_, .f32⟩ : BufTy).Contents (Elt F) → (⟨S_, .f32⟩ : BufTy).Contents (Elt F)) ]

abbrev pc40_W : List (Ref sig .tc) := [main_v647, main_v648, main_v649, main_v650, main_v651, main_v652, main_cst_221, main_v653, main_cst_222, main_v654, main_v655, main_v656, main_v657, main_v658, main_v659, main_v660, main_v661, main_v662, main_v663, main_v664, main_v665, main_v666, main_v667, main_v668, main_v669, main_cst_223, main_v670, main_cst_224, main_v671]
theorem pc40_sub : (pc40 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., binary_bufs_sub .., nullary_bufs_sub .., unary_bufs_sub .., unary_bufs_sub .., reshape_bufs_sub .., unary_bufs_sub .., reshape_bufs_sub .., unary_bufs_sub .., binary_bufs_sub .., binary_bufs_sub .., unary_bufs_sub .., reshape_bufs_sub .., unary_bufs_sub .., reshape_bufs_sub .., unary_bufs_sub .., binary_bufs_sub .., binary_bufs_sub .., binary_bufs_sub .., nullary_bufs_sub .., binary_bufs_sub .., nullary_bufs_sub .., binary_bufs_sub ..⟩
theorem pc40_writes : (pc40 : List (HloOp τ sig (Elt F))).Forall fun op => op.writes ⊆ (pc40_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩
theorem pc40_fresh : ∀ op ∈ (pc40 : List (HloOp τ sig (Elt F))), op.fresh = ∅ := by
  intro _ h; (repeat (cases h with | head => rfl | tail _ h => ?_)); exact nomatch h

end Cert.ReferenceIdeal.HandRun

end
-- ==== Proof.RefOps.lean ====
import proofs.«130460_j34522947125965_1_alg».proof.Proof.RefT0
import proofs.«130460_j34522947125965_1_alg».proof.Proof.RefT1
import proofs.«130460_j34522947125965_1_alg».proof.Proof.RefT2
import proofs.«130460_j34522947125965_1_alg».proof.Proof.RefT3
import proofs.«130460_j34522947125965_1_alg».proof.Proof.RefT4
import proofs.«130460_j34522947125965_1_alg».proof.Proof.RefT5
import proofs.«130460_j34522947125965_1_alg».proof.Proof.RefT6
import proofs.«130460_j34522947125965_1_alg».proof.Proof.RefT7
import proofs.«130460_j34522947125965_1_alg».proof.Proof.RefT8
import proofs.«130460_j34522947125965_1_alg».proof.Proof.RefT9
import Idealize.ShloMosaic.Lib.StableHlo.Run

set_option maxRecDepth 16384
set_option pp.maxSteps 5000
set_option pp.deepTerms false

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-! The reference's @main as ONE list of host operations: the pieces `pc0 … pc40` (the printed windows cut
    again after the normalised array, after every lag's clip call and before the tail; the outlined
    functions' operations listed at their call sites over the call's buffer record), in order. -/

/-- @main's operations, in order. -/
abbrev ops : List (HloOp τ sig (Elt F)) :=
  pc0 ++ (pc1 ++ (pc2 ++ (pc3 ++ (pc4 ++ (pc5 ++ (pc6 ++ (pc7 ++ (pc8 ++ (pc9 ++ (pc10 ++ (pc11 ++ (pc12 ++ (pc13 ++ (pc14 ++ (pc15 ++ (pc16 ++ (pc17 ++ (pc18 ++ (pc19 ++ (pc20 ++ (pc21 ++ (pc22 ++ (pc23 ++ (pc24 ++ (pc25 ++ (pc26 ++ (pc27 ++ (pc28 ++ (pc29 ++ (pc30 ++ (pc31 ++ (pc32 ++ (pc33 ++ (pc34 ++ (pc35 ++ (pc36 ++ (pc37 ++ (pc38 ++ (pc39 ++ (pc40))))))))))))))))))))))))))))))))))))))))

/-! Each printed window is the straight line of its pieces: both sides are the same chain of `hlo` steps once
    the functions' bodies are unfolded at their calls. -/
theorem part0_eq (c : Dev nD) : main_part0 (F := F) c = seq (pc0 ++ (pc1 ++ (pc2))) := rfl
theorem part1_eq (c : Dev nD) : main_part1 (F := F) c = seq (pc3 ++ (pc4 ++ (pc5))) := rfl
theorem part2_eq (c : Dev nD) : main_part2 (F := F) c = seq (pc6 ++ (pc7)) := rfl
theorem part3_eq (c : Dev nD) : main_part3 (F := F) c = seq (pc8 ++ (pc9 ++ (pc10))) := rfl
theorem part4_eq (c : Dev nD) : main_part4 (F := F) c = seq (pc11 ++ (pc12 ++ (pc13))) := rfl
theorem part5_eq (c : Dev nD) : main_part5 (F := F) c = seq (pc14 ++ (pc15 ++ (pc16))) := rfl
theorem part6_eq (c : Dev nD) : main_part6 (F := F) c = seq (pc17 ++ (pc18)) := rfl
theorem part7_eq (c : Dev nD) : main_part7 (F := F) c = seq (pc19 ++ (pc20 ++ (pc21))) := rfl
theorem part8_eq (c : Dev nD) : main_part8 (F := F) c = seq (pc22 ++ (pc23 ++ (pc24))) := rfl
theorem part9_eq (c : Dev nD) : main_part9 (F := F) c = seq (pc25 ++ (pc26 ++ (pc27))) := rfl
theorem part10_eq (c : Dev nD) : main_part10 (F := F) c = seq (pc28 ++ (pc29)) := rfl
theorem part11_eq (c : Dev nD) : main_part11 (F := F) c = seq (pc30 ++ (pc31 ++ (pc32))) := rfl
theorem part12_eq (c : Dev nD) : main_part12 (F := F) c = seq (pc33 ++ (pc34 ++ (pc35))) := rfl
theorem part13_eq (c : Dev nD) : main_part13 (F := F) c = seq (pc36 ++ (pc37 ++ (pc38))) := rfl
theorem part14_eq (c : Dev nD) : main_part14 (F := F) c = seq (pc39 ++ (pc40)) := rfl

theorem main_eq (c : Dev nD) : main (F := F) c = seq ops := by
  simp only [main, ops, seq_append, bind_assoc,
    part0_eq c, part1_eq c, part2_eq c, part3_eq c, part4_eq c, part5_eq c, part6_eq c, part7_eq c, part8_eq c, part9_eq c, part10_eq c, part11_eq c, part12_eq c, part13_eq c, part14_eq c]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h | h | h | h | h | h | h | h | h | h | h | h | h | h | h | h | h | h | h
    exacts [List.forall_iff_forall_mem.mp pc0_sub op h, List.forall_iff_forall_mem.mp pc1_sub op h, List.forall_iff_forall_mem.mp pc2_sub op h, List.forall_iff_forall_mem.mp pc3_sub op h, List.forall_iff_forall_mem.mp pc4_sub op h, List.forall_iff_forall_mem.mp pc5_sub op h, List.forall_iff_forall_mem.mp pc6_sub op h, List.forall_iff_forall_mem.mp pc7_sub op h, List.forall_iff_forall_mem.mp pc8_sub op h, List.forall_iff_forall_mem.mp pc9_sub op h, List.forall_iff_forall_mem.mp pc10_sub op h, List.forall_iff_forall_mem.mp pc11_sub op h, List.forall_iff_forall_mem.mp pc12_sub op h, List.forall_iff_forall_mem.mp pc13_sub op h, List.forall_iff_forall_mem.mp pc14_sub op h, List.forall_iff_forall_mem.mp pc15_sub op h, List.forall_iff_forall_mem.mp pc16_sub op h, List.forall_iff_forall_mem.mp pc17_sub op h, List.forall_iff_forall_mem.mp pc18_sub op h, List.forall_iff_forall_mem.mp pc19_sub op h, List.forall_iff_forall_mem.mp pc20_sub op h, List.forall_iff_forall_mem.mp pc21_sub op h, List.forall_iff_forall_mem.mp pc22_sub op h, List.forall_iff_forall_mem.mp pc23_sub op h, List.forall_iff_forall_mem.mp pc24_sub op h, List.forall_iff_forall_mem.mp pc25_sub op h, List.forall_iff_forall_mem.mp pc26_sub op h, List.forall_iff_forall_mem.mp pc27_sub op h, List.forall_iff_forall_mem.mp pc28_sub op h, List.forall_iff_forall_mem.mp pc29_sub op h, List.forall_iff_forall_mem.mp pc30_sub op h, List.forall_iff_forall_mem.mp pc31_sub op h, List.forall_iff_forall_mem.mp pc32_sub op h, List.forall_iff_forall_mem.mp pc33_sub op h, List.forall_iff_forall_mem.mp pc34_sub op h, List.forall_iff_forall_mem.mp pc35_sub op h, List.forall_iff_forall_mem.mp pc36_sub op h, List.forall_iff_forall_mem.mp pc37_sub op h, List.forall_iff_forall_mem.mp pc38_sub op h, List.forall_iff_forall_mem.mp pc39_sub op h, List.forall_iff_forall_mem.mp pc40_sub op h]

theorem ops_fresh : ∀ op ∈ (ops : List (HloOp τ sig (Elt F))), op.fresh = ∅ := fun op h => by
  simp only [ops, List.mem_append] at h
  rcases h with h | h | h | h | h | h | h | h | h | h | h | h | h | h | h | h | h | h | h | h | h | h | h | h | h | h | h | h | h | h | h | h | h | h | h | h | h | h | h | h | h
  exacts [pc0_fresh op h, pc1_fresh op h, pc2_fresh op h, pc3_fresh op h, pc4_fresh op h, pc5_fresh op h, pc6_fresh op h, pc7_fresh op h, pc8_fresh op h, pc9_fresh op h, pc10_fresh op h, pc11_fresh op h, pc12_fresh op h, pc13_fresh op h, pc14_fresh op h, pc15_fresh op h, pc16_fresh op h, pc17_fresh op h, pc18_fresh op h, pc19_fresh op h, pc20_fresh op h, pc21_fresh op h, pc22_fresh op h, pc23_fresh op h, pc24_fresh op h, pc25_fresh op h, pc26_fresh op h, pc27_fresh op h, pc28_fresh op h, pc29_fresh op h, pc30_fresh op h, pc31_fresh op h, pc32_fresh op h, pc33_fresh op h, pc34_fresh op h, pc35_fresh op h, pc36_fresh op h, pc37_fresh op h, pc38_fresh op h, pc39_fresh op h, pc40_fresh op h]

end Cert.ReferenceIdeal.HandRun

end
-- ==== Proof.RefTac.lean ====
/- Reading one window of a straight line of host operations: the buffer a window's last operation writes, after
   the window run from any contents `V`, is the window's operations composed on `V`'s contents. -/
import Idealize.ShloMosaic.Lib.StableHlo.Run

open Idealize.ShloMosaic.StableHlo

/-- `window_result [l₁, …]`: unfold the named literal operation lists, rewrite every operation's result at the
    buffer it writes (and at any other buffer to what was there before), and compare what is left with the stated
    composed term by computation (the casts around an outlined function's operations, a reshape's element-type cast
    and a vector literal's entries are the identity by definition). -/
macro "window_result" "[" ls:Lean.Parser.Tactic.simpLemma,* "]" : tactic =>
  `(tactic| (simp only [$ls,*]; after_results_simp; rfl))
-- ==== Proof.RefWin0.lean ====
import proofs.«130460_j34522947125965_1_alg».proof.Proof.RefT0
import proofs.«130460_j34522947125965_1_alg».proof.Proof.RefT9
import proofs.«130460_j34522947125965_1_alg».proof.Proof.HostForms
import proofs.«130460_j34522947125965_1_alg».proof.Proof.RefTac
import Idealize.ShloMosaic.Lib.StableHlo.Run

set_option maxRecDepth 16384
set_option pp.maxSteps 5000
set_option pp.deepTerms false

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-! The first window (the row-normalised array) and the last (the 24 lag results to the scalar result), each read
    from any contents `V` of the device's buffers. -/

set_option maxHeartbeats 4000000 in
/-- After the first window the normalised array's buffer holds `seqnH` of the first argument's contents. -/
theorem w0_out (V : Valuation τ sig (Elt F)) :
    after pc0 V (no_index (Proc.devRef .tc main_v12)) = HostForms.seqnH (V (Proc.devRef .tc main_arg0)) := by
  window_result [pc0]

set_option maxHeartbeats 8000000 in
/-- After the last window the result buffer holds `tailH` of the 24 lag results' buffers and of the third and fourth
    arguments'. The two concatenations read their operands through a vector of references: once the
    vector's entries are read at their literal positions, the operands' own results are rewritten in a second pass. -/
theorem w25_out (V : Valuation τ sig (Elt F)) :
    after pc40 (after pc39 (after pc38 V)) (no_index (Proc.devRef .tc main_v671)) =
      HostForms.tailH
        ![V (Proc.devRef .tc main_v37),
          V (Proc.devRef .tc main_v62),
          V (Proc.devRef .tc main_v87),
          V (Proc.devRef .tc main_v112),
          V (Proc.devRef .tc main_v137),
          V (Proc.devRef .tc main_v162),
          V (Proc.devRef .tc main_v187),
          V (Proc.devRef .tc main_v212),
          V (Proc.devRef .tc main_v237),
          V (Proc.devRef .tc main_v262),
          V (Proc.devRef .tc main_v287),
          V (Proc.devRef .tc main_v312),
          V (Proc.devRef .tc main_v337),
          V (Proc.devRef .tc main_v362),
          V (Proc.devRef .tc main_v387),
          V (Proc.devRef .tc main_v412),
          V (Proc.devRef .tc main_v437),
          V (Proc.devRef .tc main_v462),
          V (Proc.devRef .tc main_v487),
          V (Proc.devRef .tc main_v512),
          V (Proc.devRef .tc main_v537),
          V (Proc.devRef .tc main_v562),
          V (Proc.devRef .tc main_v587),
          V (Proc.devRef .tc main_v612)]
        (V (Proc.devRef .tc main_arg2)) (V (Proc.devRef .tc main_arg3)) := by
  simp only [pc38, pc39, pc40]
  after_results_simp
  try dsimp only [Matrix.cons_val]
  try after_results_simp
  rfl

end Cert.ReferenceIdeal.HandRun

end
-- ==== Proof.RefWinL0.lean ====
import proofs.«130460_j34522947125965_1_alg».proof.Proof.RefT0
import proofs.«130460_j34522947125965_1_alg».proof.Proof.RefT1
import proofs.«130460_j34522947125965_1_alg».proof.Proof.HostForms
import proofs.«130460_j34522947125965_1_alg».proof.Proof.RefTac
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxHeartbeats 4000000 in
/-- Lag 1: after its window, from any contents, its result buffer holds the lag's term of the normalised array's buffer. -/
theorem w1_out (V : Valuation τ sig (Elt F)) :
    after pc1 V (no_index (Proc.devRef .tc main_v37)) =
      HostForms.lagH 8191 1 0x45FFF800#32 slices_S128x8192_S128x8191_0_0 slices_S128x8192_S128x8191_0_1 reducesTo_S128x8191_S128_d1 bcast_S128x1_S128x8191_0_1 (V (Proc.devRef .tc main_v12)) := by
  window_result [pc1]

set_option maxHeartbeats 4000000 in
/-- Lag 2: after its window, from any contents, its result buffer holds the lag's term of the normalised array's buffer. -/
theorem w2_out (V : Valuation τ sig (Elt F)) :
    after pc3 (after pc2 V) (no_index (Proc.devRef .tc main_v62)) =
      HostForms.lagH 8190 2 0x45FFF000#32 slices_S128x8192_S128x8190_0_0 slices_S128x8192_S128x8190_0_2 reducesTo_S128x8190_S128_d1 bcast_S128x1_S128x8190_0_1 (V (Proc.devRef .tc main_v12)) := by
  window_result [pc2, pc3]

set_option maxHeartbeats 4000000 in
/-- Lag 3: after its window, from any contents, its result buffer holds the lag's term of the normalised array's buffer. -/
theorem w3_out (V : Valuation τ sig (Elt F)) :
    after pc4 V (no_index (Proc.devRef .tc main_v87)) =
      HostForms.lagH 8189 3 0x45FFE800#32 slices_S128x8192_S128x8189_0_0 slices_S128x8192_S128x8189_0_3 reducesTo_S128x8189_S128_d1 bcast_S128x1_S128x8189_0_1 (V (Proc.devRef .tc main_v12)) := by
  window_result [pc4]

set_option maxHeartbeats 4000000 in
/-- Lag 4: after its window, from any contents, its result buffer holds the lag's term of the normalised array's buffer. -/
theorem w4_out (V : Valuation τ sig (Elt F)) :
    after pc6 (after pc5 V) (no_index (Proc.devRef .tc main_v112)) =
      HostForms.lagH 8188 4 0x45FFE000#32 slices_S128x8192_S128x8188_0_0 slices_S128x8192_S128x8188_0_4 reducesTo_S128x8188_S128_d1 bcast_S128x1_S128x8188_0_1 (V (Proc.devRef .tc main_v12)) := by
  window_result [pc5, pc6]

end Cert.ReferenceIdeal.HandRun

end
-- ==== Proof.RefWinL1.lean ====
import proofs.«130460_j34522947125965_1_alg».proof.Proof.RefT1
import proofs.«130460_j34522947125965_1_alg».proof.Proof.RefT2
import proofs.«130460_j34522947125965_1_alg».proof.Proof.RefT3
import proofs.«130460_j34522947125965_1_alg».proof.Proof.HostForms
import proofs.«130460_j34522947125965_1_alg».proof.Proof.RefTac
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxHeartbeats 4000000 in
/-- Lag 5: after its window, from any contents, its result buffer holds the lag's term of the normalised array's buffer. -/
theorem w5_out (V : Valuation τ sig (Elt F)) :
    after pc8 (after pc7 V) (no_index (Proc.devRef .tc main_v137)) =
      HostForms.lagH 8187 5 0x45FFD800#32 slices_S128x8192_S128x8187_0_0 slices_S128x8192_S128x8187_0_5 reducesTo_S128x8187_S128_d1 bcast_S128x1_S128x8187_0_1 (V (Proc.devRef .tc main_v12)) := by
  window_result [pc7, pc8]

set_option maxHeartbeats 4000000 in
/-- Lag 6: after its window, from any contents, its result buffer holds the lag's term of the normalised array's buffer. -/
theorem w6_out (V : Valuation τ sig (Elt F)) :
    after pc9 V (no_index (Proc.devRef .tc main_v162)) =
      HostForms.lagH 8186 6 0x45FFD000#32 slices_S128x8192_S128x8186_0_0 slices_S128x8192_S128x8186_0_6 reducesTo_S128x8186_S128_d1 bcast_S128x1_S128x8186_0_1 (V (Proc.devRef .tc main_v12)) := by
  window_result [pc9]

set_option maxHeartbeats 4000000 in
/-- Lag 7: after its window, from any contents, its result buffer holds the lag's term of the normalised array's buffer. -/
theorem w7_out (V : Valuation τ sig (Elt F)) :
    after pc11 (after pc10 V) (no_index (Proc.devRef .tc main_v187)) =
      HostForms.lagH 8185 7 0x45FFC800#32 slices_S128x8192_S128x8185_0_0 slices_S128x8192_S128x8185_0_7 reducesTo_S128x8185_S128_d1 bcast_S128x1_S128x8185_0_1 (V (Proc.devRef .tc main_v12)) := by
  window_result [pc10, pc11]

set_option maxHeartbeats 4000000 in
/-- Lag 8: after its window, from any contents, its result buffer holds the lag's term of the normalised array's buffer. -/
theorem w8_out (V : Valuation τ sig (Elt F)) :
    after pc12 V (no_index (Proc.devRef .tc main_v212)) =
      HostForms.lagH 8184 8 0x45FFC000#32 slices_S128x8192_S128x8184_0_0 slices_S128x8192_S128x8184_0_8 reducesTo_S128x8184_S128_d1 bcast_S128x1_S128x8184_0_1 (V (Proc.devRef .tc main_v12)) := by
  window_result [pc12]

end Cert.ReferenceIdeal.HandRun

end
-- ==== Proof.RefWinL2.lean ====
import proofs.«130460_j34522947125965_1_alg».proof.Proof.RefT3
import proofs.«130460_j34522947125965_1_alg».proof.Proof.RefT4
import proofs.«130460_j34522947125965_1_alg».proof.Proof.HostForms
import proofs.«130460_j34522947125965_1_alg».proof.Proof.RefTac
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxHeartbeats 4000000 in
/-- Lag 9: after its window, from any contents, its result buffer holds the lag's term of the normalised array's buffer. -/
theorem w9_out (V : Valuation τ sig (Elt F)) :
    after pc14 (after pc13 V) (no_index (Proc.devRef .tc main_v237)) =
      HostForms.lagH 8183 9 0x45FFB800#32 slices_S128x8192_S128x8183_0_0 slices_S128x8192_S128x8183_0_9 reducesTo_S128x8183_S128_d1 bcast_S128x1_S128x8183_0_1 (V (Proc.devRef .tc main_v12)) := by
  window_result [pc13, pc14]

set_option maxHeartbeats 4000000 in
/-- Lag 10: after its window, from any contents, its result buffer holds the lag's term of the normalised array's buffer. -/
theorem w10_out (V : Valuation τ sig (Elt F)) :
    after pc15 V (no_index (Proc.devRef .tc main_v262)) =
      HostForms.lagH 8182 10 0x45FFB000#32 slices_S128x8192_S128x8182_0_0 slices_S128x8192_S128x8182_0_10 reducesTo_S128x8182_S128_d1 bcast_S128x1_S128x8182_0_1 (V (Proc.devRef .tc main_v12)) := by
  window_result [pc15]

set_option maxHeartbeats 4000000 in
/-- Lag 11: after its window, from any contents, its result buffer holds the lag's term of the normalised array's buffer. -/
theorem w11_out (V : Valuation τ sig (Elt F)) :
    after pc17 (after pc16 V) (no_index (Proc.devRef .tc main_v287)) =
      HostForms.lagH 8181 11 0x45FFA800#32 slices_S128x8192_S128x8181_0_0 slices_S128x8192_S128x8181_0_11 reducesTo_S128x8181_S128_d1 bcast_S128x1_S128x8181_0_1 (V (Proc.devRef .tc main_v12)) := by
  window_result [pc16, pc17]

set_option maxHeartbeats 4000000 in
/-- Lag 12: after its window, from any contents, its result buffer holds the lag's term of the normalised array's buffer. -/
theorem w12_out (V : Valuation τ sig (Elt F)) :
    after pc19 (after pc18 V) (no_index (Proc.devRef .tc main_v312)) =
      HostForms.lagH 8180 12 0x45FFA000#32 slices_S128x8192_S128x8180_0_0 slices_S128x8192_S128x8180_0_12 reducesTo_S128x8180_S128_d1 bcast_S128x1_S128x8180_0_1 (V (Proc.devRef .tc main_v12)) := by
  window_result [pc18, pc19]

end Cert.ReferenceIdeal.HandRun

end
-- ==== Proof.RefWinL3.lean ====
import proofs.«130460_j34522947125965_1_alg».proof.Proof.RefT5
import proofs.«130460_j34522947125965_1_alg».proof.Proof.RefT6
import proofs.«130460_j34522947125965_1_alg».proof.Proof.HostForms
import proofs.«130460_j34522947125965_1_alg».proof.Proof.RefTac
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxHeartbeats 4000000 in
/-- Lag 13: after its window, from any contents, its result buffer holds the lag's term of the normalised array's buffer. -/
theorem w13_out (V : Valuation τ sig (Elt F)) :
    after pc20 V (no_index (Proc.devRef .tc main_v337)) =
      HostForms.lagH 8179 13 0x45FF9800#32 slices_S128x8192_S128x8179_0_0 slices_S128x8192_S128x8179_0_13 reducesTo_S128x8179_S128_d1 bcast_S128x1_S128x8179_0_1 (V (Proc.devRef .tc main_v12)) := by
  window_result [pc20]

set_option maxHeartbeats 4000000 in
/-- Lag 14: after its window, from any contents, its result buffer holds the lag's term of the normalised array's buffer. -/
theorem w14_out (V : Valuation τ sig (Elt F)) :
    after pc22 (after pc21 V) (no_index (Proc.devRef .tc main_v362)) =
      HostForms.lagH 8178 14 0x45FF9000#32 slices_S128x8192_S128x8178_0_0 slices_S128x8192_S128x8178_0_14 reducesTo_S128x8178_S128_d1 bcast_S128x1_S128x8178_0_1 (V (Proc.devRef .tc main_v12)) := by
  window_result [pc21, pc22]

set_option maxHeartbeats 4000000 in
/-- Lag 15: after its window, from any contents, its result buffer holds the lag's term of the normalised array's buffer. -/
theorem w15_out (V : Valuation τ sig (Elt F)) :
    after pc23 V (no_index (Proc.devRef .tc main_v387)) =
      HostForms.lagH 8177 15 0x45FF8800#32 slices_S128x8192_S128x8177_0_0 slices_S128x8192_S128x8177_0_15 reducesTo_S128x8177_S128_d1 bcast_S128x1_S128x8177_0_1 (V (Proc.devRef .tc main_v12)) := by
  window_result [pc23]

set_option maxHeartbeats 4000000 in
/-- Lag 16: after its window, from any contents, its result buffer holds the lag's term of the normalised array's buffer. -/
theorem w16_out (V : Valuation τ sig (Elt F)) :
    after pc25 (after pc24 V) (no_index (Proc.devRef .tc main_v412)) =
      HostForms.lagH 8176 16 0x45FF8000#32 slices_S128x8192_S128x8176_0_0 slices_S128x8192_S128x8176_0_16 reducesTo_S128x8176_S128_d1 bcast_S128x1_S128x8176_0_1 (V (Proc.devRef .tc main_v12)) := by
  window_result [pc24, pc25]

end Cert.ReferenceIdeal.HandRun

end
-- ==== Proof.RefWinL4.lean ====
import proofs.«130460_j34522947125965_1_alg».proof.Proof.RefT6
import proofs.«130460_j34522947125965_1_alg».proof.Proof.RefT7
import proofs.«130460_j34522947125965_1_alg».proof.Proof.HostForms
import proofs.«130460_j34522947125965_1_alg».proof.Proof.RefTac
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxHeartbeats 4000000 in
/-- Lag 17: after its window, from any contents, its result buffer holds the lag's term of the normalised array's buffer. -/
theorem w17_out (V : Valuation τ sig (Elt F)) :
    after pc26 V (no_index (Proc.devRef .tc main_v437)) =
      HostForms.lagH 8175 17 0x45FF7800#32 slices_S128x8192_S128x8175_0_0 slices_S128x8192_S128x8175_0_17 reducesTo_S128x8175_S128_d1 bcast_S128x1_S128x8175_0_1 (V (Proc.devRef .tc main_v12)) := by
  window_result [pc26]

set_option maxHeartbeats 4000000 in
/-- Lag 18: after its window, from any contents, its result buffer holds the lag's term of the normalised array's buffer. -/
theorem w18_out (V : Valuation τ sig (Elt F)) :
    after pc28 (after pc27 V) (no_index (Proc.devRef .tc main_v462)) =
      HostForms.lagH 8174 18 0x45FF7000#32 slices_S128x8192_S128x8174_0_0 slices_S128x8192_S128x8174_0_18 reducesTo_S128x8174_S128_d1 bcast_S128x1_S128x8174_0_1 (V (Proc.devRef .tc main_v12)) := by
  window_result [pc27, pc28]

set_option maxHeartbeats 4000000 in
/-- Lag 19: after its window, from any contents, its result buffer holds the lag's term of the normalised array's buffer. -/
theorem w19_out (V : Valuation τ sig (Elt F)) :
    after pc30 (after pc29 V) (no_index (Proc.devRef .tc main_v487)) =
      HostForms.lagH 8173 19 0x45FF6800#32 slices_S128x8192_S128x8173_0_0 slices_S128x8192_S128x8173_0_19 reducesTo_S128x8173_S128_d1 bcast_S128x1_S128x8173_0_1 (V (Proc.devRef .tc main_v12)) := by
  window_result [pc29, pc30]

set_option maxHeartbeats 4000000 in
/-- Lag 20: after its window, from any contents, its result buffer holds the lag's term of the normalised array's buffer. -/
theorem w20_out (V : Valuation τ sig (Elt F)) :
    after pc31 V (no_index (Proc.devRef .tc main_v512)) =
      HostForms.lagH 8172 20 0x45FF6000#32 slices_S128x8192_S128x8172_0_0 slices_S128x8192_S128x8172_0_20 reducesTo_S128x8172_S128_d1 bcast_S128x1_S128x8172_0_1 (V (Proc.devRef .tc main_v12)) := by
  window_result [pc31]

end Cert.ReferenceIdeal.HandRun

end
-- ==== Proof.RefWinL5.lean ====
import proofs.«130460_j34522947125965_1_alg».proof.Proof.RefT8
import proofs.«130460_j34522947125965_1_alg».proof.Proof.RefT9
import proofs.«130460_j34522947125965_1_alg».proof.Proof.HostForms
import proofs.«130460_j34522947125965_1_alg».proof.Proof.RefTac
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxHeartbeats 4000000 in
/-- Lag 21: after its window, from any contents, its result buffer holds the lag's term of the normalised array's buffer. -/
theorem w21_out (V : Valuation τ sig (Elt F)) :
    after pc33 (after pc32 V) (no_index (Proc.devRef .tc main_v537)) =
      HostForms.lagH 8171 21 0x45FF5800#32 slices_S128x8192_S128x8171_0_0 slices_S128x8192_S128x8171_0_21 reducesTo_S128x8171_S128_d1 bcast_S128x1_S128x8171_0_1 (V (Proc.devRef .tc main_v12)) := by
  window_result [pc32, pc33]

set_option maxHeartbeats 4000000 in
/-- Lag 22: after its window, from any contents, its result buffer holds the lag's term of the normalised array's buffer. -/
theorem w22_out (V : Valuation τ sig (Elt F)) :
    after pc34 V (no_index (Proc.devRef .tc main_v562)) =
      HostForms.lagH 8170 22 0x45FF5000#32 slices_S128x8192_S128x8170_0_0 slices_S128x8192_S128x8170_0_22 reducesTo_S128x8170_S128_d1 bcast_S128x1_S128x8170_0_1 (V (Proc.devRef .tc main_v12)) := by
  window_result [pc34]

set_option maxHeartbeats 4000000 in
/-- Lag 23: after its window, from any contents, its result buffer holds the lag's term of the normalised array's buffer. -/
theorem w23_out (V : Valuation τ sig (Elt F)) :
    after pc36 (after pc35 V) (no_index (Proc.devRef .tc main_v587)) =
      HostForms.lagH 8169 23 0x45FF4800#32 slices_S128x8192_S128x8169_0_0 slices_S128x8192_S128x8169_0_23 reducesTo_S128x8169_S128_d1 bcast_S128x1_S128x8169_0_1 (V (Proc.devRef .tc main_v12)) := by
  window_result [pc35, pc36]

set_option maxHeartbeats 4000000 in
/-- Lag 24: after its window, from any contents, its result buffer holds the lag's term of the normalised array's buffer. -/
theorem w24_out (V : Valuation τ sig (Elt F)) :
    after pc37 V (no_index (Proc.devRef .tc main_v612)) =
      HostForms.lagH 8168 24 0x45FF4000#32 slices_S128x8192_S128x8168_0_0 slices_S128x8192_S128x8168_0_24 reducesTo_S128x8168_S128_d1 bcast_S128x1_S128x8168_0_1 (V (Proc.devRef .tc main_v12)) := by
  window_result [pc37]

end Cert.ReferenceIdeal.HandRun

end
-- ==== Proof.RefChain.lean ====
import proofs.«130460_j34522947125965_1_alg».proof.Proof.RefT0
import proofs.«130460_j34522947125965_1_alg».proof.Proof.RefT1
import proofs.«130460_j34522947125965_1_alg».proof.Proof.RefT2
import proofs.«130460_j34522947125965_1_alg».proof.Proof.RefT3
import proofs.«130460_j34522947125965_1_alg».proof.Proof.RefT4
import proofs.«130460_j34522947125965_1_alg».proof.Proof.RefT5
import proofs.«130460_j34522947125965_1_alg».proof.Proof.RefT6
import proofs.«130460_j34522947125965_1_alg».proof.Proof.RefT7
import proofs.«130460_j34522947125965_1_alg».proof.Proof.RefT8
import proofs.«130460_j34522947125965_1_alg».proof.Proof.RefT9
import proofs.«130460_j34522947125965_1_alg».proof.Proof.HostForms
import proofs.«130460_j34522947125965_1_alg».proof.Proof.RefWin0
import proofs.«130460_j34522947125965_1_alg».proof.Proof.RefWinL0
import proofs.«130460_j34522947125965_1_alg».proof.Proof.RefWinL1
import proofs.«130460_j34522947125965_1_alg».proof.Proof.RefWinL2
import proofs.«130460_j34522947125965_1_alg».proof.Proof.RefWinL3
import proofs.«130460_j34522947125965_1_alg».proof.Proof.RefWinL4
import proofs.«130460_j34522947125965_1_alg».proof.Proof.RefWinL5
import Idealize.ShloMosaic.Lib.StableHlo.Run

set_option maxRecDepth 16384

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The contents after the first 1 windows. -/
def val1 (V0 : Valuation τ sig (Elt F)) : Valuation τ sig (Elt F) := after pc0 ((val0 V0))
theorem val1_keep (V0 : Valuation τ sig (Elt F)) (r : Ref sig .tc) (h0 : r ∉ pc0_W) :
    val1 V0 (Proc.devRef .tc r) = val0 V0 (Proc.devRef .tc r) :=
  (after_of_writes_sub pc0 _ pc0_writes h0)
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_v12 (V0 : Valuation τ sig (Elt F)) : val1 V0 (no_index (Proc.devRef .tc main_v12)) = HostForms.seqnH (V0 (Proc.devRef .tc main_arg0)) :=
  (w0_out (val0 V0)).trans (by rw [val0_main_arg0])

/-- The contents after the first 2 windows. -/
def val2 (V0 : Valuation τ sig (Elt F)) : Valuation τ sig (Elt F) := after pc1 ((val1 V0))
theorem val2_keep (V0 : Valuation τ sig (Elt F)) (r : Ref sig .tc) (h1 : r ∉ pc1_W) :
    val2 V0 (Proc.devRef .tc r) = val1 V0 (Proc.devRef .tc r) :=
  (after_of_writes_sub pc1 _ pc1_writes h1)
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_v12 (V0 : Valuation τ sig (Elt F)) : val2 V0 (no_index (Proc.devRef .tc main_v12)) = HostForms.seqnH (V0 (Proc.devRef .tc main_arg0)) :=
  (val2_keep V0 main_v12 (by decide)).trans (val1_main_v12 V0)
theorem val2_main_v37 (V0 : Valuation τ sig (Elt F)) : val2 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (w1_out (val1 V0)).trans (by rw [val1_main_v12])

/-- The contents after the first 3 windows. -/
def val3 (V0 : Valuation τ sig (Elt F)) : Valuation τ sig (Elt F) := after pc3 (after pc2 ((val2 V0)))
theorem val3_keep (V0 : Valuation τ sig (Elt F)) (r : Ref sig .tc) (h2 : r ∉ pc2_W) (h3 : r ∉ pc3_W) :
    val3 V0 (Proc.devRef .tc r) = val2 V0 (Proc.devRef .tc r) :=
  (after_of_writes_sub pc3 _ pc3_writes h3).trans (after_of_writes_sub pc2 _ pc2_writes h2)
theorem val3_main_arg0 (V0 : Valuation τ sig (Elt F)) : val3 V0 (no_index (Proc.devRef .tc main_arg0)) = V0 (Proc.devRef .tc main_arg0) :=
  (val3_keep V0 main_arg0 (by decide) (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide) (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide) (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide) (by decide)).trans (val2_main_arg3 V0)
theorem val3_main_v12 (V0 : Valuation τ sig (Elt F)) : val3 V0 (no_index (Proc.devRef .tc main_v12)) = HostForms.seqnH (V0 (Proc.devRef .tc main_arg0)) :=
  (val3_keep V0 main_v12 (by decide) (by decide)).trans (val2_main_v12 V0)
theorem val3_main_v37 (V0 : Valuation τ sig (Elt F)) : val3 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val3_keep V0 main_v37 (by decide) (by decide)).trans (val2_main_v37 V0)
theorem val3_main_v62 (V0 : Valuation τ sig (Elt F)) : val3 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (w2_out (val2 V0)).trans (by rw [val2_main_v12])

/-- The contents after the first 4 windows. -/
def val4 (V0 : Valuation τ sig (Elt F)) : Valuation τ sig (Elt F) := after pc4 ((val3 V0))
theorem val4_keep (V0 : Valuation τ sig (Elt F)) (r : Ref sig .tc) (h4 : r ∉ pc4_W) :
    val4 V0 (Proc.devRef .tc r) = val3 V0 (Proc.devRef .tc r) :=
  (after_of_writes_sub pc4 _ pc4_writes h4)
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_v12 (V0 : Valuation τ sig (Elt F)) : val4 V0 (no_index (Proc.devRef .tc main_v12)) = HostForms.seqnH (V0 (Proc.devRef .tc main_arg0)) :=
  (val4_keep V0 main_v12 (by decide)).trans (val3_main_v12 V0)
theorem val4_main_v37 (V0 : Valuation τ sig (Elt F)) : val4 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val4_keep V0 main_v37 (by decide)).trans (val3_main_v37 V0)
theorem val4_main_v62 (V0 : Valuation τ sig (Elt F)) : val4 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val4_keep V0 main_v62 (by decide)).trans (val3_main_v62 V0)
theorem val4_main_v87 (V0 : Valuation τ sig (Elt F)) : val4 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (w3_out (val3 V0)).trans (by rw [val3_main_v12])

/-- The contents after the first 5 windows. -/
def val5 (V0 : Valuation τ sig (Elt F)) : Valuation τ sig (Elt F) := after pc6 (after pc5 ((val4 V0)))
theorem val5_keep (V0 : Valuation τ sig (Elt F)) (r : Ref sig .tc) (h5 : r ∉ pc5_W) (h6 : r ∉ pc6_W) :
    val5 V0 (Proc.devRef .tc r) = val4 V0 (Proc.devRef .tc r) :=
  (after_of_writes_sub pc6 _ pc6_writes h6).trans (after_of_writes_sub pc5 _ pc5_writes h5)
theorem val5_main_arg0 (V0 : Valuation τ sig (Elt F)) : val5 V0 (no_index (Proc.devRef .tc main_arg0)) = V0 (Proc.devRef .tc main_arg0) :=
  (val5_keep V0 main_arg0 (by decide) (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide) (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide) (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide) (by decide)).trans (val4_main_arg3 V0)
theorem val5_main_v12 (V0 : Valuation τ sig (Elt F)) : val5 V0 (no_index (Proc.devRef .tc main_v12)) = HostForms.seqnH (V0 (Proc.devRef .tc main_arg0)) :=
  (val5_keep V0 main_v12 (by decide) (by decide)).trans (val4_main_v12 V0)
theorem val5_main_v37 (V0 : Valuation τ sig (Elt F)) : val5 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val5_keep V0 main_v37 (by decide) (by decide)).trans (val4_main_v37 V0)
theorem val5_main_v62 (V0 : Valuation τ sig (Elt F)) : val5 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val5_keep V0 main_v62 (by decide) (by decide)).trans (val4_main_v62 V0)
theorem val5_main_v87 (V0 : Valuation τ sig (Elt F)) : val5 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val5_keep V0 main_v87 (by decide) (by decide)).trans (val4_main_v87 V0)
theorem val5_main_v112 (V0 : Valuation τ sig (Elt F)) : val5 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (w4_out (val4 V0)).trans (by rw [val4_main_v12])

/-- The contents after the first 6 windows. -/
def val6 (V0 : Valuation τ sig (Elt F)) : Valuation τ sig (Elt F) := after pc8 (after pc7 ((val5 V0)))
theorem val6_keep (V0 : Valuation τ sig (Elt F)) (r : Ref sig .tc) (h7 : r ∉ pc7_W) (h8 : r ∉ pc8_W) :
    val6 V0 (Proc.devRef .tc r) = val5 V0 (Proc.devRef .tc r) :=
  (after_of_writes_sub pc8 _ pc8_writes h8).trans (after_of_writes_sub pc7 _ pc7_writes h7)
theorem val6_main_arg0 (V0 : Valuation τ sig (Elt F)) : val6 V0 (no_index (Proc.devRef .tc main_arg0)) = V0 (Proc.devRef .tc main_arg0) :=
  (val6_keep V0 main_arg0 (by decide) (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide) (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide) (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide) (by decide)).trans (val5_main_arg3 V0)
theorem val6_main_v12 (V0 : Valuation τ sig (Elt F)) : val6 V0 (no_index (Proc.devRef .tc main_v12)) = HostForms.seqnH (V0 (Proc.devRef .tc main_arg0)) :=
  (val6_keep V0 main_v12 (by decide) (by decide)).trans (val5_main_v12 V0)
theorem val6_main_v37 (V0 : Valuation τ sig (Elt F)) : val6 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val6_keep V0 main_v37 (by decide) (by decide)).trans (val5_main_v37 V0)
theorem val6_main_v62 (V0 : Valuation τ sig (Elt F)) : val6 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val6_keep V0 main_v62 (by decide) (by decide)).trans (val5_main_v62 V0)
theorem val6_main_v87 (V0 : Valuation τ sig (Elt F)) : val6 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val6_keep V0 main_v87 (by decide) (by decide)).trans (val5_main_v87 V0)
theorem val6_main_v112 (V0 : Valuation τ sig (Elt F)) : val6 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val6_keep V0 main_v112 (by decide) (by decide)).trans (val5_main_v112 V0)
theorem val6_main_v137 (V0 : Valuation τ sig (Elt F)) : val6 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (w5_out (val5 V0)).trans (by rw [val5_main_v12])

/-- The contents after the first 7 windows. -/
def val7 (V0 : Valuation τ sig (Elt F)) : Valuation τ sig (Elt F) := after pc9 ((val6 V0))
theorem val7_keep (V0 : Valuation τ sig (Elt F)) (r : Ref sig .tc) (h9 : r ∉ pc9_W) :
    val7 V0 (Proc.devRef .tc r) = val6 V0 (Proc.devRef .tc r) :=
  (after_of_writes_sub pc9 _ pc9_writes h9)
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_v12 (V0 : Valuation τ sig (Elt F)) : val7 V0 (no_index (Proc.devRef .tc main_v12)) = HostForms.seqnH (V0 (Proc.devRef .tc main_arg0)) :=
  (val7_keep V0 main_v12 (by decide)).trans (val6_main_v12 V0)
theorem val7_main_v37 (V0 : Valuation τ sig (Elt F)) : val7 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val7_keep V0 main_v37 (by decide)).trans (val6_main_v37 V0)
theorem val7_main_v62 (V0 : Valuation τ sig (Elt F)) : val7 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val7_keep V0 main_v62 (by decide)).trans (val6_main_v62 V0)
theorem val7_main_v87 (V0 : Valuation τ sig (Elt F)) : val7 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val7_keep V0 main_v87 (by decide)).trans (val6_main_v87 V0)
theorem val7_main_v112 (V0 : Valuation τ sig (Elt F)) : val7 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val7_keep V0 main_v112 (by decide)).trans (val6_main_v112 V0)
theorem val7_main_v137 (V0 : Valuation τ sig (Elt F)) : val7 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val7_keep V0 main_v137 (by decide)).trans (val6_main_v137 V0)
theorem val7_main_v162 (V0 : Valuation τ sig (Elt F)) : val7 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (w6_out (val6 V0)).trans (by rw [val6_main_v12])

/-- The contents after the first 8 windows. -/
def val8 (V0 : Valuation τ sig (Elt F)) : Valuation τ sig (Elt F) := after pc11 (after pc10 ((val7 V0)))
theorem val8_keep (V0 : Valuation τ sig (Elt F)) (r : Ref sig .tc) (h10 : r ∉ pc10_W) (h11 : r ∉ pc11_W) :
    val8 V0 (Proc.devRef .tc r) = val7 V0 (Proc.devRef .tc r) :=
  (after_of_writes_sub pc11 _ pc11_writes h11).trans (after_of_writes_sub pc10 _ pc10_writes h10)
theorem val8_main_arg0 (V0 : Valuation τ sig (Elt F)) : val8 V0 (no_index (Proc.devRef .tc main_arg0)) = V0 (Proc.devRef .tc main_arg0) :=
  (val8_keep V0 main_arg0 (by decide) (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide) (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide) (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide) (by decide)).trans (val7_main_arg3 V0)
theorem val8_main_v12 (V0 : Valuation τ sig (Elt F)) : val8 V0 (no_index (Proc.devRef .tc main_v12)) = HostForms.seqnH (V0 (Proc.devRef .tc main_arg0)) :=
  (val8_keep V0 main_v12 (by decide) (by decide)).trans (val7_main_v12 V0)
theorem val8_main_v37 (V0 : Valuation τ sig (Elt F)) : val8 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val8_keep V0 main_v37 (by decide) (by decide)).trans (val7_main_v37 V0)
theorem val8_main_v62 (V0 : Valuation τ sig (Elt F)) : val8 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val8_keep V0 main_v62 (by decide) (by decide)).trans (val7_main_v62 V0)
theorem val8_main_v87 (V0 : Valuation τ sig (Elt F)) : val8 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val8_keep V0 main_v87 (by decide) (by decide)).trans (val7_main_v87 V0)
theorem val8_main_v112 (V0 : Valuation τ sig (Elt F)) : val8 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val8_keep V0 main_v112 (by decide) (by decide)).trans (val7_main_v112 V0)
theorem val8_main_v137 (V0 : Valuation τ sig (Elt F)) : val8 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val8_keep V0 main_v137 (by decide) (by decide)).trans (val7_main_v137 V0)
theorem val8_main_v162 (V0 : Valuation τ sig (Elt F)) : val8 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val8_keep V0 main_v162 (by decide) (by decide)).trans (val7_main_v162 V0)
theorem val8_main_v187 (V0 : Valuation τ sig (Elt F)) : val8 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (w7_out (val7 V0)).trans (by rw [val7_main_v12])

/-- The contents after the first 9 windows. -/
def val9 (V0 : Valuation τ sig (Elt F)) : Valuation τ sig (Elt F) := after pc12 ((val8 V0))
theorem val9_keep (V0 : Valuation τ sig (Elt F)) (r : Ref sig .tc) (h12 : r ∉ pc12_W) :
    val9 V0 (Proc.devRef .tc r) = val8 V0 (Proc.devRef .tc r) :=
  (after_of_writes_sub pc12 _ pc12_writes h12)
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_v12 (V0 : Valuation τ sig (Elt F)) : val9 V0 (no_index (Proc.devRef .tc main_v12)) = HostForms.seqnH (V0 (Proc.devRef .tc main_arg0)) :=
  (val9_keep V0 main_v12 (by decide)).trans (val8_main_v12 V0)
theorem val9_main_v37 (V0 : Valuation τ sig (Elt F)) : val9 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val9_keep V0 main_v37 (by decide)).trans (val8_main_v37 V0)
theorem val9_main_v62 (V0 : Valuation τ sig (Elt F)) : val9 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val9_keep V0 main_v62 (by decide)).trans (val8_main_v62 V0)
theorem val9_main_v87 (V0 : Valuation τ sig (Elt F)) : val9 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val9_keep V0 main_v87 (by decide)).trans (val8_main_v87 V0)
theorem val9_main_v112 (V0 : Valuation τ sig (Elt F)) : val9 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val9_keep V0 main_v112 (by decide)).trans (val8_main_v112 V0)
theorem val9_main_v137 (V0 : Valuation τ sig (Elt F)) : val9 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val9_keep V0 main_v137 (by decide)).trans (val8_main_v137 V0)
theorem val9_main_v162 (V0 : Valuation τ sig (Elt F)) : val9 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val9_keep V0 main_v162 (by decide)).trans (val8_main_v162 V0)
theorem val9_main_v187 (V0 : Valuation τ sig (Elt F)) : val9 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val9_keep V0 main_v187 (by decide)).trans (val8_main_v187 V0)
theorem val9_main_v212 (V0 : Valuation τ sig (Elt F)) : val9 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (w8_out (val8 V0)).trans (by rw [val8_main_v12])

/-- The contents after the first 10 windows. -/
def val10 (V0 : Valuation τ sig (Elt F)) : Valuation τ sig (Elt F) := after pc14 (after pc13 ((val9 V0)))
theorem val10_keep (V0 : Valuation τ sig (Elt F)) (r : Ref sig .tc) (h13 : r ∉ pc13_W) (h14 : r ∉ pc14_W) :
    val10 V0 (Proc.devRef .tc r) = val9 V0 (Proc.devRef .tc r) :=
  (after_of_writes_sub pc14 _ pc14_writes h14).trans (after_of_writes_sub pc13 _ pc13_writes h13)
theorem val10_main_arg0 (V0 : Valuation τ sig (Elt F)) : val10 V0 (no_index (Proc.devRef .tc main_arg0)) = V0 (Proc.devRef .tc main_arg0) :=
  (val10_keep V0 main_arg0 (by decide) (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide) (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide) (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide) (by decide)).trans (val9_main_arg3 V0)
theorem val10_main_v12 (V0 : Valuation τ sig (Elt F)) : val10 V0 (no_index (Proc.devRef .tc main_v12)) = HostForms.seqnH (V0 (Proc.devRef .tc main_arg0)) :=
  (val10_keep V0 main_v12 (by decide) (by decide)).trans (val9_main_v12 V0)
theorem val10_main_v37 (V0 : Valuation τ sig (Elt F)) : val10 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val10_keep V0 main_v37 (by decide) (by decide)).trans (val9_main_v37 V0)
theorem val10_main_v62 (V0 : Valuation τ sig (Elt F)) : val10 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val10_keep V0 main_v62 (by decide) (by decide)).trans (val9_main_v62 V0)
theorem val10_main_v87 (V0 : Valuation τ sig (Elt F)) : val10 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val10_keep V0 main_v87 (by decide) (by decide)).trans (val9_main_v87 V0)
theorem val10_main_v112 (V0 : Valuation τ sig (Elt F)) : val10 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val10_keep V0 main_v112 (by decide) (by decide)).trans (val9_main_v112 V0)
theorem val10_main_v137 (V0 : Valuation τ sig (Elt F)) : val10 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val10_keep V0 main_v137 (by decide) (by decide)).trans (val9_main_v137 V0)
theorem val10_main_v162 (V0 : Valuation τ sig (Elt F)) : val10 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val10_keep V0 main_v162 (by decide) (by decide)).trans (val9_main_v162 V0)
theorem val10_main_v187 (V0 : Valuation τ sig (Elt F)) : val10 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val10_keep V0 main_v187 (by decide) (by decide)).trans (val9_main_v187 V0)
theorem val10_main_v212 (V0 : Valuation τ sig (Elt F)) : val10 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val10_keep V0 main_v212 (by decide) (by decide)).trans (val9_main_v212 V0)
theorem val10_main_v237 (V0 : Valuation τ sig (Elt F)) : val10 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (w9_out (val9 V0)).trans (by rw [val9_main_v12])

/-- The contents after the first 11 windows. -/
def val11 (V0 : Valuation τ sig (Elt F)) : Valuation τ sig (Elt F) := after pc15 ((val10 V0))
theorem val11_keep (V0 : Valuation τ sig (Elt F)) (r : Ref sig .tc) (h15 : r ∉ pc15_W) :
    val11 V0 (Proc.devRef .tc r) = val10 V0 (Proc.devRef .tc r) :=
  (after_of_writes_sub pc15 _ pc15_writes h15)
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_v12 (V0 : Valuation τ sig (Elt F)) : val11 V0 (no_index (Proc.devRef .tc main_v12)) = HostForms.seqnH (V0 (Proc.devRef .tc main_arg0)) :=
  (val11_keep V0 main_v12 (by decide)).trans (val10_main_v12 V0)
theorem val11_main_v37 (V0 : Valuation τ sig (Elt F)) : val11 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val11_keep V0 main_v37 (by decide)).trans (val10_main_v37 V0)
theorem val11_main_v62 (V0 : Valuation τ sig (Elt F)) : val11 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val11_keep V0 main_v62 (by decide)).trans (val10_main_v62 V0)
theorem val11_main_v87 (V0 : Valuation τ sig (Elt F)) : val11 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val11_keep V0 main_v87 (by decide)).trans (val10_main_v87 V0)
theorem val11_main_v112 (V0 : Valuation τ sig (Elt F)) : val11 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val11_keep V0 main_v112 (by decide)).trans (val10_main_v112 V0)
theorem val11_main_v137 (V0 : Valuation τ sig (Elt F)) : val11 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val11_keep V0 main_v137 (by decide)).trans (val10_main_v137 V0)
theorem val11_main_v162 (V0 : Valuation τ sig (Elt F)) : val11 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val11_keep V0 main_v162 (by decide)).trans (val10_main_v162 V0)
theorem val11_main_v187 (V0 : Valuation τ sig (Elt F)) : val11 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val11_keep V0 main_v187 (by decide)).trans (val10_main_v187 V0)
theorem val11_main_v212 (V0 : Valuation τ sig (Elt F)) : val11 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val11_keep V0 main_v212 (by decide)).trans (val10_main_v212 V0)
theorem val11_main_v237 (V0 : Valuation τ sig (Elt F)) : val11 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val11_keep V0 main_v237 (by decide)).trans (val10_main_v237 V0)
theorem val11_main_v262 (V0 : Valuation τ sig (Elt F)) : val11 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (w10_out (val10 V0)).trans (by rw [val10_main_v12])

/-- The contents after the first 12 windows. -/
def val12 (V0 : Valuation τ sig (Elt F)) : Valuation τ sig (Elt F) := after pc17 (after pc16 ((val11 V0)))
theorem val12_keep (V0 : Valuation τ sig (Elt F)) (r : Ref sig .tc) (h16 : r ∉ pc16_W) (h17 : r ∉ pc17_W) :
    val12 V0 (Proc.devRef .tc r) = val11 V0 (Proc.devRef .tc r) :=
  (after_of_writes_sub pc17 _ pc17_writes h17).trans (after_of_writes_sub pc16 _ pc16_writes h16)
theorem val12_main_arg0 (V0 : Valuation τ sig (Elt F)) : val12 V0 (no_index (Proc.devRef .tc main_arg0)) = V0 (Proc.devRef .tc main_arg0) :=
  (val12_keep V0 main_arg0 (by decide) (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide) (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide) (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide) (by decide)).trans (val11_main_arg3 V0)
theorem val12_main_v12 (V0 : Valuation τ sig (Elt F)) : val12 V0 (no_index (Proc.devRef .tc main_v12)) = HostForms.seqnH (V0 (Proc.devRef .tc main_arg0)) :=
  (val12_keep V0 main_v12 (by decide) (by decide)).trans (val11_main_v12 V0)
theorem val12_main_v37 (V0 : Valuation τ sig (Elt F)) : val12 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val12_keep V0 main_v37 (by decide) (by decide)).trans (val11_main_v37 V0)
theorem val12_main_v62 (V0 : Valuation τ sig (Elt F)) : val12 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val12_keep V0 main_v62 (by decide) (by decide)).trans (val11_main_v62 V0)
theorem val12_main_v87 (V0 : Valuation τ sig (Elt F)) : val12 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val12_keep V0 main_v87 (by decide) (by decide)).trans (val11_main_v87 V0)
theorem val12_main_v112 (V0 : Valuation τ sig (Elt F)) : val12 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val12_keep V0 main_v112 (by decide) (by decide)).trans (val11_main_v112 V0)
theorem val12_main_v137 (V0 : Valuation τ sig (Elt F)) : val12 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val12_keep V0 main_v137 (by decide) (by decide)).trans (val11_main_v137 V0)
theorem val12_main_v162 (V0 : Valuation τ sig (Elt F)) : val12 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val12_keep V0 main_v162 (by decide) (by decide)).trans (val11_main_v162 V0)
theorem val12_main_v187 (V0 : Valuation τ sig (Elt F)) : val12 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val12_keep V0 main_v187 (by decide) (by decide)).trans (val11_main_v187 V0)
theorem val12_main_v212 (V0 : Valuation τ sig (Elt F)) : val12 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val12_keep V0 main_v212 (by decide) (by decide)).trans (val11_main_v212 V0)
theorem val12_main_v237 (V0 : Valuation τ sig (Elt F)) : val12 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val12_keep V0 main_v237 (by decide) (by decide)).trans (val11_main_v237 V0)
theorem val12_main_v262 (V0 : Valuation τ sig (Elt F)) : val12 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val12_keep V0 main_v262 (by decide) (by decide)).trans (val11_main_v262 V0)
theorem val12_main_v287 (V0 : Valuation τ sig (Elt F)) : val12 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (w11_out (val11 V0)).trans (by rw [val11_main_v12])

/-- The contents after the first 13 windows. -/
def val13 (V0 : Valuation τ sig (Elt F)) : Valuation τ sig (Elt F) := after pc19 (after pc18 ((val12 V0)))
theorem val13_keep (V0 : Valuation τ sig (Elt F)) (r : Ref sig .tc) (h18 : r ∉ pc18_W) (h19 : r ∉ pc19_W) :
    val13 V0 (Proc.devRef .tc r) = val12 V0 (Proc.devRef .tc r) :=
  (after_of_writes_sub pc19 _ pc19_writes h19).trans (after_of_writes_sub pc18 _ pc18_writes h18)
theorem val13_main_arg0 (V0 : Valuation τ sig (Elt F)) : val13 V0 (no_index (Proc.devRef .tc main_arg0)) = V0 (Proc.devRef .tc main_arg0) :=
  (val13_keep V0 main_arg0 (by decide) (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide) (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide) (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide) (by decide)).trans (val12_main_arg3 V0)
theorem val13_main_v12 (V0 : Valuation τ sig (Elt F)) : val13 V0 (no_index (Proc.devRef .tc main_v12)) = HostForms.seqnH (V0 (Proc.devRef .tc main_arg0)) :=
  (val13_keep V0 main_v12 (by decide) (by decide)).trans (val12_main_v12 V0)
theorem val13_main_v37 (V0 : Valuation τ sig (Elt F)) : val13 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val13_keep V0 main_v37 (by decide) (by decide)).trans (val12_main_v37 V0)
theorem val13_main_v62 (V0 : Valuation τ sig (Elt F)) : val13 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val13_keep V0 main_v62 (by decide) (by decide)).trans (val12_main_v62 V0)
theorem val13_main_v87 (V0 : Valuation τ sig (Elt F)) : val13 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val13_keep V0 main_v87 (by decide) (by decide)).trans (val12_main_v87 V0)
theorem val13_main_v112 (V0 : Valuation τ sig (Elt F)) : val13 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val13_keep V0 main_v112 (by decide) (by decide)).trans (val12_main_v112 V0)
theorem val13_main_v137 (V0 : Valuation τ sig (Elt F)) : val13 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val13_keep V0 main_v137 (by decide) (by decide)).trans (val12_main_v137 V0)
theorem val13_main_v162 (V0 : Valuation τ sig (Elt F)) : val13 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val13_keep V0 main_v162 (by decide) (by decide)).trans (val12_main_v162 V0)
theorem val13_main_v187 (V0 : Valuation τ sig (Elt F)) : val13 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val13_keep V0 main_v187 (by decide) (by decide)).trans (val12_main_v187 V0)
theorem val13_main_v212 (V0 : Valuation τ sig (Elt F)) : val13 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val13_keep V0 main_v212 (by decide) (by decide)).trans (val12_main_v212 V0)
theorem val13_main_v237 (V0 : Valuation τ sig (Elt F)) : val13 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val13_keep V0 main_v237 (by decide) (by decide)).trans (val12_main_v237 V0)
theorem val13_main_v262 (V0 : Valuation τ sig (Elt F)) : val13 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val13_keep V0 main_v262 (by decide) (by decide)).trans (val12_main_v262 V0)
theorem val13_main_v287 (V0 : Valuation τ sig (Elt F)) : val13 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val13_keep V0 main_v287 (by decide) (by decide)).trans (val12_main_v287 V0)
theorem val13_main_v312 (V0 : Valuation τ sig (Elt F)) : val13 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (w12_out (val12 V0)).trans (by rw [val12_main_v12])

/-- The contents after the first 14 windows. -/
def val14 (V0 : Valuation τ sig (Elt F)) : Valuation τ sig (Elt F) := after pc20 ((val13 V0))
theorem val14_keep (V0 : Valuation τ sig (Elt F)) (r : Ref sig .tc) (h20 : r ∉ pc20_W) :
    val14 V0 (Proc.devRef .tc r) = val13 V0 (Proc.devRef .tc r) :=
  (after_of_writes_sub pc20 _ pc20_writes h20)
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
theorem val14_main_v12 (V0 : Valuation τ sig (Elt F)) : val14 V0 (no_index (Proc.devRef .tc main_v12)) = HostForms.seqnH (V0 (Proc.devRef .tc main_arg0)) :=
  (val14_keep V0 main_v12 (by decide)).trans (val13_main_v12 V0)
theorem val14_main_v37 (V0 : Valuation τ sig (Elt F)) : val14 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val14_keep V0 main_v37 (by decide)).trans (val13_main_v37 V0)
theorem val14_main_v62 (V0 : Valuation τ sig (Elt F)) : val14 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val14_keep V0 main_v62 (by decide)).trans (val13_main_v62 V0)
theorem val14_main_v87 (V0 : Valuation τ sig (Elt F)) : val14 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val14_keep V0 main_v87 (by decide)).trans (val13_main_v87 V0)
theorem val14_main_v112 (V0 : Valuation τ sig (Elt F)) : val14 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val14_keep V0 main_v112 (by decide)).trans (val13_main_v112 V0)
theorem val14_main_v137 (V0 : Valuation τ sig (Elt F)) : val14 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val14_keep V0 main_v137 (by decide)).trans (val13_main_v137 V0)
theorem val14_main_v162 (V0 : Valuation τ sig (Elt F)) : val14 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val14_keep V0 main_v162 (by decide)).trans (val13_main_v162 V0)
theorem val14_main_v187 (V0 : Valuation τ sig (Elt F)) : val14 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val14_keep V0 main_v187 (by decide)).trans (val13_main_v187 V0)
theorem val14_main_v212 (V0 : Valuation τ sig (Elt F)) : val14 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val14_keep V0 main_v212 (by decide)).trans (val13_main_v212 V0)
theorem val14_main_v237 (V0 : Valuation τ sig (Elt F)) : val14 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val14_keep V0 main_v237 (by decide)).trans (val13_main_v237 V0)
theorem val14_main_v262 (V0 : Valuation τ sig (Elt F)) : val14 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val14_keep V0 main_v262 (by decide)).trans (val13_main_v262 V0)
theorem val14_main_v287 (V0 : Valuation τ sig (Elt F)) : val14 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val14_keep V0 main_v287 (by decide)).trans (val13_main_v287 V0)
theorem val14_main_v312 (V0 : Valuation τ sig (Elt F)) : val14 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val14_keep V0 main_v312 (by decide)).trans (val13_main_v312 V0)
theorem val14_main_v337 (V0 : Valuation τ sig (Elt F)) : val14 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (w13_out (val13 V0)).trans (by rw [val13_main_v12])

/-- The contents after the first 15 windows. -/
def val15 (V0 : Valuation τ sig (Elt F)) : Valuation τ sig (Elt F) := after pc22 (after pc21 ((val14 V0)))
theorem val15_keep (V0 : Valuation τ sig (Elt F)) (r : Ref sig .tc) (h21 : r ∉ pc21_W) (h22 : r ∉ pc22_W) :
    val15 V0 (Proc.devRef .tc r) = val14 V0 (Proc.devRef .tc r) :=
  (after_of_writes_sub pc22 _ pc22_writes h22).trans (after_of_writes_sub pc21 _ pc21_writes h21)
theorem val15_main_arg0 (V0 : Valuation τ sig (Elt F)) : val15 V0 (no_index (Proc.devRef .tc main_arg0)) = V0 (Proc.devRef .tc main_arg0) :=
  (val15_keep V0 main_arg0 (by decide) (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide) (by decide)).trans (val14_main_arg1 V0)
theorem val15_main_arg2 (V0 : Valuation τ sig (Elt F)) : val15 V0 (no_index (Proc.devRef .tc main_arg2)) = V0 (Proc.devRef .tc main_arg2) :=
  (val15_keep V0 main_arg2 (by decide) (by decide)).trans (val14_main_arg2 V0)
theorem val15_main_arg3 (V0 : Valuation τ sig (Elt F)) : val15 V0 (no_index (Proc.devRef .tc main_arg3)) = V0 (Proc.devRef .tc main_arg3) :=
  (val15_keep V0 main_arg3 (by decide) (by decide)).trans (val14_main_arg3 V0)
theorem val15_main_v12 (V0 : Valuation τ sig (Elt F)) : val15 V0 (no_index (Proc.devRef .tc main_v12)) = HostForms.seqnH (V0 (Proc.devRef .tc main_arg0)) :=
  (val15_keep V0 main_v12 (by decide) (by decide)).trans (val14_main_v12 V0)
theorem val15_main_v37 (V0 : Valuation τ sig (Elt F)) : val15 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val15_keep V0 main_v37 (by decide) (by decide)).trans (val14_main_v37 V0)
theorem val15_main_v62 (V0 : Valuation τ sig (Elt F)) : val15 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val15_keep V0 main_v62 (by decide) (by decide)).trans (val14_main_v62 V0)
theorem val15_main_v87 (V0 : Valuation τ sig (Elt F)) : val15 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val15_keep V0 main_v87 (by decide) (by decide)).trans (val14_main_v87 V0)
theorem val15_main_v112 (V0 : Valuation τ sig (Elt F)) : val15 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val15_keep V0 main_v112 (by decide) (by decide)).trans (val14_main_v112 V0)
theorem val15_main_v137 (V0 : Valuation τ sig (Elt F)) : val15 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val15_keep V0 main_v137 (by decide) (by decide)).trans (val14_main_v137 V0)
theorem val15_main_v162 (V0 : Valuation τ sig (Elt F)) : val15 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val15_keep V0 main_v162 (by decide) (by decide)).trans (val14_main_v162 V0)
theorem val15_main_v187 (V0 : Valuation τ sig (Elt F)) : val15 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val15_keep V0 main_v187 (by decide) (by decide)).trans (val14_main_v187 V0)
theorem val15_main_v212 (V0 : Valuation τ sig (Elt F)) : val15 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val15_keep V0 main_v212 (by decide) (by decide)).trans (val14_main_v212 V0)
theorem val15_main_v237 (V0 : Valuation τ sig (Elt F)) : val15 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val15_keep V0 main_v237 (by decide) (by decide)).trans (val14_main_v237 V0)
theorem val15_main_v262 (V0 : Valuation τ sig (Elt F)) : val15 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val15_keep V0 main_v262 (by decide) (by decide)).trans (val14_main_v262 V0)
theorem val15_main_v287 (V0 : Valuation τ sig (Elt F)) : val15 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val15_keep V0 main_v287 (by decide) (by decide)).trans (val14_main_v287 V0)
theorem val15_main_v312 (V0 : Valuation τ sig (Elt F)) : val15 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val15_keep V0 main_v312 (by decide) (by decide)).trans (val14_main_v312 V0)
theorem val15_main_v337 (V0 : Valuation τ sig (Elt F)) : val15 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val15_keep V0 main_v337 (by decide) (by decide)).trans (val14_main_v337 V0)
theorem val15_main_v362 (V0 : Valuation τ sig (Elt F)) : val15 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (w14_out (val14 V0)).trans (by rw [val14_main_v12])

/-- The contents after the first 16 windows. -/
def val16 (V0 : Valuation τ sig (Elt F)) : Valuation τ sig (Elt F) := after pc23 ((val15 V0))
theorem val16_keep (V0 : Valuation τ sig (Elt F)) (r : Ref sig .tc) (h23 : r ∉ pc23_W) :
    val16 V0 (Proc.devRef .tc r) = val15 V0 (Proc.devRef .tc r) :=
  (after_of_writes_sub pc23 _ pc23_writes h23)
theorem val16_main_arg0 (V0 : Valuation τ sig (Elt F)) : val16 V0 (no_index (Proc.devRef .tc main_arg0)) = V0 (Proc.devRef .tc main_arg0) :=
  (val16_keep V0 main_arg0 (by decide)).trans (val15_main_arg0 V0)
theorem val16_main_arg1 (V0 : Valuation τ sig (Elt F)) : val16 V0 (no_index (Proc.devRef .tc main_arg1)) = V0 (Proc.devRef .tc main_arg1) :=
  (val16_keep V0 main_arg1 (by decide)).trans (val15_main_arg1 V0)
theorem val16_main_arg2 (V0 : Valuation τ sig (Elt F)) : val16 V0 (no_index (Proc.devRef .tc main_arg2)) = V0 (Proc.devRef .tc main_arg2) :=
  (val16_keep V0 main_arg2 (by decide)).trans (val15_main_arg2 V0)
theorem val16_main_arg3 (V0 : Valuation τ sig (Elt F)) : val16 V0 (no_index (Proc.devRef .tc main_arg3)) = V0 (Proc.devRef .tc main_arg3) :=
  (val16_keep V0 main_arg3 (by decide)).trans (val15_main_arg3 V0)
theorem val16_main_v12 (V0 : Valuation τ sig (Elt F)) : val16 V0 (no_index (Proc.devRef .tc main_v12)) = HostForms.seqnH (V0 (Proc.devRef .tc main_arg0)) :=
  (val16_keep V0 main_v12 (by decide)).trans (val15_main_v12 V0)
theorem val16_main_v37 (V0 : Valuation τ sig (Elt F)) : val16 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val16_keep V0 main_v37 (by decide)).trans (val15_main_v37 V0)
theorem val16_main_v62 (V0 : Valuation τ sig (Elt F)) : val16 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val16_keep V0 main_v62 (by decide)).trans (val15_main_v62 V0)
theorem val16_main_v87 (V0 : Valuation τ sig (Elt F)) : val16 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val16_keep V0 main_v87 (by decide)).trans (val15_main_v87 V0)
theorem val16_main_v112 (V0 : Valuation τ sig (Elt F)) : val16 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val16_keep V0 main_v112 (by decide)).trans (val15_main_v112 V0)
theorem val16_main_v137 (V0 : Valuation τ sig (Elt F)) : val16 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val16_keep V0 main_v137 (by decide)).trans (val15_main_v137 V0)
theorem val16_main_v162 (V0 : Valuation τ sig (Elt F)) : val16 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val16_keep V0 main_v162 (by decide)).trans (val15_main_v162 V0)
theorem val16_main_v187 (V0 : Valuation τ sig (Elt F)) : val16 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val16_keep V0 main_v187 (by decide)).trans (val15_main_v187 V0)
theorem val16_main_v212 (V0 : Valuation τ sig (Elt F)) : val16 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val16_keep V0 main_v212 (by decide)).trans (val15_main_v212 V0)
theorem val16_main_v237 (V0 : Valuation τ sig (Elt F)) : val16 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val16_keep V0 main_v237 (by decide)).trans (val15_main_v237 V0)
theorem val16_main_v262 (V0 : Valuation τ sig (Elt F)) : val16 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val16_keep V0 main_v262 (by decide)).trans (val15_main_v262 V0)
theorem val16_main_v287 (V0 : Valuation τ sig (Elt F)) : val16 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val16_keep V0 main_v287 (by decide)).trans (val15_main_v287 V0)
theorem val16_main_v312 (V0 : Valuation τ sig (Elt F)) : val16 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val16_keep V0 main_v312 (by decide)).trans (val15_main_v312 V0)
theorem val16_main_v337 (V0 : Valuation τ sig (Elt F)) : val16 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val16_keep V0 main_v337 (by decide)).trans (val15_main_v337 V0)
theorem val16_main_v362 (V0 : Valuation τ sig (Elt F)) : val16 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (val16_keep V0 main_v362 (by decide)).trans (val15_main_v362 V0)
theorem val16_main_v387 (V0 : Valuation τ sig (Elt F)) : val16 V0 (no_index (Proc.devRef .tc main_v387)) = HostForms.lagH 8177 15 0x45FF8800#32 slices_S128x8192_S128x8177_0_0 slices_S128x8192_S128x8177_0_15 reducesTo_S128x8177_S128_d1 bcast_S128x1_S128x8177_0_1 (HostForms.seqnH (V0 (Proc.devRef .tc main_arg0))) :=
  (w15_out (val15 V0)).trans (by rw [val15_main_v12])

/-- The contents after the first 17 windows. -/
def val17 (V0 : Valuation τ sig (Elt F)) : Valuation τ sig (Elt F) := after pc25 (after pc24 ((val16 V0)))
theorem val17_keep (V0 : Valuation τ sig (Elt F)) (r : Ref sig .tc) (h24 : r ∉ pc24_W) (h25 : r ∉ pc25_W) :
    val17 V0 (Proc.devRef .tc r) = val16 V0 (Proc.devRef .tc r) :=
  (after_of_writes_sub pc25 _ pc25_writes h25).trans (after_of_writes_sub pc24 _ pc24_writes h24)
theorem val17_main_arg0 (V0 : Valuation τ sig (Elt F)) : val17 V0 (no_index (Proc.devRef .tc main_arg0)) = V0 (Proc.devRef .tc main_arg0) :=
  (val17_keep V0 main_arg0 (by decide) (by decide)).trans (val16_main_arg0 V0)
theorem val17_main_arg1 (V0 : Valuation τ sig (Elt F)) : val17 V0 (no_index (Proc.devRef .tc main_arg1)) = V0 (Proc.devRef .tc main_arg1) :=
  (val17_keep V0 main_arg1 (by decide) (by decide)).trans (val16_main_arg1 V0)
theorem val17_main_arg2 (V0 : Valuation τ sig (Elt F)) : val17 V0 (no_index (Proc.devRef .tc main_arg2)) = V0 (Proc.devRef .tc main_arg2) :=
  (val17_keep V0 main_arg2 (by decide) (by decide)).trans (val16_main_arg2 V0)
theorem val17_main_arg3 (V0 : Valuation τ sig (Elt F)) : val17 V0 (no_index (Proc.devRef .tc main_arg3)) = V0 (Proc.devRef .tc main_arg3) :=
  (val17_keep V0 main_arg3 (by decide) (by decide)).trans (val16_main_arg3 V0)
theorem val17_main_v12 (V0 : Valuation τ sig (Elt F)) : val17 V0 (no_index (Proc.devRef .tc main_v12)) = HostForms.seqnH (V0 (Proc.devRef .tc main_arg0)) :=
  (val17_keep V0 main_v12 (by decide) (by decide)).trans (val16_main_v12 V0)
theorem val17_main_v37 (V0 : Valuation τ sig (Elt F)) : val17 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val17_keep V0 main_v37 (by decide) (by decide)).trans (val16_main_v37 V0)
theorem val17_main_v62 (V0 : Valuation τ sig (Elt F)) : val17 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val17_keep V0 main_v62 (by decide) (by decide)).trans (val16_main_v62 V0)
theorem val17_main_v87 (V0 : Valuation τ sig (Elt F)) : val17 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val17_keep V0 main_v87 (by decide) (by decide)).trans (val16_main_v87 V0)
theorem val17_main_v112 (V0 : Valuation τ sig (Elt F)) : val17 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val17_keep V0 main_v112 (by decide) (by decide)).trans (val16_main_v112 V0)
theorem val17_main_v137 (V0 : Valuation τ sig (Elt F)) : val17 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val17_keep V0 main_v137 (by decide) (by decide)).trans (val16_main_v137 V0)
theorem val17_main_v162 (V0 : Valuation τ sig (Elt F)) : val17 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val17_keep V0 main_v162 (by decide) (by decide)).trans (val16_main_v162 V0)
theorem val17_main_v187 (V0 : Valuation τ sig (Elt F)) : val17 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val17_keep V0 main_v187 (by decide) (by decide)).trans (val16_main_v187 V0)
theorem val17_main_v212 (V0 : Valuation τ sig (Elt F)) : val17 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val17_keep V0 main_v212 (by decide) (by decide)).trans (val16_main_v212 V0)
theorem val17_main_v237 (V0 : Valuation τ sig (Elt F)) : val17 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val17_keep V0 main_v237 (by decide) (by decide)).trans (val16_main_v237 V0)
theorem val17_main_v262 (V0 : Valuation τ sig (Elt F)) : val17 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val17_keep V0 main_v262 (by decide) (by decide)).trans (val16_main_v262 V0)
theorem val17_main_v287 (V0 : Valuation τ sig (Elt F)) : val17 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val17_keep V0 main_v287 (by decide) (by decide)).trans (val16_main_v287 V0)
theorem val17_main_v312 (V0 : Valuation τ sig (Elt F)) : val17 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val17_keep V0 main_v312 (by decide) (by decide)).trans (val16_main_v312 V0)
theorem val17_main_v337 (V0 : Valuation τ sig (Elt F)) : val17 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val17_keep V0 main_v337 (by decide) (by decide)).trans (val16_main_v337 V0)
theorem val17_main_v362 (V0 : Valuation τ sig (Elt F)) : val17 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (val17_keep V0 main_v362 (by decide) (by decide)).trans (val16_main_v362 V0)
theorem val17_main_v387 (V0 : Valuation τ sig (Elt F)) : val17 V0 (no_index (Proc.devRef .tc main_v387)) = HostForms.lagH 8177 15 0x45FF8800#32 slices_S128x8192_S128x8177_0_0 slices_S128x8192_S128x8177_0_15 reducesTo_S128x8177_S128_d1 bcast_S128x1_S128x8177_0_1 (HostForms.seqnH (V0 (Proc.devRef .tc main_arg0))) :=
  (val17_keep V0 main_v387 (by decide) (by decide)).trans (val16_main_v387 V0)
theorem val17_main_v412 (V0 : Valuation τ sig (Elt F)) : val17 V0 (no_index (Proc.devRef .tc main_v412)) = HostForms.lagH 8176 16 0x45FF8000#32 slices_S128x8192_S128x8176_0_0 slices_S128x8192_S128x8176_0_16 reducesTo_S128x8176_S128_d1 bcast_S128x1_S128x8176_0_1 (HostForms.seqnH (V0 (Proc.devRef .tc main_arg0))) :=
  (w16_out (val16 V0)).trans (by rw [val16_main_v12])

/-- The contents after the first 18 windows. -/
def val18 (V0 : Valuation τ sig (Elt F)) : Valuation τ sig (Elt F) := after pc26 ((val17 V0))
theorem val18_keep (V0 : Valuation τ sig (Elt F)) (r : Ref sig .tc) (h26 : r ∉ pc26_W) :
    val18 V0 (Proc.devRef .tc r) = val17 V0 (Proc.devRef .tc r) :=
  (after_of_writes_sub pc26 _ pc26_writes h26)
theorem val18_main_arg0 (V0 : Valuation τ sig (Elt F)) : val18 V0 (no_index (Proc.devRef .tc main_arg0)) = V0 (Proc.devRef .tc main_arg0) :=
  (val18_keep V0 main_arg0 (by decide)).trans (val17_main_arg0 V0)
theorem val18_main_arg1 (V0 : Valuation τ sig (Elt F)) : val18 V0 (no_index (Proc.devRef .tc main_arg1)) = V0 (Proc.devRef .tc main_arg1) :=
  (val18_keep V0 main_arg1 (by decide)).trans (val17_main_arg1 V0)
theorem val18_main_arg2 (V0 : Valuation τ sig (Elt F)) : val18 V0 (no_index (Proc.devRef .tc main_arg2)) = V0 (Proc.devRef .tc main_arg2) :=
  (val18_keep V0 main_arg2 (by decide)).trans (val17_main_arg2 V0)
theorem val18_main_arg3 (V0 : Valuation τ sig (Elt F)) : val18 V0 (no_index (Proc.devRef .tc main_arg3)) = V0 (Proc.devRef .tc main_arg3) :=
  (val18_keep V0 main_arg3 (by decide)).trans (val17_main_arg3 V0)
theorem val18_main_v12 (V0 : Valuation τ sig (Elt F)) : val18 V0 (no_index (Proc.devRef .tc main_v12)) = HostForms.seqnH (V0 (Proc.devRef .tc main_arg0)) :=
  (val18_keep V0 main_v12 (by decide)).trans (val17_main_v12 V0)
theorem val18_main_v37 (V0 : Valuation τ sig (Elt F)) : val18 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val18_keep V0 main_v37 (by decide)).trans (val17_main_v37 V0)
theorem val18_main_v62 (V0 : Valuation τ sig (Elt F)) : val18 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val18_keep V0 main_v62 (by decide)).trans (val17_main_v62 V0)
theorem val18_main_v87 (V0 : Valuation τ sig (Elt F)) : val18 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val18_keep V0 main_v87 (by decide)).trans (val17_main_v87 V0)
theorem val18_main_v112 (V0 : Valuation τ sig (Elt F)) : val18 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val18_keep V0 main_v112 (by decide)).trans (val17_main_v112 V0)
theorem val18_main_v137 (V0 : Valuation τ sig (Elt F)) : val18 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val18_keep V0 main_v137 (by decide)).trans (val17_main_v137 V0)
theorem val18_main_v162 (V0 : Valuation τ sig (Elt F)) : val18 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val18_keep V0 main_v162 (by decide)).trans (val17_main_v162 V0)
theorem val18_main_v187 (V0 : Valuation τ sig (Elt F)) : val18 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val18_keep V0 main_v187 (by decide)).trans (val17_main_v187 V0)
theorem val18_main_v212 (V0 : Valuation τ sig (Elt F)) : val18 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val18_keep V0 main_v212 (by decide)).trans (val17_main_v212 V0)
theorem val18_main_v237 (V0 : Valuation τ sig (Elt F)) : val18 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val18_keep V0 main_v237 (by decide)).trans (val17_main_v237 V0)
theorem val18_main_v262 (V0 : Valuation τ sig (Elt F)) : val18 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val18_keep V0 main_v262 (by decide)).trans (val17_main_v262 V0)
theorem val18_main_v287 (V0 : Valuation τ sig (Elt F)) : val18 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val18_keep V0 main_v287 (by decide)).trans (val17_main_v287 V0)
theorem val18_main_v312 (V0 : Valuation τ sig (Elt F)) : val18 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val18_keep V0 main_v312 (by decide)).trans (val17_main_v312 V0)
theorem val18_main_v337 (V0 : Valuation τ sig (Elt F)) : val18 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val18_keep V0 main_v337 (by decide)).trans (val17_main_v337 V0)
theorem val18_main_v362 (V0 : Valuation τ sig (Elt F)) : val18 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (val18_keep V0 main_v362 (by decide)).trans (val17_main_v362 V0)
theorem val18_main_v387 (V0 : Valuation τ sig (Elt F)) : val18 V0 (no_index (Proc.devRef .tc main_v387)) = HostForms.lagH 8177 15 0x45FF8800#32 slices_S128x8192_S128x8177_0_0 slices_S128x8192_S128x8177_0_15 reducesTo_S128x8177_S128_d1 bcast_S128x1_S128x8177_0_1 (HostForms.seqnH (V0 (Proc.devRef .tc main_arg0))) :=
  (val18_keep V0 main_v387 (by decide)).trans (val17_main_v387 V0)
theorem val18_main_v412 (V0 : Valuation τ sig (Elt F)) : val18 V0 (no_index (Proc.devRef .tc main_v412)) = HostForms.lagH 8176 16 0x45FF8000#32 slices_S128x8192_S128x8176_0_0 slices_S128x8192_S128x8176_0_16 reducesTo_S128x8176_S128_d1 bcast_S128x1_S128x8176_0_1 (HostForms.seqnH (V0 (Proc.devRef .tc main_arg0))) :=
  (val18_keep V0 main_v412 (by decide)).trans (val17_main_v412 V0)
theorem val18_main_v437 (V0 : Valuation τ sig (Elt F)) : val18 V0 (no_index (Proc.devRef .tc main_v437)) = HostForms.lagH 8175 17 0x45FF7800#32 slices_S128x8192_S128x8175_0_0 slices_S128x8192_S128x8175_0_17 reducesTo_S128x8175_S128_d1 bcast_S128x1_S128x8175_0_1 (HostForms.seqnH (V0 (Proc.devRef .tc main_arg0))) :=
  (w17_out (val17 V0)).trans (by rw [val17_main_v12])

/-- The contents after the first 19 windows. -/
def val19 (V0 : Valuation τ sig (Elt F)) : Valuation τ sig (Elt F) := after pc28 (after pc27 ((val18 V0)))
theorem val19_keep (V0 : Valuation τ sig (Elt F)) (r : Ref sig .tc) (h27 : r ∉ pc27_W) (h28 : r ∉ pc28_W) :
    val19 V0 (Proc.devRef .tc r) = val18 V0 (Proc.devRef .tc r) :=
  (after_of_writes_sub pc28 _ pc28_writes h28).trans (after_of_writes_sub pc27 _ pc27_writes h27)
theorem val19_main_arg0 (V0 : Valuation τ sig (Elt F)) : val19 V0 (no_index (Proc.devRef .tc main_arg0)) = V0 (Proc.devRef .tc main_arg0) :=
  (val19_keep V0 main_arg0 (by decide) (by decide)).trans (val18_main_arg0 V0)
theorem val19_main_arg1 (V0 : Valuation τ sig (Elt F)) : val19 V0 (no_index (Proc.devRef .tc main_arg1)) = V0 (Proc.devRef .tc main_arg1) :=
  (val19_keep V0 main_arg1 (by decide) (by decide)).trans (val18_main_arg1 V0)
theorem val19_main_arg2 (V0 : Valuation τ sig (Elt F)) : val19 V0 (no_index (Proc.devRef .tc main_arg2)) = V0 (Proc.devRef .tc main_arg2) :=
  (val19_keep V0 main_arg2 (by decide) (by decide)).trans (val18_main_arg2 V0)
theorem val19_main_arg3 (V0 : Valuation τ sig (Elt F)) : val19 V0 (no_index (Proc.devRef .tc main_arg3)) = V0 (Proc.devRef .tc main_arg3) :=
  (val19_keep V0 main_arg3 (by decide) (by decide)).trans (val18_main_arg3 V0)
theorem val19_main_v12 (V0 : Valuation τ sig (Elt F)) : val19 V0 (no_index (Proc.devRef .tc main_v12)) = HostForms.seqnH (V0 (Proc.devRef .tc main_arg0)) :=
  (val19_keep V0 main_v12 (by decide) (by decide)).trans (val18_main_v12 V0)
theorem val19_main_v37 (V0 : Valuation τ sig (Elt F)) : val19 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val19_keep V0 main_v37 (by decide) (by decide)).trans (val18_main_v37 V0)
theorem val19_main_v62 (V0 : Valuation τ sig (Elt F)) : val19 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val19_keep V0 main_v62 (by decide) (by decide)).trans (val18_main_v62 V0)
theorem val19_main_v87 (V0 : Valuation τ sig (Elt F)) : val19 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val19_keep V0 main_v87 (by decide) (by decide)).trans (val18_main_v87 V0)
theorem val19_main_v112 (V0 : Valuation τ sig (Elt F)) : val19 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val19_keep V0 main_v112 (by decide) (by decide)).trans (val18_main_v112 V0)
theorem val19_main_v137 (V0 : Valuation τ sig (Elt F)) : val19 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val19_keep V0 main_v137 (by decide) (by decide)).trans (val18_main_v137 V0)
theorem val19_main_v162 (V0 : Valuation τ sig (Elt F)) : val19 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val19_keep V0 main_v162 (by decide) (by decide)).trans (val18_main_v162 V0)
theorem val19_main_v187 (V0 : Valuation τ sig (Elt F)) : val19 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val19_keep V0 main_v187 (by decide) (by decide)).trans (val18_main_v187 V0)
theorem val19_main_v212 (V0 : Valuation τ sig (Elt F)) : val19 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val19_keep V0 main_v212 (by decide) (by decide)).trans (val18_main_v212 V0)
theorem val19_main_v237 (V0 : Valuation τ sig (Elt F)) : val19 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val19_keep V0 main_v237 (by decide) (by decide)).trans (val18_main_v237 V0)
theorem val19_main_v262 (V0 : Valuation τ sig (Elt F)) : val19 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val19_keep V0 main_v262 (by decide) (by decide)).trans (val18_main_v262 V0)
theorem val19_main_v287 (V0 : Valuation τ sig (Elt F)) : val19 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val19_keep V0 main_v287 (by decide) (by decide)).trans (val18_main_v287 V0)
theorem val19_main_v312 (V0 : Valuation τ sig (Elt F)) : val19 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val19_keep V0 main_v312 (by decide) (by decide)).trans (val18_main_v312 V0)
theorem val19_main_v337 (V0 : Valuation τ sig (Elt F)) : val19 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val19_keep V0 main_v337 (by decide) (by decide)).trans (val18_main_v337 V0)
theorem val19_main_v362 (V0 : Valuation τ sig (Elt F)) : val19 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (val19_keep V0 main_v362 (by decide) (by decide)).trans (val18_main_v362 V0)
theorem val19_main_v387 (V0 : Valuation τ sig (Elt F)) : val19 V0 (no_index (Proc.devRef .tc main_v387)) = HostForms.lagH 8177 15 0x45FF8800#32 slices_S128x8192_S128x8177_0_0 slices_S128x8192_S128x8177_0_15 reducesTo_S128x8177_S128_d1 bcast_S128x1_S128x8177_0_1 (HostForms.seqnH (V0 (Proc.devRef .tc main_arg0))) :=
  (val19_keep V0 main_v387 (by decide) (by decide)).trans (val18_main_v387 V0)
theorem val19_main_v412 (V0 : Valuation τ sig (Elt F)) : val19 V0 (no_index (Proc.devRef .tc main_v412)) = HostForms.lagH 8176 16 0x45FF8000#32 slices_S128x8192_S128x8176_0_0 slices_S128x8192_S128x8176_0_16 reducesTo_S128x8176_S128_d1 bcast_S128x1_S128x8176_0_1 (HostForms.seqnH (V0 (Proc.devRef .tc main_arg0))) :=
  (val19_keep V0 main_v412 (by decide) (by decide)).trans (val18_main_v412 V0)
theorem val19_main_v437 (V0 : Valuation τ sig (Elt F)) : val19 V0 (no_index (Proc.devRef .tc main_v437)) = HostForms.lagH 8175 17 0x45FF7800#32 slices_S128x8192_S128x8175_0_0 slices_S128x8192_S128x8175_0_17 reducesTo_S128x8175_S128_d1 bcast_S128x1_S128x8175_0_1 (HostForms.seqnH (V0 (Proc.devRef .tc main_arg0))) :=
  (val19_keep V0 main_v437 (by decide) (by decide)).trans (val18_main_v437 V0)
theorem val19_main_v462 (V0 : Valuation τ sig (Elt F)) : val19 V0 (no_index (Proc.devRef .tc main_v462)) = HostForms.lagH 8174 18 0x45FF7000#32 slices_S128x8192_S128x8174_0_0 slices_S128x8192_S128x8174_0_18 reducesTo_S128x8174_S128_d1 bcast_S128x1_S128x8174_0_1 (HostForms.seqnH (V0 (Proc.devRef .tc main_arg0))) :=
  (w18_out (val18 V0)).trans (by rw [val18_main_v12])

/-- The contents after the first 20 windows. -/
def val20 (V0 : Valuation τ sig (Elt F)) : Valuation τ sig (Elt F) := after pc30 (after pc29 ((val19 V0)))
theorem val20_keep (V0 : Valuation τ sig (Elt F)) (r : Ref sig .tc) (h29 : r ∉ pc29_W) (h30 : r ∉ pc30_W) :
    val20 V0 (Proc.devRef .tc r) = val19 V0 (Proc.devRef .tc r) :=
  (after_of_writes_sub pc30 _ pc30_writes h30).trans (after_of_writes_sub pc29 _ pc29_writes h29)
theorem val20_main_arg0 (V0 : Valuation τ sig (Elt F)) : val20 V0 (no_index (Proc.devRef .tc main_arg0)) = V0 (Proc.devRef .tc main_arg0) :=
  (val20_keep V0 main_arg0 (by decide) (by decide)).trans (val19_main_arg0 V0)
theorem val20_main_arg1 (V0 : Valuation τ sig (Elt F)) : val20 V0 (no_index (Proc.devRef .tc main_arg1)) = V0 (Proc.devRef .tc main_arg1) :=
  (val20_keep V0 main_arg1 (by decide) (by decide)).trans (val19_main_arg1 V0)
theorem val20_main_arg2 (V0 : Valuation τ sig (Elt F)) : val20 V0 (no_index (Proc.devRef .tc main_arg2)) = V0 (Proc.devRef .tc main_arg2) :=
  (val20_keep V0 main_arg2 (by decide) (by decide)).trans (val19_main_arg2 V0)
theorem val20_main_arg3 (V0 : Valuation τ sig (Elt F)) : val20 V0 (no_index (Proc.devRef .tc main_arg3)) = V0 (Proc.devRef .tc main_arg3) :=
  (val20_keep V0 main_arg3 (by decide) (by decide)).trans (val19_main_arg3 V0)
theorem val20_main_v12 (V0 : Valuation τ sig (Elt F)) : val20 V0 (no_index (Proc.devRef .tc main_v12)) = HostForms.seqnH (V0 (Proc.devRef .tc main_arg0)) :=
  (val20_keep V0 main_v12 (by decide) (by decide)).trans (val19_main_v12 V0)
theorem val20_main_v37 (V0 : Valuation τ sig (Elt F)) : val20 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val20_keep V0 main_v37 (by decide) (by decide)).trans (val19_main_v37 V0)
theorem val20_main_v62 (V0 : Valuation τ sig (Elt F)) : val20 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val20_keep V0 main_v62 (by decide) (by decide)).trans (val19_main_v62 V0)
theorem val20_main_v87 (V0 : Valuation τ sig (Elt F)) : val20 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val20_keep V0 main_v87 (by decide) (by decide)).trans (val19_main_v87 V0)
theorem val20_main_v112 (V0 : Valuation τ sig (Elt F)) : val20 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val20_keep V0 main_v112 (by decide) (by decide)).trans (val19_main_v112 V0)
theorem val20_main_v137 (V0 : Valuation τ sig (Elt F)) : val20 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val20_keep V0 main_v137 (by decide) (by decide)).trans (val19_main_v137 V0)
theorem val20_main_v162 (V0 : Valuation τ sig (Elt F)) : val20 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val20_keep V0 main_v162 (by decide) (by decide)).trans (val19_main_v162 V0)
theorem val20_main_v187 (V0 : Valuation τ sig (Elt F)) : val20 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val20_keep V0 main_v187 (by decide) (by decide)).trans (val19_main_v187 V0)
theorem val20_main_v212 (V0 : Valuation τ sig (Elt F)) : val20 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val20_keep V0 main_v212 (by decide) (by decide)).trans (val19_main_v212 V0)
theorem val20_main_v237 (V0 : Valuation τ sig (Elt F)) : val20 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val20_keep V0 main_v237 (by decide) (by decide)).trans (val19_main_v237 V0)
theorem val20_main_v262 (V0 : Valuation τ sig (Elt F)) : val20 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val20_keep V0 main_v262 (by decide) (by decide)).trans (val19_main_v262 V0)
theorem val20_main_v287 (V0 : Valuation τ sig (Elt F)) : val20 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val20_keep V0 main_v287 (by decide) (by decide)).trans (val19_main_v287 V0)
theorem val20_main_v312 (V0 : Valuation τ sig (Elt F)) : val20 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val20_keep V0 main_v312 (by decide) (by decide)).trans (val19_main_v312 V0)
theorem val20_main_v337 (V0 : Valuation τ sig (Elt F)) : val20 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val20_keep V0 main_v337 (by decide) (by decide)).trans (val19_main_v337 V0)
theorem val20_main_v362 (V0 : Valuation τ sig (Elt F)) : val20 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (val20_keep V0 main_v362 (by decide) (by decide)).trans (val19_main_v362 V0)
theorem val20_main_v387 (V0 : Valuation τ sig (Elt F)) : val20 V0 (no_index (Proc.devRef .tc main_v387)) = HostForms.lagH 8177 15 0x45FF8800#32 slices_S128x8192_S128x8177_0_0 slices_S128x8192_S128x8177_0_15 reducesTo_S128x8177_S128_d1 bcast_S128x1_S128x8177_0_1 (HostForms.seqnH (V0 (Proc.devRef .tc main_arg0))) :=
  (val20_keep V0 main_v387 (by decide) (by decide)).trans (val19_main_v387 V0)
theorem val20_main_v412 (V0 : Valuation τ sig (Elt F)) : val20 V0 (no_index (Proc.devRef .tc main_v412)) = HostForms.lagH 8176 16 0x45FF8000#32 slices_S128x8192_S128x8176_0_0 slices_S128x8192_S128x8176_0_16 reducesTo_S128x8176_S128_d1 bcast_S128x1_S128x8176_0_1 (HostForms.seqnH (V0 (Proc.devRef .tc main_arg0))) :=
  (val20_keep V0 main_v412 (by decide) (by decide)).trans (val19_main_v412 V0)
theorem val20_main_v437 (V0 : Valuation τ sig (Elt F)) : val20 V0 (no_index (Proc.devRef .tc main_v437)) = HostForms.lagH 8175 17 0x45FF7800#32 slices_S128x8192_S128x8175_0_0 slices_S128x8192_S128x8175_0_17 reducesTo_S128x8175_S128_d1 bcast_S128x1_S128x8175_0_1 (HostForms.seqnH (V0 (Proc.devRef .tc main_arg0))) :=
  (val20_keep V0 main_v437 (by decide) (by decide)).trans (val19_main_v437 V0)
theorem val20_main_v462 (V0 : Valuation τ sig (Elt F)) : val20 V0 (no_index (Proc.devRef .tc main_v462)) = HostForms.lagH 8174 18 0x45FF7000#32 slices_S128x8192_S128x8174_0_0 slices_S128x8192_S128x8174_0_18 reducesTo_S128x8174_S128_d1 bcast_S128x1_S128x8174_0_1 (HostForms.seqnH (V0 (Proc.devRef .tc main_arg0))) :=
  (val20_keep V0 main_v462 (by decide) (by decide)).trans (val19_main_v462 V0)
theorem val20_main_v487 (V0 : Valuation τ sig (Elt F)) : val20 V0 (no_index (Proc.devRef .tc main_v487)) = HostForms.lagH 8173 19 0x45FF6800#32 slices_S128x8192_S128x8173_0_0 slices_S128x8192_S128x8173_0_19 reducesTo_S128x8173_S128_d1 bcast_S128x1_S128x8173_0_1 (HostForms.seqnH (V0 (Proc.devRef .tc main_arg0))) :=
  (w19_out (val19 V0)).trans (by rw [val19_main_v12])

/-- The contents after the first 21 windows. -/
def val21 (V0 : Valuation τ sig (Elt F)) : Valuation τ sig (Elt F) := after pc31 ((val20 V0))
theorem val21_keep (V0 : Valuation τ sig (Elt F)) (r : Ref sig .tc) (h31 : r ∉ pc31_W) :
    val21 V0 (Proc.devRef .tc r) = val20 V0 (Proc.devRef .tc r) :=
  (after_of_writes_sub pc31 _ pc31_writes h31)
theorem val21_main_arg0 (V0 : Valuation τ sig (Elt F)) : val21 V0 (no_index (Proc.devRef .tc main_arg0)) = V0 (Proc.devRef .tc main_arg0) :=
  (val21_keep V0 main_arg0 (by decide)).trans (val20_main_arg0 V0)
theorem val21_main_arg1 (V0 : Valuation τ sig (Elt F)) : val21 V0 (no_index (Proc.devRef .tc main_arg1)) = V0 (Proc.devRef .tc main_arg1) :=
  (val21_keep V0 main_arg1 (by decide)).trans (val20_main_arg1 V0)
theorem val21_main_arg2 (V0 : Valuation τ sig (Elt F)) : val21 V0 (no_index (Proc.devRef .tc main_arg2)) = V0 (Proc.devRef .tc main_arg2) :=
  (val21_keep V0 main_arg2 (by decide)).trans (val20_main_arg2 V0)
theorem val21_main_arg3 (V0 : Valuation τ sig (Elt F)) : val21 V0 (no_index (Proc.devRef .tc main_arg3)) = V0 (Proc.devRef .tc main_arg3) :=
  (val21_keep V0 main_arg3 (by decide)).trans (val20_main_arg3 V0)
theorem val21_main_v12 (V0 : Valuation τ sig (Elt F)) : val21 V0 (no_index (Proc.devRef .tc main_v12)) = HostForms.seqnH (V0 (Proc.devRef .tc main_arg0)) :=
  (val21_keep V0 main_v12 (by decide)).trans (val20_main_v12 V0)
theorem val21_main_v37 (V0 : Valuation τ sig (Elt F)) : val21 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val21_keep V0 main_v37 (by decide)).trans (val20_main_v37 V0)
theorem val21_main_v62 (V0 : Valuation τ sig (Elt F)) : val21 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val21_keep V0 main_v62 (by decide)).trans (val20_main_v62 V0)
theorem val21_main_v87 (V0 : Valuation τ sig (Elt F)) : val21 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val21_keep V0 main_v87 (by decide)).trans (val20_main_v87 V0)
theorem val21_main_v112 (V0 : Valuation τ sig (Elt F)) : val21 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val21_keep V0 main_v112 (by decide)).trans (val20_main_v112 V0)
theorem val21_main_v137 (V0 : Valuation τ sig (Elt F)) : val21 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val21_keep V0 main_v137 (by decide)).trans (val20_main_v137 V0)
theorem val21_main_v162 (V0 : Valuation τ sig (Elt F)) : val21 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val21_keep V0 main_v162 (by decide)).trans (val20_main_v162 V0)
theorem val21_main_v187 (V0 : Valuation τ sig (Elt F)) : val21 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val21_keep V0 main_v187 (by decide)).trans (val20_main_v187 V0)
theorem val21_main_v212 (V0 : Valuation τ sig (Elt F)) : val21 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val21_keep V0 main_v212 (by decide)).trans (val20_main_v212 V0)
theorem val21_main_v237 (V0 : Valuation τ sig (Elt F)) : val21 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val21_keep V0 main_v237 (by decide)).trans (val20_main_v237 V0)
theorem val21_main_v262 (V0 : Valuation τ sig (Elt F)) : val21 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val21_keep V0 main_v262 (by decide)).trans (val20_main_v262 V0)
theorem val21_main_v287 (V0 : Valuation τ sig (Elt F)) : val21 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val21_keep V0 main_v287 (by decide)).trans (val20_main_v287 V0)
theorem val21_main_v312 (V0 : Valuation τ sig (Elt F)) : val21 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val21_keep V0 main_v312 (by decide)).trans (val20_main_v312 V0)
theorem val21_main_v337 (V0 : Valuation τ sig (Elt F)) : val21 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val21_keep V0 main_v337 (by decide)).trans (val20_main_v337 V0)
theorem val21_main_v362 (V0 : Valuation τ sig (Elt F)) : val21 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (val21_keep V0 main_v362 (by decide)).trans (val20_main_v362 V0)
theorem val21_main_v387 (V0 : Valuation τ sig (Elt F)) : val21 V0 (no_index (Proc.devRef .tc main_v387)) = HostForms.lagH 8177 15 0x45FF8800#32 slices_S128x8192_S128x8177_0_0 slices_S128x8192_S128x8177_0_15 reducesTo_S128x8177_S128_d1 bcast_S128x1_S128x8177_0_1 (HostForms.seqnH (V0 (Proc.devRef .tc main_arg0))) :=
  (val21_keep V0 main_v387 (by decide)).trans (val20_main_v387 V0)
theorem val21_main_v412 (V0 : Valuation τ sig (Elt F)) : val21 V0 (no_index (Proc.devRef .tc main_v412)) = HostForms.lagH 8176 16 0x45FF8000#32 slices_S128x8192_S128x8176_0_0 slices_S128x8192_S128x8176_0_16 reducesTo_S128x8176_S128_d1 bcast_S128x1_S128x8176_0_1 (HostForms.seqnH (V0 (Proc.devRef .tc main_arg0))) :=
  (val21_keep V0 main_v412 (by decide)).trans (val20_main_v412 V0)
theorem val21_main_v437 (V0 : Valuation τ sig (Elt F)) : val21 V0 (no_index (Proc.devRef .tc main_v437)) = HostForms.lagH 8175 17 0x45FF7800#32 slices_S128x8192_S128x8175_0_0 slices_S128x8192_S128x8175_0_17 reducesTo_S128x8175_S128_d1 bcast_S128x1_S128x8175_0_1 (HostForms.seqnH (V0 (Proc.devRef .tc main_arg0))) :=
  (val21_keep V0 main_v437 (by decide)).trans (val20_main_v437 V0)
theorem val21_main_v462 (V0 : Valuation τ sig (Elt F)) : val21 V0 (no_index (Proc.devRef .tc main_v462)) = HostForms.lagH 8174 18 0x45FF7000#32 slices_S128x8192_S128x8174_0_0 slices_S128x8192_S128x8174_0_18 reducesTo_S128x8174_S128_d1 bcast_S128x1_S128x8174_0_1 (HostForms.seqnH (V0 (Proc.devRef .tc main_arg0))) :=
  (val21_keep V0 main_v462 (by decide)).trans (val20_main_v462 V0)
theorem val21_main_v487 (V0 : Valuation τ sig (Elt F)) : val21 V0 (no_index (Proc.devRef .tc main_v487)) = HostForms.lagH 8173 19 0x45FF6800#32 slices_S128x8192_S128x8173_0_0 slices_S128x8192_S128x8173_0_19 reducesTo_S128x8173_S128_d1 bcast_S128x1_S128x8173_0_1 (HostForms.seqnH (V0 (Proc.devRef .tc main_arg0))) :=
  (val21_keep V0 main_v487 (by decide)).trans (val20_main_v487 V0)
theorem val21_main_v512 (V0 : Valuation τ sig (Elt F)) : val21 V0 (no_index (Proc.devRef .tc main_v512)) = HostForms.lagH 8172 20 0x45FF6000#32 slices_S128x8192_S128x8172_0_0 slices_S128x8192_S128x8172_0_20 reducesTo_S128x8172_S128_d1 bcast_S128x1_S128x8172_0_1 (HostForms.seqnH (V0 (Proc.devRef .tc main_arg0))) :=
  (w20_out (val20 V0)).trans (by rw [val20_main_v12])

/-- The contents after the first 22 windows. -/
def val22 (V0 : Valuation τ sig (Elt F)) : Valuation τ sig (Elt F) := after pc33 (after pc32 ((val21 V0)))
theorem val22_keep (V0 : Valuation τ sig (Elt F)) (r : Ref sig .tc) (h32 : r ∉ pc32_W) (h33 : r ∉ pc33_W) :
    val22 V0 (Proc.devRef .tc r) = val21 V0 (Proc.devRef .tc r) :=
  (after_of_writes_sub pc33 _ pc33_writes h33).trans (after_of_writes_sub pc32 _ pc32_writes h32)
theorem val22_main_arg0 (V0 : Valuation τ sig (Elt F)) : val22 V0 (no_index (Proc.devRef .tc main_arg0)) = V0 (Proc.devRef .tc main_arg0) :=
  (val22_keep V0 main_arg0 (by decide) (by decide)).trans (val21_main_arg0 V0)
theorem val22_main_arg1 (V0 : Valuation τ sig (Elt F)) : val22 V0 (no_index (Proc.devRef .tc main_arg1)) = V0 (Proc.devRef .tc main_arg1) :=
  (val22_keep V0 main_arg1 (by decide) (by decide)).trans (val21_main_arg1 V0)
theorem val22_main_arg2 (V0 : Valuation τ sig (Elt F)) : val22 V0 (no_index (Proc.devRef .tc main_arg2)) = V0 (Proc.devRef .tc main_arg2) :=
  (val22_keep V0 main_arg2 (by decide) (by decide)).trans (val21_main_arg2 V0)
theorem val22_main_arg3 (V0 : Valuation τ sig (Elt F)) : val22 V0 (no_index (Proc.devRef .tc main_arg3)) = V0 (Proc.devRef .tc main_arg3) :=
  (val22_keep V0 main_arg3 (by decide) (by decide)).trans (val21_main_arg3 V0)
theorem val22_main_v12 (V0 : Valuation τ sig (Elt F)) : val22 V0 (no_index (Proc.devRef .tc main_v12)) = HostForms.seqnH (V0 (Proc.devRef .tc main_arg0)) :=
  (val22_keep V0 main_v12 (by decide) (by decide)).trans (val21_main_v12 V0)
theorem val22_main_v37 (V0 : Valuation τ sig (Elt F)) : val22 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val22_keep V0 main_v37 (by decide) (by decide)).trans (val21_main_v37 V0)
theorem val22_main_v62 (V0 : Valuation τ sig (Elt F)) : val22 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val22_keep V0 main_v62 (by decide) (by decide)).trans (val21_main_v62 V0)
theorem val22_main_v87 (V0 : Valuation τ sig (Elt F)) : val22 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val22_keep V0 main_v87 (by decide) (by decide)).trans (val21_main_v87 V0)
theorem val22_main_v112 (V0 : Valuation τ sig (Elt F)) : val22 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val22_keep V0 main_v112 (by decide) (by decide)).trans (val21_main_v112 V0)
theorem val22_main_v137 (V0 : Valuation τ sig (Elt F)) : val22 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val22_keep V0 main_v137 (by decide) (by decide)).trans (val21_main_v137 V0)
theorem val22_main_v162 (V0 : Valuation τ sig (Elt F)) : val22 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val22_keep V0 main_v162 (by decide) (by decide)).trans (val21_main_v162 V0)
theorem val22_main_v187 (V0 : Valuation τ sig (Elt F)) : val22 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val22_keep V0 main_v187 (by decide) (by decide)).trans (val21_main_v187 V0)
theorem val22_main_v212 (V0 : Valuation τ sig (Elt F)) : val22 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val22_keep V0 main_v212 (by decide) (by decide)).trans (val21_main_v212 V0)
theorem val22_main_v237 (V0 : Valuation τ sig (Elt F)) : val22 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val22_keep V0 main_v237 (by decide) (by decide)).trans (val21_main_v237 V0)
theorem val22_main_v262 (V0 : Valuation τ sig (Elt F)) : val22 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val22_keep V0 main_v262 (by decide) (by decide)).trans (val21_main_v262 V0)
theorem val22_main_v287 (V0 : Valuation τ sig (Elt F)) : val22 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val22_keep V0 main_v287 (by decide) (by decide)).trans (val21_main_v287 V0)
theorem val22_main_v312 (V0 : Valuation τ sig (Elt F)) : val22 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val22_keep V0 main_v312 (by decide) (by decide)).trans (val21_main_v312 V0)
theorem val22_main_v337 (V0 : Valuation τ sig (Elt F)) : val22 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val22_keep V0 main_v337 (by decide) (by decide)).trans (val21_main_v337 V0)
theorem val22_main_v362 (V0 : Valuation τ sig (Elt F)) : val22 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (val22_keep V0 main_v362 (by decide) (by decide)).trans (val21_main_v362 V0)
theorem val22_main_v387 (V0 : Valuation τ sig (Elt F)) : val22 V0 (no_index (Proc.devRef .tc main_v387)) = HostForms.lagH 8177 15 0x45FF8800#32 slices_S128x8192_S128x8177_0_0 slices_S128x8192_S128x8177_0_15 reducesTo_S128x8177_S128_d1 bcast_S128x1_S128x8177_0_1 (HostForms.seqnH (V0 (Proc.devRef .tc main_arg0))) :=
  (val22_keep V0 main_v387 (by decide) (by decide)).trans (val21_main_v387 V0)
theorem val22_main_v412 (V0 : Valuation τ sig (Elt F)) : val22 V0 (no_index (Proc.devRef .tc main_v412)) = HostForms.lagH 8176 16 0x45FF8000#32 slices_S128x8192_S128x8176_0_0 slices_S128x8192_S128x8176_0_16 reducesTo_S128x8176_S128_d1 bcast_S128x1_S128x8176_0_1 (HostForms.seqnH (V0 (Proc.devRef .tc main_arg0))) :=
  (val22_keep V0 main_v412 (by decide) (by decide)).trans (val21_main_v412 V0)
theorem val22_main_v437 (V0 : Valuation τ sig (Elt F)) : val22 V0 (no_index (Proc.devRef .tc main_v437)) = HostForms.lagH 8175 17 0x45FF7800#32 slices_S128x8192_S128x8175_0_0 slices_S128x8192_S128x8175_0_17 reducesTo_S128x8175_S128_d1 bcast_S128x1_S128x8175_0_1 (HostForms.seqnH (V0 (Proc.devRef .tc main_arg0))) :=
  (val22_keep V0 main_v437 (by decide) (by decide)).trans (val21_main_v437 V0)
theorem val22_main_v462 (V0 : Valuation τ sig (Elt F)) : val22 V0 (no_index (Proc.devRef .tc main_v462)) = HostForms.lagH 8174 18 0x45FF7000#32 slices_S128x8192_S128x8174_0_0 slices_S128x8192_S128x8174_0_18 reducesTo_S128x8174_S128_d1 bcast_S128x1_S128x8174_0_1 (HostForms.seqnH (V0 (Proc.devRef .tc main_arg0))) :=
  (val22_keep V0 main_v462 (by decide) (by decide)).trans (val21_main_v462 V0)
theorem val22_main_v487 (V0 : Valuation τ sig (Elt F)) : val22 V0 (no_index (Proc.devRef .tc main_v487)) = HostForms.lagH 8173 19 0x45FF6800#32 slices_S128x8192_S128x8173_0_0 slices_S128x8192_S128x8173_0_19 reducesTo_S128x8173_S128_d1 bcast_S128x1_S128x8173_0_1 (HostForms.seqnH (V0 (Proc.devRef .tc main_arg0))) :=
  (val22_keep V0 main_v487 (by decide) (by decide)).trans (val21_main_v487 V0)
theorem val22_main_v512 (V0 : Valuation τ sig (Elt F)) : val22 V0 (no_index (Proc.devRef .tc main_v512)) = HostForms.lagH 8172 20 0x45FF6000#32 slices_S128x8192_S128x8172_0_0 slices_S128x8192_S128x8172_0_20 reducesTo_S128x8172_S128_d1 bcast_S128x1_S128x8172_0_1 (HostForms.seqnH (V0 (Proc.devRef .tc main_arg0))) :=
  (val22_keep V0 main_v512 (by decide) (by decide)).trans (val21_main_v512 V0)
theorem val22_main_v537 (V0 : Valuation τ sig (Elt F)) : val22 V0 (no_index (Proc.devRef .tc main_v537)) = HostForms.lagH 8171 21 0x45FF5800#32 slices_S128x8192_S128x8171_0_0 slices_S128x8192_S128x8171_0_21 reducesTo_S128x8171_S128_d1 bcast_S128x1_S128x8171_0_1 (HostForms.seqnH (V0 (Proc.devRef .tc main_arg0))) :=
  (w21_out (val21 V0)).trans (by rw [val21_main_v12])

/-- The contents after the first 23 windows. -/
def val23 (V0 : Valuation τ sig (Elt F)) : Valuation τ sig (Elt F) := after pc34 ((val22 V0))
theorem val23_keep (V0 : Valuation τ sig (Elt F)) (r : Ref sig .tc) (h34 : r ∉ pc34_W) :
    val23 V0 (Proc.devRef .tc r) = val22 V0 (Proc.devRef .tc r) :=
  (after_of_writes_sub pc34 _ pc34_writes h34)
theorem val23_main_arg0 (V0 : Valuation τ sig (Elt F)) : val23 V0 (no_index (Proc.devRef .tc main_arg0)) = V0 (Proc.devRef .tc main_arg0) :=
  (val23_keep V0 main_arg0 (by decide)).trans (val22_main_arg0 V0)
theorem val23_main_arg1 (V0 : Valuation τ sig (Elt F)) : val23 V0 (no_index (Proc.devRef .tc main_arg1)) = V0 (Proc.devRef .tc main_arg1) :=
  (val23_keep V0 main_arg1 (by decide)).trans (val22_main_arg1 V0)
theorem val23_main_arg2 (V0 : Valuation τ sig (Elt F)) : val23 V0 (no_index (Proc.devRef .tc main_arg2)) = V0 (Proc.devRef .tc main_arg2) :=
  (val23_keep V0 main_arg2 (by decide)).trans (val22_main_arg2 V0)
theorem val23_main_arg3 (V0 : Valuation τ sig (Elt F)) : val23 V0 (no_index (Proc.devRef .tc main_arg3)) = V0 (Proc.devRef .tc main_arg3) :=
  (val23_keep V0 main_arg3 (by decide)).trans (val22_main_arg3 V0)
theorem val23_main_v12 (V0 : Valuation τ sig (Elt F)) : val23 V0 (no_index (Proc.devRef .tc main_v12)) = HostForms.seqnH (V0 (Proc.devRef .tc main_arg0)) :=
  (val23_keep V0 main_v12 (by decide)).trans (val22_main_v12 V0)
theorem val23_main_v37 (V0 : Valuation τ sig (Elt F)) : val23 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val23_keep V0 main_v37 (by decide)).trans (val22_main_v37 V0)
theorem val23_main_v62 (V0 : Valuation τ sig (Elt F)) : val23 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val23_keep V0 main_v62 (by decide)).trans (val22_main_v62 V0)
theorem val23_main_v87 (V0 : Valuation τ sig (Elt F)) : val23 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val23_keep V0 main_v87 (by decide)).trans (val22_main_v87 V0)
theorem val23_main_v112 (V0 : Valuation τ sig (Elt F)) : val23 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val23_keep V0 main_v112 (by decide)).trans (val22_main_v112 V0)
theorem val23_main_v137 (V0 : Valuation τ sig (Elt F)) : val23 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val23_keep V0 main_v137 (by decide)).trans (val22_main_v137 V0)
theorem val23_main_v162 (V0 : Valuation τ sig (Elt F)) : val23 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val23_keep V0 main_v162 (by decide)).trans (val22_main_v162 V0)
theorem val23_main_v187 (V0 : Valuation τ sig (Elt F)) : val23 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val23_keep V0 main_v187 (by decide)).trans (val22_main_v187 V0)
theorem val23_main_v212 (V0 : Valuation τ sig (Elt F)) : val23 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val23_keep V0 main_v212 (by decide)).trans (val22_main_v212 V0)
theorem val23_main_v237 (V0 : Valuation τ sig (Elt F)) : val23 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val23_keep V0 main_v237 (by decide)).trans (val22_main_v237 V0)
theorem val23_main_v262 (V0 : Valuation τ sig (Elt F)) : val23 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val23_keep V0 main_v262 (by decide)).trans (val22_main_v262 V0)
theorem val23_main_v287 (V0 : Valuation τ sig (Elt F)) : val23 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val23_keep V0 main_v287 (by decide)).trans (val22_main_v287 V0)
theorem val23_main_v312 (V0 : Valuation τ sig (Elt F)) : val23 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val23_keep V0 main_v312 (by decide)).trans (val22_main_v312 V0)
theorem val23_main_v337 (V0 : Valuation τ sig (Elt F)) : val23 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val23_keep V0 main_v337 (by decide)).trans (val22_main_v337 V0)
theorem val23_main_v362 (V0 : Valuation τ sig (Elt F)) : val23 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (val23_keep V0 main_v362 (by decide)).trans (val22_main_v362 V0)
theorem val23_main_v387 (V0 : Valuation τ sig (Elt F)) : val23 V0 (no_index (Proc.devRef .tc main_v387)) = HostForms.lagH 8177 15 0x45FF8800#32 slices_S128x8192_S128x8177_0_0 slices_S128x8192_S128x8177_0_15 reducesTo_S128x8177_S128_d1 bcast_S128x1_S128x8177_0_1 (HostForms.seqnH (V0 (Proc.devRef .tc main_arg0))) :=
  (val23_keep V0 main_v387 (by decide)).trans (val22_main_v387 V0)
theorem val23_main_v412 (V0 : Valuation τ sig (Elt F)) : val23 V0 (no_index (Proc.devRef .tc main_v412)) = HostForms.lagH 8176 16 0x45FF8000#32 slices_S128x8192_S128x8176_0_0 slices_S128x8192_S128x8176_0_16 reducesTo_S128x8176_S128_d1 bcast_S128x1_S128x8176_0_1 (HostForms.seqnH (V0 (Proc.devRef .tc main_arg0))) :=
  (val23_keep V0 main_v412 (by decide)).trans (val22_main_v412 V0)
theorem val23_main_v437 (V0 : Valuation τ sig (Elt F)) : val23 V0 (no_index (Proc.devRef .tc main_v437)) = HostForms.lagH 8175 17 0x45FF7800#32 slices_S128x8192_S128x8175_0_0 slices_S128x8192_S128x8175_0_17 reducesTo_S128x8175_S128_d1 bcast_S128x1_S128x8175_0_1 (HostForms.seqnH (V0 (Proc.devRef .tc main_arg0))) :=
  (val23_keep V0 main_v437 (by decide)).trans (val22_main_v437 V0)
theorem val23_main_v462 (V0 : Valuation τ sig (Elt F)) : val23 V0 (no_index (Proc.devRef .tc main_v462)) = HostForms.lagH 8174 18 0x45FF7000#32 slices_S128x8192_S128x8174_0_0 slices_S128x8192_S128x8174_0_18 reducesTo_S128x8174_S128_d1 bcast_S128x1_S128x8174_0_1 (HostForms.seqnH (V0 (Proc.devRef .tc main_arg0))) :=
  (val23_keep V0 main_v462 (by decide)).trans (val22_main_v462 V0)
theorem val23_main_v487 (V0 : Valuation τ sig (Elt F)) : val23 V0 (no_index (Proc.devRef .tc main_v487)) = HostForms.lagH 8173 19 0x45FF6800#32 slices_S128x8192_S128x8173_0_0 slices_S128x8192_S128x8173_0_19 reducesTo_S128x8173_S128_d1 bcast_S128x1_S128x8173_0_1 (HostForms.seqnH (V0 (Proc.devRef .tc main_arg0))) :=
  (val23_keep V0 main_v487 (by decide)).trans (val22_main_v487 V0)
theorem val23_main_v512 (V0 : Valuation τ sig (Elt F)) : val23 V0 (no_index (Proc.devRef .tc main_v512)) = HostForms.lagH 8172 20 0x45FF6000#32 slices_S128x8192_S128x8172_0_0 slices_S128x8192_S128x8172_0_20 reducesTo_S128x8172_S128_d1 bcast_S128x1_S128x8172_0_1 (HostForms.seqnH (V0 (Proc.devRef .tc main_arg0))) :=
  (val23_keep V0 main_v512 (by decide)).trans (val22_main_v512 V0)
theorem val23_main_v537 (V0 : Valuation τ sig (Elt F)) : val23 V0 (no_index (Proc.devRef .tc main_v537)) = HostForms.lagH 8171 21 0x45FF5800#32 slices_S128x8192_S128x8171_0_0 slices_S128x8192_S128x8171_0_21 reducesTo_S128x8171_S128_d1 bcast_S128x1_S128x8171_0_1 (HostForms.seqnH (V0 (Proc.devRef .tc main_arg0))) :=
  (val23_keep V0 main_v537 (by decide)).trans (val22_main_v537 V0)
theorem val23_main_v562 (V0 : Valuation τ sig (Elt F)) : val23 V0 (no_index (Proc.devRef .tc main_v562)) = HostForms.lagH 8170 22 0x45FF5000#32 slices_S128x8192_S128x8170_0_0 slices_S128x8192_S128x8170_0_22 reducesTo_S128x8170_S128_d1 bcast_S128x1_S128x8170_0_1 (HostForms.seqnH (V0 (Proc.devRef .tc main_arg0))) :=
  (w22_out (val22 V0)).trans (by rw [val22_main_v12])

/-- The contents after the first 24 windows. -/
def val24 (V0 : Valuation τ sig (Elt F)) : Valuation τ sig (Elt F) := after pc36 (after pc35 ((val23 V0)))
theorem val24_keep (V0 : Valuation τ sig (Elt F)) (r : Ref sig .tc) (h35 : r ∉ pc35_W) (h36 : r ∉ pc36_W) :
    val24 V0 (Proc.devRef .tc r) = val23 V0 (Proc.devRef .tc r) :=
  (after_of_writes_sub pc36 _ pc36_writes h36).trans (after_of_writes_sub pc35 _ pc35_writes h35)
theorem val24_main_arg0 (V0 : Valuation τ sig (Elt F)) : val24 V0 (no_index (Proc.devRef .tc main_arg0)) = V0 (Proc.devRef .tc main_arg0) :=
  (val24_keep V0 main_arg0 (by decide) (by decide)).trans (val23_main_arg0 V0)
theorem val24_main_arg1 (V0 : Valuation τ sig (Elt F)) : val24 V0 (no_index (Proc.devRef .tc main_arg1)) = V0 (Proc.devRef .tc main_arg1) :=
  (val24_keep V0 main_arg1 (by decide) (by decide)).trans (val23_main_arg1 V0)
theorem val24_main_arg2 (V0 : Valuation τ sig (Elt F)) : val24 V0 (no_index (Proc.devRef .tc main_arg2)) = V0 (Proc.devRef .tc main_arg2) :=
  (val24_keep V0 main_arg2 (by decide) (by decide)).trans (val23_main_arg2 V0)
theorem val24_main_arg3 (V0 : Valuation τ sig (Elt F)) : val24 V0 (no_index (Proc.devRef .tc main_arg3)) = V0 (Proc.devRef .tc main_arg3) :=
  (val24_keep V0 main_arg3 (by decide) (by decide)).trans (val23_main_arg3 V0)
theorem val24_main_v12 (V0 : Valuation τ sig (Elt F)) : val24 V0 (no_index (Proc.devRef .tc main_v12)) = HostForms.seqnH (V0 (Proc.devRef .tc main_arg0)) :=
  (val24_keep V0 main_v12 (by decide) (by decide)).trans (val23_main_v12 V0)
theorem val24_main_v37 (V0 : Valuation τ sig (Elt F)) : val24 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val24_keep V0 main_v37 (by decide) (by decide)).trans (val23_main_v37 V0)
theorem val24_main_v62 (V0 : Valuation τ sig (Elt F)) : val24 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val24_keep V0 main_v62 (by decide) (by decide)).trans (val23_main_v62 V0)
theorem val24_main_v87 (V0 : Valuation τ sig (Elt F)) : val24 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val24_keep V0 main_v87 (by decide) (by decide)).trans (val23_main_v87 V0)
theorem val24_main_v112 (V0 : Valuation τ sig (Elt F)) : val24 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val24_keep V0 main_v112 (by decide) (by decide)).trans (val23_main_v112 V0)
theorem val24_main_v137 (V0 : Valuation τ sig (Elt F)) : val24 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val24_keep V0 main_v137 (by decide) (by decide)).trans (val23_main_v137 V0)
theorem val24_main_v162 (V0 : Valuation τ sig (Elt F)) : val24 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val24_keep V0 main_v162 (by decide) (by decide)).trans (val23_main_v162 V0)
theorem val24_main_v187 (V0 : Valuation τ sig (Elt F)) : val24 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val24_keep V0 main_v187 (by decide) (by decide)).trans (val23_main_v187 V0)
theorem val24_main_v212 (V0 : Valuation τ sig (Elt F)) : val24 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val24_keep V0 main_v212 (by decide) (by decide)).trans (val23_main_v212 V0)
theorem val24_main_v237 (V0 : Valuation τ sig (Elt F)) : val24 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val24_keep V0 main_v237 (by decide) (by decide)).trans (val23_main_v237 V0)
theorem val24_main_v262 (V0 : Valuation τ sig (Elt F)) : val24 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val24_keep V0 main_v262 (by decide) (by decide)).trans (val23_main_v262 V0)
theorem val24_main_v287 (V0 : Valuation τ sig (Elt F)) : val24 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val24_keep V0 main_v287 (by decide) (by decide)).trans (val23_main_v287 V0)
theorem val24_main_v312 (V0 : Valuation τ sig (Elt F)) : val24 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val24_keep V0 main_v312 (by decide) (by decide)).trans (val23_main_v312 V0)
theorem val24_main_v337 (V0 : Valuation τ sig (Elt F)) : val24 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val24_keep V0 main_v337 (by decide) (by decide)).trans (val23_main_v337 V0)
theorem val24_main_v362 (V0 : Valuation τ sig (Elt F)) : val24 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (val24_keep V0 main_v362 (by decide) (by decide)).trans (val23_main_v362 V0)
theorem val24_main_v387 (V0 : Valuation τ sig (Elt F)) : val24 V0 (no_index (Proc.devRef .tc main_v387)) = HostForms.lagH 8177 15 0x45FF8800#32 slices_S128x8192_S128x8177_0_0 slices_S128x8192_S128x8177_0_15 reducesTo_S128x8177_S128_d1 bcast_S128x1_S128x8177_0_1 (HostForms.seqnH (V0 (Proc.devRef .tc main_arg0))) :=
  (val24_keep V0 main_v387 (by decide) (by decide)).trans (val23_main_v387 V0)
theorem val24_main_v412 (V0 : Valuation τ sig (Elt F)) : val24 V0 (no_index (Proc.devRef .tc main_v412)) = HostForms.lagH 8176 16 0x45FF8000#32 slices_S128x8192_S128x8176_0_0 slices_S128x8192_S128x8176_0_16 reducesTo_S128x8176_S128_d1 bcast_S128x1_S128x8176_0_1 (HostForms.seqnH (V0 (Proc.devRef .tc main_arg0))) :=
  (val24_keep V0 main_v412 (by decide) (by decide)).trans (val23_main_v412 V0)
theorem val24_main_v437 (V0 : Valuation τ sig (Elt F)) : val24 V0 (no_index (Proc.devRef .tc main_v437)) = HostForms.lagH 8175 17 0x45FF7800#32 slices_S128x8192_S128x8175_0_0 slices_S128x8192_S128x8175_0_17 reducesTo_S128x8175_S128_d1 bcast_S128x1_S128x8175_0_1 (HostForms.seqnH (V0 (Proc.devRef .tc main_arg0))) :=
  (val24_keep V0 main_v437 (by decide) (by decide)).trans (val23_main_v437 V0)
theorem val24_main_v462 (V0 : Valuation τ sig (Elt F)) : val24 V0 (no_index (Proc.devRef .tc main_v462)) = HostForms.lagH 8174 18 0x45FF7000#32 slices_S128x8192_S128x8174_0_0 slices_S128x8192_S128x8174_0_18 reducesTo_S128x8174_S128_d1 bcast_S128x1_S128x8174_0_1 (HostForms.seqnH (V0 (Proc.devRef .tc main_arg0))) :=
  (val24_keep V0 main_v462 (by decide) (by decide)).trans (val23_main_v462 V0)
theorem val24_main_v487 (V0 : Valuation τ sig (Elt F)) : val24 V0 (no_index (Proc.devRef .tc main_v487)) = HostForms.lagH 8173 19 0x45FF6800#32 slices_S128x8192_S128x8173_0_0 slices_S128x8192_S128x8173_0_19 reducesTo_S128x8173_S128_d1 bcast_S128x1_S128x8173_0_1 (HostForms.seqnH (V0 (Proc.devRef .tc main_arg0))) :=
  (val24_keep V0 main_v487 (by decide) (by decide)).trans (val23_main_v487 V0)
theorem val24_main_v512 (V0 : Valuation τ sig (Elt F)) : val24 V0 (no_index (Proc.devRef .tc main_v512)) = HostForms.lagH 8172 20 0x45FF6000#32 slices_S128x8192_S128x8172_0_0 slices_S128x8192_S128x8172_0_20 reducesTo_S128x8172_S128_d1 bcast_S128x1_S128x8172_0_1 (HostForms.seqnH (V0 (Proc.devRef .tc main_arg0))) :=
  (val24_keep V0 main_v512 (by decide) (by decide)).trans (val23_main_v512 V0)
theorem val24_main_v537 (V0 : Valuation τ sig (Elt F)) : val24 V0 (no_index (Proc.devRef .tc main_v537)) = HostForms.lagH 8171 21 0x45FF5800#32 slices_S128x8192_S128x8171_0_0 slices_S128x8192_S128x8171_0_21 reducesTo_S128x8171_S128_d1 bcast_S128x1_S128x8171_0_1 (HostForms.seqnH (V0 (Proc.devRef .tc main_arg0))) :=
  (val24_keep V0 main_v537 (by decide) (by decide)).trans (val23_main_v537 V0)
theorem val24_main_v562 (V0 : Valuation τ sig (Elt F)) : val24 V0 (no_index (Proc.devRef .tc main_v562)) = HostForms.lagH 8170 22 0x45FF5000#32 slices_S128x8192_S128x8170_0_0 slices_S128x8192_S128x8170_0_22 reducesTo_S128x8170_S128_d1 bcast_S128x1_S128x8170_0_1 (HostForms.seqnH (V0 (Proc.devRef .tc main_arg0))) :=
  (val24_keep V0 main_v562 (by decide) (by decide)).trans (val23_main_v562 V0)
theorem val24_main_v587 (V0 : Valuation τ sig (Elt F)) : val24 V0 (no_index (Proc.devRef .tc main_v587)) = HostForms.lagH 8169 23 0x45FF4800#32 slices_S128x8192_S128x8169_0_0 slices_S128x8192_S128x8169_0_23 reducesTo_S128x8169_S128_d1 bcast_S128x1_S128x8169_0_1 (HostForms.seqnH (V0 (Proc.devRef .tc main_arg0))) :=
  (w23_out (val23 V0)).trans (by rw [val23_main_v12])

/-- The contents after the first 25 windows. -/
def val25 (V0 : Valuation τ sig (Elt F)) : Valuation τ sig (Elt F) := after pc37 ((val24 V0))
theorem val25_keep (V0 : Valuation τ sig (Elt F)) (r : Ref sig .tc) (h37 : r ∉ pc37_W) :
    val25 V0 (Proc.devRef .tc r) = val24 V0 (Proc.devRef .tc r) :=
  (after_of_writes_sub pc37 _ pc37_writes h37)
theorem val25_main_arg0 (V0 : Valuation τ sig (Elt F)) : val25 V0 (no_index (Proc.devRef .tc main_arg0)) = V0 (Proc.devRef .tc main_arg0) :=
  (val25_keep V0 main_arg0 (by decide)).trans (val24_main_arg0 V0)
theorem val25_main_arg1 (V0 : Valuation τ sig (Elt F)) : val25 V0 (no_index (Proc.devRef .tc main_arg1)) = V0 (Proc.devRef .tc main_arg1) :=
  (val25_keep V0 main_arg1 (by decide)).trans (val24_main_arg1 V0)
theorem val25_main_arg2 (V0 : Valuation τ sig (Elt F)) : val25 V0 (no_index (Proc.devRef .tc main_arg2)) = V0 (Proc.devRef .tc main_arg2) :=
  (val25_keep V0 main_arg2 (by decide)).trans (val24_main_arg2 V0)
theorem val25_main_arg3 (V0 : Valuation τ sig (Elt F)) : val25 V0 (no_index (Proc.devRef .tc main_arg3)) = V0 (Proc.devRef .tc main_arg3) :=
  (val25_keep V0 main_arg3 (by decide)).trans (val24_main_arg3 V0)
theorem val25_main_v12 (V0 : Valuation τ sig (Elt F)) : val25 V0 (no_index (Proc.devRef .tc main_v12)) = HostForms.seqnH (V0 (Proc.devRef .tc main_arg0)) :=
  (val25_keep V0 main_v12 (by decide)).trans (val24_main_v12 V0)
theorem val25_main_v37 (V0 : Valuation τ sig (Elt F)) : val25 V0 (no_index (Proc.devRef .tc main_v37)) = HostForms.lagH 8191 1 0x45FFF800#32 slices_S128x8192_S128x8191_0_0 slices_S128x8192_S128x8191_0_1 reducesTo_S128x8191_S128_d1 bcast_S128x1_S128x8191_0_1 (HostForms.seqnH (V0 (Proc.devRef .tc main_arg0))) :=
  (val25_keep V0 main_v37 (by decide)).trans (val24_main_v37 V0)
theorem val25_main_v62 (V0 : Valuation τ sig (Elt F)) : val25 V0 (no_index (Proc.devRef .tc main_v62)) = HostForms.lagH 8190 2 0x45FFF000#32 slices_S128x8192_S128x8190_0_0 slices_S128x8192_S128x8190_0_2 reducesTo_S128x8190_S128_d1 bcast_S128x1_S128x8190_0_1 (HostForms.seqnH (V0 (Proc.devRef .tc main_arg0))) :=
  (val25_keep V0 main_v62 (by decide)).trans (val24_main_v62 V0)
theorem val25_main_v87 (V0 : Valuation τ sig (Elt F)) : val25 V0 (no_index (Proc.devRef .tc main_v87)) = HostForms.lagH 8189 3 0x45FFE800#32 slices_S128x8192_S128x8189_0_0 slices_S128x8192_S128x8189_0_3 reducesTo_S128x8189_S128_d1 bcast_S128x1_S128x8189_0_1 (HostForms.seqnH (V0 (Proc.devRef .tc main_arg0))) :=
  (val25_keep V0 main_v87 (by decide)).trans (val24_main_v87 V0)
theorem val25_main_v112 (V0 : Valuation τ sig (Elt F)) : val25 V0 (no_index (Proc.devRef .tc main_v112)) = HostForms.lagH 8188 4 0x45FFE000#32 slices_S128x8192_S128x8188_0_0 slices_S128x8192_S128x8188_0_4 reducesTo_S128x8188_S128_d1 bcast_S128x1_S128x8188_0_1 (HostForms.seqnH (V0 (Proc.devRef .tc main_arg0))) :=
  (val25_keep V0 main_v112 (by decide)).trans (val24_main_v112 V0)
theorem val25_main_v137 (V0 : Valuation τ sig (Elt F)) : val25 V0 (no_index (Proc.devRef .tc main_v137)) = HostForms.lagH 8187 5 0x45FFD800#32 slices_S128x8192_S128x8187_0_0 slices_S128x8192_S128x8187_0_5 reducesTo_S128x8187_S128_d1 bcast_S128x1_S128x8187_0_1 (HostForms.seqnH (V0 (Proc.devRef .tc main_arg0))) :=
  (val25_keep V0 main_v137 (by decide)).trans (val24_main_v137 V0)
theorem val25_main_v162 (V0 : Valuation τ sig (Elt F)) : val25 V0 (no_index (Proc.devRef .tc main_v162)) = HostForms.lagH 8186 6 0x45FFD000#32 slices_S128x8192_S128x8186_0_0 slices_S128x8192_S128x8186_0_6 reducesTo_S128x8186_S128_d1 bcast_S128x1_S128x8186_0_1 (HostForms.seqnH (V0 (Proc.devRef .tc main_arg0))) :=
  (val25_keep V0 main_v162 (by decide)).trans (val24_main_v162 V0)
theorem val25_main_v187 (V0 : Valuation τ sig (Elt F)) : val25 V0 (no_index (Proc.devRef .tc main_v187)) = HostForms.lagH 8185 7 0x45FFC800#32 slices_S128x8192_S128x8185_0_0 slices_S128x8192_S128x8185_0_7 reducesTo_S128x8185_S128_d1 bcast_S128x1_S128x8185_0_1 (HostForms.seqnH (V0 (Proc.devRef .tc main_arg0))) :=
  (val25_keep V0 main_v187 (by decide)).trans (val24_main_v187 V0)
theorem val25_main_v212 (V0 : Valuation τ sig (Elt F)) : val25 V0 (no_index (Proc.devRef .tc main_v212)) = HostForms.lagH 8184 8 0x45FFC000#32 slices_S128x8192_S128x8184_0_0 slices_S128x8192_S128x8184_0_8 reducesTo_S128x8184_S128_d1 bcast_S128x1_S128x8184_0_1 (HostForms.seqnH (V0 (Proc.devRef .tc main_arg0))) :=
  (val25_keep V0 main_v212 (by decide)).trans (val24_main_v212 V0)
theorem val25_main_v237 (V0 : Valuation τ sig (Elt F)) : val25 V0 (no_index (Proc.devRef .tc main_v237)) = HostForms.lagH 8183 9 0x45FFB800#32 slices_S128x8192_S128x8183_0_0 slices_S128x8192_S128x8183_0_9 reducesTo_S128x8183_S128_d1 bcast_S128x1_S128x8183_0_1 (HostForms.seqnH (V0 (Proc.devRef .tc main_arg0))) :=
  (val25_keep V0 main_v237 (by decide)).trans (val24_main_v237 V0)
theorem val25_main_v262 (V0 : Valuation τ sig (Elt F)) : val25 V0 (no_index (Proc.devRef .tc main_v262)) = HostForms.lagH 8182 10 0x45FFB000#32 slices_S128x8192_S128x8182_0_0 slices_S128x8192_S128x8182_0_10 reducesTo_S128x8182_S128_d1 bcast_S128x1_S128x8182_0_1 (HostForms.seqnH (V0 (Proc.devRef .tc main_arg0))) :=
  (val25_keep V0 main_v262 (by decide)).trans (val24_main_v262 V0)
theorem val25_main_v287 (V0 : Valuation τ sig (Elt F)) : val25 V0 (no_index (Proc.devRef .tc main_v287)) = HostForms.lagH 8181 11 0x45FFA800#32 slices_S128x8192_S128x8181_0_0 slices_S128x8192_S128x8181_0_11 reducesTo_S128x8181_S128_d1 bcast_S128x1_S128x8181_0_1 (HostForms.seqnH (V0 (Proc.devRef .tc main_arg0))) :=
  (val25_keep V0 main_v287 (by decide)).trans (val24_main_v287 V0)
theorem val25_main_v312 (V0 : Valuation τ sig (Elt F)) : val25 V0 (no_index (Proc.devRef .tc main_v312)) = HostForms.lagH 8180 12 0x45FFA000#32 slices_S128x8192_S128x8180_0_0 slices_S128x8192_S128x8180_0_12 reducesTo_S128x8180_S128_d1 bcast_S128x1_S128x8180_0_1 (HostForms.seqnH (V0 (Proc.devRef .tc main_arg0))) :=
  (val25_keep V0 main_v312 (by decide)).trans (val24_main_v312 V0)
theorem val25_main_v337 (V0 : Valuation τ sig (Elt F)) : val25 V0 (no_index (Proc.devRef .tc main_v337)) = HostForms.lagH 8179 13 0x45FF9800#32 slices_S128x8192_S128x8179_0_0 slices_S128x8192_S128x8179_0_13 reducesTo_S128x8179_S128_d1 bcast_S128x1_S128x8179_0_1 (HostForms.seqnH (V0 (Proc.devRef .tc main_arg0))) :=
  (val25_keep V0 main_v337 (by decide)).trans (val24_main_v337 V0)
theorem val25_main_v362 (V0 : Valuation τ sig (Elt F)) : val25 V0 (no_index (Proc.devRef .tc main_v362)) = HostForms.lagH 8178 14 0x45FF9000#32 slices_S128x8192_S128x8178_0_0 slices_S128x8192_S128x8178_0_14 reducesTo_S128x8178_S128_d1 bcast_S128x1_S128x8178_0_1 (HostForms.seqnH (V0 (Proc.devRef .tc main_arg0))) :=
  (val25_keep V0 main_v362 (by decide)).trans (val24_main_v362 V0)
theorem val25_main_v387 (V0 : Valuation τ sig (Elt F)) : val25 V0 (no_index (Proc.devRef .tc main_v387)) = HostForms.lagH 8177 15 0x45FF8800#32 slices_S128x8192_S128x8177_0_0 slices_S128x8192_S128x8177_0_15 reducesTo_S128x8177_S128_d1 bcast_S128x1_S128x8177_0_1 (HostForms.seqnH (V0 (Proc.devRef .tc main_arg0))) :=
  (val25_keep V0 main_v387 (by decide)).trans (val24_main_v387 V0)
theorem val25_main_v412 (V0 : Valuation τ sig (Elt F)) : val25 V0 (no_index (Proc.devRef .tc main_v412)) = HostForms.lagH 8176 16 0x45FF8000#32 slices_S128x8192_S128x8176_0_0 slices_S128x8192_S128x8176_0_16 reducesTo_S128x8176_S128_d1 bcast_S128x1_S128x8176_0_1 (HostForms.seqnH (V0 (Proc.devRef .tc main_arg0))) :=
  (val25_keep V0 main_v412 (by decide)).trans (val24_main_v412 V0)
theorem val25_main_v437 (V0 : Valuation τ sig (Elt F)) : val25 V0 (no_index (Proc.devRef .tc main_v437)) = HostForms.lagH 8175 17 0x45FF7800#32 slices_S128x8192_S128x8175_0_0 slices_S128x8192_S128x8175_0_17 reducesTo_S128x8175_S128_d1 bcast_S128x1_S128x8175_0_1 (HostForms.seqnH (V0 (Proc.devRef .tc main_arg0))) :=
  (val25_keep V0 main_v437 (by decide)).trans (val24_main_v437 V0)
theorem val25_main_v462 (V0 : Valuation τ sig (Elt F)) : val25 V0 (no_index (Proc.devRef .tc main_v462)) = HostForms.lagH 8174 18 0x45FF7000#32 slices_S128x8192_S128x8174_0_0 slices_S128x8192_S128x8174_0_18 reducesTo_S128x8174_S128_d1 bcast_S128x1_S128x8174_0_1 (HostForms.seqnH (V0 (Proc.devRef .tc main_arg0))) :=
  (val25_keep V0 main_v462 (by decide)).trans (val24_main_v462 V0)
theorem val25_main_v487 (V0 : Valuation τ sig (Elt F)) : val25 V0 (no_index (Proc.devRef .tc main_v487)) = HostForms.lagH 8173 19 0x45FF6800#32 slices_S128x8192_S128x8173_0_0 slices_S128x8192_S128x8173_0_19 reducesTo_S128x8173_S128_d1 bcast_S128x1_S128x8173_0_1 (HostForms.seqnH (V0 (Proc.devRef .tc main_arg0))) :=
  (val25_keep V0 main_v487 (by decide)).trans (val24_main_v487 V0)
theorem val25_main_v512 (V0 : Valuation τ sig (Elt F)) : val25 V0 (no_index (Proc.devRef .tc main_v512)) = HostForms.lagH 8172 20 0x45FF6000#32 slices_S128x8192_S128x8172_0_0 slices_S128x8192_S128x8172_0_20 reducesTo_S128x8172_S128_d1 bcast_S128x1_S128x8172_0_1 (HostForms.seqnH (V0 (Proc.devRef .tc main_arg0))) :=
  (val25_keep V0 main_v512 (by decide)).trans (val24_main_v512 V0)
theorem val25_main_v537 (V0 : Valuation τ sig (Elt F)) : val25 V0 (no_index (Proc.devRef .tc main_v537)) = HostForms.lagH 8171 21 0x45FF5800#32 slices_S128x8192_S128x8171_0_0 slices_S128x8192_S128x8171_0_21 reducesTo_S128x8171_S128_d1 bcast_S128x1_S128x8171_0_1 (HostForms.seqnH (V0 (Proc.devRef .tc main_arg0))) :=
  (val25_keep V0 main_v537 (by decide)).trans (val24_main_v537 V0)
theorem val25_main_v562 (V0 : Valuation τ sig (Elt F)) : val25 V0 (no_index (Proc.devRef .tc main_v562)) = HostForms.lagH 8170 22 0x45FF5000#32 slices_S128x8192_S128x8170_0_0 slices_S128x8192_S128x8170_0_22 reducesTo_S128x8170_S128_d1 bcast_S128x1_S128x8170_0_1 (HostForms.seqnH (V0 (Proc.devRef .tc main_arg0))) :=
  (val25_keep V0 main_v562 (by decide)).trans (val24_main_v562 V0)
theorem val25_main_v587 (V0 : Valuation τ sig (Elt F)) : val25 V0 (no_index (Proc.devRef .tc main_v587)) = HostForms.lagH 8169 23 0x45FF4800#32 slices_S128x8192_S128x8169_0_0 slices_S128x8192_S128x8169_0_23 reducesTo_S128x8169_S128_d1 bcast_S128x1_S128x8169_0_1 (HostForms.seqnH (V0 (Proc.devRef .tc main_arg0))) :=
  (val25_keep V0 main_v587 (by decide)).trans (val24_main_v587 V0)
theorem val25_main_v612 (V0 : Valuation τ sig (Elt F)) : val25 V0 (no_index (Proc.devRef .tc main_v612)) = HostForms.lagH 8168 24 0x45FF4000#32 slices_S128x8192_S128x8168_0_0 slices_S128x8192_S128x8168_0_24 reducesTo_S128x8168_S128_d1 bcast_S128x1_S128x8168_0_1 (HostForms.seqnH (V0 (Proc.devRef .tc main_arg0))) :=
  (w24_out (val24 V0)).trans (by rw [val24_main_v12])

end Cert.ReferenceIdeal.HandRun

end
-- ==== Proof.RefRun.lean ====
import proofs.«130460_j34522947125965_1_alg».proof.Proof.RefOps
import proofs.«130460_j34522947125965_1_alg».proof.Proof.RefChain
import proofs.«130460_j34522947125965_1_alg».proof.Proof.RefWin0
import proofs.«130460_j34522947125965_1_alg».proof.Proof.HostForms
import Idealize.ShloMosaic.Lib.StableHlo.Run

set_option maxRecDepth 16384
set_option pp.maxSteps 5000
set_option pp.deepTerms false

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-! The reference's run read back: every weakly fair execution of @main terminates with the result buffer at
    `HostForms.refOut` of the arguments' launch contents and the arguments unchanged. The operations' fold over the
    launch contents is read window by window (the contents `val25` after the 24 lags, then the last window). -/

/-- The fold of a concatenation is the second list's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold of all the operations is the last window's fold over the contents after the 24 lags. -/
theorem after_ops (V0 : Valuation τ sig (Elt F)) :
    after ops V0 = after pc40 (after pc39 (after pc38 (val25 V0))) := by
  simp only [ops, after_app]
  rfl

/-- The result buffer after all the operations. -/
theorem out_eq (V0 : Valuation τ sig (Elt F)) :
    after ops V0 (Proc.devRef .tc main_v671) =
      HostForms.refOut (V0 (Proc.devRef .tc main_arg0)) (V0 (Proc.devRef .tc main_arg2)) (V0 (Proc.devRef .tc main_arg3)) := by
  rw [after_ops]
  refine (w25_out (val25 V0)).trans ?_
  simp only [val25_main_arg2, val25_main_arg3,
    val25_main_v37, val25_main_v62, val25_main_v87, val25_main_v112, val25_main_v137, val25_main_v162, val25_main_v187, val25_main_v212, val25_main_v237, val25_main_v262, val25_main_v287, val25_main_v312, val25_main_v337, val25_main_v362, val25_main_v387, val25_main_v412, val25_main_v437, val25_main_v462, val25_main_v487, val25_main_v512, val25_main_v537, val25_main_v562, val25_main_v587, val25_main_v612]
  rfl

/-- An argument's buffer after all the operations: no operation writes it. -/
theorem arg_eq (V0 : Valuation τ sig (Elt F)) (r : Ref sig .tc)
    (h : r ∉ pc38_W ∧ r ∉ pc39_W ∧ r ∉ pc40_W) (h25 : val25 V0 (Proc.devRef .tc r) = V0 (Proc.devRef .tc r)) :
    after ops V0 (Proc.devRef .tc r) = V0 (Proc.devRef .tc r) := by
  rw [after_ops]
  exact (((after_of_writes_sub pc40 _ pc40_writes h.2.2).trans (after_of_writes_sub pc39 _ pc39_writes h.2.1)).trans
    (after_of_writes_sub pc38 _ pc38_writes h.1)).trans h25

/-- On every device, from any memory with zero counters: every weakly fair execution of @main terminates with the
    result at `refOut` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v671) = HostForms.refOut (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v671).trans (out_eq (launchContents m c)),
      (h c main_arg0).trans (arg_eq _ main_arg0 (by decide) (val25_main_arg0 _)),
      (h c main_arg1).trans (arg_eq _ main_arg1 (by decide) (val25_main_arg1 _)),
      (h c main_arg2).trans (arg_eq _ main_arg2 (by decide) (val25_main_arg2 _)),
      (h c main_arg3).trans (arg_eq _ main_arg3 (by decide) (val25_main_arg3 _))⟩)
    (run_seq scopedRefs_eq scopedSems_eq defs main (fun _ => ops) main_eq (fun _ => ops_sub) m ρ (fun _ => ops_fresh))

end Cert.ReferenceIdeal.HandRun

end
-- ==== Proof.lean ====
/-
  The certificate of the per-row autocorrelation score: the kernel program against its array reference, at the
  ideal instance.

  Both programs take the first channel of a `[128, 8192, 8]` array as 128 rows, normalise each row (centre it at its
  mean, divide by its unbiased standard deviation plus a literal `ε`), take for each lag 1 … 24 the clipped Pearson
  correlation of the row's first `8192 - l` entries with its entries from `l` on, weight the 24 correlations by the
  softmax of a weight vector, add two of them once more with seasonal weights, and average the 128 rows' scores. The
  kernel does this for two blocks of 64 rows on a grid of two points and averages on the host; the reference does it
  for all rows at once. Every step is a function of one row, so entry `64 t + r` of the array the kernel's region
  writes is the reference's score of row `64 t + r`, and the two means are one quotient of one sum
  (`Cert.Bridge.meanScore`). No law of arithmetic beyond reordering finite sums is used: the two programs apply the
  same operations to the same numbers, so the precondition is never opened. The variance's count is the float
  `8191` in the kernel and `8192 - 1` computed in the reference: the same real.

  The frames of the two kernel programs are their generated frame certificates; the reference's frame is its run with
  the result dropped; the idealization rewrote nothing, so its statement is `True`.
-/
import proofs.«130460_j34522947125965_1_alg».proof.Defs
import proofs.«130460_j34522947125965_1_alg».proof.Proof.Gen.Kernel
import proofs.«130460_j34522947125965_1_alg».proof.Proof.Gen.Kernel.Frame
import proofs.«130460_j34522947125965_1_alg».proof.Proof.Gen.KernelIdeal
import proofs.«130460_j34522947125965_1_alg».proof.Proof.Gen.KernelIdeal.Frame
import proofs.«130460_j34522947125965_1_alg».proof.Proof.Gen.ReferenceIdeal
import proofs.«130460_j34522947125965_1_alg».proof.Proof.Gen.Pre_finite_inputs
import proofs.«130460_j34522947125965_1_alg».proof.Proof.Bridge
import proofs.«130460_j34522947125965_1_alg».proof.Proof.RefRun
import Idealize.ShloMosaic.Adequacy
import Idealize.ShloMosaic.Init

noncomputable section

namespace Cert.Proof

open Idealize.ShloMosaic Idealize.SL.Sem

/-- The word-level kernel program runs and keeps its arguments: its generated frame certificate. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.HandRun.run m ρ)

/-- Run from memories that agree on the arguments, both programs end with the mean of the 128 rows' scores. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandRun.run m' ρ')
  rw [(hagree c).1, (hagree c).2.2.1, (hagree c).2.2.2]
  exact (Cert.Bridge.refOut_eq _ _ _).trans (Cert.Bridge.kernelOut_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
